-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v175)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v175) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v219) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S512x64 : Shape := ⟨2, ![512, 64]⟩
abbrev S64x10 : Shape := ⟨2, ![64, 10]⟩
abbrev S512x1 : Shape := ⟨2, ![512, 1]⟩
abbrev S64x1 : Shape := ⟨2, ![64, 1]⟩
abbrev S1 : Shape := ⟨1, ![1]⟩
abbrev S1600000 : Shape := ⟨1, ![1600000]⟩
abbrev S1000000 : Shape := ⟨1, ![1000000]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x64 : S_.BroadcastsInDim S512x64 (![] : Fin 0 → Fin S512x64.rank)
  reducesTo_S512x64_S_d0_1 : S512x64.ReducesTo [0, 1] S_
  bcast_S_S64x10 : S_.BroadcastsInDim S64x10 (![] : Fin 0 → Fin S64x10.rank)
  reducesTo_S64x10_S_d0_1 : S64x10.ReducesTo [0, 1] S_
  bcast_S_S512x1 : S_.BroadcastsInDim S512x1 (![] : Fin 0 → Fin S512x1.rank)
  reducesTo_S512x1_S_d0_1 : S512x1.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg7 : FVec F S512x1 .f32) (main_arg8 : FVec F S64x1 .f32) (main_arg9 : FVec F S1 .f32) (main_arg10 : FVec F S1 .f32) (main_v33 : IVec S_ 1) : IVec S_ 1 :=
  let main_v34 : FVec F S512x1 .f32 := Host.absf main_arg7
  let main_cst_12 : FVec F S_ .f32 := constant S_ .f32 0x7F800000#32
  let main_v35 : FVec F S512x1 .f32 := broadcastInDim S512x1 ![] bcast_S_S512x1 main_cst_12
  let main_v36 : IVec S512x1 1 := cmpf .olt main_v34 main_v35
  let main_c_13 : IVec S_ 1 := constantI S_ 1 1#1
  let main_v37 : IVec S_ 1 := (fun x v => Host.reduce IntOp.andi x v reducesTo_S512x1_S_d0_1 h_S_) main_v36 main_c_13
  let main_v38 : IVec S_ 1 := andi main_v33 main_v37
  let main_v39 : FVec F S64x1 .f32 := Host.absf main_arg8
  let main_cst_14 : FVec F S_ .f32 := constant S_ .f32 0x7F800000#32
  let main_v40 : FVec F S64x1 .f32 := broadcastInDim S64x1 ![] bcast_S_S64x1 main_cst_14
  let main_v41 : IVec S64x1 1 := cmpf .olt main_v39 main_v40
  let main_c_15 : IVec S_ 1 := constantI S_ 1 1#1
  let main_v42 : IVec S_ 1 := (fun x v => Host.reduce IntOp.andi x v reducesTo_S64x1_S_d0_1 h_S_) main_v41 main_c_15
  let main_v43 : IVec S_ 1 := andi main_v38 main_v42
  let main_v44 : FVec F S1 .f32 := Host.absf main_arg9
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  let main_v49 : FVec F S1 .f32 := Host.absf main_arg10
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg4 : FVec F S64x1 .f32) (main_arg5 : FVec F S1 .f32) (main_arg6 : FVec F S1 .f32) (main_arg7 : FVec F S512x1 .f32) (main_arg8 : FVec F S64x1 .f32) (main_arg9 : FVec F S1 .f32) (main_arg10 : FVec F S1 .f32) (main_v13 : IVec S_ 1) (main_v16 : IVec S512x1 1) : IVec S_ 1 :=
  let main_c_5 : IVec S_ 1 := constantI S_ 1 1#1
  let main_v17 : IVec S_ 1 := (fun x v => Host.reduce IntOp.andi x v reducesTo_S512x1_S_d0_1 h_S_) main_v16 main_c_5
  let main_v18 : IVec S_ 1 := andi main_v13 main_v17
  let main_v19 : FVec F S64x1 .f32 := Host.absf main_arg4
  let main_cst_6 : FVec F S_ .f32 := constant S_ .f32 0x7F800000#32
  let main_v20 : FVec F S64x1 .f32 := broadcastInDim S64x1 ![] bcast_S_S64x1 main_cst_6
  let main_v21 : IVec S64x1 1 := cmpf .olt main_v19 main_v20
  let main_c_7 : IVec S_ 1 := constantI S_ 1 1#1
  let main_v22 : IVec S_ 1 := (fun x v => Host.reduce IntOp.andi x v reducesTo_S64x1_S_d0_1 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S100000x512 .f32) (main_arg1 : FVec F S512x64 .f32) (main_arg2 : FVec F S64x10 .f32) (main_arg3 : FVec F S512x1 .f32) (main_arg4 : FVec F S64x1 .f32) (main_arg5 : FVec F S1 .f32) (main_arg6 : FVec F S1 .f32) (main_arg7 : FVec F S512x1 .f32) (main_arg8 : FVec F S64x1 .f32) (main_arg9 : FVec F S1 .f32) (main_arg10 : FVec F S1 .f32) (main_arg11 : IVec S1600000 32) (main_arg12 : IVec S1600000 32) (main_arg13 : IVec S1000000 32) (main_arg14 : IVec S1000000 32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x64 .f32 := Host.absf main_arg1
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  let main_v9 : FVec F S64x10 .f32 := Host.absf main_arg2
  let main_cst_2 : FVec F S_ .f32 := constant S_ .f32 0x7F800000#32
  let main_v10 : FVec F S64x10 .f32 := broadcastInDim S64x10 ![] bcast_S_S64x10 main_cst_2
  let main_v11 : IVec S64x10 1 := cmpf .olt main_v9 main_v10
  let main_c_3 : IVec S_ 1 := constantI S_ 1 1#1
  let main_v12 : IVec S_ 1 := (fun x v => Host.reduce IntOp.andi x v reducesTo_S64x10_S_d0_1 h_S_) main_v11 main_c_3
  let main_v13 : IVec S_ 1 := andi main_v8 main_v12
  let main_v14 : FVec F S512x1 .f32 := Host.absf main_arg3
  let main_cst_4 : FVec F S_ .f32 := constant S_ .f32 0x7F800000#32
  let main_v15 : FVec F S512x1 .f32 := broadcastInDim S512x1 ![] bcast_S_S512x1 main_cst_4
  let main_v16 : IVec S512x1 1 := cmpf .olt main_v14 main_v15
  fn_part1 (F := F) main_arg4 main_arg5 main_arg6 main_arg7 main_arg8 main_arg9 main_arg10 main_v13 main_v16
-- ==== Kernel.lean ====
abbrev S100000x512 : Shape := ⟨2, ![100000, 512]⟩
abbrev S512x64 : Shape := ⟨2, ![512, 64]⟩
abbrev S64x10 : Shape := ⟨2, ![64, 10]⟩
abbrev S512x1 : Shape := ⟨2, ![512, 1]⟩
abbrev S64x1 : Shape := ⟨2, ![64, 1]⟩
abbrev S1 : Shape := ⟨1, ![1]⟩
abbrev S1600000 : Shape := ⟨1, ![1600000]⟩
abbrev S1000000 : Shape := ⟨1, ![1000000]⟩
abbrev S512x66 : Shape := ⟨2, ![512, 66]⟩
abbrev S1x1 : Shape := ⟨2, ![1, 1]⟩
abbrev S100000x64 : Shape := ⟨2, ![100000, 64]⟩
abbrev S100000x1 : Shape := ⟨2, ![100000, 1]⟩
abbrev S4000x512 : Shape := ⟨2, ![4000, 512]⟩
abbrev S4000x64 : Shape := ⟨2, ![4000, 64]⟩
abbrev S4000x1 : Shape := ⟨2, ![4000, 1]⟩
abbrev S4000x66 : Shape := ⟨2, ![4000, 66]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1000000x1 : Shape := ⟨2, ![1000000, 1]⟩
abbrev S1000000x64 : Shape := ⟨2, ![1000000, 64]⟩
abbrev S64x12 : Shape := ⟨2, ![64, 12]⟩
abbrev S100000x10 : Shape := ⟨2, ![100000, 10]⟩
abbrev S4000x10 : Shape := ⟨2, ![4000, 10]⟩
abbrev S4000x12 : Shape := ⟨2, ![4000, 12]⟩
abbrev S1700000x10 : Shape := ⟨2, ![1700000, 10]⟩
abbrev S1000000x10 : Shape := ⟨2, ![1000000, 10]⟩

abbrev nBuf : Space → Nat
  | .hbm => 267
  | .vmem => 46
  | .smem => 0
  | _ => 0

abbrev hbmTy0_0 (i : Nat) : BufTy := match i % 128 with
  | 0 => ⟨S100000x512, .f32⟩
  | 1 => ⟨S512x64, .f32⟩
  | 2 => ⟨S64x10, .f32⟩
  | 3 => ⟨S512x1, .f32⟩
  | 4 => ⟨S64x1, .f32⟩
  | 5 => ⟨S1, .f32⟩
  | 6 => ⟨S1, .f32⟩
  | 7 => ⟨S512x1, .f32⟩
  | 8 => ⟨S64x1, .f32⟩
  | 9 => ⟨S1, .f32⟩
  | 10 => ⟨S1, .f32⟩
  | 11 => ⟨S1600000, .i32⟩
  | 12 => ⟨S1600000, .i32⟩
  | 13 => ⟨S1000000, .i32⟩
  | 14 => ⟨S1000000, .i32⟩
  | 15 => ⟨S512x66, .f32⟩
  | 16 => ⟨S1x1, .f32⟩
  | 17 => ⟨S1x1, .f32⟩
  | 18 => ⟨S100000x64, .f32⟩
  | 19 => ⟨S100000x1, .f32⟩
  | 20 => ⟨S100000x1, .f32⟩
  | 21 => ⟨S100000, .i32⟩
  | 22 => ⟨S1700000, .i32⟩
  | 23 => ⟨S1700000, .i32⟩
  | 24 => ⟨S_, .f32⟩
  | 25 => ⟨S1700000, .f32⟩
  | 26 => ⟨S_, .f32⟩
  | 27 => ⟨S100000, .f32⟩
  | 28 => ⟨S1700000x1, .i32⟩
  | 29 => ⟨S100000, .f32⟩
  | 30 => ⟨S_, .f32⟩
  | 31 => ⟨S100000, .f32⟩
  | 32 => ⟨S1700000x1, .i32⟩
  | 33 => ⟨S100000, .f32⟩
  | 34 => ⟨S_, .f32⟩
  | 35 => ⟨S100000, .f32⟩
  | 36 => ⟨S100000, .i1⟩
  | 37 => ⟨S_, .f32⟩
  | 38 => ⟨S_, .f32⟩
  | 39 => ⟨S100000, .f32⟩
  | 40 => ⟨S100000, .f32⟩
  | 41 => ⟨S_, .f32⟩
  | 42 => ⟨S100000, .f32⟩
  | 43 => ⟨S100000, .f32⟩
  | 44 => ⟨S_, .f32⟩
  | 45 => ⟨S100000, .f32⟩
  | 46 => ⟨S100000, .i1⟩
  | 47 => ⟨S_, .f32⟩
  | 48 => ⟨S_, .f32⟩
  | 49 => ⟨S100000, .f32⟩
  | 50 => ⟨S100000, .f32⟩
  | 51 => ⟨S_, .f32⟩
  | 52 => ⟨S100000, .f32⟩
  | 53 => ⟨S100000, .f32⟩
  | 54 => ⟨S_, .i32⟩
  | 55 => ⟨S1700000, .i32⟩
  | 56 => ⟨S1700000, .i1⟩
  | 57 => ⟨S_, .i32⟩
  | 58 => ⟨S1700000, .i32⟩
  | 59 => ⟨S1700000, .i32⟩
  | 60 => ⟨S1700000, .i32⟩
  | 61 => ⟨S1700000x1, .i32⟩
  | 62 => ⟨S1700000x64, .f32⟩
  | 63 => ⟨S_, .i32⟩
  | 64 => ⟨S1700000, .i32⟩
  | 65 => ⟨S1700000, .i1⟩
  | 66 => ⟨S_, .i32⟩
  | 67 => ⟨S1700000, .i32⟩
  | 68 => ⟨S1700000, .i32⟩
  | 69 => ⟨S1700000, .i32⟩
  | 70 => ⟨S1700000x1, .i32⟩
  | 71 => ⟨S1700000, .f32⟩
  | 72 => ⟨S1700000x1, .f32⟩
  | 73 => ⟨S1700000x64, .f32⟩
  | 74 => ⟨S1700000x64, .f32⟩
  | 75 => ⟨S_, .f32⟩
  | 76 => ⟨S100000x64, .f32⟩
  | 77 => ⟨S1700000x1, .i32⟩
  | 78 => ⟨S100000x64, .f32⟩
  | 79 => ⟨S100000x1, .f32⟩
  | 80 => ⟨S100000x64, .f32⟩
  | 81 => ⟨S100000x64, .f32⟩
  | 82 => ⟨S_, .f32⟩
  | 83 => ⟨S1000000, .f32⟩
  | 84 => ⟨S_, .f32⟩
  | 85 => ⟨S100000, .f32⟩
  | 86 => ⟨S1000000x1, .i32⟩
  | 87 => ⟨S100000, .f32⟩
  | 88 => ⟨S_, .f32⟩
  | 89 => ⟨S100000, .f32⟩
  | 90 => ⟨S1000000x1, .i32⟩
  | 91 => ⟨S100000, .f32⟩
  | 92 => ⟨S_, .f32⟩
  | 93 => ⟨S100000, .f32⟩
  | 94 => ⟨S100000, .i1⟩
  | 95 => ⟨S_, .f32⟩
  | 96 => ⟨S_, .f32⟩
  | 97 => ⟨S100000, .f32⟩
  | 98 => ⟨S100000, .f32⟩
  | 99 => ⟨S_, .f32⟩
  | 100 => ⟨S100000, .f32⟩
  | 101 => ⟨S100000, .f32⟩
  | 102 => ⟨S_, .f32⟩
  | 103 => ⟨S100000, .f32⟩
  | 104 => ⟨S100000, .i1⟩
  | 105 => ⟨S_, .f32⟩
  | 106 => ⟨S_, .f32⟩
  | 107 => ⟨S100000, .f32⟩
  | 108 => ⟨S100000, .f32⟩
  | 109 => ⟨S_, .f32⟩
  | 110 => ⟨S100000, .f32⟩
  | 111 => ⟨S100000, .f32⟩
  | 112 => ⟨S_, .i32⟩
  | 113 => ⟨S1000000, .i32⟩
  | 114 => ⟨S1000000, .i1⟩
  | 115 => ⟨S_, .i32⟩
  | 116 => ⟨S1000000, .i32⟩
  | 117 => ⟨S1000000, .i32⟩
  | 118 => ⟨S1000000, .i32⟩
  | 119 => ⟨S1000000x1, .i32⟩
  | 120 => ⟨S1000000x64, .f32⟩
  | 121 => ⟨S_, .i32⟩
  | 122 => ⟨S1000000, .i32⟩
  | 123 => ⟨S1000000, .i1⟩
  | 124 => ⟨S_, .i32⟩
  | 125 => ⟨S1000000, .i32⟩
  | 126 => ⟨S1000000, .i32⟩
  | 127 => ⟨S1000000, .i32⟩
  | _ => ⟨S100000x512, .f32⟩

abbrev hbmTy0_1 (i : Nat) : BufTy := match i % 128 with
  | 0 => ⟨S1000000x1, .i32⟩
  | 1 => ⟨S1000000, .f32⟩
  | 2 => ⟨S1000000x1, .f32⟩
  | 3 => ⟨S1000000x64, .f32⟩
  | 4 => ⟨S1000000x64, .f32⟩
  | 5 => ⟨S_, .f32⟩
  | 6 => ⟨S100000x64, .f32⟩
  | 7 => ⟨S1000000x1, .i32⟩
  | 8 => ⟨S100000x64, .f32⟩
  | 9 => ⟨S100000x1, .f32⟩
  | 10 => ⟨S100000x64, .f32⟩
  | 11 => ⟨S100000x64, .f32⟩
  | 12 => ⟨S100000x64, .f32⟩
  | 13 => ⟨S64x12, .f32⟩
  | 14 => ⟨S1x1, .f32⟩
  | 15 => ⟨S1x1, .f32⟩
  | 16 => ⟨S100000x10, .f32⟩
  | 17 => ⟨S100000x1, .f32⟩
  | 18 => ⟨S100000x1, .f32⟩
  | 19 => ⟨S100000, .i32⟩
  | 20 => ⟨S1700000, .i32⟩
  | 21 => ⟨S1700000, .i32⟩
  | 22 => ⟨S_, .f32⟩
  | 23 => ⟨S1700000, .f32⟩
  | 24 => ⟨S_, .f32⟩
  | 25 => ⟨S100000, .f32⟩
  | 26 => ⟨S1700000x1, .i32⟩
  | 27 => ⟨S100000, .f32⟩
  | 28 => ⟨S_, .f32⟩
  | 29 => ⟨S100000, .f32⟩
  | 30 => ⟨S1700000x1, .i32⟩
  | 31 => ⟨S100000, .f32⟩
  | 32 => ⟨S_, .f32⟩
  | 33 => ⟨S100000, .f32⟩
  | 34 => ⟨S100000, .i1⟩
  | 35 => ⟨S_, .f32⟩
  | 36 => ⟨S_, .f32⟩
  | 37 => ⟨S100000, .f32⟩
  | 38 => ⟨S100000, .f32⟩
  | 39 => ⟨S_, .f32⟩
  | 40 => ⟨S100000, .f32⟩
  | 41 => ⟨S100000, .f32⟩
  | 42 => ⟨S_, .f32⟩
  | 43 => ⟨S100000, .f32⟩
  | 44 => ⟨S100000, .i1⟩
  | 45 => ⟨S_, .f32⟩
  | 46 => ⟨S_, .f32⟩
  | 47 => ⟨S100000, .f32⟩
  | 48 => ⟨S100000, .f32⟩
  | 49 => ⟨S_, .f32⟩
  | 50 => ⟨S100000, .f32⟩
  | 51 => ⟨S100000, .f32⟩
  | 52 => ⟨S_, .i32⟩
  | 53 => ⟨S1700000, .i32⟩
  | 54 => ⟨S1700000, .i1⟩
  | 55 => ⟨S_, .i32⟩
  | 56 => ⟨S1700000, .i32⟩
  | 57 => ⟨S1700000, .i32⟩
  | 58 => ⟨S1700000, .i32⟩
  | 59 => ⟨S1700000x1, .i32⟩
  | 60 => ⟨S1700000x10, .f32⟩
  | 61 => ⟨S_, .i32⟩
  | 62 => ⟨S1700000, .i32⟩
  | 63 => ⟨S1700000, .i1⟩
  | 64 => ⟨S_, .i32⟩
  | 65 => ⟨S1700000, .i32⟩
  | 66 => ⟨S1700000, .i32⟩
  | 67 => ⟨S1700000, .i32⟩
  | 68 => ⟨S1700000x1, .i32⟩
  | 69 => ⟨S1700000, .f32⟩
  | 70 => ⟨S1700000x1, .f32⟩
  | 71 => ⟨S1700000x10, .f32⟩
  | 72 => ⟨S1700000x10, .f32⟩
  | 73 => ⟨S_, .f32⟩
  | 74 => ⟨S100000x10, .f32⟩
  | 75 => ⟨S1700000x1, .i32⟩
  | 76 => ⟨S100000x10, .f32⟩
  | 77 => ⟨S100000x1, .f32⟩
  | 78 => ⟨S100000x10, .f32⟩
  | 79 => ⟨S100000x10, .f32⟩
  | 80 => ⟨S_, .f32⟩
  | 81 => ⟨S1000000, .f32⟩
  | 82 => ⟨S_, .f32⟩
  | 83 => ⟨S100000, .f32⟩
  | 84 => ⟨S1000000x1, .i32⟩
  | 85 => ⟨S100000, .f32⟩
  | 86 => ⟨S_, .f32⟩
  | 87 => ⟨S100000, .f32⟩
  | 88 => ⟨S1000000x1, .i32⟩
  | 89 => ⟨S100000, .f32⟩
  | 90 => ⟨S_, .f32⟩
  | 91 => ⟨S100000, .f32⟩
  | 92 => ⟨S100000, .i1⟩
  | 93 => ⟨S_, .f32⟩
  | 94 => ⟨S_, .f32⟩
  | 95 => ⟨S100000, .f32⟩
  | 96 => ⟨S100000, .f32⟩
  | 97 => ⟨S_, .f32⟩
  | 98 => ⟨S100000, .f32⟩
  | 99 => ⟨S100000, .f32⟩
  | 100 => ⟨S_, .f32⟩
  | 101 => ⟨S100000, .f32⟩
  | 102 => ⟨S100000, .i1⟩
  | 103 => ⟨S_, .f32⟩
  | 104 => ⟨S_, .f32⟩
  | 105 => ⟨S100000, .f32⟩
  | 106 => ⟨S100000, .f32⟩
  | 107 => ⟨S_, .f32⟩
  | 108 => ⟨S100000, .f32⟩
  | 109 => ⟨S100000, .f32⟩
  | 110 => ⟨S_, .i32⟩
  | 111 => ⟨S1000000, .i32⟩
  | 112 => ⟨S1000000, .i1⟩
  | 113 => ⟨S_, .i32⟩
  | 114 => ⟨S1000000, .i32⟩
  | 115 => ⟨S1000000, .i32⟩
  | 116 => ⟨S1000000, .i32⟩
  | 117 => ⟨S1000000x1, .i32⟩
  | 118 => ⟨S1000000x10, .f32⟩
  | 119 => ⟨S_, .i32⟩
  | 120 => ⟨S1000000, .i32⟩
  | 121 => ⟨S1000000, .i1⟩
  | 122 => ⟨S_, .i32⟩
  | 123 => ⟨S1000000, .i32⟩
  | 124 => ⟨S1000000, .i32⟩
  | 125 => ⟨S1000000, .i32⟩
  | 126 => ⟨S1000000x1, .i32⟩
  | 127 => ⟨S1000000, .f32⟩
  | _ => ⟨S100000x512, .f32⟩

abbrev hbmTy0_2 (i : Nat) : BufTy := match i % 128 with
  | 0 => ⟨S1000000x1, .f32⟩
  | 1 => ⟨S1000000x10, .f32⟩
  | 2 => ⟨S1000000x10, .f32⟩
  | 3 => ⟨S_, .f32⟩
  | 4 => ⟨S100000x10, .f32⟩
  | 5 => ⟨S1000000x1, .i32⟩
  | 6 => ⟨S100000x10, .f32⟩
  | 7 => ⟨S100000x1, .f32⟩
  | 8 => ⟨S100000x10, .f32⟩
  | 9 => ⟨S100000x10, .f32⟩
  | 10 => ⟨S100000x10, .f32⟩
  | _ => ⟨S100000x512, .f32⟩

abbrev hbmTy (i : Nat) : BufTy := match i / 128 with
  | 0 => hbmTy0_0 i
  | 1 => hbmTy0_1 i
  | 2 => hbmTy0_2 i
  | _ => ⟨S100000x512, .f32⟩

abbrev bufTy : (tb : Table) → Fin (tcTables nBuf tb) → BufTy
  | .hbm, ⟨i, _⟩ => hbmTy i
  | .local _ .vmem, ⟨0, _⟩ => ⟨S4000x512, .f32⟩
  | .local _ .vmem, ⟨1, _⟩ => ⟨S4000x512, .f32⟩
  | .local _ .vmem, ⟨2, _⟩ => ⟨S512x66, .f32⟩
  | .local _ .vmem, ⟨3, _⟩ => ⟨S1x1, .f32⟩
  | .local _ .vmem, ⟨4, _⟩ => ⟨S1x1, .f32⟩
  | .local _ .vmem, ⟨5, _⟩ => ⟨S4000x64, .f32⟩
  | .local _ .vmem, ⟨6, _⟩ => ⟨S4000x64, .f32⟩
  | .local _ .vmem, ⟨7, _⟩ => ⟨S4000x1, .f32⟩
  | .local _ .vmem, ⟨8, _⟩ => ⟨S4000x1, .f32⟩
  | .local _ .vmem, ⟨9, _⟩ => ⟨S4000x1, .f32⟩
  | .local _ .vmem, ⟨10, _⟩ => ⟨S4000x1, .f32⟩
  | .local _ .vmem, ⟨11, _⟩ => ⟨S4000x1, .f32⟩
  | .local _ .vmem, ⟨12, _⟩ => ⟨S4000x1, .f32⟩
  | .local _ .vmem, ⟨13, _⟩ => ⟨S4000x64, .f32⟩
  | .local _ .vmem, ⟨14, _⟩ => ⟨S4000x64, .f32⟩
  | .local _ .vmem, ⟨15, _⟩ => ⟨S4000x64, .f32⟩
  | .local _ .vmem, ⟨16, _⟩ => ⟨S4000x64, .f32⟩
  | .local _ .vmem, ⟨17, _⟩ => ⟨S4000x1, .f32⟩
  | .local _ .vmem, ⟨18, _⟩ => ⟨S4000x1, .f32⟩
  | .local _ .vmem, ⟨19, _⟩ => ⟨S4000x64, .f32⟩
  | .local _ .vmem, ⟨20, _⟩ => ⟨S4000x64, .f32⟩
  | .local _ .vmem, ⟨21, _⟩ => ⟨S4000x64, .f32⟩
  | .local _ .vmem, ⟨22, _⟩ => ⟨S4000x64, .f32⟩
  | .local _ .vmem, ⟨23, _⟩ => ⟨S4000x64, .f32⟩
  | .local _ .vmem, ⟨24, _⟩ => ⟨S4000x64, .f32⟩
  | .local _ .vmem, ⟨25, _⟩ => ⟨S64x12, .f32⟩
  | .local _ .vmem, ⟨26, _⟩ => ⟨S1x1, .f32⟩
  | .local _ .vmem, ⟨27, _⟩ => ⟨S1x1, .f32⟩
  | .local _ .vmem, ⟨28, _⟩ => ⟨S4000x10, .f32⟩
  | .local _ .vmem, ⟨29, _⟩ => ⟨S4000x10, .f32⟩
  | .local _ .vmem, ⟨30, _⟩ => ⟨S4000x1, .f32⟩
  | .local _ .vmem, ⟨31, _⟩ => ⟨S4000x1, .f32⟩
  | .local _ .vmem, ⟨32, _⟩ => ⟨S4000x1, .f32⟩
  | .local _ .vmem, ⟨33, _⟩ => ⟨S4000x1, .f32⟩
  | .local _ .vmem, ⟨34, _⟩ => ⟨S4000x1, .f32⟩
  | .local _ .vmem, ⟨35, _⟩ => ⟨S4000x1, .f32⟩
  | .local _ .vmem, ⟨36, _⟩ => ⟨S4000x10, .f32⟩
  | .local _ .vmem, ⟨37, _⟩ => ⟨S4000x10, .f32⟩
  | .local _ .vmem, ⟨38, _⟩ => ⟨S4000x10, .f32⟩
  | .local _ .vmem, ⟨39, _⟩ => ⟨S4000x10, .f32⟩
  | .local _ .vmem, ⟨40, _⟩ => ⟨S4000x1, .f32⟩
  | .local _ .vmem, ⟨41, _⟩ => ⟨S4000x1, .f32⟩
  | .local _ .vmem, ⟨42, _⟩ => ⟨S4000x10, .f32⟩
  | .local _ .vmem, ⟨43, _⟩ => ⟨S4000x10, .f32⟩
  | .local _ .vmem, ⟨44, _⟩ => ⟨S4000x10, .f32⟩
  | .local _ .vmem, ⟨45, _⟩ => ⟨S4000x10, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3_0 : Ref sig .tc := ⟨.hbm, 18, rfl⟩
abbrev main_v3_1 : Ref sig .tc := ⟨.hbm, 19, rfl⟩
abbrev main_v3_2 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_cst_0 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst_1 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst_2 : Ref sig .tc := ⟨.hbm, 34, rfl⟩
abbrev main_v14 : Ref sig .tc := ⟨.hbm, 35, rfl⟩
abbrev main_v15 : Ref sig .tc := ⟨.hbm, 36, rfl⟩
abbrev main_cst_3 : Ref sig .tc := ⟨.hbm, 37, rfl⟩
abbrev main_call0_v0 : Ref sig .tc := ⟨.hbm, 38, rfl⟩
abbrev main_call0_v1 : Ref sig .tc := ⟨.hbm, 39, rfl⟩
abbrev main_v16 : Ref sig .tc := ⟨.hbm, 40, rfl⟩
abbrev main_cst_4 : Ref sig .tc := ⟨.hbm, 41, rfl⟩
abbrev main_v17 : Ref sig .tc := ⟨.hbm, 42, rfl⟩
abbrev main_v18 : Ref sig .tc := ⟨.hbm, 43, rfl⟩
abbrev main_cst_5 : Ref sig .tc := ⟨.hbm, 44, rfl⟩
abbrev main_v19 : Ref sig .tc := ⟨.hbm, 45, rfl⟩
abbrev main_v20 : Ref sig .tc := ⟨.hbm, 46, rfl⟩
abbrev main_cst_6 : Ref sig .tc := ⟨.hbm, 47, rfl⟩
abbrev main_call1_v0 : Ref sig .tc := ⟨.hbm, 48, rfl⟩
abbrev main_call1_v1 : Ref sig .tc := ⟨.hbm, 49, rfl⟩
abbrev main_v21 : Ref sig .tc := ⟨.hbm, 50, rfl⟩
abbrev main_cst_7 : Ref sig .tc := ⟨.hbm, 51, rfl⟩
abbrev main_v22 : Ref sig .tc := ⟨.hbm, 52, rfl⟩
abbrev main_v23 : Ref sig .tc := ⟨.hbm, 53, rfl⟩
abbrev main_c : Ref sig .tc := ⟨.hbm, 54, rfl⟩
abbrev main_v24 : Ref sig .tc := ⟨.hbm, 55, rfl⟩
abbrev main_v25 : Ref sig .tc := ⟨.hbm, 56, rfl⟩
abbrev main_c_8 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_c_9 : Ref sig .tc := ⟨.hbm, 63, rfl⟩
abbrev main_v31 : Ref sig .tc := ⟨.hbm, 64, rfl⟩
abbrev main_v32 : Ref sig .tc := ⟨.hbm, 65, rfl⟩
abbrev main_c_10 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_cst_11 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_cst_12 : Ref sig .tc := ⟨.hbm, 82, rfl⟩
abbrev main_v47 : Ref sig .tc := ⟨.hbm, 83, rfl⟩
abbrev main_cst_13 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_cst_14 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_cst_15 : Ref sig .tc := ⟨.hbm, 92, rfl⟩
abbrev main_v54 : Ref sig .tc := ⟨.hbm, 93, rfl⟩
abbrev main_v55 : Ref sig .tc := ⟨.hbm, 94, rfl⟩
abbrev main_cst_16 : Ref sig .tc := ⟨.hbm, 95, rfl⟩
abbrev main_call2_v0 : Ref sig .tc := ⟨.hbm, 96, rfl⟩
abbrev main_call2_v1 : Ref sig .tc := ⟨.hbm, 97, rfl⟩
abbrev main_v56 : Ref sig .tc := ⟨.hbm, 98, rfl⟩
abbrev main_cst_17 : Ref sig .tc := ⟨.hbm, 99, rfl⟩
abbrev main_v57 : Ref sig .tc := ⟨.hbm, 100, rfl⟩
abbrev main_v58 : Ref sig .tc := ⟨.hbm, 101, rfl⟩
abbrev main_cst_18 : Ref sig .tc := ⟨.hbm, 102, rfl⟩
abbrev main_v59 : Ref sig .tc := ⟨.hbm, 103, rfl⟩
abbrev main_v60 : Ref sig .tc := ⟨.hbm, 104, rfl⟩
abbrev main_cst_19 : Ref sig .tc := ⟨.hbm, 105, rfl⟩
abbrev main_call3_v0 : Ref sig .tc := ⟨.hbm, 106, rfl⟩
abbrev main_call3_v1 : Ref sig .tc := ⟨.hbm, 107, rfl⟩
abbrev main_v61 : Ref sig .tc := ⟨.hbm, 108, rfl⟩
abbrev main_cst_20 : Ref sig .tc := ⟨.hbm, 109, rfl⟩
abbrev main_v62 : Ref sig .tc := ⟨.hbm, 110, rfl⟩
abbrev main_v63 : Ref sig .tc := ⟨.hbm, 111, rfl⟩
abbrev main_c_21 : Ref sig .tc := ⟨.hbm, 112, rfl⟩
abbrev main_v64 : Ref sig .tc := ⟨.hbm, 113, rfl⟩
abbrev main_v65 : Ref sig .tc := ⟨.hbm, 114, rfl⟩
abbrev main_c_22 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_c_23 : Ref sig .tc := ⟨.hbm, 121, rfl⟩
abbrev main_v71 : Ref sig .tc := ⟨.hbm, 122, rfl⟩
abbrev main_v72 : Ref sig .tc := ⟨.hbm, 123, rfl⟩
abbrev main_c_24 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_cst_25 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_v91_0 : Ref sig .tc := ⟨.hbm, 144, rfl⟩
abbrev main_v91_1 : Ref sig .tc := ⟨.hbm, 145, rfl⟩
abbrev main_v91_2 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_cst_26 : Ref sig .tc := ⟨.hbm, 150, rfl⟩
abbrev main_v95 : Ref sig .tc := ⟨.hbm, 151, rfl⟩
abbrev main_cst_27 : Ref sig .tc := ⟨.hbm, 152, rfl⟩
abbrev main_v96 : Ref sig .tc := ⟨.hbm, 153, rfl⟩
abbrev main_v97 : Ref sig .tc := ⟨.hbm, 154, rfl⟩
abbrev main_v98 : Ref sig .tc := ⟨.hbm, 155, rfl⟩
abbrev main_cst_28 : Ref sig .tc := ⟨.hbm, 156, rfl⟩
abbrev main_v99 : Ref sig .tc := ⟨.hbm, 157, rfl⟩
abbrev main_v100 : Ref sig .tc := ⟨.hbm, 158, rfl⟩
abbrev main_v101 : Ref sig .tc := ⟨.hbm, 159, rfl⟩
abbrev main_cst_29 : Ref sig .tc := ⟨.hbm, 160, rfl⟩
abbrev main_v102 : Ref sig .tc := ⟨.hbm, 161, rfl⟩
abbrev main_v103 : Ref sig .tc := ⟨.hbm, 162, rfl⟩
abbrev main_cst_30 : Ref sig .tc := ⟨.hbm, 163, rfl⟩
abbrev main_call4_v0 : Ref sig .tc := ⟨.hbm, 164, rfl⟩
abbrev main_call4_v1 : Ref sig .tc := ⟨.hbm, 165, rfl⟩
abbrev main_v104 : Ref sig .tc := ⟨.hbm, 166, rfl⟩
abbrev main_cst_31 : Ref sig .tc := ⟨.hbm, 167, rfl⟩
abbrev main_v105 : Ref sig .tc := ⟨.hbm, 168, rfl⟩
abbrev main_v106 : Ref sig .tc := ⟨.hbm, 169, rfl⟩
abbrev main_cst_32 : Ref sig .tc := ⟨.hbm, 170, rfl⟩
abbrev main_v107 : Ref sig .tc := ⟨.hbm, 171, rfl⟩
abbrev main_v108 : Ref sig .tc := ⟨.hbm, 172, rfl⟩
abbrev main_cst_33 : Ref sig .tc := ⟨.hbm, 173, rfl⟩
abbrev main_call5_v0 : Ref sig .tc := ⟨.hbm, 174, rfl⟩
abbrev main_call5_v1 : Ref sig .tc := ⟨.hbm, 175, rfl⟩
abbrev main_v109 : Ref sig .tc := ⟨.hbm, 176, rfl⟩
abbrev main_cst_34 : Ref sig .tc := ⟨.hbm, 177, rfl⟩
abbrev main_v110 : Ref sig .tc := ⟨.hbm, 178, rfl⟩
abbrev main_v111 : Ref sig .tc := ⟨.hbm, 179, rfl⟩
abbrev main_c_35 : Ref sig .tc := ⟨.hbm, 180, rfl⟩
abbrev main_v112 : Ref sig .tc := ⟨.hbm, 181, rfl⟩
abbrev main_v113 : Ref sig .tc := ⟨.hbm, 182, rfl⟩
abbrev main_c_36 : Ref sig .tc := ⟨.hbm, 183, rfl⟩
abbrev main_v114 : Ref sig .tc := ⟨.hbm, 184, rfl⟩
abbrev main_v115 : Ref sig .tc := ⟨.hbm, 185, rfl⟩
abbrev main_v116 : Ref sig .tc := ⟨.hbm, 186, rfl⟩
abbrev main_v117 : Ref sig .tc := ⟨.hbm, 187, rfl⟩
abbrev main_v118 : Ref sig .tc := ⟨.hbm, 188, rfl⟩
abbrev main_c_37 : Ref sig .tc := ⟨.hbm, 189, rfl⟩
abbrev main_v119 : Ref sig .tc := ⟨.hbm, 190, rfl⟩
abbrev main_v120 : Ref sig .tc := ⟨.hbm, 191, rfl⟩
abbrev main_c_38 : Ref sig .tc := ⟨.hbm, 192, rfl⟩
abbrev main_v121 : Ref sig .tc := ⟨.hbm, 193, rfl⟩
abbrev main_v122 : Ref sig .tc := ⟨.hbm, 194, rfl⟩
abbrev main_v123 : Ref sig .tc := ⟨.hbm, 195, rfl⟩
abbrev main_v124 : Ref sig .tc := ⟨.hbm, 196, rfl⟩
abbrev main_v125 : Ref sig .tc := ⟨.hbm, 197, rfl⟩
abbrev main_v126 : Ref sig .tc := ⟨.hbm, 198, rfl⟩
abbrev main_v127 : Ref sig .tc := ⟨.hbm, 199, rfl⟩
abbrev main_v128 : Ref sig .tc := ⟨.hbm, 200, rfl⟩
abbrev main_cst_39 : Ref sig .tc := ⟨.hbm, 201, rfl⟩
abbrev main_v129 : Ref sig .tc := ⟨.hbm, 202, rfl⟩
abbrev main_v130 : Ref sig .tc := ⟨.hbm, 203, rfl⟩
abbrev main_v131 : Ref sig .tc := ⟨.hbm, 204, rfl⟩
abbrev main_v132 : Ref sig .tc := ⟨.hbm, 205, rfl⟩
abbrev main_v133 : Ref sig .tc := ⟨.hbm, 206, rfl⟩
abbrev main_v134 : Ref sig .tc := ⟨.hbm, 207, rfl⟩
abbrev main_cst_40 : Ref sig .tc := ⟨.hbm, 208, rfl⟩
abbrev main_v135 : Ref sig .tc := ⟨.hbm, 209, rfl⟩
abbrev main_cst_41 : Ref sig .tc := ⟨.hbm, 210, rfl⟩
abbrev main_v136 : Ref sig .tc := ⟨.hbm, 211, rfl⟩
abbrev main_v137 : Ref sig .tc := ⟨.hbm, 212, rfl⟩
abbrev main_v138 : Ref sig .tc := ⟨.hbm, 213, rfl⟩
abbrev main_cst_42 : Ref sig .tc := ⟨.hbm, 214, rfl⟩
abbrev main_v139 : Ref sig .tc := ⟨.hbm, 215, rfl⟩
abbrev main_v140 : Ref sig .tc := ⟨.hbm, 216, rfl⟩
abbrev main_v141 : Ref sig .tc := ⟨.hbm, 217, rfl⟩
abbrev main_cst_43 : Ref sig .tc := ⟨.hbm, 218, rfl⟩
abbrev main_v142 : Ref sig .tc := ⟨.hbm, 219, rfl⟩
abbrev main_v143 : Ref sig .tc := ⟨.hbm, 220, rfl⟩
abbrev main_cst_44 : Ref sig .tc := ⟨.hbm, 221, rfl⟩
abbrev main_call6_v0 : Ref sig .tc := ⟨.hbm, 222, rfl⟩
abbrev main_call6_v1 : Ref sig .tc := ⟨.hbm, 223, rfl⟩
abbrev main_v144 : Ref sig .tc := ⟨.hbm, 224, rfl⟩
abbrev main_cst_45 : Ref sig .tc := ⟨.hbm, 225, rfl⟩
abbrev main_v145 : Ref sig .tc := ⟨.hbm, 226, rfl⟩
abbrev main_v146 : Ref sig .tc := ⟨.hbm, 227, rfl⟩
abbrev main_cst_46 : Ref sig .tc := ⟨.hbm, 228, rfl⟩
abbrev main_v147 : Ref sig .tc := ⟨.hbm, 229, rfl⟩
abbrev main_v148 : Ref sig .tc := ⟨.hbm, 230, rfl⟩
abbrev main_cst_47 : Ref sig .tc := ⟨.hbm, 231, rfl⟩
abbrev main_call7_v0 : Ref sig .tc := ⟨.hbm, 232, rfl⟩
abbrev main_call7_v1 : Ref sig .tc := ⟨.hbm, 233, rfl⟩
abbrev main_v149 : Ref sig .tc := ⟨.hbm, 234, rfl⟩
abbrev main_cst_48 : Ref sig .tc := ⟨.hbm, 235, rfl⟩
abbrev main_v150 : Ref sig .tc := ⟨.hbm, 236, rfl⟩
abbrev main_v151 : Ref sig .tc := ⟨.hbm, 237, rfl⟩
abbrev main_c_49 : Ref sig .tc := ⟨.hbm, 238, rfl⟩
abbrev main_v152 : Ref sig .tc := ⟨.hbm, 239, rfl⟩
abbrev main_v153 : Ref sig .tc := ⟨.hbm, 240, rfl⟩
abbrev main_c_50 : Ref sig .tc := ⟨.hbm, 241, rfl⟩
abbrev main_v154 : Ref sig .tc := ⟨.hbm, 242, rfl⟩
abbrev main_v155 : Ref sig .tc := ⟨.hbm, 243, rfl⟩
abbrev main_v156 : Ref sig .tc := ⟨.hbm, 244, rfl⟩
abbrev main_v157 : Ref sig .tc := ⟨.hbm, 245, rfl⟩
abbrev main_v158 : Ref sig .tc := ⟨.hbm, 246, rfl⟩
abbrev main_c_51 : Ref sig .tc := ⟨.hbm, 247, rfl⟩
abbrev main_v159 : Ref sig .tc := ⟨.hbm, 248, rfl⟩
abbrev main_v160 : Ref sig .tc := ⟨.hbm, 249, rfl⟩
abbrev main_c_52 : Ref sig .tc := ⟨.hbm, 250, rfl⟩
abbrev main_v161 : Ref sig .tc := ⟨.hbm, 251, rfl⟩
abbrev main_v162 : Ref sig .tc := ⟨.hbm, 252, rfl⟩
abbrev main_v163 : Ref sig .tc := ⟨.hbm, 253, rfl⟩
abbrev main_v164 : Ref sig .tc := ⟨.hbm, 254, rfl⟩
abbrev main_v165 : Ref sig .tc := ⟨.hbm, 255, rfl⟩
abbrev main_v166 : Ref sig .tc := ⟨.hbm, 256, rfl⟩
abbrev main_v167 : Ref sig .tc := ⟨.hbm, 257, rfl⟩
abbrev main_v168 : Ref sig .tc := ⟨.hbm, 258, rfl⟩
abbrev main_cst_53 : Ref sig .tc := ⟨.hbm, 259, rfl⟩
abbrev main_v169 : Ref sig .tc := ⟨.hbm, 260, rfl⟩
abbrev main_v170 : Ref sig .tc := ⟨.hbm, 261, rfl⟩
abbrev main_v171 : Ref sig .tc := ⟨.hbm, 262, rfl⟩
abbrev main_v172 : Ref sig .tc := ⟨.hbm, 263, rfl⟩
abbrev main_v173 : Ref sig .tc := ⟨.hbm, 264, rfl⟩
abbrev main_v174 : Ref sig .tc := ⟨.hbm, 265, rfl⟩
abbrev main_v175 : Ref sig .tc := ⟨.hbm, 266, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc1_stg5_0 : Ref sig .tc := ⟨.vmem, 21, rfl⟩
abbrev cc1_stg5_1 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg4_1 : Ref sig .tc := ⟨.vmem, 29, rfl⟩
abbrev cc2_stg5_0 : Ref sig .tc := ⟨.vmem, 30, rfl⟩
abbrev cc2_stg5_1 : Ref sig .tc := ⟨.vmem, 31, rfl⟩
abbrev cc2_stg6_0 : Ref sig .tc := ⟨.vmem, 32, rfl⟩
abbrev cc2_stg6_1 : Ref sig .tc := ⟨.vmem, 33, rfl⟩
abbrev cc3_stg0_0 : Ref sig .tc := ⟨.vmem, 34, rfl⟩
abbrev cc3_stg0_1 : Ref sig .tc := ⟨.vmem, 35, rfl⟩
abbrev cc3_stg1_0 : Ref sig .tc := ⟨.vmem, 36, rfl⟩
abbrev cc3_stg1_1 : Ref sig .tc := ⟨.vmem, 37, rfl⟩
abbrev cc3_stg2_0 : Ref sig .tc := ⟨.vmem, 38, rfl⟩
abbrev cc3_stg2_1 : Ref sig .tc := ⟨.vmem, 39, rfl⟩
abbrev cc3_stg3_0 : Ref sig .tc := ⟨.vmem, 40, rfl⟩
abbrev cc3_stg3_1 : Ref sig .tc := ⟨.vmem, 41, rfl⟩
abbrev cc3_stg4_0 : Ref sig .tc := ⟨.vmem, 42, rfl⟩
abbrev cc3_stg4_1 : Ref sig .tc := ⟨.vmem, 43, rfl⟩
abbrev cc3_stg5_0 : Ref sig .tc := ⟨.vmem, 44, rfl⟩
abbrev cc3_stg5_1 : Ref sig .tc := ⟨.vmem, 45, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18
abbrev cc1_sem4_0 : DmaSem sig := 19
abbrev cc1_sem4_1 : DmaSem sig := 20
abbrev cc1_sem5_0 : DmaSem sig := 21
abbrev cc1_sem5_1 : DmaSem sig := 22
abbrev cc2_sem0_0 : DmaSem sig := 23
abbrev cc2_sem0_1 : DmaSem sig := 24
abbrev cc2_sem1_0 : DmaSem sig := 25
abbrev cc2_sem2_0 : DmaSem sig := 26
abbrev cc2_sem3_0 : DmaSem sig := 27
abbrev cc2_sem4_0 : DmaSem sig := 28
abbrev cc2_sem4_1 : DmaSem sig := 29
abbrev cc2_sem5_0 : DmaSem sig := 30
abbrev cc2_sem5_1 : DmaSem sig := 31
abbrev cc2_sem6_0 : DmaSem sig := 32
abbrev cc2_sem6_1 : DmaSem sig := 33
abbrev cc3_sem0_0 : DmaSem sig := 34
abbrev cc3_sem0_1 : DmaSem sig := 35
abbrev cc3_sem1_0 : DmaSem sig := 36
abbrev cc3_sem1_1 : DmaSem sig := 37
abbrev cc3_sem2_0 : DmaSem sig := 38
abbrev cc3_sem2_1 : DmaSem sig := 39
abbrev cc3_sem3_0 : DmaSem sig := 40
abbrev cc3_sem3_1 : DmaSem sig := 41
abbrev cc3_sem4_0 : DmaSem sig := 42
abbrev cc3_sem4_1 : DmaSem sig := 43
abbrev cc3_sem5_0 : DmaSem sig := 44
abbrev cc3_sem5_1 : DmaSem sig := 45

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x66 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4000x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4000x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S4000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S4000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x12 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S4000x10 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S4000x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S4000x1 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x1 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x10 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4000x10 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S4000x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S4000x10 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S4000x10 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  concatenates_S512x64_S512x1_S512x1_S512x66_d1 : Shape.Concatenates [S512x64, S512x1, S512x1] S512x66 1
  shapeCasts_S1_S1x1 : S1.ShapeCasts S1x1
  inb_S4000x512_S4000x512_0_0 : ∀ a, (![0, 0] : Fin 2 → Nat) a + S4000x512.size a ≤ S4000x512.size a
  h_S4000x512 : 0 < S4000x512.numel
  bitsLt_bf16_f32 : FTy.bits .bf16 < FTy.bits .f32
  inb_S512x66_S512x66_0_0 : ∀ a, (![0, 0] : Fin 2 → Nat) a + S512x66.size a ≤ S512x66.size a
  h_S512x66 : 0 < S512x66.numel
  shapeCasts_S512x66_S512x66 : S512x66.ShapeCasts S512x66
  slices_S4000x66_o0_0_S4000x64 : S4000x66.Slices ![0, 0] S4000x64
  inb_S4000x64_S4000x64_0_0 : ∀ a, (![0, 0] : Fin 2 → Nat) a + S4000x64.size a ≤ S4000x64.size a
  h_S4000x64 : 0 < S4000x64.numel
  slices_S4000x66_o0_64_S4000x1 : S4000x66.Slices ![0, 64] S4000x1
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  slices_S4000x66_o0_65_S4000x1 : S4000x66.Slices ![0, 65] S4000x1
  inb_S4000x1_S4000x1_0_0 : ∀ a, (![0, 0] : Fin 2 → Nat) a + S4000x1.size a ≤ S4000x1.size a
  h_S4000x1 : 0 < S4000x1.numel
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S1000000x1_S1000000x64_0_1 : S1000000x1.BroadcastsInDim S1000000x64 (![0, 1] : Fin 2 → Fin S1000000x64.rank)
  shapeCasts_S4000x1_S4000x1 : S4000x1.ShapeCasts S4000x1
  shapeCasts_S4000x64_S4000x64 : S4000x64.ShapeCasts S4000x64
  broadcasts_S4000x1_S4000x64 : S4000x1.Broadcasts S4000x64
  concatenates_S64x10_S64x1_S64x1_S64x12_d1 : Shape.Concatenates [S64x10, S64x1, S64x1] S64x12 1
  inb_S64x12_S64x12_0_0 : ∀ a, (![0, 0] : Fin 2 → Nat) a + S64x12.size a ≤ S64x12.size a
  h_S64x12 : 0 < S64x12.numel
  shapeCasts_S64x12_S64x12 : S64x12.ShapeCasts S64x12
  slices_S4000x12_o0_0_S4000x10 : S4000x12.Slices ![0, 0] S4000x10
  inb_S4000x10_S4000x10_0_0 : ∀ a, (![0, 0] : Fin 2 → Nat) a + S4000x10.size a ≤ S4000x10.size a
  h_S4000x10 : 0 < S4000x10.numel
  slices_S4000x12_o0_10_S4000x1 : S4000x12.Slices ![0, 10] S4000x1
  slices_S4000x12_o0_11_S4000x1 : S4000x12.Slices ![0, 11] S4000x1
  bcast_S1700000x1_S1700000x10_0_1 : S1700000x1.BroadcastsInDim S1700000x10 (![0, 1] : Fin 2 → Fin S1700000x10.rank)
  bcast_S_S100000x10 : S_.BroadcastsInDim S100000x10 (![] : Fin 0 → Fin S100000x10.rank)
  bcast_S100000x1_S100000x10_0_1 : S100000x1.BroadcastsInDim S100000x10 (![0, 1] : Fin 2 → Fin S100000x10.rank)
  bcast_S1000000x1_S1000000x10_0_1 : S1000000x1.BroadcastsInDim S1000000x10 (![0, 1] : Fin 2 → Fin S1000000x10.rank)
  shapeCasts_S4000x10_S4000x10 : S4000x10.ShapeCasts S4000x10
  broadcasts_S4000x1_S4000x10 : S4000x1.Broadcasts S4000x10
  dot_S4000x512_S512x66_S4000x66_1_0_0_1_n_n_wf : DotDims.WF S4000x512 S512x66 S4000x66 [1] [0] [0] [1] [] []
  scatter_S100000_S1700000x1_S1700000_n_0_0_1_wf : ScatterDims.WF S100000 S1700000x1 S1700000 [] [0] [0] 1
  gather_S100000x64_S1700000x1_S1700000x64_1_0_n_n_0_1_164_wf : GatherDims.WF S100000x64 S1700000x1 S1700000x64 [1] [0] [] [0] [] 1 ![1, 64]
  gather_S100000_S1700000x1_S1700000_n_0_n_n_0_1_1_wf : GatherDims.WF S100000 S1700000x1 S1700000 [] [0] [] [0] [] 1 ![1]
  scatter_S100000x64_S1700000x1_S1700000x64_1_0_0_1_wf : ScatterDims.WF S100000x64 S1700000x1 S1700000x64 [1] [0] [0] 1
  scatter_S100000_S1000000x1_S1000000_n_0_0_1_wf : ScatterDims.WF S100000 S1000000x1 S1000000 [] [0] [0] 1
  gather_S100000x64_S1000000x1_S1000000x64_1_0_n_n_0_1_164_wf : GatherDims.WF S100000x64 S1000000x1 S1000000x64 [1] [0] [] [0] [] 1 ![1, 64]
  gather_S100000_S1000000x1_S1000000_n_0_n_n_0_1_1_wf : GatherDims.WF S100000 S1000000x1 S1000000 [] [0] [] [0] [] 1 ![1]
  scatter_S100000x64_S1000000x1_S1000000x64_1_0_0_1_wf : ScatterDims.WF S100000x64 S1000000x1 S1000000x64 [1] [0] [0] 1
  dot_S4000x64_S64x12_S4000x12_1_0_0_1_n_n_wf : DotDims.WF S4000x64 S64x12 S4000x12 [1] [0] [0] [1] [] []
  gather_S100000x10_S1700000x1_S1700000x10_1_0_n_n_0_1_110_wf : GatherDims.WF S100000x10 S1700000x1 S1700000x10 [1] [0] [] [0] [] 1 ![1, 10]
  scatter_S100000x10_S1700000x1_S1700000x10_1_0_0_1_wf : ScatterDims.WF S100000x10 S1700000x1 S1700000x10 [1] [0] [0] 1
  gather_S100000x10_S1000000x1_S1000000x10_1_0_n_n_0_1_110_wf : GatherDims.WF S100000x10 S1000000x1 S1000000x10 [1] [0] [] [0] [] 1 ![1, 10]
  scatter_S100000x10_S1000000x1_S1000000x10_1_0_0_1_wf : ScatterDims.WF S100000x10 S1000000x1 S1000000x10 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x512.size a ≤ S100000x512.size a
  hwx0_0 : ∀ i : grid0.Coords, EltTy.bits .f32 = 32 ∨ (Rect.block (s := S100000x512) S4000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x66.size a ≤ S512x66.size a
  hwx0_1 : ∀ i : grid0.Coords, EltTy.bits .f32 = 32 ∨ (Rect.block (s := S512x66) S512x66.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x64.size a ≤ S100000x64.size a
  hwx0_4 : ∀ i : grid0.Coords, EltTy.bits .f32 = 32 ∨ (Rect.block (s := S100000x64) S4000x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x1.size a ≤ S100000x1.size a
  hwx0_5 : ∀ i : grid0.Coords, EltTy.bits .f32 = 32 ∨ (Rect.block (s := S100000x1) S4000x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x1.size a ≤ S100000x1.size a
  hwx0_6 : ∀ i : grid0.Coords, EltTy.bits .f32 = 32 ∨ (Rect.block (s := S100000x1) S4000x1.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x1.size a ≤ S100000x1.size a
  hwx1_0 : ∀ i : grid1.Coords, EltTy.bits .f32 = 32 ∨ (Rect.block (s := S100000x1) S4000x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x64.size a ≤ S100000x64.size a
  hwx1_1 : ∀ i : grid1.Coords, EltTy.bits .f32 = 32 ∨ (Rect.block (s := S100000x64) S4000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x64.size a ≤ S100000x64.size a
  hwx1_2 : ∀ i : grid1.Coords, EltTy.bits .f32 = 32 ∨ (Rect.block (s := S100000x64) S4000x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x1.size a ≤ S100000x1.size a
  hwx1_3 : ∀ i : grid1.Coords, EltTy.bits .f32 = 32 ∨ (Rect.block (s := S100000x1) S4000x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x64.size a ≤ S100000x64.size a
  hwx1_4 : ∀ i : grid1.Coords, EltTy.bits .f32 = 32 ∨ (Rect.block (s := S100000x64) S4000x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x64.size a ≤ S100000x64.size a
  hwx1_5 : ∀ i : grid1.Coords, EltTy.bits .f32 = 32 ∨ (Rect.block (s := S100000x64) S4000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x64.size a ≤ S100000x64.size a
  hwx2_0 : ∀ i : grid2.Coords, EltTy.bits .f32 = 32 ∨ (Rect.block (s := S100000x64) S4000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x12.size a ≤ S64x12.size a
  hwx2_1 : ∀ i : grid2.Coords, EltTy.bits .f32 = 32 ∨ (Rect.block (s := S64x12) S64x12.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1.size a ≤ S1x1.size a
  hwx2_2 : ∀ i : grid2.Coords, EltTy.bits .f32 = 32 ∨ (Rect.block (s := S1x1) S1x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1.size a ≤ S1x1.size a
  hwx2_3 : ∀ i : grid2.Coords, EltTy.bits .f32 = 32 ∨ (Rect.block (s := S1x1) S1x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S4000x10.size a ≤ S100000x10.size a
  hwx2_4 : ∀ i : grid2.Coords, EltTy.bits .f32 = 32 ∨ (Rect.block (s := S100000x10) S4000x10.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4000x1.size a ≤ S100000x1.size a
  hwx2_5 : ∀ i : grid2.Coords, EltTy.bits .f32 = 32 ∨ (Rect.block (s := S100000x1) S4000x1.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S4000x1.size a ≤ S100000x1.size a
  hwx2_6 : ∀ i : grid2.Coords, EltTy.bits .f32 = 32 ∨ (Rect.block (s := S100000x1) S4000x1.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x1.size a ≤ S100000x1.size a
  hwx3_0 : ∀ i : grid3.Coords, EltTy.bits .f32 = 32 ∨ (Rect.block (s := S100000x1) S4000x1.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x10.size a ≤ S100000x10.size a
  hwx3_1 : ∀ i : grid3.Coords, EltTy.bits .f32 = 32 ∨ (Rect.block (s := S100000x10) S4000x10.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x10.size a ≤ S100000x10.size a
  hwx3_2 : ∀ i : grid3.Coords, EltTy.bits .f32 = 32 ∨ (Rect.block (s := S100000x10) S4000x10.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S4000x1.size a ≤ S100000x1.size a
  hwx3_3 : ∀ i : grid3.Coords, EltTy.bits .f32 = 32 ∨ (Rect.block (s := S100000x1) S4000x1.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S4000x10.size a ≤ S100000x10.size a
  hwx3_4 : ∀ i : grid3.Coords, EltTy.bits .f32 = 32 ∨ (Rect.block (s := S100000x10) S4000x10.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S4000x10.size a ≤ S100000x10.size a
  hwx3_5 : ∀ i : grid3.Coords, EltTy.bits .f32 = 32 ∨ (Rect.block (s := S100000x10) S4000x10.size (cc3_transform_5 i) (hinb3_5 i)).WholeWords (EltTy.packing .f32)

variable [Facts₀]

def dot_S4000x512_S512x66_S4000x66_1_0_0_1_n_n : DotDims S4000x512 S512x66 S4000x66 where
  lhsContracting := [1]
  rhsContracting := [0]
  lhsNonContracting := [0]
  rhsNonContracting := [1]
  lhsBatch := []
  rhsBatch := []
  wf := dot_S4000x512_S512x66_S4000x66_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def gather_S100000_S1000000x1_S1000000_n_0_n_n_0_1_1 : GatherDims S100000 S1000000x1 S1000000 where
  offsetDims := []
  collapsedSliceDims := [0]
  operandBatchingDims := []
  startIndicesBatchingDims := []
  startIndexMap := [0]
  indexVectorDim := 1
  sliceSizes := ![1]
  wf := gather_S100000_S1000000x1_S1000000_n_0_n_n_0_1_1_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S4000x64_S64x12_S4000x12_1_0_0_1_n_n : DotDims S4000x64 S64x12 S4000x12 where
  lhsContracting := [1]
  rhsContracting := [0]
  lhsNonContracting := [0]
  rhsNonContracting := [1]
  lhsBatch := []
  rhsBatch := []
  wf := dot_S4000x64_S64x12_S4000x12_1_0_0_1_n_n_wf
def gather_S100000x10_S1700000x1_S1700000x10_1_0_n_n_0_1_110 : GatherDims S100000x10 S1700000x1 S1700000x10 where
  offsetDims := [1]
  collapsedSliceDims := [0]
  operandBatchingDims := []
  startIndicesBatchingDims := []
  startIndexMap := [0]
  indexVectorDim := 1
  sliceSizes := ![1, 10]
  wf := gather_S100000x10_S1700000x1_S1700000x10_1_0_n_n_0_1_110_wf
def scatter_S100000x10_S1700000x1_S1700000x10_1_0_0_1 : ScatterDims S100000x10 S1700000x1 S1700000x10 where
  updateWindowDims := [1]
  insertedWindowDims := [0]
  scatterDimsToOperandDims := [0]
  indexVectorDim := 1
  wf := scatter_S100000x10_S1700000x1_S1700000x10_1_0_0_1_wf
def gather_S100000x10_S1000000x1_S1000000x10_1_0_n_n_0_1_110 : GatherDims S100000x10 S1000000x1 S1000000x10 where
  offsetDims := [1]
  collapsedSliceDims := [0]
  operandBatchingDims := []
  startIndicesBatchingDims := []
  startIndexMap := [0]
  indexVectorDim := 1
  sliceSizes := ![1, 10]
  wf := gather_S100000x10_S1000000x1_S1000000x10_1_0_n_n_0_1_110_wf
def scatter_S100000x10_S1000000x1_S1000000x10_1_0_0_1 : ScatterDims S100000x10 S1000000x1 S1000000x10 where
  updateWindowDims := [1]
  insertedWindowDims := [0]
  scatterDimsToOperandDims := [0]
  indexVectorDim := 1
  wf := scatter_S100000x10_S1000000x1_S1000000x10_1_0_0_1_wf

abbrev win0_0 : Pipeline.Window sig grid0 :=
  Pipeline.Window.ofSpec (Memref.whole main_arg0) S4000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x66.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3_0) S4000x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3_1) S4000x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v3_2) S4000x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v3_1) S4000x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S4000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v86) S4000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3_2) S4000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v3_0) S4000x64.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v87) S4000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v87) S4000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v88) S64x12.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v89) S1x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v90) S1x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v91_0) S4000x10.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v91_1) S4000x1.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v91_2) S4000x1.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v91_1) S4000x1.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v134) S4000x10.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v174) S4000x10.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v91_2) S4000x1.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v91_0) S4000x10.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v175) S4000x10.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x512 : Shape := ⟨2, ![100000, 512]⟩
abbrev S512x64 : Shape := ⟨2, ![512, 64]⟩
abbrev S64x10 : Shape := ⟨2, ![64, 10]⟩
abbrev S512x1 : Shape := ⟨2, ![512, 1]⟩
abbrev S64x1 : Shape := ⟨2, ![64, 1]⟩
abbrev S1 : Shape := ⟨1, ![1]⟩
abbrev S1600000 : Shape := ⟨1, ![1600000]⟩
abbrev S1000000 : Shape := ⟨1, ![1000000]⟩
abbrev S100000x1 : Shape := ⟨2, ![100000, 1]⟩
abbrev S1x1 : Shape := ⟨2, ![1, 1]⟩
abbrev S_ : Shape := ⟨0, ![]⟩
abbrev S100000x64 : Shape := ⟨2, ![100000, 64]⟩
abbrev S100000 : Shape := ⟨1, ![100000]⟩
abbrev S1700000 : Shape := ⟨1, ![1700000]⟩
abbrev S1700000x1 : Shape := ⟨2, ![1700000, 1]⟩
abbrev S1700000x64 : Shape := ⟨2, ![1700000, 64]⟩
abbrev S1000000x1 : Shape := ⟨2, ![1000000, 1]⟩
abbrev S1000000x64 : Shape := ⟨2, ![1000000, 64]⟩
abbrev S100000x10 : Shape := ⟨2, ![100000, 10]⟩
abbrev S1700000x10 : Shape := ⟨2, ![1700000, 10]⟩
abbrev S1000000x10 : Shape := ⟨2, ![1000000, 10]⟩

abbrev nBuf : Space → Nat
  | .hbm => 315
  | .vmem => 0
  | .smem => 0
  | _ => 0

abbrev hbmTy0_0 (i : Nat) : BufTy := match i % 128 with
  | 0 => ⟨S100000x512, .f32⟩
  | 1 => ⟨S512x64, .f32⟩
  | 2 => ⟨S64x10, .f32⟩
  | 3 => ⟨S512x1, .f32⟩
  | 4 => ⟨S64x1, .f32⟩
  | 5 => ⟨S1, .f32⟩
  | 6 => ⟨S1, .f32⟩
  | 7 => ⟨S512x1, .f32⟩
  | 8 => ⟨S64x1, .f32⟩
  | 9 => ⟨S1, .f32⟩
  | 10 => ⟨S1, .f32⟩
  | 11 => ⟨S1600000, .i32⟩
  | 12 => ⟨S1600000, .i32⟩
  | 13 => ⟨S1000000, .i32⟩
  | 14 => ⟨S1000000, .i32⟩
  | 15 => ⟨S100000x1, .f32⟩
  | 16 => ⟨S1x1, .f32⟩
  | 17 => ⟨S100000x1, .f32⟩
  | 18 => ⟨S100000x1, .f32⟩
  | 19 => ⟨S100000x1, .f32⟩
  | 20 => ⟨S100000x1, .f32⟩
  | 21 => ⟨S_, .f32⟩
  | 22 => ⟨S100000x1, .f32⟩
  | 23 => ⟨S100000x1, .f32⟩
  | 24 => ⟨S_, .f32⟩
  | 25 => ⟨S100000x1, .f32⟩
  | 26 => ⟨S100000x1, .f32⟩
  | 27 => ⟨S100000x1, .f32⟩
  | 28 => ⟨S1x1, .f32⟩
  | 29 => ⟨S100000x1, .f32⟩
  | 30 => ⟨S100000x1, .f32⟩
  | 31 => ⟨S100000x64, .f32⟩
  | 32 => ⟨S100000, .i32⟩
  | 33 => ⟨S1700000, .i32⟩
  | 34 => ⟨S1700000, .i32⟩
  | 35 => ⟨S_, .f32⟩
  | 36 => ⟨S1700000, .f32⟩
  | 37 => ⟨S_, .f32⟩
  | 38 => ⟨S100000, .f32⟩
  | 39 => ⟨S1700000x1, .i32⟩
  | 40 => ⟨S100000, .f32⟩
  | 41 => ⟨S_, .f32⟩
  | 42 => ⟨S100000, .f32⟩
  | 43 => ⟨S1700000x1, .i32⟩
  | 44 => ⟨S100000, .f32⟩
  | 45 => ⟨S_, .f32⟩
  | 46 => ⟨S100000, .f32⟩
  | 47 => ⟨S100000, .i1⟩
  | 48 => ⟨S_, .f32⟩
  | 49 => ⟨S_, .f32⟩
  | 50 => ⟨S100000, .f32⟩
  | 51 => ⟨S100000, .f32⟩
  | 52 => ⟨S_, .f32⟩
  | 53 => ⟨S100000, .f32⟩
  | 54 => ⟨S100000, .f32⟩
  | 55 => ⟨S_, .f32⟩
  | 56 => ⟨S100000, .f32⟩
  | 57 => ⟨S100000, .i1⟩
  | 58 => ⟨S_, .f32⟩
  | 59 => ⟨S_, .f32⟩
  | 60 => ⟨S100000, .f32⟩
  | 61 => ⟨S100000, .f32⟩
  | 62 => ⟨S_, .f32⟩
  | 63 => ⟨S100000, .f32⟩
  | 64 => ⟨S100000, .f32⟩
  | 65 => ⟨S_, .i32⟩
  | 66 => ⟨S1700000, .i32⟩
  | 67 => ⟨S1700000, .i1⟩
  | 68 => ⟨S_, .i32⟩
  | 69 => ⟨S1700000, .i32⟩
  | 70 => ⟨S1700000, .i32⟩
  | 71 => ⟨S1700000, .i32⟩
  | 72 => ⟨S1700000x1, .i32⟩
  | 73 => ⟨S1700000x64, .f32⟩
  | 74 => ⟨S_, .i32⟩
  | 75 => ⟨S1700000, .i32⟩
  | 76 => ⟨S1700000, .i1⟩
  | 77 => ⟨S_, .i32⟩
  | 78 => ⟨S1700000, .i32⟩
  | 79 => ⟨S1700000, .i32⟩
  | 80 => ⟨S1700000, .i32⟩
  | 81 => ⟨S1700000x1, .i32⟩
  | 82 => ⟨S1700000, .f32⟩
  | 83 => ⟨S1700000x1, .f32⟩
  | 84 => ⟨S1700000x64, .f32⟩
  | 85 => ⟨S1700000x64, .f32⟩
  | 86 => ⟨S_, .f32⟩
  | 87 => ⟨S100000x64, .f32⟩
  | 88 => ⟨S1700000x1, .i32⟩
  | 89 => ⟨S100000x64, .f32⟩
  | 90 => ⟨S100000x1, .f32⟩
  | 91 => ⟨S100000x64, .f32⟩
  | 92 => ⟨S100000x64, .f32⟩
  | 93 => ⟨S_, .f32⟩
  | 94 => ⟨S1000000, .f32⟩
  | 95 => ⟨S_, .f32⟩
  | 96 => ⟨S100000, .f32⟩
  | 97 => ⟨S1000000x1, .i32⟩
  | 98 => ⟨S100000, .f32⟩
  | 99 => ⟨S_, .f32⟩
  | 100 => ⟨S100000, .f32⟩
  | 101 => ⟨S1000000x1, .i32⟩
  | 102 => ⟨S100000, .f32⟩
  | 103 => ⟨S_, .f32⟩
  | 104 => ⟨S100000, .f32⟩
  | 105 => ⟨S100000, .i1⟩
  | 106 => ⟨S_, .f32⟩
  | 107 => ⟨S_, .f32⟩
  | 108 => ⟨S100000, .f32⟩
  | 109 => ⟨S100000, .f32⟩
  | 110 => ⟨S_, .f32⟩
  | 111 => ⟨S100000, .f32⟩
  | 112 => ⟨S100000, .f32⟩
  | 113 => ⟨S_, .f32⟩
  | 114 => ⟨S100000, .f32⟩
  | 115 => ⟨S100000, .i1⟩
  | 116 => ⟨S_, .f32⟩
  | 117 => ⟨S_, .f32⟩
  | 118 => ⟨S100000, .f32⟩
  | 119 => ⟨S100000, .f32⟩
  | 120 => ⟨S_, .f32⟩
  | 121 => ⟨S100000, .f32⟩
  | 122 => ⟨S100000, .f32⟩
  | 123 => ⟨S_, .i32⟩
  | 124 => ⟨S1000000, .i32⟩
  | 125 => ⟨S1000000, .i1⟩
  | 126 => ⟨S_, .i32⟩
  | 127 => ⟨S1000000, .i32⟩
  | _ => ⟨S100000x512, .f32⟩

abbrev hbmTy0_1 (i : Nat) : BufTy := match i % 128 with
  | 0 => ⟨S1000000, .i32⟩
  | 1 => ⟨S1000000, .i32⟩
  | 2 => ⟨S1000000x1, .i32⟩
  | 3 => ⟨S1000000x64, .f32⟩
  | 4 => ⟨S_, .i32⟩
  | 5 => ⟨S1000000, .i32⟩
  | 6 => ⟨S1000000, .i1⟩
  | 7 => ⟨S_, .i32⟩
  | 8 => ⟨S1000000, .i32⟩
  | 9 => ⟨S1000000, .i32⟩
  | 10 => ⟨S1000000, .i32⟩
  | 11 => ⟨S1000000x1, .i32⟩
  | 12 => ⟨S1000000, .f32⟩
  | 13 => ⟨S1000000x1, .f32⟩
  | 14 => ⟨S1000000x64, .f32⟩
  | 15 => ⟨S1000000x64, .f32⟩
  | 16 => ⟨S_, .f32⟩
  | 17 => ⟨S100000x64, .f32⟩
  | 18 => ⟨S1000000x1, .i32⟩
  | 19 => ⟨S100000x64, .f32⟩
  | 20 => ⟨S100000x1, .f32⟩
  | 21 => ⟨S100000x64, .f32⟩
  | 22 => ⟨S100000x64, .f32⟩
  | 23 => ⟨S100000x64, .f32⟩
  | 24 => ⟨S100000x64, .f32⟩
  | 25 => ⟨S_, .f32⟩
  | 26 => ⟨S100000x1, .f32⟩
  | 27 => ⟨S100000x1, .f32⟩
  | 28 => ⟨S100000x64, .f32⟩
  | 29 => ⟨S100000x64, .f32⟩
  | 30 => ⟨S100000x64, .f32⟩
  | 31 => ⟨S_, .f32⟩
  | 32 => ⟨S100000x1, .f32⟩
  | 33 => ⟨S100000x1, .f32⟩
  | 34 => ⟨S100000x64, .f32⟩
  | 35 => ⟨S100000x64, .f32⟩
  | 36 => ⟨S100000x64, .f32⟩
  | 37 => ⟨S100000x1, .f32⟩
  | 38 => ⟨S1x1, .f32⟩
  | 39 => ⟨S100000x1, .f32⟩
  | 40 => ⟨S100000x1, .f32⟩
  | 41 => ⟨S100000x1, .f32⟩
  | 42 => ⟨S100000x1, .f32⟩
  | 43 => ⟨S_, .f32⟩
  | 44 => ⟨S100000x1, .f32⟩
  | 45 => ⟨S100000x1, .f32⟩
  | 46 => ⟨S_, .f32⟩
  | 47 => ⟨S100000x1, .f32⟩
  | 48 => ⟨S100000x1, .f32⟩
  | 49 => ⟨S100000x1, .f32⟩
  | 50 => ⟨S1x1, .f32⟩
  | 51 => ⟨S100000x1, .f32⟩
  | 52 => ⟨S100000x1, .f32⟩
  | 53 => ⟨S100000x10, .f32⟩
  | 54 => ⟨S100000, .i32⟩
  | 55 => ⟨S1700000, .i32⟩
  | 56 => ⟨S1700000, .i32⟩
  | 57 => ⟨S_, .f32⟩
  | 58 => ⟨S1700000, .f32⟩
  | 59 => ⟨S_, .f32⟩
  | 60 => ⟨S100000, .f32⟩
  | 61 => ⟨S1700000x1, .i32⟩
  | 62 => ⟨S100000, .f32⟩
  | 63 => ⟨S_, .f32⟩
  | 64 => ⟨S100000, .f32⟩
  | 65 => ⟨S1700000x1, .i32⟩
  | 66 => ⟨S100000, .f32⟩
  | 67 => ⟨S_, .f32⟩
  | 68 => ⟨S100000, .f32⟩
  | 69 => ⟨S100000, .i1⟩
  | 70 => ⟨S_, .f32⟩
  | 71 => ⟨S_, .f32⟩
  | 72 => ⟨S100000, .f32⟩
  | 73 => ⟨S100000, .f32⟩
  | 74 => ⟨S_, .f32⟩
  | 75 => ⟨S100000, .f32⟩
  | 76 => ⟨S100000, .f32⟩
  | 77 => ⟨S_, .f32⟩
  | 78 => ⟨S100000, .f32⟩
  | 79 => ⟨S100000, .i1⟩
  | 80 => ⟨S_, .f32⟩
  | 81 => ⟨S_, .f32⟩
  | 82 => ⟨S100000, .f32⟩
  | 83 => ⟨S100000, .f32⟩
  | 84 => ⟨S_, .f32⟩
  | 85 => ⟨S100000, .f32⟩
  | 86 => ⟨S100000, .f32⟩
  | 87 => ⟨S_, .i32⟩
  | 88 => ⟨S1700000, .i32⟩
  | 89 => ⟨S1700000, .i1⟩
  | 90 => ⟨S_, .i32⟩
  | 91 => ⟨S1700000, .i32⟩
  | 92 => ⟨S1700000, .i32⟩
  | 93 => ⟨S1700000, .i32⟩
  | 94 => ⟨S1700000x1, .i32⟩
  | 95 => ⟨S1700000x10, .f32⟩
  | 96 => ⟨S_, .i32⟩
  | 97 => ⟨S1700000, .i32⟩
  | 98 => ⟨S1700000, .i1⟩
  | 99 => ⟨S_, .i32⟩
  | 100 => ⟨S1700000, .i32⟩
  | 101 => ⟨S1700000, .i32⟩
  | 102 => ⟨S1700000, .i32⟩
  | 103 => ⟨S1700000x1, .i32⟩
  | 104 => ⟨S1700000, .f32⟩
  | 105 => ⟨S1700000x1, .f32⟩
  | 106 => ⟨S1700000x10, .f32⟩
  | 107 => ⟨S1700000x10, .f32⟩
  | 108 => ⟨S_, .f32⟩
  | 109 => ⟨S100000x10, .f32⟩
  | 110 => ⟨S1700000x1, .i32⟩
  | 111 => ⟨S100000x10, .f32⟩
  | 112 => ⟨S100000x1, .f32⟩
  | 113 => ⟨S100000x10, .f32⟩
  | 114 => ⟨S100000x10, .f32⟩
  | 115 => ⟨S_, .f32⟩
  | 116 => ⟨S1000000, .f32⟩
  | 117 => ⟨S_, .f32⟩
  | 118 => ⟨S100000, .f32⟩
  | 119 => ⟨S1000000x1, .i32⟩
  | 120 => ⟨S100000, .f32⟩
  | 121 => ⟨S_, .f32⟩
  | 122 => ⟨S100000, .f32⟩
  | 123 => ⟨S1000000x1, .i32⟩
  | 124 => ⟨S100000, .f32⟩
  | 125 => ⟨S_, .f32⟩
  | 126 => ⟨S100000, .f32⟩
  | 127 => ⟨S100000, .i1⟩
  | _ => ⟨S100000x512, .f32⟩

abbrev hbmTy0_2 (i : Nat) : BufTy := match i % 128 with
  | 0 => ⟨S_, .f32⟩
  | 1 => ⟨S_, .f32⟩
  | 2 => ⟨S100000, .f32⟩
  | 3 => ⟨S100000, .f32⟩
  | 4 => ⟨S_, .f32⟩
  | 5 => ⟨S100000, .f32⟩
  | 6 => ⟨S100000, .f32⟩
  | 7 => ⟨S_, .f32⟩
  | 8 => ⟨S100000, .f32⟩
  | 9 => ⟨S100000, .i1⟩
  | 10 => ⟨S_, .f32⟩
  | 11 => ⟨S_, .f32⟩
  | 12 => ⟨S100000, .f32⟩
  | 13 => ⟨S100000, .f32⟩
  | 14 => ⟨S_, .f32⟩
  | 15 => ⟨S100000, .f32⟩
  | 16 => ⟨S100000, .f32⟩
  | 17 => ⟨S_, .i32⟩
  | 18 => ⟨S1000000, .i32⟩
  | 19 => ⟨S1000000, .i1⟩
  | 20 => ⟨S_, .i32⟩
  | 21 => ⟨S1000000, .i32⟩
  | 22 => ⟨S1000000, .i32⟩
  | 23 => ⟨S1000000, .i32⟩
  | 24 => ⟨S1000000x1, .i32⟩
  | 25 => ⟨S1000000x10, .f32⟩
  | 26 => ⟨S_, .i32⟩
  | 27 => ⟨S1000000, .i32⟩
  | 28 => ⟨S1000000, .i1⟩
  | 29 => ⟨S_, .i32⟩
  | 30 => ⟨S1000000, .i32⟩
  | 31 => ⟨S1000000, .i32⟩
  | 32 => ⟨S1000000, .i32⟩
  | 33 => ⟨S1000000x1, .i32⟩
  | 34 => ⟨S1000000, .f32⟩
  | 35 => ⟨S1000000x1, .f32⟩
  | 36 => ⟨S1000000x10, .f32⟩
  | 37 => ⟨S1000000x10, .f32⟩
  | 38 => ⟨S_, .f32⟩
  | 39 => ⟨S100000x10, .f32⟩
  | 40 => ⟨S1000000x1, .i32⟩
  | 41 => ⟨S100000x10, .f32⟩
  | 42 => ⟨S100000x1, .f32⟩
  | 43 => ⟨S100000x10, .f32⟩
  | 44 => ⟨S100000x10, .f32⟩
  | 45 => ⟨S100000x10, .f32⟩
  | 46 => ⟨S100000x10, .f32⟩
  | 47 => ⟨S_, .f32⟩
  | 48 => ⟨S100000x1, .f32⟩
  | 49 => ⟨S100000x1, .f32⟩
  | 50 => ⟨S100000x10, .f32⟩
  | 51 => ⟨S100000x10, .f32⟩
  | 52 => ⟨S100000x10, .f32⟩
  | 53 => ⟨S_, .f32⟩
  | 54 => ⟨S100000x1, .f32⟩
  | 55 => ⟨S100000x1, .f32⟩
  | 56 => ⟨S100000x10, .f32⟩
  | 57 => ⟨S100000x10, .f32⟩
  | 58 => ⟨S100000x10, .f32⟩
  | _ => ⟨S100000x512, .f32⟩

abbrev hbmTy (i : Nat) : BufTy := match i / 128 with
  | 0 => hbmTy0_0 i
  | 1 => hbmTy0_1 i
  | 2 => hbmTy0_2 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_cst : Ref sig .tc := ⟨.hbm, 21, rfl⟩
abbrev main_v6 : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_1 : Ref sig .tc := ⟨.hbm, 35, rfl⟩
abbrev main_v18 : Ref sig .tc := ⟨.hbm, 36, rfl⟩
abbrev main_cst_2 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_3 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_4 : Ref sig .tc := ⟨.hbm, 45, rfl⟩
abbrev main_v25 : Ref sig .tc := ⟨.hbm, 46, rfl⟩
abbrev main_v26 : Ref sig .tc := ⟨.hbm, 47, rfl⟩
abbrev main_cst_5 : Ref sig .tc := ⟨.hbm, 48, rfl⟩
abbrev main_call0_v0 : Ref sig .tc := ⟨.hbm, 49, rfl⟩
abbrev main_call0_v1 : Ref sig .tc := ⟨.hbm, 50, rfl⟩
abbrev main_v27 : Ref sig .tc := ⟨.hbm, 51, rfl⟩
abbrev main_cst_6 : Ref sig .tc := ⟨.hbm, 52, rfl⟩
abbrev main_v28 : Ref sig .tc := ⟨.hbm, 53, rfl⟩
abbrev main_v29 : Ref sig .tc := ⟨.hbm, 54, rfl⟩
abbrev main_cst_7 : Ref sig .tc := ⟨.hbm, 55, rfl⟩
abbrev main_v30 : Ref sig .tc := ⟨.hbm, 56, rfl⟩
abbrev main_v31 : Ref sig .tc := ⟨.hbm, 57, rfl⟩
abbrev main_cst_8 : Ref sig .tc := ⟨.hbm, 58, rfl⟩
abbrev main_call1_v0 : Ref sig .tc := ⟨.hbm, 59, rfl⟩
abbrev main_call1_v1 : Ref sig .tc := ⟨.hbm, 60, rfl⟩
abbrev main_v32 : Ref sig .tc := ⟨.hbm, 61, rfl⟩
abbrev main_cst_9 : Ref sig .tc := ⟨.hbm, 62, rfl⟩
abbrev main_v33 : Ref sig .tc := ⟨.hbm, 63, rfl⟩
abbrev main_v34 : Ref sig .tc := ⟨.hbm, 64, rfl⟩
abbrev main_c : Ref sig .tc := ⟨.hbm, 65, rfl⟩
abbrev main_v35 : Ref sig .tc := ⟨.hbm, 66, rfl⟩
abbrev main_v36 : Ref sig .tc := ⟨.hbm, 67, rfl⟩
abbrev main_c_10 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_c_11 : Ref sig .tc := ⟨.hbm, 74, rfl⟩
abbrev main_v42 : Ref sig .tc := ⟨.hbm, 75, rfl⟩
abbrev main_v43 : Ref sig .tc := ⟨.hbm, 76, rfl⟩
abbrev main_c_12 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_cst_13 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_cst_14 : Ref sig .tc := ⟨.hbm, 93, rfl⟩
abbrev main_v58 : Ref sig .tc := ⟨.hbm, 94, rfl⟩
abbrev main_cst_15 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_cst_16 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_cst_17 : Ref sig .tc := ⟨.hbm, 103, rfl⟩
abbrev main_v65 : Ref sig .tc := ⟨.hbm, 104, rfl⟩
abbrev main_v66 : Ref sig .tc := ⟨.hbm, 105, rfl⟩
abbrev main_cst_18 : Ref sig .tc := ⟨.hbm, 106, rfl⟩
abbrev main_call2_v0 : Ref sig .tc := ⟨.hbm, 107, rfl⟩
abbrev main_call2_v1 : Ref sig .tc := ⟨.hbm, 108, rfl⟩
abbrev main_v67 : Ref sig .tc := ⟨.hbm, 109, rfl⟩
abbrev main_cst_19 : Ref sig .tc := ⟨.hbm, 110, rfl⟩
abbrev main_v68 : Ref sig .tc := ⟨.hbm, 111, rfl⟩
abbrev main_v69 : Ref sig .tc := ⟨.hbm, 112, rfl⟩
abbrev main_cst_20 : Ref sig .tc := ⟨.hbm, 113, rfl⟩
abbrev main_v70 : Ref sig .tc := ⟨.hbm, 114, rfl⟩
abbrev main_v71 : Ref sig .tc := ⟨.hbm, 115, rfl⟩
abbrev main_cst_21 : Ref sig .tc := ⟨.hbm, 116, rfl⟩
abbrev main_call3_v0 : Ref sig .tc := ⟨.hbm, 117, rfl⟩
abbrev main_call3_v1 : Ref sig .tc := ⟨.hbm, 118, rfl⟩
abbrev main_v72 : Ref sig .tc := ⟨.hbm, 119, rfl⟩
abbrev main_cst_22 : Ref sig .tc := ⟨.hbm, 120, rfl⟩
abbrev main_v73 : Ref sig .tc := ⟨.hbm, 121, rfl⟩
abbrev main_v74 : Ref sig .tc := ⟨.hbm, 122, rfl⟩
abbrev main_c_23 : Ref sig .tc := ⟨.hbm, 123, rfl⟩
abbrev main_v75 : Ref sig .tc := ⟨.hbm, 124, rfl⟩
abbrev main_v76 : Ref sig .tc := ⟨.hbm, 125, rfl⟩
abbrev main_c_24 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_c_25 : Ref sig .tc := ⟨.hbm, 132, rfl⟩
abbrev main_v82 : Ref sig .tc := ⟨.hbm, 133, rfl⟩
abbrev main_v83 : Ref sig .tc := ⟨.hbm, 134, rfl⟩
abbrev main_c_26 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_cst_27 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_cst_28 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_cst_29 : Ref sig .tc := ⟨.hbm, 159, rfl⟩
abbrev main_v105 : Ref sig .tc := ⟨.hbm, 160, rfl⟩
abbrev main_v106 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_cst_30 : Ref sig .tc := ⟨.hbm, 171, rfl⟩
abbrev main_v116 : Ref sig .tc := ⟨.hbm, 172, rfl⟩
abbrev main_v117 : Ref sig .tc := ⟨.hbm, 173, rfl⟩
abbrev main_cst_31 : Ref sig .tc := ⟨.hbm, 174, rfl⟩
abbrev main_v118 : Ref sig .tc := ⟨.hbm, 175, rfl⟩
abbrev main_v119 : Ref sig .tc := ⟨.hbm, 176, rfl⟩
abbrev main_v120 : Ref sig .tc := ⟨.hbm, 177, rfl⟩
abbrev main_v121 : Ref sig .tc := ⟨.hbm, 178, rfl⟩
abbrev main_v122 : Ref sig .tc := ⟨.hbm, 179, rfl⟩
abbrev main_v123 : Ref sig .tc := ⟨.hbm, 180, rfl⟩
abbrev main_v124 : Ref sig .tc := ⟨.hbm, 181, rfl⟩
abbrev main_v125 : Ref sig .tc := ⟨.hbm, 182, rfl⟩
abbrev main_v126 : Ref sig .tc := ⟨.hbm, 183, rfl⟩
abbrev main_v127 : Ref sig .tc := ⟨.hbm, 184, rfl⟩
abbrev main_cst_32 : Ref sig .tc := ⟨.hbm, 185, rfl⟩
abbrev main_v128 : Ref sig .tc := ⟨.hbm, 186, rfl⟩
abbrev main_cst_33 : Ref sig .tc := ⟨.hbm, 187, rfl⟩
abbrev main_v129 : Ref sig .tc := ⟨.hbm, 188, rfl⟩
abbrev main_v130 : Ref sig .tc := ⟨.hbm, 189, rfl⟩
abbrev main_v131 : Ref sig .tc := ⟨.hbm, 190, rfl⟩
abbrev main_cst_34 : Ref sig .tc := ⟨.hbm, 191, rfl⟩
abbrev main_v132 : Ref sig .tc := ⟨.hbm, 192, rfl⟩
abbrev main_v133 : Ref sig .tc := ⟨.hbm, 193, rfl⟩
abbrev main_v134 : Ref sig .tc := ⟨.hbm, 194, rfl⟩
abbrev main_cst_35 : Ref sig .tc := ⟨.hbm, 195, rfl⟩
abbrev main_v135 : Ref sig .tc := ⟨.hbm, 196, rfl⟩
abbrev main_v136 : Ref sig .tc := ⟨.hbm, 197, rfl⟩
abbrev main_cst_36 : Ref sig .tc := ⟨.hbm, 198, rfl⟩
abbrev main_call4_v0 : Ref sig .tc := ⟨.hbm, 199, rfl⟩
abbrev main_call4_v1 : Ref sig .tc := ⟨.hbm, 200, rfl⟩
abbrev main_v137 : Ref sig .tc := ⟨.hbm, 201, rfl⟩
abbrev main_cst_37 : Ref sig .tc := ⟨.hbm, 202, rfl⟩
abbrev main_v138 : Ref sig .tc := ⟨.hbm, 203, rfl⟩
abbrev main_v139 : Ref sig .tc := ⟨.hbm, 204, rfl⟩
abbrev main_cst_38 : Ref sig .tc := ⟨.hbm, 205, rfl⟩
abbrev main_v140 : Ref sig .tc := ⟨.hbm, 206, rfl⟩
abbrev main_v141 : Ref sig .tc := ⟨.hbm, 207, rfl⟩
abbrev main_cst_39 : Ref sig .tc := ⟨.hbm, 208, rfl⟩
abbrev main_call5_v0 : Ref sig .tc := ⟨.hbm, 209, rfl⟩
abbrev main_call5_v1 : Ref sig .tc := ⟨.hbm, 210, rfl⟩
abbrev main_v142 : Ref sig .tc := ⟨.hbm, 211, rfl⟩
abbrev main_cst_40 : Ref sig .tc := ⟨.hbm, 212, rfl⟩
abbrev main_v143 : Ref sig .tc := ⟨.hbm, 213, rfl⟩
abbrev main_v144 : Ref sig .tc := ⟨.hbm, 214, rfl⟩
abbrev main_c_41 : Ref sig .tc := ⟨.hbm, 215, rfl⟩
abbrev main_v145 : Ref sig .tc := ⟨.hbm, 216, rfl⟩
abbrev main_v146 : Ref sig .tc := ⟨.hbm, 217, rfl⟩
abbrev main_c_42 : Ref sig .tc := ⟨.hbm, 218, rfl⟩
abbrev main_v147 : Ref sig .tc := ⟨.hbm, 219, rfl⟩
abbrev main_v148 : Ref sig .tc := ⟨.hbm, 220, rfl⟩
abbrev main_v149 : Ref sig .tc := ⟨.hbm, 221, rfl⟩
abbrev main_v150 : Ref sig .tc := ⟨.hbm, 222, rfl⟩
abbrev main_v151 : Ref sig .tc := ⟨.hbm, 223, rfl⟩
abbrev main_c_43 : Ref sig .tc := ⟨.hbm, 224, rfl⟩
abbrev main_v152 : Ref sig .tc := ⟨.hbm, 225, rfl⟩
abbrev main_v153 : Ref sig .tc := ⟨.hbm, 226, rfl⟩
abbrev main_c_44 : Ref sig .tc := ⟨.hbm, 227, rfl⟩
abbrev main_v154 : Ref sig .tc := ⟨.hbm, 228, rfl⟩
abbrev main_v155 : Ref sig .tc := ⟨.hbm, 229, rfl⟩
abbrev main_v156 : Ref sig .tc := ⟨.hbm, 230, rfl⟩
abbrev main_v157 : Ref sig .tc := ⟨.hbm, 231, rfl⟩
abbrev main_v158 : Ref sig .tc := ⟨.hbm, 232, rfl⟩
abbrev main_v159 : Ref sig .tc := ⟨.hbm, 233, rfl⟩
abbrev main_v160 : Ref sig .tc := ⟨.hbm, 234, rfl⟩
abbrev main_v161 : Ref sig .tc := ⟨.hbm, 235, rfl⟩
abbrev main_cst_45 : Ref sig .tc := ⟨.hbm, 236, rfl⟩
abbrev main_v162 : Ref sig .tc := ⟨.hbm, 237, rfl⟩
abbrev main_v163 : Ref sig .tc := ⟨.hbm, 238, rfl⟩
abbrev main_v164 : Ref sig .tc := ⟨.hbm, 239, rfl⟩
abbrev main_v165 : Ref sig .tc := ⟨.hbm, 240, rfl⟩
abbrev main_v166 : Ref sig .tc := ⟨.hbm, 241, rfl⟩
abbrev main_v167 : Ref sig .tc := ⟨.hbm, 242, rfl⟩
abbrev main_cst_46 : Ref sig .tc := ⟨.hbm, 243, rfl⟩
abbrev main_v168 : Ref sig .tc := ⟨.hbm, 244, rfl⟩
abbrev main_cst_47 : Ref sig .tc := ⟨.hbm, 245, rfl⟩
abbrev main_v169 : Ref sig .tc := ⟨.hbm, 246, rfl⟩
abbrev main_v170 : Ref sig .tc := ⟨.hbm, 247, rfl⟩
abbrev main_v171 : Ref sig .tc := ⟨.hbm, 248, rfl⟩
abbrev main_cst_48 : Ref sig .tc := ⟨.hbm, 249, rfl⟩
abbrev main_v172 : Ref sig .tc := ⟨.hbm, 250, rfl⟩
abbrev main_v173 : Ref sig .tc := ⟨.hbm, 251, rfl⟩
abbrev main_v174 : Ref sig .tc := ⟨.hbm, 252, rfl⟩
abbrev main_cst_49 : Ref sig .tc := ⟨.hbm, 253, rfl⟩
abbrev main_v175 : Ref sig .tc := ⟨.hbm, 254, rfl⟩
abbrev main_v176 : Ref sig .tc := ⟨.hbm, 255, rfl⟩
abbrev main_cst_50 : Ref sig .tc := ⟨.hbm, 256, rfl⟩
abbrev main_call6_v0 : Ref sig .tc := ⟨.hbm, 257, rfl⟩
abbrev main_call6_v1 : Ref sig .tc := ⟨.hbm, 258, rfl⟩
abbrev main_v177 : Ref sig .tc := ⟨.hbm, 259, rfl⟩
abbrev main_cst_51 : Ref sig .tc := ⟨.hbm, 260, rfl⟩
abbrev main_v178 : Ref sig .tc := ⟨.hbm, 261, rfl⟩
abbrev main_v179 : Ref sig .tc := ⟨.hbm, 262, rfl⟩
abbrev main_cst_52 : Ref sig .tc := ⟨.hbm, 263, rfl⟩
abbrev main_v180 : Ref sig .tc := ⟨.hbm, 264, rfl⟩
abbrev main_v181 : Ref sig .tc := ⟨.hbm, 265, rfl⟩
abbrev main_cst_53 : Ref sig .tc := ⟨.hbm, 266, rfl⟩
abbrev main_call7_v0 : Ref sig .tc := ⟨.hbm, 267, rfl⟩
abbrev main_call7_v1 : Ref sig .tc := ⟨.hbm, 268, rfl⟩
abbrev main_v182 : Ref sig .tc := ⟨.hbm, 269, rfl⟩
abbrev main_cst_54 : Ref sig .tc := ⟨.hbm, 270, rfl⟩
abbrev main_v183 : Ref sig .tc := ⟨.hbm, 271, rfl⟩
abbrev main_v184 : Ref sig .tc := ⟨.hbm, 272, rfl⟩
abbrev main_c_55 : Ref sig .tc := ⟨.hbm, 273, rfl⟩
abbrev main_v185 : Ref sig .tc := ⟨.hbm, 274, rfl⟩
abbrev main_v186 : Ref sig .tc := ⟨.hbm, 275, rfl⟩
abbrev main_c_56 : Ref sig .tc := ⟨.hbm, 276, rfl⟩
abbrev main_v187 : Ref sig .tc := ⟨.hbm, 277, rfl⟩
abbrev main_v188 : Ref sig .tc := ⟨.hbm, 278, rfl⟩
abbrev main_v189 : Ref sig .tc := ⟨.hbm, 279, rfl⟩
abbrev main_v190 : Ref sig .tc := ⟨.hbm, 280, rfl⟩
abbrev main_v191 : Ref sig .tc := ⟨.hbm, 281, rfl⟩
abbrev main_c_57 : Ref sig .tc := ⟨.hbm, 282, rfl⟩
abbrev main_v192 : Ref sig .tc := ⟨.hbm, 283, rfl⟩
abbrev main_v193 : Ref sig .tc := ⟨.hbm, 284, rfl⟩
abbrev main_c_58 : Ref sig .tc := ⟨.hbm, 285, rfl⟩
abbrev main_v194 : Ref sig .tc := ⟨.hbm, 286, rfl⟩
abbrev main_v195 : Ref sig .tc := ⟨.hbm, 287, rfl⟩
abbrev main_v196 : Ref sig .tc := ⟨.hbm, 288, rfl⟩
abbrev main_v197 : Ref sig .tc := ⟨.hbm, 289, rfl⟩
abbrev main_v198 : Ref sig .tc := ⟨.hbm, 290, rfl⟩
abbrev main_v199 : Ref sig .tc := ⟨.hbm, 291, rfl⟩
abbrev main_v200 : Ref sig .tc := ⟨.hbm, 292, rfl⟩
abbrev main_v201 : Ref sig .tc := ⟨.hbm, 293, rfl⟩
abbrev main_cst_59 : Ref sig .tc := ⟨.hbm, 294, rfl⟩
abbrev main_v202 : Ref sig .tc := ⟨.hbm, 295, rfl⟩
abbrev main_v203 : Ref sig .tc := ⟨.hbm, 296, rfl⟩
abbrev main_v204 : Ref sig .tc := ⟨.hbm, 297, rfl⟩
abbrev main_v205 : Ref sig .tc := ⟨.hbm, 298, rfl⟩
abbrev main_v206 : Ref sig .tc := ⟨.hbm, 299, rfl⟩
abbrev main_v207 : Ref sig .tc := ⟨.hbm, 300, rfl⟩
abbrev main_v208 : Ref sig .tc := ⟨.hbm, 301, rfl⟩
abbrev main_v209 : Ref sig .tc := ⟨.hbm, 302, rfl⟩
abbrev main_cst_60 : Ref sig .tc := ⟨.hbm, 303, rfl⟩
abbrev main_v210 : Ref sig .tc := ⟨.hbm, 304, rfl⟩
abbrev main_v211 : Ref sig .tc := ⟨.hbm, 305, rfl⟩
abbrev main_v212 : Ref sig .tc := ⟨.hbm, 306, rfl⟩
abbrev main_v213 : Ref sig .tc := ⟨.hbm, 307, rfl⟩
abbrev main_v214 : Ref sig .tc := ⟨.hbm, 308, rfl⟩
abbrev main_cst_61 : Ref sig .tc := ⟨.hbm, 309, rfl⟩
abbrev main_v215 : Ref sig .tc := ⟨.hbm, 310, rfl⟩
abbrev main_v216 : Ref sig .tc := ⟨.hbm, 311, rfl⟩
abbrev main_v217 : Ref sig .tc := ⟨.hbm, 312, rfl⟩
abbrev main_v218 : Ref sig .tc := ⟨.hbm, 313, rfl⟩
abbrev main_v219 : Ref sig .tc := ⟨.hbm, 314, rfl⟩

abbrev nD : Nat := 1
abbrev τ : Topo := Topo.v7x

variable {F : FTy → Type} [FloatOps F]

class Facts₀ : Prop where
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S1000000x1_S1000000x64_0_1 : S1000000x1.BroadcastsInDim S1000000x64 (![0, 1] : Fin 2 → Fin S1000000x64.rank)
  bcast_S1700000x1_S1700000x10_0_1 : S1700000x1.BroadcastsInDim S1700000x10 (![0, 1] : Fin 2 → Fin S1700000x10.rank)
  bcast_S_S100000x10 : S_.BroadcastsInDim S100000x10 (![] : Fin 0 → Fin S100000x10.rank)
  bcast_S100000x1_S100000x10_0_1 : S100000x1.BroadcastsInDim S100000x10 (![0, 1] : Fin 2 → Fin S100000x10.rank)
  bcast_S1000000x1_S1000000x10_0_1 : S1000000x1.BroadcastsInDim S1000000x10 (![0, 1] : Fin 2 → Fin S1000000x10.rank)
  dot_S100000x512_S512x1_S100000x1_1_0_0_1_n_n_wf : DotDims.WF S100000x512 S512x1 S100000x1 [1] [0] [0] [1] [] []
  dot_S100000x512_S512x64_S100000x64_1_0_0_1_n_n_wf : DotDims.WF S100000x512 S512x64 S100000x64 [1] [0] [0] [1] [] []
  scatter_S100000_S1700000x1_S1700000_n_0_0_1_wf : ScatterDims.WF S100000 S1700000x1 S1700000 [] [0] [0] 1
  gather_S100000x64_S1700000x1_S1700000x64_1_0_n_n_0_1_164_wf : GatherDims.WF S100000x64 S1700000x1 S1700000x64 [1] [0] [] [0] [] 1 ![1, 64]
  gather_S100000_S1700000x1_S1700000_n_0_n_n_0_1_1_wf : GatherDims.WF S100000 S1700000x1 S1700000 [] [0] [] [0] [] 1 ![1]
  scatter_S100000x64_S1700000x1_S1700000x64_1_0_0_1_wf : ScatterDims.WF S100000x64 S1700000x1 S1700000x64 [1] [0] [0] 1
  scatter_S100000_S1000000x1_S1000000_n_0_0_1_wf : ScatterDims.WF S100000 S1000000x1 S1000000 [] [0] [0] 1
  gather_S100000x64_S1000000x1_S1000000x64_1_0_n_n_0_1_164_wf : GatherDims.WF S100000x64 S1000000x1 S1000000x64 [1] [0] [] [0] [] 1 ![1, 64]
  gather_S100000_S1000000x1_S1000000_n_0_n_n_0_1_1_wf : GatherDims.WF S100000 S1000000x1 S1000000 [] [0] [] [0] [] 1 ![1]
  scatter_S100000x64_S1000000x1_S1000000x64_1_0_0_1_wf : ScatterDims.WF S100000x64 S1000000x1 S1000000x64 [1] [0] [0] 1
  dot_S100000x64_S64x1_S100000x1_1_0_0_1_n_n_wf : DotDims.WF S100000x64 S64x1 S100000x1 [1] [0] [0] [1] [] []
  dot_S100000x64_S64x10_S100000x10_1_0_0_1_n_n_wf : DotDims.WF S100000x64 S64x10 S100000x10 [1] [0] [0] [1] [] []
  gather_S100000x10_S1700000x1_S1700000x10_1_0_n_n_0_1_110_wf : GatherDims.WF S100000x10 S1700000x1 S1700000x10 [1] [0] [] [0] [] 1 ![1, 10]
  scatter_S100000x10_S1700000x1_S1700000x10_1_0_0_1_wf : ScatterDims.WF S100000x10 S1700000x1 S1700000x10 [1] [0] [0] 1
  gather_S100000x10_S1000000x1_S1000000x10_1_0_n_n_0_1_110_wf : GatherDims.WF S100000x10 S1000000x1 S1000000x10 [1] [0] [] [0] [] 1 ![1, 10]
  scatter_S100000x10_S1000000x1_S1000000x10_1_0_0_1_wf : ScatterDims.WF S100000x10 S1000000x1 S1000000x10 [1] [0] [0] 1

variable [Facts₀]

def dot_S100000x512_S512x1_S100000x1_1_0_0_1_n_n : DotDims S100000x512 S512x1 S100000x1 where
  lhsContracting := [1]
  rhsContracting := [0]
  lhsNonContracting := [0]
  rhsNonContracting := [1]
  lhsBatch := []
  rhsBatch := []
  wf := dot_S100000x512_S512x1_S100000x1_1_0_0_1_n_n_wf
def dot_S100000x512_S512x64_S100000x64_1_0_0_1_n_n : DotDims S100000x512 S512x64 S100000x64 where
  lhsContracting := [1]
  rhsContracting := [0]
  lhsNonContracting := [0]
  rhsNonContracting := [1]
  lhsBatch := []
  rhsBatch := []
  wf := dot_S100000x512_S512x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def gather_S100000_S1000000x1_S1000000_n_0_n_n_0_1_1 : GatherDims S100000 S1000000x1 S1000000 where
  offsetDims := []
  collapsedSliceDims := [0]
  operandBatchingDims := []
  startIndicesBatchingDims := []
  startIndexMap := [0]
  indexVectorDim := 1
  sliceSizes := ![1]
  wf := gather_S100000_S1000000x1_S1000000_n_0_n_n_0_1_1_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf
def dot_S100000x64_S64x10_S100000x10_1_0_0_1_n_n : DotDims S100000x64 S64x10 S100000x10 where
  lhsContracting := [1]
  rhsContracting := [0]
  lhsNonContracting := [0]
  rhsNonContracting := [1]
  lhsBatch := []
  rhsBatch := []
  wf := dot_S100000x64_S64x10_S100000x10_1_0_0_1_n_n_wf
def gather_S100000x10_S1700000x1_S1700000x10_1_0_n_n_0_1_110 : GatherDims S100000x10 S1700000x1 S1700000x10 where
  offsetDims := [1]
  collapsedSliceDims := [0]
  operandBatchingDims := []
  startIndicesBatchingDims := []
  startIndexMap := [0]
  indexVectorDim := 1
  sliceSizes := ![1, 10]
  wf := gather_S100000x10_S1700000x1_S1700000x10_1_0_n_n_0_1_110_wf
def scatter_S100000x10_S1700000x1_S1700000x10_1_0_0_1 : ScatterDims S100000x10 S1700000x1 S1700000x10 where
  updateWindowDims := [1]
  insertedWindowDims := [0]
  scatterDimsToOperandDims := [0]
  indexVectorDim := 1
  wf := scatter_S100000x10_S1700000x1_S1700000x10_1_0_0_1_wf
def gather_S100000x10_S1000000x1_S1000000x10_1_0_n_n_0_1_110 : GatherDims S100000x10 S1000000x1 S1000000x10 where
  offsetDims := [1]
  collapsedSliceDims := [0]
  operandBatchingDims := []
  startIndicesBatchingDims := []
  startIndexMap := [0]
  indexVectorDim := 1
  sliceSizes := ![1, 10]
  wf := gather_S100000x10_S1000000x1_S1000000x10_1_0_n_n_0_1_110_wf
def scatter_S100000x10_S1000000x1_S1000000x10_1_0_0_1 : ScatterDims S100000x10 S1000000x1 S1000000x10 where
  updateWindowDims := [1]
  insertedWindowDims := [0]
  scatterDimsToOperandDims := [0]
  indexVectorDim := 1
  wf := scatter_S100000x10_S1000000x1_S1000000x10_1_0_0_1_wf

class Facts : Prop extends Facts₀ where

variable [Facts]
-- ==== Proof.ProjFirst.lean ====
import proofs.«167143_j12463995093672_1_alg».proof.Proof.Gen.KernelIdeal.Launch
import proofs.«167143_j12463995093672_1_alg».proof.Proof.Gen.KernelIdeal.Skeleton
import proofs.«167143_j12463995093672_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The projection call number 0: one row block of the input times the joined weight matrix

At a grid point the body reads a block of 4000 rows of the input, the whole joined weight matrix (the
weights, the gate's score column and the damping column side by side) and the two one-element biases, and
writes three blocks: the first columns of the product, the logistic of the gate column plus its bias, and
the damping column plus its bias. -/

/-- Window `w`'s block at point `t`, read off its array as the call finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input's current buffer holds its block at every point, whether it was fetched there or not (an
    unfetched window's block index has not moved), for any proof data over these arrays whose body leaves
    the inputs in place. -/
theorem held0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

theorem held0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

theorem held0_2_of {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)

theorem held0_3_of {c : Dev nD} (dat : Dat τ (Elt F) Unit ℕ (UR sig nD τ) ℕ cfg0 c) (hA : dat.A 3 = V c (Pipeline.arrRef spec0 3))
    (hafter : ∀ t, dat.after 3 t = blk0 V c 3 t) (t : Fin cfg0.N) (d) : dat.before 3 t d = blk0 V c 3 t :=
  (dat.before_in_eq_fetched 3 rfl (fun _ => rfl) (fun _ _ _ => rfl) (fun t => by rw [hafter]; unfold Dat.blockOf blk0; rw [hA]; try rfl) t d).trans
    (by unfold Dat.fetched Dat.blockOf blk0; rw [hA]; try rfl)

/-! ## The rectangles the body loads and stores through: each is a whole buffer -/

abbrev rIn0 : Rect S4000x512 := Rect.unit (s := S4000x512) ![0, 0] S4000x512.size inb_S4000x512_S4000x512_0_0
abbrev rWt0 : Rect S512x66 := Rect.unit (s := S512x66) ![0, 0] S512x66.size inb_S512x66_S512x66_0_0
abbrev rOne0 : Rect S1x1 := Rect.unit (s := S1x1) ![0, 0] S1x1.size inb_S1x1_S1x1_0_0
abbrev rX0 : Rect S4000x64 := Rect.unit (s := S4000x64) ![0, 0] S4000x64.size inb_S4000x64_S4000x64_0_0
abbrev rCol0 : Rect S4000x1 := Rect.unit (s := S4000x1) ![0, 0] S4000x1.size inb_S4000x1_S4000x1_0_0

/-! ## What the body leaves in each output buffer: one whole-buffer store each -/

/-- The product's leading columns. -/
def xOut0 (x0 : Vec F S4000x512 .f32) (x1 : Vec F S512x66 .f32) : Vec F S4000x64 .f32 :=
  View.canon [⟨rX0, k0_pay2 (View.ld x0 rIn0) (View.ld x1 rWt0)⟩]
/-- The gate: the logistic of the gate column plus the bias. -/
def sOut0 (x0 : Vec F S4000x512 .f32) (x1 : Vec F S512x66 .f32) (x2 : Vec F S1x1 .f32) : Vec F S4000x1 .f32 :=
  View.canon [⟨rCol0, k0_pay4 (View.ld x0 rIn0) (View.ld x1 rWt0) (View.ld x2 rOne0)⟩]
/-- The damping column plus its bias. -/
def dOut0 (x0 : Vec F S4000x512 .f32) (x1 : Vec F S512x66 .f32) (x3 : Vec F S1x1 .f32) : Vec F S4000x1 .f32 :=
  View.canon [⟨rCol0, k0_pay3 (View.ld x0 rIn0) (View.ld x1 rWt0) (View.ld x3 rOne0)⟩]

theorem coverX0 (p0 : Vec F S4000x64 .f32) (y : S4000x64.Idx) :
    ∃ pc ∈ ([⟨rX0, p0⟩] : List (View.Piece (Elt F) S4000x64 .f32)), y ∈ pc.1.set :=
  View.cover_of_tiled [⟨rX0, p0⟩] S4000x64.size (by rfl) y
theorem coverCol0 (p0 : Vec F S4000x1 .f32) (y : S4000x1.Idx) :
    ∃ pc ∈ ([⟨rCol0, p0⟩] : List (View.Piece (Elt F) S4000x1 .f32)), y ∈ pc.1.set :=
  View.cover_of_tiled [⟨rCol0, p0⟩] S4000x1.size (by rfl) y

/-! ## The body's triple -/

set_option maxHeartbeats 4000000 in
/-- On whole buffers, the inputs at read contents `x0 … x3` and the outputs at anything, the body runs to its
    return with the inputs as they were and each output at its function of the inputs. -/
theorem sound_kernel0 (c : Dev nD) (E : Set ℕ) (i : grid0.Coords)
    (arg1 : Memref sig .tc .vmem S4000x512 .f32) (harg1 : arg1.IsWhole) (arg2 : Memref sig .tc .vmem S512x66 .f32) (harg2 : arg2.IsWhole)
    (arg3 : Memref sig .tc .vmem S1x1 .f32) (harg3 : arg3.IsWhole) (arg4 : Memref sig .tc .vmem S1x1 .f32) (harg4 : arg4.IsWhole)
    (arg5 : Memref sig .tc .vmem S4000x64 .f32) (harg5 : arg5.IsWhole) (arg6 : Memref sig .tc .vmem S4000x1 .f32) (harg6 : arg6.IsWhole)
    (arg7 : Memref sig .tc .vmem S4000x1 .f32) (harg7 : arg7.IsWhole)
    (x0 : Vec F S4000x512 .f32) (x1 : Vec F S512x66 .f32) (x2 : Vec F S1x1 .f32) (x3 : Vec F S1x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (xOut0 x0 x1)
            ∗ owns (c : Thread nD τ) arg6 fullShare (sOut0 x0 x1 x2) ∗ owns (c : Thread nD τ) arg7 fullShare (dOut0 x0 x1 x3)) -∗ K ⟨⟩))
      ⊢ wp frame (wpE (defs₀ (F := F)) Variants.none c none) E (cc0__proj_kernel i arg1 harg1 arg2 harg2 arg3 harg3 arg4 harg4 arg5 harg5 arg6 harg6 arg7 harg7) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (coverX0 _)
  isplitl [H5]
  · iexists _; isplitr
    swap; · iexact H5
    ipureintro
    exact View.read_writes_eq_canon _ _ _ (coverCol0 _)
  iexists _; isplitr
  swap; · iexact H6
  ipureintro
  exact View.read_writes_eq_canon _ _ _ (coverCol0 _)

/-! ## The proof data of the call -/

/-- The arrays as the call finds them; after the body at point `t` each input's buffer at its block and each
    output's at its function of the input blocks; the invariant that of a body with no state of its own;
    nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => xOut0 (blk0 V c 0 t) (blk0 V c 1 t)
    | ⟨5, _⟩ => sOut0 (blk0 V c 0 t) (blk0 V c 1 t) (blk0 V c 2 t)
    | ⟨6, _⟩ => dOut0 (blk0 V c 0 t) (blk0 V c 1 t) (blk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = blk0 V c 3 t := by dsimp only [dat0]
theorem after0_4 (c : Dev nD) (t : Fin cfg0.N) : (dat0 V c).after 4 t = xOut0 (blk0 V c 0 t) (blk0 V c 1 t) := by dsimp only [dat0]
theorem after0_5 (c : Dev nD) (t : Fin cfg0.N) : (dat0 V c).after 5 t = sOut0 (blk0 V c 0 t) (blk0 V c 1 t) (blk0 V c 2 t) := by dsimp only [dat0]
theorem after0_6 (c : Dev nD) (t : Fin cfg0.N) : (dat0 V c).after 6 t = dOut0 (blk0 V c 0 t) (blk0 V c 1 t) (blk0 V c 3 t) := by dsimp only [dat0]

theorem held0_0 (c : Dev nD) (t : Fin cfg0.N) (d) : (dat0 V c).before 0 t d = blk0 V c 0 t :=
  held0_0_of V (dat0 V c) (A_eq0 V c 0) (after0_0 V c) t d
theorem held0_1 (c : Dev nD) (t : Fin cfg0.N) (d) : (dat0 V c).before 1 t d = blk0 V c 1 t :=
  held0_1_of V (dat0 V c) (A_eq0 V c 1) (after0_1 V c) t d
theorem held0_2 (c : Dev nD) (t : Fin cfg0.N) (d) : (dat0 V c).before 2 t d = blk0 V c 2 t :=
  held0_2_of V (dat0 V c) (A_eq0 V c 2) (after0_2 V c) t d
theorem held0_3 (c : Dev nD) (t : Fin cfg0.N) (d) : (dat0 V c).before 3 t d = blk0 V c 3 t :=
  held0_3_of V (dat0 V c) (A_eq0 V c 3) (after0_3 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' buffers hold their blocks, so the body's triple applies; the invariant
    and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [held0_0, held0_1, held0_2, held0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _ (blk0 V c 0 t) (blk0 V c 1 t) (blk0 V c 2 t) (blk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Frm

end
-- ==== Proof.MixFirst.lean ====
import proofs.«167143_j12463995093672_1_alg».proof.Proof.Gen.KernelIdeal.Launch
import proofs.«167143_j12463995093672_1_alg».proof.Proof.Gen.KernelIdeal.Skeleton
import proofs.«167143_j12463995093672_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The combining call number 1: the gated mix of the two aggregates and the damped projection

At a grid point the body reads a block of 4000 rows of the gate column, of the two aggregates, of the damping
column and of the projection, and writes the block of `s · a + (1 − s) · k + (γ · d) · x`, the columns
`s` and `d` spread along each row. -/

/-- Window `w`'s block at point `t`, read off its array as the call finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input's current buffer holds its block at every point, for any proof data over these arrays whose body
    leaves the inputs in place. -/
theorem held1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

theorem held1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

theorem held1_2_of {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)

theorem held1_3_of {c : Dev nD} (dat : Dat τ (Elt F) Unit ℕ (UR sig nD τ) ℕ cfg1 c) (hA : dat.A 3 = V c (Pipeline.arrRef spec1 3))
    (hafter : ∀ t, dat.after 3 t = blk1 V c 3 t) (t : Fin cfg1.N) (d) : dat.before 3 t d = blk1 V c 3 t :=
  (dat.before_in_eq_fetched 3 rfl (fun _ => rfl) (fun _ _ _ => rfl) (fun t => by rw [hafter]; unfold Dat.blockOf blk1; rw [hA]; try rfl) t d).trans
    (by unfold Dat.fetched Dat.blockOf blk1; rw [hA]; try rfl)

theorem held1_4_of {c : Dev nD} (dat : Dat τ (Elt F) Unit ℕ (UR sig nD τ) ℕ cfg1 c) (hA : dat.A 4 = V c (Pipeline.arrRef spec1 4))
    (hafter : ∀ t, dat.after 4 t = blk1 V c 4 t) (t : Fin cfg1.N) (d) : dat.before 4 t d = blk1 V c 4 t :=
  (dat.before_in_eq_fetched 4 rfl (fun _ => rfl) (fun _ _ _ => rfl) (fun t => by rw [hafter]; unfold Dat.blockOf blk1; rw [hA]; try rfl) t d).trans
    (by unfold Dat.fetched Dat.blockOf blk1; rw [hA]; try rfl)

/-! ## The rectangles the body loads and stores through: each is a whole buffer -/

abbrev rCol1 : Rect S4000x1 := Rect.unit (s := S4000x1) ![0, 0] S4000x1.size inb_S4000x1_S4000x1_0_0
abbrev rRow1 : Rect S4000x64 := Rect.unit (s := S4000x64) ![0, 0] S4000x64.size inb_S4000x64_S4000x64_0_0

/-! ## What the body leaves in the output buffer: one whole-buffer store -/

/-- The mix, from the gate `x0`, the two aggregates `x1`, `x2`, the damping column `x3` and the projection `x4`. -/
def mixOut1 (x0 : Vec F S4000x1 .f32) (x1 : Vec F S4000x64 .f32) (x2 : Vec F S4000x64 .f32) (x3 : Vec F S4000x1 .f32) (x4 : Vec F S4000x64 .f32) : Vec F S4000x64 .f32 :=
  View.canon [⟨rRow1, k1_pay1 (View.ld x0 rCol1) (View.ld x3 rCol1) (View.ld x1 rRow1) (View.ld x2 rRow1) (View.ld x4 rRow1)⟩]

theorem coverRow1 (p0 : Vec F S4000x64 .f32) (y : S4000x64.Idx) :
    ∃ pc ∈ ([⟨rRow1, p0⟩] : List (View.Piece (Elt F) S4000x64 .f32)), y ∈ pc.1.set :=
  View.cover_of_tiled [⟨rRow1, p0⟩] S4000x64.size (by rfl) y

/-! ## The body's triple -/

set_option maxHeartbeats 4000000 in
/-- On whole buffers, the inputs at read contents `x0 … x4` and the output at anything, the body runs to its
    return with the inputs as they were and the output at the mix of the inputs. -/
theorem sound_kernel1 (c : Dev nD) (E : Set ℕ) (i : grid1.Coords)
    (arg1 : Memref sig .tc .vmem S4000x1 .f32) (harg1 : arg1.IsWhole) (arg2 : Memref sig .tc .vmem S4000x64 .f32) (harg2 : arg2.IsWhole)
    (arg3 : Memref sig .tc .vmem S4000x64 .f32) (harg3 : arg3.IsWhole) (arg4 : Memref sig .tc .vmem S4000x1 .f32) (harg4 : arg4.IsWhole)
    (arg5 : Memref sig .tc .vmem S4000x64 .f32) (harg5 : arg5.IsWhole) (arg6 : Memref sig .tc .vmem S4000x64 .f32) (harg6 : arg6.IsWhole)
    (x0 : Vec F S4000x1 .f32) (x1 : Vec F S4000x64 .f32) (x2 : Vec F S4000x64 .f32) (x3 : Vec F S4000x1 .f32) (x4 : Vec F S4000x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (mixOut1 x0 x1 x2 x3 x4)) -∗ K ⟨⟩))
      ⊢ wp frame (wpE (defs₀ (F := F)) Variants.none c none) E (cc1__combine_kernel i arg1 harg1 arg2 harg2 arg3 harg3 arg4 harg4 arg5 harg5 arg6 harg6) K := by
  simp only [cc1__combine_kernel_eq_skeleton]; unfold cc1__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (coverRow1 _)

/-! ## The proof data of the call -/

def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => mixOut1 (blk1 V c 0 t) (blk1 V c 1 t) (blk1 V c 2 t) (blk1 V c 3 t) (blk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) : (dat1 V c).after 4 t = blk1 V c 4 t := by dsimp only [dat1]
theorem after1_5 (c : Dev nD) (t : Fin cfg1.N) : (dat1 V c).after 5 t = mixOut1 (blk1 V c 0 t) (blk1 V c 1 t) (blk1 V c 2 t) (blk1 V c 3 t) (blk1 V c 4 t) := by dsimp only [dat1]

theorem held1_0 (c : Dev nD) (t : Fin cfg1.N) (d) : (dat1 V c).before 0 t d = blk1 V c 0 t :=
  held1_0_of V (dat1 V c) (A_eq1 V c 0) (after1_0 V c) t d
theorem held1_1 (c : Dev nD) (t : Fin cfg1.N) (d) : (dat1 V c).before 1 t d = blk1 V c 1 t :=
  held1_1_of V (dat1 V c) (A_eq1 V c 1) (after1_1 V c) t d
theorem held1_2 (c : Dev nD) (t : Fin cfg1.N) (d) : (dat1 V c).before 2 t d = blk1 V c 2 t :=
  held1_2_of V (dat1 V c) (A_eq1 V c 2) (after1_2 V c) t d
theorem held1_3 (c : Dev nD) (t : Fin cfg1.N) (d) : (dat1 V c).before 3 t d = blk1 V c 3 t :=
  held1_3_of V (dat1 V c) (A_eq1 V c 3) (after1_3 V c) t d
theorem held1_4 (c : Dev nD) (t : Fin cfg1.N) (d) : (dat1 V c).before 4 t d = blk1 V c 4 t :=
  held1_4_of V (dat1 V c) (A_eq1 V c 4) (after1_4 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [held1_0, held1_1, held1_2, held1_3, held1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (blk1 V c 0 t) (blk1 V c 1 t) (blk1 V c 2 t) (blk1 V c 3 t) (blk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation1 (c : Dev nD) : BodyObligation (dat1 (F := F) V c) (defs₀ (F := F)) Variants.none () Set.univ := fun t => by
  rw [bigSep_W1, bigSep_W1]
  exact sound_body1 V c t

end Cert.KernelIdeal.Frm

end
-- ==== Proof.ProjSecond.lean ====
import proofs.«167143_j12463995093672_1_alg».proof.Proof.Gen.KernelIdeal.Launch
import proofs.«167143_j12463995093672_1_alg».proof.Proof.Gen.KernelIdeal.Skeleton
import proofs.«167143_j12463995093672_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The projection call number 2: one row block of the input times the joined weight matrix

At a grid point the body reads a block of 4000 rows of the input, the whole joined weight matrix (the
weights, the gate's score column and the damping column side by side) and the two one-element biases, and
writes three blocks: the first columns of the product, the logistic of the gate column plus its bias, and
the damping column plus its bias. -/

/-- Window `w`'s block at point `t`, read off its array as the call finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! An input's current buffer holds its block at every point, whether it was fetched there or not (an
    unfetched window's block index has not moved), for any proof data over these arrays whose body leaves
    the inputs in place. -/
theorem held2_0_of {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)

theorem held2_1_of {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)

theorem held2_2_of {c : Dev nD} (dat : Dat τ (Elt F) Unit ℕ (UR sig nD τ) ℕ cfg2 c) (hA : dat.A 2 = V c (Pipeline.arrRef spec2 2))
    (hafter : ∀ t, dat.after 2 t = blk2 V c 2 t) (t : Fin cfg2.N) (d) : dat.before 2 t d = blk2 V c 2 t :=
  (dat.before_in_eq_fetched 2 rfl (fun _ => rfl) (fun _ _ _ => rfl) (fun t => by rw [hafter]; unfold Dat.blockOf blk2; rw [hA]; try rfl) t d).trans
    (by unfold Dat.fetched Dat.blockOf blk2; rw [hA]; try rfl)

theorem held2_3_of {c : Dev nD} (dat : Dat τ (Elt F) Unit ℕ (UR sig nD τ) ℕ cfg2 c) (hA : dat.A 3 = V c (Pipeline.arrRef spec2 3))
    (hafter : ∀ t, dat.after 3 t = blk2 V c 3 t) (t : Fin cfg2.N) (d) : dat.before 3 t d = blk2 V c 3 t :=
  (dat.before_in_eq_fetched 3 rfl (fun _ => rfl) (fun _ _ _ => rfl) (fun t => by rw [hafter]; unfold Dat.blockOf blk2; rw [hA]; try rfl) t d).trans
    (by unfold Dat.fetched Dat.blockOf blk2; rw [hA]; try rfl)

/-! ## The rectangles the body loads and stores through: each is a whole buffer -/

abbrev rIn2 : Rect S4000x64 := Rect.unit (s := S4000x64) ![0, 0] S4000x64.size inb_S4000x64_S4000x64_0_0
abbrev rWt2 : Rect S64x12 := Rect.unit (s := S64x12) ![0, 0] S64x12.size inb_S64x12_S64x12_0_0
abbrev rOne2 : Rect S1x1 := Rect.unit (s := S1x1) ![0, 0] S1x1.size inb_S1x1_S1x1_0_0
abbrev rX2 : Rect S4000x10 := Rect.unit (s := S4000x10) ![0, 0] S4000x10.size inb_S4000x10_S4000x10_0_0
abbrev rCol2 : Rect S4000x1 := Rect.unit (s := S4000x1) ![0, 0] S4000x1.size inb_S4000x1_S4000x1_0_0

/-! ## What the body leaves in each output buffer: one whole-buffer store each -/

/-- The product's leading columns. -/
def xOut2 (x0 : Vec F S4000x64 .f32) (x1 : Vec F S64x12 .f32) : Vec F S4000x10 .f32 :=
  View.canon [⟨rX2, k2_pay2 (View.ld x0 rIn2) (View.ld x1 rWt2)⟩]
/-- The gate: the logistic of the gate column plus the bias. -/
def sOut2 (x0 : Vec F S4000x64 .f32) (x1 : Vec F S64x12 .f32) (x2 : Vec F S1x1 .f32) : Vec F S4000x1 .f32 :=
  View.canon [⟨rCol2, k2_pay4 (View.ld x0 rIn2) (View.ld x1 rWt2) (View.ld x2 rOne2)⟩]
/-- The damping column plus its bias. -/
def dOut2 (x0 : Vec F S4000x64 .f32) (x1 : Vec F S64x12 .f32) (x3 : Vec F S1x1 .f32) : Vec F S4000x1 .f32 :=
  View.canon [⟨rCol2, k2_pay3 (View.ld x0 rIn2) (View.ld x1 rWt2) (View.ld x3 rOne2)⟩]

theorem coverX2 (p0 : Vec F S4000x10 .f32) (y : S4000x10.Idx) :
    ∃ pc ∈ ([⟨rX2, p0⟩] : List (View.Piece (Elt F) S4000x10 .f32)), y ∈ pc.1.set :=
  View.cover_of_tiled [⟨rX2, p0⟩] S4000x10.size (by rfl) y
theorem coverCol2 (p0 : Vec F S4000x1 .f32) (y : S4000x1.Idx) :
    ∃ pc ∈ ([⟨rCol2, p0⟩] : List (View.Piece (Elt F) S4000x1 .f32)), y ∈ pc.1.set :=
  View.cover_of_tiled [⟨rCol2, p0⟩] S4000x1.size (by rfl) y

/-! ## The body's triple -/

set_option maxHeartbeats 4000000 in
/-- On whole buffers, the inputs at read contents `x0 … x3` and the outputs at anything, the body runs to its
    return with the inputs as they were and each output at its function of the inputs. -/
theorem sound_kernel2 (c : Dev nD) (E : Set ℕ) (i : grid2.Coords)
    (arg1 : Memref sig .tc .vmem S4000x64 .f32) (harg1 : arg1.IsWhole) (arg2 : Memref sig .tc .vmem S64x12 .f32) (harg2 : arg2.IsWhole)
    (arg3 : Memref sig .tc .vmem S1x1 .f32) (harg3 : arg3.IsWhole) (arg4 : Memref sig .tc .vmem S1x1 .f32) (harg4 : arg4.IsWhole)
    (arg5 : Memref sig .tc .vmem S4000x10 .f32) (harg5 : arg5.IsWhole) (arg6 : Memref sig .tc .vmem S4000x1 .f32) (harg6 : arg6.IsWhole)
    (arg7 : Memref sig .tc .vmem S4000x1 .f32) (harg7 : arg7.IsWhole)
    (x0 : Vec F S4000x64 .f32) (x1 : Vec F S64x12 .f32) (x2 : Vec F S1x1 .f32) (x3 : Vec F S1x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (xOut2 x0 x1)
            ∗ owns (c : Thread nD τ) arg6 fullShare (sOut2 x0 x1 x2) ∗ owns (c : Thread nD τ) arg7 fullShare (dOut2 x0 x1 x3)) -∗ K ⟨⟩))
      ⊢ wp frame (wpE (defs₀ (F := F)) Variants.none c none) E (cc2__proj_kernel i arg1 harg1 arg2 harg2 arg3 harg3 arg4 harg4 arg5 harg5 arg6 harg6 arg7 harg7) K := by
  simp only [cc2__proj_kernel_eq_skeleton]; unfold cc2__proj_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (coverX2 _)
  isplitl [H5]
  · iexists _; isplitr
    swap; · iexact H5
    ipureintro
    exact View.read_writes_eq_canon _ _ _ (coverCol2 _)
  iexists _; isplitr
  swap; · iexact H6
  ipureintro
  exact View.read_writes_eq_canon _ _ _ (coverCol2 _)

/-! ## The proof data of the call -/

/-- The arrays as the call finds them; after the body at point `t` each input's buffer at its block and each
    output's at its function of the input blocks; the invariant that of a body with no state of its own;
    nothing owed; full shares. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => blk2 V c 3 t
    | ⟨4, _⟩ => xOut2 (blk2 V c 0 t) (blk2 V c 1 t)
    | ⟨5, _⟩ => sOut2 (blk2 V c 0 t) (blk2 V c 1 t) (blk2 V c 2 t)
    | ⟨6, _⟩ => dOut2 (blk2 V c 0 t) (blk2 V c 1 t) (blk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = blk2 V c 0 t := by dsimp only [dat2]
theorem after2_1 (c : Dev nD) (t : Fin cfg2.N) : (dat2 V c).after 1 t = blk2 V c 1 t := by dsimp only [dat2]
theorem after2_2 (c : Dev nD) (t : Fin cfg2.N) : (dat2 V c).after 2 t = blk2 V c 2 t := by dsimp only [dat2]
theorem after2_3 (c : Dev nD) (t : Fin cfg2.N) : (dat2 V c).after 3 t = blk2 V c 3 t := by dsimp only [dat2]
theorem after2_4 (c : Dev nD) (t : Fin cfg2.N) : (dat2 V c).after 4 t = xOut2 (blk2 V c 0 t) (blk2 V c 1 t) := by dsimp only [dat2]
theorem after2_5 (c : Dev nD) (t : Fin cfg2.N) : (dat2 V c).after 5 t = sOut2 (blk2 V c 0 t) (blk2 V c 1 t) (blk2 V c 2 t) := by dsimp only [dat2]
theorem after2_6 (c : Dev nD) (t : Fin cfg2.N) : (dat2 V c).after 6 t = dOut2 (blk2 V c 0 t) (blk2 V c 1 t) (blk2 V c 3 t) := by dsimp only [dat2]

theorem held2_0 (c : Dev nD) (t : Fin cfg2.N) (d) : (dat2 V c).before 0 t d = blk2 V c 0 t :=
  held2_0_of V (dat2 V c) (A_eq2 V c 0) (after2_0 V c) t d
theorem held2_1 (c : Dev nD) (t : Fin cfg2.N) (d) : (dat2 V c).before 1 t d = blk2 V c 1 t :=
  held2_1_of V (dat2 V c) (A_eq2 V c 1) (after2_1 V c) t d
theorem held2_2 (c : Dev nD) (t : Fin cfg2.N) (d) : (dat2 V c).before 2 t d = blk2 V c 2 t :=
  held2_2_of V (dat2 V c) (A_eq2 V c 2) (after2_2 V c) t d
theorem held2_3 (c : Dev nD) (t : Fin cfg2.N) (d) : (dat2 V c).before 3 t d = blk2 V c 3 t :=
  held2_3_of V (dat2 V c) (A_eq2 V c 3) (after2_3 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the inputs' buffers hold their blocks, so the body's triple applies; the invariant
    and what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [held2_0, held2_1, held2_2, held2_3]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ (grid2.coords t) _ _ _ _ _ _ _ _ _ _ _ _ _ _ (blk2 V c 0 t) (blk2 V c 1 t) (blk2 V c 2 t) (blk2 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Frm

end
-- ==== Proof.MixSecond.lean ====
import proofs.«167143_j12463995093672_1_alg».proof.Proof.Gen.KernelIdeal.Launch
import proofs.«167143_j12463995093672_1_alg».proof.Proof.Gen.KernelIdeal.Skeleton
import proofs.«167143_j12463995093672_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The combining call number 3: the gated mix of the two aggregates and the damped projection

At a grid point the body reads a block of 4000 rows of the gate column, of the two aggregates, of the damping
column and of the projection, and writes the block of `s · a + (1 − s) · k + (γ · d) · x`, the columns
`s` and `d` spread along each row. -/

/-- Window `w`'s block at point `t`, read off its array as the call finds it. -/
def blk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! An input's current buffer holds its block at every point, for any proof data over these arrays whose body
    leaves the inputs in place. -/
theorem held3_0_of {c : Dev nD} (dat : Dat τ (Elt F) Unit ℕ (UR sig nD τ) ℕ cfg3 c) (hA : dat.A 0 = V c (Pipeline.arrRef spec3 0))
    (hafter : ∀ t, dat.after 0 t = blk3 V c 0 t) (t : Fin cfg3.N) (d) : dat.before 0 t d = blk3 V c 0 t :=
  (dat.before_in_eq_fetched 0 rfl (fun _ => rfl) (fun _ _ _ => rfl) (fun t => by rw [hafter]; unfold Dat.blockOf blk3; rw [hA]; try rfl) t d).trans
    (by unfold Dat.fetched Dat.blockOf blk3; rw [hA]; try rfl)

theorem held3_1_of {c : Dev nD} (dat : Dat τ (Elt F) Unit ℕ (UR sig nD τ) ℕ cfg3 c) (hA : dat.A 1 = V c (Pipeline.arrRef spec3 1))
    (hafter : ∀ t, dat.after 1 t = blk3 V c 1 t) (t : Fin cfg3.N) (d) : dat.before 1 t d = blk3 V c 1 t :=
  (dat.before_in_eq_fetched 1 rfl (fun _ => rfl) (fun _ _ _ => rfl) (fun t => by rw [hafter]; unfold Dat.blockOf blk3; rw [hA]; try rfl) t d).trans
    (by unfold Dat.fetched Dat.blockOf blk3; rw [hA]; try rfl)

theorem held3_2_of {c : Dev nD} (dat : Dat τ (Elt F) Unit ℕ (UR sig nD τ) ℕ cfg3 c) (hA : dat.A 2 = V c (Pipeline.arrRef spec3 2))
    (hafter : ∀ t, dat.after 2 t = blk3 V c 2 t) (t : Fin cfg3.N) (d) : dat.before 2 t d = blk3 V c 2 t :=
  (dat.before_in_eq_fetched 2 rfl (fun _ => rfl) (fun _ _ _ => rfl) (fun t => by rw [hafter]; unfold Dat.blockOf blk3; rw [hA]; try rfl) t d).trans
    (by unfold Dat.fetched Dat.blockOf blk3; rw [hA]; try rfl)

theorem held3_3_of {c : Dev nD} (dat : Dat τ (Elt F) Unit ℕ (UR sig nD τ) ℕ cfg3 c) (hA : dat.A 3 = V c (Pipeline.arrRef spec3 3))
    (hafter : ∀ t, dat.after 3 t = blk3 V c 3 t) (t : Fin cfg3.N) (d) : dat.before 3 t d = blk3 V c 3 t :=
  (dat.before_in_eq_fetched 3 rfl (fun _ => rfl) (fun _ _ _ => rfl) (fun t => by rw [hafter]; unfold Dat.blockOf blk3; rw [hA]; try rfl) t d).trans
    (by unfold Dat.fetched Dat.blockOf blk3; rw [hA]; try rfl)

theorem held3_4_of {c : Dev nD} (dat : Dat τ (Elt F) Unit ℕ (UR sig nD τ) ℕ cfg3 c) (hA : dat.A 4 = V c (Pipeline.arrRef spec3 4))
    (hafter : ∀ t, dat.after 4 t = blk3 V c 4 t) (t : Fin cfg3.N) (d) : dat.before 4 t d = blk3 V c 4 t :=
  (dat.before_in_eq_fetched 4 rfl (fun _ => rfl) (fun _ _ _ => rfl) (fun t => by rw [hafter]; unfold Dat.blockOf blk3; rw [hA]; try rfl) t d).trans
    (by unfold Dat.fetched Dat.blockOf blk3; rw [hA]; try rfl)

/-! ## The rectangles the body loads and stores through: each is a whole buffer -/

abbrev rCol3 : Rect S4000x1 := Rect.unit (s := S4000x1) ![0, 0] S4000x1.size inb_S4000x1_S4000x1_0_0
abbrev rRow3 : Rect S4000x10 := Rect.unit (s := S4000x10) ![0, 0] S4000x10.size inb_S4000x10_S4000x10_0_0

/-! ## What the body leaves in the output buffer: one whole-buffer store -/

/-- The mix, from the gate `x0`, the two aggregates `x1`, `x2`, the damping column `x3` and the projection `x4`. -/
def mixOut3 (x0 : Vec F S4000x1 .f32) (x1 : Vec F S4000x10 .f32) (x2 : Vec F S4000x10 .f32) (x3 : Vec F S4000x1 .f32) (x4 : Vec F S4000x10 .f32) : Vec F S4000x10 .f32 :=
  View.canon [⟨rRow3, k3_pay1 (View.ld x0 rCol3) (View.ld x3 rCol3) (View.ld x1 rRow3) (View.ld x2 rRow3) (View.ld x4 rRow3)⟩]

theorem coverRow3 (p0 : Vec F S4000x10 .f32) (y : S4000x10.Idx) :
    ∃ pc ∈ ([⟨rRow3, p0⟩] : List (View.Piece (Elt F) S4000x10 .f32)), y ∈ pc.1.set :=
  View.cover_of_tiled [⟨rRow3, p0⟩] S4000x10.size (by rfl) y

/-! ## The body's triple -/

set_option maxHeartbeats 4000000 in
/-- On whole buffers, the inputs at read contents `x0 … x4` and the output at anything, the body runs to its
    return with the inputs as they were and the output at the mix of the inputs. -/
theorem sound_kernel3 (c : Dev nD) (E : Set ℕ) (i : grid3.Coords)
    (arg1 : Memref sig .tc .vmem S4000x1 .f32) (harg1 : arg1.IsWhole) (arg2 : Memref sig .tc .vmem S4000x10 .f32) (harg2 : arg2.IsWhole)
    (arg3 : Memref sig .tc .vmem S4000x10 .f32) (harg3 : arg3.IsWhole) (arg4 : Memref sig .tc .vmem S4000x1 .f32) (harg4 : arg4.IsWhole)
    (arg5 : Memref sig .tc .vmem S4000x10 .f32) (harg5 : arg5.IsWhole) (arg6 : Memref sig .tc .vmem S4000x10 .f32) (harg6 : arg6.IsWhole)
    (x0 : Vec F S4000x1 .f32) (x1 : Vec F S4000x10 .f32) (x2 : Vec F S4000x10 .f32) (x3 : Vec F S4000x1 .f32) (x4 : Vec F S4000x10 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (mixOut3 x0 x1 x2 x3 x4)) -∗ K ⟨⟩))
      ⊢ wp frame (wpE (defs₀ (F := F)) Variants.none c none) E (cc3__combine_kernel i arg1 harg1 arg2 harg2 arg3 harg3 arg4 harg4 arg5 harg5 arg6 harg6) K := by
  simp only [cc3__combine_kernel_eq_skeleton]; unfold cc3__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (coverRow3 _)

/-! ## The proof data of the call -/

def dat3 (c : Dev nD) : Dat τ (Elt F) Unit ℕ (UR sig nD τ) ℕ cfg3 c where
  A w := V c (Pipeline.arrRef spec3 w)
  after w t := match w with
    | ⟨0, _⟩ => blk3 V c 0 t
    | ⟨1, _⟩ => blk3 V c 1 t
    | ⟨2, _⟩ => blk3 V c 2 t
    | ⟨3, _⟩ => blk3 V c 3 t
    | ⟨4, _⟩ => blk3 V c 4 t
    | ⟨5, _⟩ => mixOut3 (blk3 V c 0 t) (blk3 V c 1 t) (blk3 V c 2 t) (blk3 V c 3 t) (blk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = blk3 V c 0 t := by dsimp only [dat3]
theorem after3_1 (c : Dev nD) (t : Fin cfg3.N) : (dat3 V c).after 1 t = blk3 V c 1 t := by dsimp only [dat3]
theorem after3_2 (c : Dev nD) (t : Fin cfg3.N) : (dat3 V c).after 2 t = blk3 V c 2 t := by dsimp only [dat3]
theorem after3_3 (c : Dev nD) (t : Fin cfg3.N) : (dat3 V c).after 3 t = blk3 V c 3 t := by dsimp only [dat3]
theorem after3_4 (c : Dev nD) (t : Fin cfg3.N) : (dat3 V c).after 4 t = blk3 V c 4 t := by dsimp only [dat3]
theorem after3_5 (c : Dev nD) (t : Fin cfg3.N) : (dat3 V c).after 5 t = mixOut3 (blk3 V c 0 t) (blk3 V c 1 t) (blk3 V c 2 t) (blk3 V c 3 t) (blk3 V c 4 t) := by dsimp only [dat3]

theorem held3_0 (c : Dev nD) (t : Fin cfg3.N) (d) : (dat3 V c).before 0 t d = blk3 V c 0 t :=
  held3_0_of V (dat3 V c) (A_eq3 V c 0) (after3_0 V c) t d
theorem held3_1 (c : Dev nD) (t : Fin cfg3.N) (d) : (dat3 V c).before 1 t d = blk3 V c 1 t :=
  held3_1_of V (dat3 V c) (A_eq3 V c 1) (after3_1 V c) t d
theorem held3_2 (c : Dev nD) (t : Fin cfg3.N) (d) : (dat3 V c).before 2 t d = blk3 V c 2 t :=
  held3_2_of V (dat3 V c) (A_eq3 V c 2) (after3_2 V c) t d
theorem held3_3 (c : Dev nD) (t : Fin cfg3.N) (d) : (dat3 V c).before 3 t d = blk3 V c 3 t :=
  held3_3_of V (dat3 V c) (A_eq3 V c 3) (after3_3 V c) t d
theorem held3_4 (c : Dev nD) (t : Fin cfg3.N) (d) : (dat3 V c).before 4 t d = blk3 V c 4 t :=
  held3_4_of V (dat3 V c) (A_eq3 V c 4) (after3_4 V c) t d

/-! ## The body obligation, at a generic point -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [held3_0, held3_1, held3_2, held3_3, held3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ (grid3.coords t) _ _ _ _ _ _ _ _ _ _ _ _ (blk3 V c 0 t) (blk3 V c 1 t) (blk3 V c 2 t) (blk3 V c 3 t) (blk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation3 (c : Dev nD) : BodyObligation (dat3 (F := F) V c) (defs₀ (F := F)) Variants.none () Set.univ := fun t => by
  rw [bigSep_W3, bigSep_W3]
  exact sound_body3 V c t

end Cert.KernelIdeal.Frm

end
-- ==== Proof.WholeRun.lean ====
import proofs.«167143_j12463995093672_1_alg».proof.Proof.Gen.KernelIdeal.Launch
import proofs.«167143_j12463995093672_1_alg».proof.Proof.Gen.KernelIdeal.Skeleton
import proofs.«167143_j12463995093672_1_alg».proof.Proof.Gen.KernelIdeal.Points
import proofs.«167143_j12463995093672_1_alg».proof.Proof.Gen.KernelIdeal.Regions
import proofs.«167143_j12463995093672_1_alg».proof.Proof.ProjFirst
import proofs.«167143_j12463995093672_1_alg».proof.Proof.MixFirst
import proofs.«167143_j12463995093672_1_alg».proof.Proof.ProjSecond
import proofs.«167143_j12463995093672_1_alg».proof.Proof.MixSecond
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The whole program as a chain of host stretches and four calls

The contents of the TensorCore's buffers at every boundary between two items, folded from the launch memory: a
host stretch applies its operations; a call leaves its arrays at what its write-backs put there and every other
buffer as it found it. -/

/-- Core `c`'s buffers at launch. -/
abbrev W0 : Dev nD → Valuation τ sig (Elt F) := fun c b => (s₀ m ρ).mem ((c : Dev nD), b)
/-- After the host stretch `hostOps0`. -/
abbrev W1 : Dev nD → Valuation τ sig (Elt F) := fun c => StableHlo.after hostOps0 (W0 m ρ c)
/-- The same read at the TensorCore's references: what call 0 is entered with. -/
abbrev B1 : (c : Dev nD) → (b : Ref sig .tc) → Buf (Elt F) ((c : Thread nD τ).loc b) := fun c b => W1 m ρ c b
/-- After call 0: its arrays at what the write-backs leave, every other buffer as entered. -/
def W2 (c : Dev nD) : Valuation τ sig (Elt F) :=
  Pipeline.withArrays spec0 c (W1 m ρ c) fun w => (dat0 (B1 m ρ) c).arrAt w cfg0.N
theorem W2_arr (c : Dev nD) (w : Fin cfg0.W) :
    W2 m ρ c (Proc.devRef .tc (Pipeline.arrRef spec0 w)) = (dat0 (B1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev B2 : (c : Dev nD) → (b : Ref sig .tc) → Buf (Elt F) ((c : Thread nD τ).loc b) := fun c b => W2 m ρ c b
theorem hF0 (c : Dev nD) (w : Fin cfg0.W) : (dat0 (B1 m ρ) c).arrAt w cfg0.N = B2 m ρ c (Pipeline.arrRef spec0 w) :=
  (W2_arr m ρ c w).symm
theorem hrest0 (c : Dev nD) : ∀ b, b ∉ Finset.univ.image (Pipeline.arrRef spec0) → B2 m ρ c b = B1 m ρ c b :=
  fun b hb => W2_of_ne m ρ c b fun w e => hb (Finset.mem_image.mpr ⟨w, Finset.mem_univ _, e⟩)
/-- After the host stretch `hostOps1`. -/
abbrev W3 : Dev nD → Valuation τ sig (Elt F) := fun c => StableHlo.after hostOps1 (W2 m ρ c)
/-- After the host stretch `hostOps1_1`. -/
abbrev W4 : Dev nD → Valuation τ sig (Elt F) := fun c => StableHlo.after hostOps1_1 (W3 m ρ c)
/-- After the host stretch `hostOps1_2`. -/
abbrev W5 : Dev nD → Valuation τ sig (Elt F) := fun c => StableHlo.after hostOps1_2 (W4 m ρ c)
/-- After the host stretch `hostOps1_3`. -/
abbrev W6 : Dev nD → Valuation τ sig (Elt F) := fun c => StableHlo.after hostOps1_3 (W5 m ρ c)
/-- After the host stretch `hostOps1_4`. -/
abbrev W7 : Dev nD → Valuation τ sig (Elt F) := fun c => StableHlo.after hostOps1_4 (W6 m ρ c)
/-- After the host stretch `hostOps1_5`. -/
abbrev W8 : Dev nD → Valuation τ sig (Elt F) := fun c => StableHlo.after hostOps1_5 (W7 m ρ c)
/-- After the host stretch `hostOps1_6`. -/
abbrev W9 : Dev nD → Valuation τ sig (Elt F) := fun c => StableHlo.after hostOps1_6 (W8 m ρ c)
/-- After the host stretch `hostOps1_7`. -/
abbrev W10 : Dev nD → Valuation τ sig (Elt F) := fun c => StableHlo.after hostOps1_7 (W9 m ρ c)
/-- After the host stretch `hostOps1_8`. -/
abbrev W11 : Dev nD → Valuation τ sig (Elt F) := fun c => StableHlo.after hostOps1_8 (W10 m ρ c)
/-- The same read at the TensorCore's references: what call 1 is entered with. -/
abbrev B11 : (c : Dev nD) → (b : Ref sig .tc) → Buf (Elt F) ((c : Thread nD τ).loc b) := fun c b => W11 m ρ c b
/-- After call 1: its arrays at what the write-backs leave, every other buffer as entered. -/
def W12 (c : Dev nD) : Valuation τ sig (Elt F) :=
  Pipeline.withArrays spec1 c (W11 m ρ c) fun w => (dat1 (B11 m ρ) c).arrAt w cfg1.N
theorem W12_arr (c : Dev nD) (w : Fin cfg1.W) :
    W12 m ρ c (Proc.devRef .tc (Pipeline.arrRef spec1 w)) = (dat1 (B11 m ρ) c).arrAt w cfg1.N := by
  unfold W12; exact Pipeline.withArrays_arr spec1 launch1.win.arr_inj c _ _ w
theorem W12_of_ne (c : Dev nD) (b : Ref sig .tc) (hb : ∀ w, Pipeline.arrRef spec1 w ≠ b) :
    W12 m ρ c (Proc.devRef .tc b) = W11 m ρ c (Proc.devRef .tc b) := by
  unfold W12; exact Pipeline.withArrays_of_ne spec1 c _ _ b hb
abbrev B12 : (c : Dev nD) → (b : Ref sig .tc) → Buf (Elt F) ((c : Thread nD τ).loc b) := fun c b => W12 m ρ c b
theorem hF1 (c : Dev nD) (w : Fin cfg1.W) : (dat1 (B11 m ρ) c).arrAt w cfg1.N = B12 m ρ c (Pipeline.arrRef spec1 w) :=
  (W12_arr m ρ c w).symm
theorem hrest1 (c : Dev nD) : ∀ b, b ∉ Finset.univ.image (Pipeline.arrRef spec1) → B12 m ρ c b = B11 m ρ c b :=
  fun b hb => W12_of_ne m ρ c b fun w e => hb (Finset.mem_image.mpr ⟨w, Finset.mem_univ _, e⟩)
/-- After the host stretch `hostOps2`. -/
abbrev W13 : Dev nD → Valuation τ sig (Elt F) := fun c => StableHlo.after hostOps2 (W12 m ρ c)
/-- The same read at the TensorCore's references: what call 2 is entered with. -/
abbrev B13 : (c : Dev nD) → (b : Ref sig .tc) → Buf (Elt F) ((c : Thread nD τ).loc b) := fun c b => W13 m ρ c b
/-- After call 2: its arrays at what the write-backs leave, every other buffer as entered. -/
def W14 (c : Dev nD) : Valuation τ sig (Elt F) :=
  Pipeline.withArrays spec2 c (W13 m ρ c) fun w => (dat2 (B13 m ρ) c).arrAt w cfg2.N
theorem W14_arr (c : Dev nD) (w : Fin cfg2.W) :
    W14 m ρ c (Proc.devRef .tc (Pipeline.arrRef spec2 w)) = (dat2 (B13 m ρ) c).arrAt w cfg2.N := by
  unfold W14; exact Pipeline.withArrays_arr spec2 launch2.win.arr_inj c _ _ w
theorem W14_of_ne (c : Dev nD) (b : Ref sig .tc) (hb : ∀ w, Pipeline.arrRef spec2 w ≠ b) :
    W14 m ρ c (Proc.devRef .tc b) = W13 m ρ c (Proc.devRef .tc b) := by
  unfold W14; exact Pipeline.withArrays_of_ne spec2 c _ _ b hb
abbrev B14 : (c : Dev nD) → (b : Ref sig .tc) → Buf (Elt F) ((c : Thread nD τ).loc b) := fun c b => W14 m ρ c b
theorem hF2 (c : Dev nD) (w : Fin cfg2.W) : (dat2 (B13 m ρ) c).arrAt w cfg2.N = B14 m ρ c (Pipeline.arrRef spec2 w) :=
  (W14_arr m ρ c w).symm
theorem hrest2 (c : Dev nD) : ∀ b, b ∉ Finset.univ.image (Pipeline.arrRef spec2) → B14 m ρ c b = B13 m ρ c b :=
  fun b hb => W14_of_ne m ρ c b fun w e => hb (Finset.mem_image.mpr ⟨w, Finset.mem_univ _, e⟩)
/-- After the host stretch `hostOps3`. -/
abbrev W15 : Dev nD → Valuation τ sig (Elt F) := fun c => StableHlo.after hostOps3 (W14 m ρ c)
/-- After the host stretch `hostOps3_1`. -/
abbrev W16 : Dev nD → Valuation τ sig (Elt F) := fun c => StableHlo.after hostOps3_1 (W15 m ρ c)
/-- After the host stretch `hostOps3_2`. -/
abbrev W17 : Dev nD → Valuation τ sig (Elt F) := fun c => StableHlo.after hostOps3_2 (W16 m ρ c)
/-- After the host stretch `hostOps3_3`. -/
abbrev W18 : Dev nD → Valuation τ sig (Elt F) := fun c => StableHlo.after hostOps3_3 (W17 m ρ c)
/-- After the host stretch `hostOps3_4`. -/
abbrev W19 : Dev nD → Valuation τ sig (Elt F) := fun c => StableHlo.after hostOps3_4 (W18 m ρ c)
/-- After the host stretch `hostOps3_5`. -/
abbrev W20 : Dev nD → Valuation τ sig (Elt F) := fun c => StableHlo.after hostOps3_5 (W19 m ρ c)
/-- After the host stretch `hostOps3_6`. -/
abbrev W21 : Dev nD → Valuation τ sig (Elt F) := fun c => StableHlo.after hostOps3_6 (W20 m ρ c)
/-- After the host stretch `hostOps3_7`. -/
abbrev W22 : Dev nD → Valuation τ sig (Elt F) := fun c => StableHlo.after hostOps3_7 (W21 m ρ c)
/-- After the host stretch `hostOps3_8`. -/
abbrev W23 : Dev nD → Valuation τ sig (Elt F) := fun c => StableHlo.after hostOps3_8 (W22 m ρ c)
/-- The same read at the TensorCore's references: what call 3 is entered with. -/
abbrev B23 : (c : Dev nD) → (b : Ref sig .tc) → Buf (Elt F) ((c : Thread nD τ).loc b) := fun c b => W23 m ρ c b
/-- After call 3: its arrays at what the write-backs leave, every other buffer as entered. -/
def W24 (c : Dev nD) : Valuation τ sig (Elt F) :=
  Pipeline.withArrays spec3 c (W23 m ρ c) fun w => (dat3 (B23 m ρ) c).arrAt w cfg3.N
theorem W24_arr (c : Dev nD) (w : Fin cfg3.W) :
    W24 m ρ c (Proc.devRef .tc (Pipeline.arrRef spec3 w)) = (dat3 (B23 m ρ) c).arrAt w cfg3.N := by
  unfold W24; exact Pipeline.withArrays_arr spec3 launch3.win.arr_inj c _ _ w
theorem W24_of_ne (c : Dev nD) (b : Ref sig .tc) (hb : ∀ w, Pipeline.arrRef spec3 w ≠ b) :
    W24 m ρ c (Proc.devRef .tc b) = W23 m ρ c (Proc.devRef .tc b) := by
  unfold W24; exact Pipeline.withArrays_of_ne spec3 c _ _ b hb
abbrev B24 : (c : Dev nD) → (b : Ref sig .tc) → Buf (Elt F) ((c : Thread nD τ).loc b) := fun c b => W24 m ρ c b
theorem hF3 (c : Dev nD) (w : Fin cfg3.W) : (dat3 (B23 m ρ) c).arrAt w cfg3.N = B24 m ρ c (Pipeline.arrRef spec3 w) :=
  (W24_arr m ρ c w).symm
theorem hrest3 (c : Dev nD) : ∀ b, b ∉ Finset.univ.image (Pipeline.arrRef spec3) → B24 m ρ c b = B23 m ρ c b :=
  fun b hb => W24_of_ne m ρ c b fun w e => hb (Finset.mem_image.mpr ⟨w, Finset.mem_univ _, e⟩)

/-! ## The proof data family and the thread state -/

abbrev admF : (p : Fin 4) → (pcfgs (F := F) p).Adm := fun p => (cfgs p).toPCfg_adm
/-- Every call's proof data, each at the contents its call is entered with. -/
def pdats : (p : Fin 4) → (c : Dev nD) → Dat τ (Elt F) Unit ℕ (UR sig nD τ) ℕ (Pipeline.pin (pcfgs (F := F)) admF p) c
  | ⟨0, _⟩ => fun c => dat0 (B1 m ρ) c
  | ⟨1, _⟩ => fun c => dat1 (B11 m ρ) c
  | ⟨2, _⟩ => fun c => dat2 (B13 m ρ) c
  | ⟨3, _⟩ => fun c => dat3 (B23 m ρ) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last boundary's contents. -/
abbrev Tₙ (c : Dev nD) : sProp 𝕄 := iprop(StableHlo.held (c : Thread nD τ) (Pipeline.ucRefs τ sig) (W24 m ρ c) ∗ ∃ r, prngReg c r)

/-! ## The calls as segments -/

set_option backward.isDefEq.respectTransparency.types false in
/-- The call number 0 as a segment: entered with every unscoped buffer at `W1`, left with them at `W2`; its
    arrays are split out of the unscoped buffers and put back at what the write-backs leave. -/
def reg0 : Pipeline.RegionSeg (pcfgs (F := F)) admF (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (B1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (B1 m ρ c)
  hentry c := by
    rw [Pipeline.ownSems0_none]
    have hsplit := Pipeline.arrays_of_unscopedBufs (p := 0) (pcfgs (F := F)) admF (pdats m ρ) launch0.win launch0.arr_whole c
      ((pdats m ρ 0 c).share_full fun _ => rfl) (B1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admF (Ix := Unit) (Name := ℕ) (U := UR sig nD τ) (Lvl := ℕ)
      launch0.win launch0.arr_whole c (pdats m ρ) ((pdats m ρ 0 c).share_full fun _ => rfl)
      (B1 m ρ c) (B2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The call number 1 as a segment: entered with every unscoped buffer at `W11`, left with them at `W12`; its
    arrays are split out of the unscoped buffers and put back at what the write-backs leave. -/
def reg1 : Pipeline.RegionSeg (pcfgs (F := F)) admF (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (B11 m ρ) c).loose
  hwaits := Pipeline.hwaits_of_owed_zero _ _ _ _ L lv 1 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec1 c (B11 m ρ c)
  hentry c := by
    rw [Pipeline.ownSems0_none]
    have hsplit := Pipeline.arrays_of_unscopedBufs (p := 1) (pcfgs (F := F)) admF (pdats m ρ) launch1.win launch1.arr_whole c
      ((pdats m ρ 1 c).share_full fun _ => rfl) (B11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admF (Ix := Unit) (Name := ℕ) (U := UR sig nD τ) (Lvl := ℕ)
      launch1.win launch1.arr_whole c (pdats m ρ) ((pdats m ρ 1 c).share_full fun _ => rfl)
      (B11 m ρ c) (B12 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The call number 2 as a segment: entered with every unscoped buffer at `W13`, left with them at `W14`; its
    arrays are split out of the unscoped buffers and put back at what the write-backs leave. -/
def reg2 : Pipeline.RegionSeg (pcfgs (F := F)) admF (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (B13 m ρ) c).loose
  hwaits := Pipeline.hwaits_of_owed_zero _ _ _ _ L lv 2 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec2 c (B13 m ρ c)
  hentry c := by
    rw [Pipeline.ownSems0_none]
    have hsplit := Pipeline.arrays_of_unscopedBufs (p := 2) (pcfgs (F := F)) admF (pdats m ρ) launch2.win launch2.arr_whole c
      ((pdats m ρ 2 c).share_full fun _ => rfl) (B13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admF (Ix := Unit) (Name := ℕ) (U := UR sig nD τ) (Lvl := ℕ)
      launch2.win launch2.arr_whole c (pdats m ρ) ((pdats m ρ 2 c).share_full fun _ => rfl)
      (B13 m ρ c) (B14 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The call number 3 as a segment: entered with every unscoped buffer at `W23`, left with them at `W24`; its
    arrays are split out of the unscoped buffers and put back at what the write-backs leave. -/
def reg3 : Pipeline.RegionSeg (pcfgs (F := F)) admF (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (B23 m ρ) c).loose
  hwaits := Pipeline.hwaits_of_owed_zero _ _ _ _ L lv 3 fun _ _ => rfl
  pre c := iprop(StableHlo.held (c : Thread nD τ) (Pipeline.ucRefs τ sig) (W23 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (B23 m ρ c)
  hentry c := by
    rw [Pipeline.ownSems0_none]
    have hsplit := Pipeline.arrays_of_unscopedBufs (p := 3) (pcfgs (F := F)) admF (pdats m ρ) launch3.win launch3.arr_whole c
      ((pdats m ρ 3 c).share_full fun _ => rfl) (B23 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) admF (Ix := Unit) (Name := ℕ) (U := UR sig nD τ) (Lvl := ℕ)
      launch3.win launch3.arr_whole c (pdats m ρ) ((pdats m ρ 3 c).share_full fun _ => rfl)
      (B23 m ρ c) (B24 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev items : List (Pipeline.Seg (pcfgs (F := F)) admF (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .host (hseg hostOps1_3 hostOps1_3_sub hostOps1_3_fresh (W5 m ρ)),
    .host (hseg hostOps1_4 hostOps1_4_sub hostOps1_4_fresh (W6 m ρ)),
    .host (hseg hostOps1_5 hostOps1_5_sub hostOps1_5_fresh (W7 m ρ)),
    .host (hseg hostOps1_6 hostOps1_6_sub hostOps1_6_fresh (W8 m ρ)),
    .host (hseg hostOps1_7 hostOps1_7_sub hostOps1_7_fresh (W9 m ρ)),
    .host (hseg hostOps1_8 hostOps1_8_sub hostOps1_8_fresh (W10 m ρ)),
    .region (reg1 m ρ),
    .host (hseg hostOps2 hostOps2_sub hostOps2_fresh (W12 m ρ)),
    .region (reg2 m ρ),
    .host (hseg hostOps3 hostOps3_sub hostOps3_fresh (W14 m ρ)),
    .host (hseg hostOps3_1 hostOps3_1_sub hostOps3_1_fresh (W15 m ρ)),
    .host (hseg hostOps3_2 hostOps3_2_sub hostOps3_2_fresh (W16 m ρ)),
    .host (hseg hostOps3_3 hostOps3_3_sub hostOps3_3_fresh (W17 m ρ)),
    .host (hseg hostOps3_4 hostOps3_4_sub hostOps3_4_fresh (W18 m ρ)),
    .host (hseg hostOps3_5 hostOps3_5_sub hostOps3_5_fresh (W19 m ρ)),
    .host (hseg hostOps3_6 hostOps3_6_sub hostOps3_6_fresh (W20 m ρ)),
    .host (hseg hostOps3_7 hostOps3_7_sub hostOps3_7_fresh (W21 m ρ)),
    .host (hseg hostOps3_8 hostOps3_8_sub hostOps3_8_fresh (W22 m ρ)),
    .region (reg3 m ρ) ]

set_option backward.isDefEq.respectTransparency.types false in
/-- THE RUN: from any memory with zero counters every weakly fair execution of @main terminates, nothing
    faulting, and every final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W24 m ρ c b) :=
  Pipeline.θ_run_regions_kit (pcfgs (F := F)) admF (pdats m ρ) () cellOf_inj emb₁ defs₀ 𝒱₀ L lv m ρ main (items m ρ)
    (fun c Q => by
      rewrite [main_chain c, Pipeline.Seg.run_eq_chain,
        show (items m ρ).map Pipeline.Seg.prog = [
          StableHlo.seq hostOps0,
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          StableHlo.seq hostOps1_6,
          StableHlo.seq hostOps1_7,
          StableHlo.seq hostOps1_8,
          Prog.lift (.customCall (Pipeline.entry 1) ()),
          StableHlo.seq hostOps2,
          Prog.lift (.customCall (Pipeline.entry 2) ()),
          StableHlo.seq hostOps3,
          StableHlo.seq hostOps3_1,
          StableHlo.seq hostOps3_2,
          StableHlo.seq hostOps3_3,
          StableHlo.seq hostOps3_4,
          StableHlo.seq hostOps3_5,
          StableHlo.seq hostOps3_6,
          StableHlo.seq hostOps3_7,
          StableHlo.seq hostOps3_8,
          Prog.lift (.customCall (Pipeline.entry 3) ()) ] from rfl]
      exact .rfl)
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W24 m ρ c b)
    (hfin := fun c s' => by
      iintro ⟨⟨Hh, -⟩, HSI⟩
      unfold StableHlo.held
      imodintro
      iapply (pointsTo_read_all (Pipeline.ucRefs τ sig) (fun b => (((c : Thread nD τ)).1, b)) (W24 m ρ c) s')
      isplitl [Hh] <;> iassumption)
    (hQ := fun s h => h)

end Cert.KernelIdeal.Frm

end
-- ==== Proof.ArgsKept.lean ====
import proofs.«167143_j12463995093672_1_alg».proof.Proof.Gen.KernelIdeal.Launch
import proofs.«167143_j12463995093672_1_alg».proof.Proof.Gen.KernelIdeal.Skeleton
import proofs.«167143_j12463995093672_1_alg».proof.Proof.Gen.KernelIdeal.Points
import proofs.«167143_j12463995093672_1_alg».proof.Proof.WholeRun
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # What no item writes reaches the end as launched

A host stretch leaves every buffer outside the list of references its operations write; a call leaves every
buffer that is not one of its arrays, and leaves an array it only reads as it found it. -/

theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W4_of (c : Dev nD) (r : Ref sig .tc) (h : r ∉ hostOps1_1_W) : W4 m ρ c (Proc.devRef .tc r) = W3 m ρ c (Proc.devRef .tc r) :=
  StableHlo.after_of_writes_sub hostOps1_1 _ hostOps1_1_writes h
theorem W5_of (c : Dev nD) (r : Ref sig .tc) (h : r ∉ hostOps1_2_W) : W5 m ρ c (Proc.devRef .tc r) = W4 m ρ c (Proc.devRef .tc r) :=
  StableHlo.after_of_writes_sub hostOps1_2 _ hostOps1_2_writes h
theorem W6_of (c : Dev nD) (r : Ref sig .tc) (h : r ∉ hostOps1_3_W) : W6 m ρ c (Proc.devRef .tc r) = W5 m ρ c (Proc.devRef .tc r) :=
  StableHlo.after_of_writes_sub hostOps1_3 _ hostOps1_3_writes h
theorem W7_of (c : Dev nD) (r : Ref sig .tc) (h : r ∉ hostOps1_4_W) : W7 m ρ c (Proc.devRef .tc r) = W6 m ρ c (Proc.devRef .tc r) :=
  StableHlo.after_of_writes_sub hostOps1_4 _ hostOps1_4_writes h
theorem W8_of (c : Dev nD) (r : Ref sig .tc) (h : r ∉ hostOps1_5_W) : W8 m ρ c (Proc.devRef .tc r) = W7 m ρ c (Proc.devRef .tc r) :=
  StableHlo.after_of_writes_sub hostOps1_5 _ hostOps1_5_writes h
theorem W9_of (c : Dev nD) (r : Ref sig .tc) (h : r ∉ hostOps1_6_W) : W9 m ρ c (Proc.devRef .tc r) = W8 m ρ c (Proc.devRef .tc r) :=
  StableHlo.after_of_writes_sub hostOps1_6 _ hostOps1_6_writes h
theorem W10_of (c : Dev nD) (r : Ref sig .tc) (h : r ∉ hostOps1_7_W) : W10 m ρ c (Proc.devRef .tc r) = W9 m ρ c (Proc.devRef .tc r) :=
  StableHlo.after_of_writes_sub hostOps1_7 _ hostOps1_7_writes h
theorem W11_of (c : Dev nD) (r : Ref sig .tc) (h : r ∉ hostOps1_8_W) : W11 m ρ c (Proc.devRef .tc r) = W10 m ρ c (Proc.devRef .tc r) :=
  StableHlo.after_of_writes_sub hostOps1_8 _ hostOps1_8_writes h
theorem W13_of (c : Dev nD) (r : Ref sig .tc) (h : r ∉ hostOps2_W) : W13 m ρ c (Proc.devRef .tc r) = W12 m ρ c (Proc.devRef .tc r) :=
  StableHlo.after_of_writes_sub hostOps2 _ hostOps2_writes h
theorem W15_of (c : Dev nD) (r : Ref sig .tc) (h : r ∉ hostOps3_W) : W15 m ρ c (Proc.devRef .tc r) = W14 m ρ c (Proc.devRef .tc r) :=
  StableHlo.after_of_writes_sub hostOps3 _ hostOps3_writes h
theorem W16_of (c : Dev nD) (r : Ref sig .tc) (h : r ∉ hostOps3_1_W) : W16 m ρ c (Proc.devRef .tc r) = W15 m ρ c (Proc.devRef .tc r) :=
  StableHlo.after_of_writes_sub hostOps3_1 _ hostOps3_1_writes h
theorem W17_of (c : Dev nD) (r : Ref sig .tc) (h : r ∉ hostOps3_2_W) : W17 m ρ c (Proc.devRef .tc r) = W16 m ρ c (Proc.devRef .tc r) :=
  StableHlo.after_of_writes_sub hostOps3_2 _ hostOps3_2_writes h
theorem W18_of (c : Dev nD) (r : Ref sig .tc) (h : r ∉ hostOps3_3_W) : W18 m ρ c (Proc.devRef .tc r) = W17 m ρ c (Proc.devRef .tc r) :=
  StableHlo.after_of_writes_sub hostOps3_3 _ hostOps3_3_writes h
theorem W19_of (c : Dev nD) (r : Ref sig .tc) (h : r ∉ hostOps3_4_W) : W19 m ρ c (Proc.devRef .tc r) = W18 m ρ c (Proc.devRef .tc r) :=
  StableHlo.after_of_writes_sub hostOps3_4 _ hostOps3_4_writes h
theorem W20_of (c : Dev nD) (r : Ref sig .tc) (h : r ∉ hostOps3_5_W) : W20 m ρ c (Proc.devRef .tc r) = W19 m ρ c (Proc.devRef .tc r) :=
  StableHlo.after_of_writes_sub hostOps3_5 _ hostOps3_5_writes h
theorem W21_of (c : Dev nD) (r : Ref sig .tc) (h : r ∉ hostOps3_6_W) : W21 m ρ c (Proc.devRef .tc r) = W20 m ρ c (Proc.devRef .tc r) :=
  StableHlo.after_of_writes_sub hostOps3_6 _ hostOps3_6_writes h
theorem W22_of (c : Dev nD) (r : Ref sig .tc) (h : r ∉ hostOps3_7_W) : W22 m ρ c (Proc.devRef .tc r) = W21 m ρ c (Proc.devRef .tc r) :=
  StableHlo.after_of_writes_sub hostOps3_7 _ hostOps3_7_writes h
theorem W23_of (c : Dev nD) (r : Ref sig .tc) (h : r ∉ hostOps3_8_W) : W23 m ρ c (Proc.devRef .tc r) = W22 m ρ c (Proc.devRef .tc r) :=
  StableHlo.after_of_writes_sub hostOps3_8 _ hostOps3_8_writes h

/-- No host stretch writes `r` and `r` is no array of any call. -/
def Untouched (r : Ref sig .tc) : Prop :=
  r ∉ hostOps0_W ∧ (∀ w, Pipeline.arrRef spec0 w ≠ r) ∧ r ∉ hostOps1_W ∧ r ∉ hostOps1_1_W ∧ r ∉ hostOps1_2_W ∧ r ∉ hostOps1_3_W ∧ r ∉ hostOps1_4_W ∧ r ∉ hostOps1_5_W ∧ r ∉ hostOps1_6_W ∧ r ∉ hostOps1_7_W ∧ r ∉ hostOps1_8_W ∧ (∀ w, Pipeline.arrRef spec1 w ≠ r) ∧ r ∉ hostOps2_W ∧ (∀ w, Pipeline.arrRef spec2 w ≠ r) ∧ r ∉ hostOps3_W ∧ r ∉ hostOps3_1_W ∧ r ∉ hostOps3_2_W ∧ r ∉ hostOps3_3_W ∧ r ∉ hostOps3_4_W ∧ r ∉ hostOps3_5_W ∧ r ∉ hostOps3_6_W ∧ r ∉ hostOps3_7_W ∧ r ∉ hostOps3_8_W ∧ (∀ w, Pipeline.arrRef spec3 w ≠ r)

set_option synthInstance.maxSize 8192 in
set_option synthInstance.maxHeartbeats 400000 in
instance (r : Ref sig .tc) : Decidable (Untouched r) := by unfold Untouched; infer_instance

/-- A reference no item touches holds its launch contents at the last boundary. -/
theorem W24_untouched (c : Dev nD) (r : Ref sig .tc) (h : Untouched r) :
    W24 m ρ c (Proc.devRef .tc r) = m ((c : Thread nD τ).loc r) := by
  obtain ⟨h0, h1, h2, h3, h4, h5, h6, h7, h8, h9, h10, h11, h12, h13, h14, h15, h16, h17, h18, h19, h20, h21, h22, h23⟩ := h
  exact (W24_of_ne m ρ c r h23).trans <|
    (W23_of m ρ c r h22).trans <|
    (W22_of m ρ c r h21).trans <|
    (W21_of m ρ c r h20).trans <|
    (W20_of m ρ c r h19).trans <|
    (W19_of m ρ c r h18).trans <|
    (W18_of m ρ c r h17).trans <|
    (W17_of m ρ c r h16).trans <|
    (W16_of m ρ c r h15).trans <|
    (W15_of m ρ c r h14).trans <|
    (W14_of_ne m ρ c r h13).trans <|
    (W13_of m ρ c r h12).trans <|
    (W12_of_ne m ρ c r h11).trans <|
    (W11_of m ρ c r h10).trans <|
    (W10_of m ρ c r h9).trans <|
    (W9_of m ρ c r h8).trans <|
    (W8_of m ρ c r h7).trans <|
    (W7_of m ρ c r h6).trans <|
    (W6_of m ρ c r h5).trans <|
    (W5_of m ρ c r h4).trans <|
    (W4_of m ρ c r h3).trans <|
    (W3_of m ρ c r h2).trans <|
    (W2_of_ne m ρ c r h1).trans <|
    (W1_of m ρ c r h0).trans <| rfl

/-- No host stretch writes `r` and `r` is no array of the three later calls. -/
def UntouchedAfterFirst (r : Ref sig .tc) : Prop :=
  r ∉ hostOps0_W ∧ r ∉ hostOps1_W ∧ r ∉ hostOps1_1_W ∧ r ∉ hostOps1_2_W ∧ r ∉ hostOps1_3_W ∧ r ∉ hostOps1_4_W ∧ r ∉ hostOps1_5_W ∧ r ∉ hostOps1_6_W ∧ r ∉ hostOps1_7_W ∧ r ∉ hostOps1_8_W ∧ (∀ w, Pipeline.arrRef spec1 w ≠ r) ∧ r ∉ hostOps2_W ∧ (∀ w, Pipeline.arrRef spec2 w ≠ r) ∧ r ∉ hostOps3_W ∧ r ∉ hostOps3_1_W ∧ r ∉ hostOps3_2_W ∧ r ∉ hostOps3_3_W ∧ r ∉ hostOps3_4_W ∧ r ∉ hostOps3_5_W ∧ r ∉ hostOps3_6_W ∧ r ∉ hostOps3_7_W ∧ r ∉ hostOps3_8_W ∧ (∀ w, Pipeline.arrRef spec3 w ≠ r)

set_option synthInstance.maxSize 8192 in
set_option synthInstance.maxHeartbeats 400000 in
instance (r : Ref sig .tc) : Decidable (UntouchedAfterFirst r) := by unfold UntouchedAfterFirst; infer_instance

/-- The first argument is the first call's first input window: the call reads it and leaves it as found;
    nothing else touches it. -/
theorem W24_main_arg0 (c : Dev nD) : W24 m ρ c (Proc.devRef .tc main_arg0) = m ((c : Thread nD τ).loc main_arg0) := by
  have h : UntouchedAfterFirst (main_arg0 : Ref sig .tc) := by decide
  obtain ⟨h0, h2, h3, h4, h5, h6, h7, h8, h9, h10, h11, h12, h13, h14, h15, h16, h17, h18, h19, h20, h21, h22, h23⟩ := h
  have hcall : W2 m ρ c (Proc.devRef .tc main_arg0) = W1 m ρ c (Proc.devRef .tc main_arg0) :=
    (W2_arr m ρ c 0).trans (((dat0 (B1 m ρ) c).arrAt_in 0 rfl _).trans (A_eq0 (B1 m ρ) c 0))
  exact (W24_of_ne m ρ c main_arg0 h23).trans <|
    (W23_of m ρ c main_arg0 h22).trans <|
    (W22_of m ρ c main_arg0 h21).trans <|
    (W21_of m ρ c main_arg0 h20).trans <|
    (W20_of m ρ c main_arg0 h19).trans <|
    (W19_of m ρ c main_arg0 h18).trans <|
    (W18_of m ρ c main_arg0 h17).trans <|
    (W17_of m ρ c main_arg0 h16).trans <|
    (W16_of m ρ c main_arg0 h15).trans <|
    (W15_of m ρ c main_arg0 h14).trans <|
    (W14_of_ne m ρ c main_arg0 h13).trans <|
    (W13_of m ρ c main_arg0 h12).trans <|
    (W12_of_ne m ρ c main_arg0 h11).trans <|
    (W11_of m ρ c main_arg0 h10).trans <|
    (W10_of m ρ c main_arg0 h9).trans <|
    (W9_of m ρ c main_arg0 h8).trans <|
    (W8_of m ρ c main_arg0 h7).trans <|
    (W7_of m ρ c main_arg0 h6).trans <|
    (W6_of m ρ c main_arg0 h5).trans <|
    (W5_of m ρ c main_arg0 h4).trans <|
    (W4_of m ρ c main_arg0 h3).trans <|
    (W3_of m ρ c main_arg0 h2).trans <|
    hcall.trans <|
    (W1_of m ρ c main_arg0 h0).trans <| rfl

end Cert.KernelIdeal.Frm

end
-- ==== Proof.WordProjFirst.lean ====
import proofs.«167143_j12463995093672_1_alg».proof.Proof.Gen.Kernel.Launch
import proofs.«167143_j12463995093672_1_alg».proof.Proof.Gen.Kernel.Skeleton
import proofs.«167143_j12463995093672_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The projection call number 0: one row block of the input times the joined weight matrix

At a grid point the body reads a block of 4000 rows of the input, the whole joined weight matrix (the
weights, the gate's score column and the damping column side by side) and the two one-element biases, and
writes three blocks: the first columns of the product, the logistic of the gate column plus its bias, and
the damping column plus its bias. -/

/-- Window `w`'s block at point `t`, read off its array as the call finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input's current buffer holds its block at every point, whether it was fetched there or not (an
    unfetched window's block index has not moved), for any proof data over these arrays whose body leaves
    the inputs in place. -/
theorem held0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

theorem held0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

theorem held0_2_of {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)

theorem held0_3_of {c : Dev nD} (dat : Dat τ (Elt F) Unit ℕ (UR sig nD τ) ℕ cfg0 c) (hA : dat.A 3 = V c (Pipeline.arrRef spec0 3))
    (hafter : ∀ t, dat.after 3 t = blk0 V c 3 t) (t : Fin cfg0.N) (d) : dat.before 3 t d = blk0 V c 3 t :=
  (dat.before_in_eq_fetched 3 rfl (fun _ => rfl) (fun _ _ _ => rfl) (fun t => by rw [hafter]; unfold Dat.blockOf blk0; rw [hA]; try rfl) t d).trans
    (by unfold Dat.fetched Dat.blockOf blk0; rw [hA]; try rfl)

/-! ## The rectangles the body loads and stores through: each is a whole buffer -/

abbrev rIn0 : Rect S4000x512 := Rect.unit (s := S4000x512) ![0, 0] S4000x512.size inb_S4000x512_S4000x512_0_0
abbrev rWt0 : Rect S512x66 := Rect.unit (s := S512x66) ![0, 0] S512x66.size inb_S512x66_S512x66_0_0
abbrev rOne0 : Rect S1x1 := Rect.unit (s := S1x1) ![0, 0] S1x1.size inb_S1x1_S1x1_0_0
abbrev rX0 : Rect S4000x64 := Rect.unit (s := S4000x64) ![0, 0] S4000x64.size inb_S4000x64_S4000x64_0_0
abbrev rCol0 : Rect S4000x1 := Rect.unit (s := S4000x1) ![0, 0] S4000x1.size inb_S4000x1_S4000x1_0_0

/-! ## What the body leaves in each output buffer: one whole-buffer store each -/

/-- The product's leading columns. -/
def xOut0 (x0 : Vec F S4000x512 .f32) (x1 : Vec F S512x66 .f32) : Vec F S4000x64 .f32 :=
  View.canon [⟨rX0, k0_pay2 (View.ld x0 rIn0) (View.ld x1 rWt0)⟩]
/-- The gate: the logistic of the gate column plus the bias. -/
def sOut0 (x0 : Vec F S4000x512 .f32) (x1 : Vec F S512x66 .f32) (x2 : Vec F S1x1 .f32) : Vec F S4000x1 .f32 :=
  View.canon [⟨rCol0, k0_pay4 (View.ld x0 rIn0) (View.ld x1 rWt0) (View.ld x2 rOne0)⟩]
/-- The damping column plus its bias. -/
def dOut0 (x0 : Vec F S4000x512 .f32) (x1 : Vec F S512x66 .f32) (x3 : Vec F S1x1 .f32) : Vec F S4000x1 .f32 :=
  View.canon [⟨rCol0, k0_pay3 (View.ld x0 rIn0) (View.ld x1 rWt0) (View.ld x3 rOne0)⟩]

theorem coverX0 (p0 : Vec F S4000x64 .f32) (y : S4000x64.Idx) :
    ∃ pc ∈ ([⟨rX0, p0⟩] : List (View.Piece (Elt F) S4000x64 .f32)), y ∈ pc.1.set :=
  View.cover_of_tiled [⟨rX0, p0⟩] S4000x64.size (by rfl) y
theorem coverCol0 (p0 : Vec F S4000x1 .f32) (y : S4000x1.Idx) :
    ∃ pc ∈ ([⟨rCol0, p0⟩] : List (View.Piece (Elt F) S4000x1 .f32)), y ∈ pc.1.set :=
  View.cover_of_tiled [⟨rCol0, p0⟩] S4000x1.size (by rfl) y

/-! ## The body's triple -/

set_option maxHeartbeats 4000000 in
/-- On whole buffers, the inputs at read contents `x0 … x3` and the outputs at anything, the body runs to its
    return with the inputs as they were and each output at its function of the inputs. -/
theorem sound_kernel0 (c : Dev nD) (E : Set ℕ) (i : grid0.Coords)
    (arg1 : Memref sig .tc .vmem S4000x512 .f32) (harg1 : arg1.IsWhole) (arg2 : Memref sig .tc .vmem S512x66 .f32) (harg2 : arg2.IsWhole)
    (arg3 : Memref sig .tc .vmem S1x1 .f32) (harg3 : arg3.IsWhole) (arg4 : Memref sig .tc .vmem S1x1 .f32) (harg4 : arg4.IsWhole)
    (arg5 : Memref sig .tc .vmem S4000x64 .f32) (harg5 : arg5.IsWhole) (arg6 : Memref sig .tc .vmem S4000x1 .f32) (harg6 : arg6.IsWhole)
    (arg7 : Memref sig .tc .vmem S4000x1 .f32) (harg7 : arg7.IsWhole)
    (x0 : Vec F S4000x512 .f32) (x1 : Vec F S512x66 .f32) (x2 : Vec F S1x1 .f32) (x3 : Vec F S1x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (xOut0 x0 x1)
            ∗ owns (c : Thread nD τ) arg6 fullShare (sOut0 x0 x1 x2) ∗ owns (c : Thread nD τ) arg7 fullShare (dOut0 x0 x1 x3)) -∗ K ⟨⟩))
      ⊢ wp frame (wpE (defs₀ (F := F)) Variants.none c none) E (cc0__proj_kernel i arg1 harg1 arg2 harg2 arg3 harg3 arg4 harg4 arg5 harg5 arg6 harg6 arg7 harg7) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (coverX0 _)
  isplitl [H5]
  · iexists _; isplitr
    swap; · iexact H5
    ipureintro
    exact View.read_writes_eq_canon _ _ _ (coverCol0 _)
  iexists _; isplitr
  swap; · iexact H6
  ipureintro
  exact View.read_writes_eq_canon _ _ _ (coverCol0 _)

/-! ## The proof data of the call -/

/-- The arrays as the call finds them; after the body at point `t` each input's buffer at its block and each
    output's at its function of the input blocks; the invariant that of a body with no state of its own;
    nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => xOut0 (blk0 V c 0 t) (blk0 V c 1 t)
    | ⟨5, _⟩ => sOut0 (blk0 V c 0 t) (blk0 V c 1 t) (blk0 V c 2 t)
    | ⟨6, _⟩ => dOut0 (blk0 V c 0 t) (blk0 V c 1 t) (blk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = blk0 V c 3 t := by dsimp only [dat0]
theorem after0_4 (c : Dev nD) (t : Fin cfg0.N) : (dat0 V c).after 4 t = xOut0 (blk0 V c 0 t) (blk0 V c 1 t) := by dsimp only [dat0]
theorem after0_5 (c : Dev nD) (t : Fin cfg0.N) : (dat0 V c).after 5 t = sOut0 (blk0 V c 0 t) (blk0 V c 1 t) (blk0 V c 2 t) := by dsimp only [dat0]
theorem after0_6 (c : Dev nD) (t : Fin cfg0.N) : (dat0 V c).after 6 t = dOut0 (blk0 V c 0 t) (blk0 V c 1 t) (blk0 V c 3 t) := by dsimp only [dat0]

theorem held0_0 (c : Dev nD) (t : Fin cfg0.N) (d) : (dat0 V c).before 0 t d = blk0 V c 0 t :=
  held0_0_of V (dat0 V c) (A_eq0 V c 0) (after0_0 V c) t d
theorem held0_1 (c : Dev nD) (t : Fin cfg0.N) (d) : (dat0 V c).before 1 t d = blk0 V c 1 t :=
  held0_1_of V (dat0 V c) (A_eq0 V c 1) (after0_1 V c) t d
theorem held0_2 (c : Dev nD) (t : Fin cfg0.N) (d) : (dat0 V c).before 2 t d = blk0 V c 2 t :=
  held0_2_of V (dat0 V c) (A_eq0 V c 2) (after0_2 V c) t d
theorem held0_3 (c : Dev nD) (t : Fin cfg0.N) (d) : (dat0 V c).before 3 t d = blk0 V c 3 t :=
  held0_3_of V (dat0 V c) (A_eq0 V c 3) (after0_3 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' buffers hold their blocks, so the body's triple applies; the invariant
    and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [held0_0, held0_1, held0_2, held0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _ (blk0 V c 0 t) (blk0 V c 1 t) (blk0 V c 2 t) (blk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Frm

end
-- ==== Proof.WordMixFirst.lean ====
import proofs.«167143_j12463995093672_1_alg».proof.Proof.Gen.Kernel.Launch
import proofs.«167143_j12463995093672_1_alg».proof.Proof.Gen.Kernel.Skeleton
import proofs.«167143_j12463995093672_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The combining call number 1: the gated mix of the two aggregates and the damped projection

At a grid point the body reads a block of 4000 rows of the gate column, of the two aggregates, of the damping
column and of the projection, and writes the block of `s · a + (1 − s) · k + (γ · d) · x`, the columns
`s` and `d` spread along each row. -/

/-- Window `w`'s block at point `t`, read off its array as the call finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input's current buffer holds its block at every point, for any proof data over these arrays whose body
    leaves the inputs in place. -/
theorem held1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

theorem held1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

theorem held1_2_of {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)

theorem held1_3_of {c : Dev nD} (dat : Dat τ (Elt F) Unit ℕ (UR sig nD τ) ℕ cfg1 c) (hA : dat.A 3 = V c (Pipeline.arrRef spec1 3))
    (hafter : ∀ t, dat.after 3 t = blk1 V c 3 t) (t : Fin cfg1.N) (d) : dat.before 3 t d = blk1 V c 3 t :=
  (dat.before_in_eq_fetched 3 rfl (fun _ => rfl) (fun _ _ _ => rfl) (fun t => by rw [hafter]; unfold Dat.blockOf blk1; rw [hA]; try rfl) t d).trans
    (by unfold Dat.fetched Dat.blockOf blk1; rw [hA]; try rfl)

theorem held1_4_of {c : Dev nD} (dat : Dat τ (Elt F) Unit ℕ (UR sig nD τ) ℕ cfg1 c) (hA : dat.A 4 = V c (Pipeline.arrRef spec1 4))
    (hafter : ∀ t, dat.after 4 t = blk1 V c 4 t) (t : Fin cfg1.N) (d) : dat.before 4 t d = blk1 V c 4 t :=
  (dat.before_in_eq_fetched 4 rfl (fun _ => rfl) (fun _ _ _ => rfl) (fun t => by rw [hafter]; unfold Dat.blockOf blk1; rw [hA]; try rfl) t d).trans
    (by unfold Dat.fetched Dat.blockOf blk1; rw [hA]; try rfl)

/-! ## The rectangles the body loads and stores through: each is a whole buffer -/

abbrev rCol1 : Rect S4000x1 := Rect.unit (s := S4000x1) ![0, 0] S4000x1.size inb_S4000x1_S4000x1_0_0
abbrev rRow1 : Rect S4000x64 := Rect.unit (s := S4000x64) ![0, 0] S4000x64.size inb_S4000x64_S4000x64_0_0

/-! ## What the body leaves in the output buffer: one whole-buffer store -/

/-- The mix, from the gate `x0`, the two aggregates `x1`, `x2`, the damping column `x3` and the projection `x4`. -/
def mixOut1 (x0 : Vec F S4000x1 .f32) (x1 : Vec F S4000x64 .f32) (x2 : Vec F S4000x64 .f32) (x3 : Vec F S4000x1 .f32) (x4 : Vec F S4000x64 .f32) : Vec F S4000x64 .f32 :=
  View.canon [⟨rRow1, k1_pay1 (View.ld x0 rCol1) (View.ld x3 rCol1) (View.ld x1 rRow1) (View.ld x2 rRow1) (View.ld x4 rRow1)⟩]

theorem coverRow1 (p0 : Vec F S4000x64 .f32) (y : S4000x64.Idx) :
    ∃ pc ∈ ([⟨rRow1, p0⟩] : List (View.Piece (Elt F) S4000x64 .f32)), y ∈ pc.1.set :=
  View.cover_of_tiled [⟨rRow1, p0⟩] S4000x64.size (by rfl) y

/-! ## The body's triple -/

set_option maxHeartbeats 4000000 in
/-- On whole buffers, the inputs at read contents `x0 … x4` and the output at anything, the body runs to its
    return with the inputs as they were and the output at the mix of the inputs. -/
theorem sound_kernel1 (c : Dev nD) (E : Set ℕ) (i : grid1.Coords)
    (arg1 : Memref sig .tc .vmem S4000x1 .f32) (harg1 : arg1.IsWhole) (arg2 : Memref sig .tc .vmem S4000x64 .f32) (harg2 : arg2.IsWhole)
    (arg3 : Memref sig .tc .vmem S4000x64 .f32) (harg3 : arg3.IsWhole) (arg4 : Memref sig .tc .vmem S4000x1 .f32) (harg4 : arg4.IsWhole)
    (arg5 : Memref sig .tc .vmem S4000x64 .f32) (harg5 : arg5.IsWhole) (arg6 : Memref sig .tc .vmem S4000x64 .f32) (harg6 : arg6.IsWhole)
    (x0 : Vec F S4000x1 .f32) (x1 : Vec F S4000x64 .f32) (x2 : Vec F S4000x64 .f32) (x3 : Vec F S4000x1 .f32) (x4 : Vec F S4000x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (mixOut1 x0 x1 x2 x3 x4)) -∗ K ⟨⟩))
      ⊢ wp frame (wpE (defs₀ (F := F)) Variants.none c none) E (cc1__combine_kernel i arg1 harg1 arg2 harg2 arg3 harg3 arg4 harg4 arg5 harg5 arg6 harg6) K := by
  simp only [cc1__combine_kernel_eq_skeleton]; unfold cc1__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (coverRow1 _)

/-! ## The proof data of the call -/

def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => mixOut1 (blk1 V c 0 t) (blk1 V c 1 t) (blk1 V c 2 t) (blk1 V c 3 t) (blk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) : (dat1 V c).after 4 t = blk1 V c 4 t := by dsimp only [dat1]
theorem after1_5 (c : Dev nD) (t : Fin cfg1.N) : (dat1 V c).after 5 t = mixOut1 (blk1 V c 0 t) (blk1 V c 1 t) (blk1 V c 2 t) (blk1 V c 3 t) (blk1 V c 4 t) := by dsimp only [dat1]

theorem held1_0 (c : Dev nD) (t : Fin cfg1.N) (d) : (dat1 V c).before 0 t d = blk1 V c 0 t :=
  held1_0_of V (dat1 V c) (A_eq1 V c 0) (after1_0 V c) t d
theorem held1_1 (c : Dev nD) (t : Fin cfg1.N) (d) : (dat1 V c).before 1 t d = blk1 V c 1 t :=
  held1_1_of V (dat1 V c) (A_eq1 V c 1) (after1_1 V c) t d
theorem held1_2 (c : Dev nD) (t : Fin cfg1.N) (d) : (dat1 V c).before 2 t d = blk1 V c 2 t :=
  held1_2_of V (dat1 V c) (A_eq1 V c 2) (after1_2 V c) t d
theorem held1_3 (c : Dev nD) (t : Fin cfg1.N) (d) : (dat1 V c).before 3 t d = blk1 V c 3 t :=
  held1_3_of V (dat1 V c) (A_eq1 V c 3) (after1_3 V c) t d
theorem held1_4 (c : Dev nD) (t : Fin cfg1.N) (d) : (dat1 V c).before 4 t d = blk1 V c 4 t :=
  held1_4_of V (dat1 V c) (A_eq1 V c 4) (after1_4 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [held1_0, held1_1, held1_2, held1_3, held1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (blk1 V c 0 t) (blk1 V c 1 t) (blk1 V c 2 t) (blk1 V c 3 t) (blk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation1 (c : Dev nD) : BodyObligation (dat1 (F := F) V c) (defs₀ (F := F)) Variants.none () Set.univ := fun t => by
  rw [bigSep_W1, bigSep_W1]
  exact sound_body1 V c t

end Cert.Kernel.Frm

end
-- ==== Proof.WordProjSecond.lean ====
import proofs.«167143_j12463995093672_1_alg».proof.Proof.Gen.Kernel.Launch
import proofs.«167143_j12463995093672_1_alg».proof.Proof.Gen.Kernel.Skeleton
import proofs.«167143_j12463995093672_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The projection call number 2: one row block of the input times the joined weight matrix

At a grid point the body reads a block of 4000 rows of the input, the whole joined weight matrix (the
weights, the gate's score column and the damping column side by side) and the two one-element biases, and
writes three blocks: the first columns of the product, the logistic of the gate column plus its bias, and
the damping column plus its bias. -/

/-- Window `w`'s block at point `t`, read off its array as the call finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! An input's current buffer holds its block at every point, whether it was fetched there or not (an
    unfetched window's block index has not moved), for any proof data over these arrays whose body leaves
    the inputs in place. -/
theorem held2_0_of {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)

theorem held2_1_of {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)

theorem held2_2_of {c : Dev nD} (dat : Dat τ (Elt F) Unit ℕ (UR sig nD τ) ℕ cfg2 c) (hA : dat.A 2 = V c (Pipeline.arrRef spec2 2))
    (hafter : ∀ t, dat.after 2 t = blk2 V c 2 t) (t : Fin cfg2.N) (d) : dat.before 2 t d = blk2 V c 2 t :=
  (dat.before_in_eq_fetched 2 rfl (fun _ => rfl) (fun _ _ _ => rfl) (fun t => by rw [hafter]; unfold Dat.blockOf blk2; rw [hA]; try rfl) t d).trans
    (by unfold Dat.fetched Dat.blockOf blk2; rw [hA]; try rfl)

theorem held2_3_of {c : Dev nD} (dat : Dat τ (Elt F) Unit ℕ (UR sig nD τ) ℕ cfg2 c) (hA : dat.A 3 = V c (Pipeline.arrRef spec2 3))
    (hafter : ∀ t, dat.after 3 t = blk2 V c 3 t) (t : Fin cfg2.N) (d) : dat.before 3 t d = blk2 V c 3 t :=
  (dat.before_in_eq_fetched 3 rfl (fun _ => rfl) (fun _ _ _ => rfl) (fun t => by rw [hafter]; unfold Dat.blockOf blk2; rw [hA]; try rfl) t d).trans
    (by unfold Dat.fetched Dat.blockOf blk2; rw [hA]; try rfl)

/-! ## The rectangles the body loads and stores through: each is a whole buffer -/

abbrev rIn2 : Rect S4000x64 := Rect.unit (s := S4000x64) ![0, 0] S4000x64.size inb_S4000x64_S4000x64_0_0
abbrev rWt2 : Rect S64x12 := Rect.unit (s := S64x12) ![0, 0] S64x12.size inb_S64x12_S64x12_0_0
abbrev rOne2 : Rect S1x1 := Rect.unit (s := S1x1) ![0, 0] S1x1.size inb_S1x1_S1x1_0_0
abbrev rX2 : Rect S4000x10 := Rect.unit (s := S4000x10) ![0, 0] S4000x10.size inb_S4000x10_S4000x10_0_0
abbrev rCol2 : Rect S4000x1 := Rect.unit (s := S4000x1) ![0, 0] S4000x1.size inb_S4000x1_S4000x1_0_0

/-! ## What the body leaves in each output buffer: one whole-buffer store each -/

/-- The product's leading columns. -/
def xOut2 (x0 : Vec F S4000x64 .f32) (x1 : Vec F S64x12 .f32) : Vec F S4000x10 .f32 :=
  View.canon [⟨rX2, k2_pay2 (View.ld x0 rIn2) (View.ld x1 rWt2)⟩]
/-- The gate: the logistic of the gate column plus the bias. -/
def sOut2 (x0 : Vec F S4000x64 .f32) (x1 : Vec F S64x12 .f32) (x2 : Vec F S1x1 .f32) : Vec F S4000x1 .f32 :=
  View.canon [⟨rCol2, k2_pay4 (View.ld x0 rIn2) (View.ld x1 rWt2) (View.ld x2 rOne2)⟩]
/-- The damping column plus its bias. -/
def dOut2 (x0 : Vec F S4000x64 .f32) (x1 : Vec F S64x12 .f32) (x3 : Vec F S1x1 .f32) : Vec F S4000x1 .f32 :=
  View.canon [⟨rCol2, k2_pay3 (View.ld x0 rIn2) (View.ld x1 rWt2) (View.ld x3 rOne2)⟩]

theorem coverX2 (p0 : Vec F S4000x10 .f32) (y : S4000x10.Idx) :
    ∃ pc ∈ ([⟨rX2, p0⟩] : List (View.Piece (Elt F) S4000x10 .f32)), y ∈ pc.1.set :=
  View.cover_of_tiled [⟨rX2, p0⟩] S4000x10.size (by rfl) y
theorem coverCol2 (p0 : Vec F S4000x1 .f32) (y : S4000x1.Idx) :
    ∃ pc ∈ ([⟨rCol2, p0⟩] : List (View.Piece (Elt F) S4000x1 .f32)), y ∈ pc.1.set :=
  View.cover_of_tiled [⟨rCol2, p0⟩] S4000x1.size (by rfl) y

/-! ## The body's triple -/

set_option maxHeartbeats 4000000 in
/-- On whole buffers, the inputs at read contents `x0 … x3` and the outputs at anything, the body runs to its
    return with the inputs as they were and each output at its function of the inputs. -/
theorem sound_kernel2 (c : Dev nD) (E : Set ℕ) (i : grid2.Coords)
    (arg1 : Memref sig .tc .vmem S4000x64 .f32) (harg1 : arg1.IsWhole) (arg2 : Memref sig .tc .vmem S64x12 .f32) (harg2 : arg2.IsWhole)
    (arg3 : Memref sig .tc .vmem S1x1 .f32) (harg3 : arg3.IsWhole) (arg4 : Memref sig .tc .vmem S1x1 .f32) (harg4 : arg4.IsWhole)
    (arg5 : Memref sig .tc .vmem S4000x10 .f32) (harg5 : arg5.IsWhole) (arg6 : Memref sig .tc .vmem S4000x1 .f32) (harg6 : arg6.IsWhole)
    (arg7 : Memref sig .tc .vmem S4000x1 .f32) (harg7 : arg7.IsWhole)
    (x0 : Vec F S4000x64 .f32) (x1 : Vec F S64x12 .f32) (x2 : Vec F S1x1 .f32) (x3 : Vec F S1x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (xOut2 x0 x1)
            ∗ owns (c : Thread nD τ) arg6 fullShare (sOut2 x0 x1 x2) ∗ owns (c : Thread nD τ) arg7 fullShare (dOut2 x0 x1 x3)) -∗ K ⟨⟩))
      ⊢ wp frame (wpE (defs₀ (F := F)) Variants.none c none) E (cc2__proj_kernel i arg1 harg1 arg2 harg2 arg3 harg3 arg4 harg4 arg5 harg5 arg6 harg6 arg7 harg7) K := by
  simp only [cc2__proj_kernel_eq_skeleton]; unfold cc2__proj_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (coverX2 _)
  isplitl [H5]
  · iexists _; isplitr
    swap; · iexact H5
    ipureintro
    exact View.read_writes_eq_canon _ _ _ (coverCol2 _)
  iexists _; isplitr
  swap; · iexact H6
  ipureintro
  exact View.read_writes_eq_canon _ _ _ (coverCol2 _)

/-! ## The proof data of the call -/

/-- The arrays as the call finds them; after the body at point `t` each input's buffer at its block and each
    output's at its function of the input blocks; the invariant that of a body with no state of its own;
    nothing owed; full shares. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => blk2 V c 3 t
    | ⟨4, _⟩ => xOut2 (blk2 V c 0 t) (blk2 V c 1 t)
    | ⟨5, _⟩ => sOut2 (blk2 V c 0 t) (blk2 V c 1 t) (blk2 V c 2 t)
    | ⟨6, _⟩ => dOut2 (blk2 V c 0 t) (blk2 V c 1 t) (blk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = blk2 V c 0 t := by dsimp only [dat2]
theorem after2_1 (c : Dev nD) (t : Fin cfg2.N) : (dat2 V c).after 1 t = blk2 V c 1 t := by dsimp only [dat2]
theorem after2_2 (c : Dev nD) (t : Fin cfg2.N) : (dat2 V c).after 2 t = blk2 V c 2 t := by dsimp only [dat2]
theorem after2_3 (c : Dev nD) (t : Fin cfg2.N) : (dat2 V c).after 3 t = blk2 V c 3 t := by dsimp only [dat2]
theorem after2_4 (c : Dev nD) (t : Fin cfg2.N) : (dat2 V c).after 4 t = xOut2 (blk2 V c 0 t) (blk2 V c 1 t) := by dsimp only [dat2]
theorem after2_5 (c : Dev nD) (t : Fin cfg2.N) : (dat2 V c).after 5 t = sOut2 (blk2 V c 0 t) (blk2 V c 1 t) (blk2 V c 2 t) := by dsimp only [dat2]
theorem after2_6 (c : Dev nD) (t : Fin cfg2.N) : (dat2 V c).after 6 t = dOut2 (blk2 V c 0 t) (blk2 V c 1 t) (blk2 V c 3 t) := by dsimp only [dat2]

theorem held2_0 (c : Dev nD) (t : Fin cfg2.N) (d) : (dat2 V c).before 0 t d = blk2 V c 0 t :=
  held2_0_of V (dat2 V c) (A_eq2 V c 0) (after2_0 V c) t d
theorem held2_1 (c : Dev nD) (t : Fin cfg2.N) (d) : (dat2 V c).before 1 t d = blk2 V c 1 t :=
  held2_1_of V (dat2 V c) (A_eq2 V c 1) (after2_1 V c) t d
theorem held2_2 (c : Dev nD) (t : Fin cfg2.N) (d) : (dat2 V c).before 2 t d = blk2 V c 2 t :=
  held2_2_of V (dat2 V c) (A_eq2 V c 2) (after2_2 V c) t d
theorem held2_3 (c : Dev nD) (t : Fin cfg2.N) (d) : (dat2 V c).before 3 t d = blk2 V c 3 t :=
  held2_3_of V (dat2 V c) (A_eq2 V c 3) (after2_3 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the inputs' buffers hold their blocks, so the body's triple applies; the invariant
    and what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [held2_0, held2_1, held2_2, held2_3]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ (grid2.coords t) _ _ _ _ _ _ _ _ _ _ _ _ _ _ (blk2 V c 0 t) (blk2 V c 1 t) (blk2 V c 2 t) (blk2 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Frm

end
-- ==== Proof.WordMixSecond.lean ====
import proofs.«167143_j12463995093672_1_alg».proof.Proof.Gen.Kernel.Launch
import proofs.«167143_j12463995093672_1_alg».proof.Proof.Gen.Kernel.Skeleton
import proofs.«167143_j12463995093672_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The combining call number 3: the gated mix of the two aggregates and the damped projection

At a grid point the body reads a block of 4000 rows of the gate column, of the two aggregates, of the damping
column and of the projection, and writes the block of `s · a + (1 − s) · k + (γ · d) · x`, the columns
`s` and `d` spread along each row. -/

/-- Window `w`'s block at point `t`, read off its array as the call finds it. -/
def blk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! An input's current buffer holds its block at every point, for any proof data over these arrays whose body
    leaves the inputs in place. -/
theorem held3_0_of {c : Dev nD} (dat : Dat τ (Elt F) Unit ℕ (UR sig nD τ) ℕ cfg3 c) (hA : dat.A 0 = V c (Pipeline.arrRef spec3 0))
    (hafter : ∀ t, dat.after 0 t = blk3 V c 0 t) (t : Fin cfg3.N) (d) : dat.before 0 t d = blk3 V c 0 t :=
  (dat.before_in_eq_fetched 0 rfl (fun _ => rfl) (fun _ _ _ => rfl) (fun t => by rw [hafter]; unfold Dat.blockOf blk3; rw [hA]; try rfl) t d).trans
    (by unfold Dat.fetched Dat.blockOf blk3; rw [hA]; try rfl)

theorem held3_1_of {c : Dev nD} (dat : Dat τ (Elt F) Unit ℕ (UR sig nD τ) ℕ cfg3 c) (hA : dat.A 1 = V c (Pipeline.arrRef spec3 1))
    (hafter : ∀ t, dat.after 1 t = blk3 V c 1 t) (t : Fin cfg3.N) (d) : dat.before 1 t d = blk3 V c 1 t :=
  (dat.before_in_eq_fetched 1 rfl (fun _ => rfl) (fun _ _ _ => rfl) (fun t => by rw [hafter]; unfold Dat.blockOf blk3; rw [hA]; try rfl) t d).trans
    (by unfold Dat.fetched Dat.blockOf blk3; rw [hA]; try rfl)

theorem held3_2_of {c : Dev nD} (dat : Dat τ (Elt F) Unit ℕ (UR sig nD τ) ℕ cfg3 c) (hA : dat.A 2 = V c (Pipeline.arrRef spec3 2))
    (hafter : ∀ t, dat.after 2 t = blk3 V c 2 t) (t : Fin cfg3.N) (d) : dat.before 2 t d = blk3 V c 2 t :=
  (dat.before_in_eq_fetched 2 rfl (fun _ => rfl) (fun _ _ _ => rfl) (fun t => by rw [hafter]; unfold Dat.blockOf blk3; rw [hA]; try rfl) t d).trans
    (by unfold Dat.fetched Dat.blockOf blk3; rw [hA]; try rfl)

theorem held3_3_of {c : Dev nD} (dat : Dat τ (Elt F) Unit ℕ (UR sig nD τ) ℕ cfg3 c) (hA : dat.A 3 = V c (Pipeline.arrRef spec3 3))
    (hafter : ∀ t, dat.after 3 t = blk3 V c 3 t) (t : Fin cfg3.N) (d) : dat.before 3 t d = blk3 V c 3 t :=
  (dat.before_in_eq_fetched 3 rfl (fun _ => rfl) (fun _ _ _ => rfl) (fun t => by rw [hafter]; unfold Dat.blockOf blk3; rw [hA]; try rfl) t d).trans
    (by unfold Dat.fetched Dat.blockOf blk3; rw [hA]; try rfl)

theorem held3_4_of {c : Dev nD} (dat : Dat τ (Elt F) Unit ℕ (UR sig nD τ) ℕ cfg3 c) (hA : dat.A 4 = V c (Pipeline.arrRef spec3 4))
    (hafter : ∀ t, dat.after 4 t = blk3 V c 4 t) (t : Fin cfg3.N) (d) : dat.before 4 t d = blk3 V c 4 t :=
  (dat.before_in_eq_fetched 4 rfl (fun _ => rfl) (fun _ _ _ => rfl) (fun t => by rw [hafter]; unfold Dat.blockOf blk3; rw [hA]; try rfl) t d).trans
    (by unfold Dat.fetched Dat.blockOf blk3; rw [hA]; try rfl)

/-! ## The rectangles the body loads and stores through: each is a whole buffer -/

abbrev rCol3 : Rect S4000x1 := Rect.unit (s := S4000x1) ![0, 0] S4000x1.size inb_S4000x1_S4000x1_0_0
abbrev rRow3 : Rect S4000x10 := Rect.unit (s := S4000x10) ![0, 0] S4000x10.size inb_S4000x10_S4000x10_0_0

/-! ## What the body leaves in the output buffer: one whole-buffer store -/

/-- The mix, from the gate `x0`, the two aggregates `x1`, `x2`, the damping column `x3` and the projection `x4`. -/
def mixOut3 (x0 : Vec F S4000x1 .f32) (x1 : Vec F S4000x10 .f32) (x2 : Vec F S4000x10 .f32) (x3 : Vec F S4000x1 .f32) (x4 : Vec F S4000x10 .f32) : Vec F S4000x10 .f32 :=
  View.canon [⟨rRow3, k3_pay1 (View.ld x0 rCol3) (View.ld x3 rCol3) (View.ld x1 rRow3) (View.ld x2 rRow3) (View.ld x4 rRow3)⟩]

theorem coverRow3 (p0 : Vec F S4000x10 .f32) (y : S4000x10.Idx) :
    ∃ pc ∈ ([⟨rRow3, p0⟩] : List (View.Piece (Elt F) S4000x10 .f32)), y ∈ pc.1.set :=
  View.cover_of_tiled [⟨rRow3, p0⟩] S4000x10.size (by rfl) y

/-! ## The body's triple -/

set_option maxHeartbeats 4000000 in
/-- On whole buffers, the inputs at read contents `x0 … x4` and the output at anything, the body runs to its
    return with the inputs as they were and the output at the mix of the inputs. -/
theorem sound_kernel3 (c : Dev nD) (E : Set ℕ) (i : grid3.Coords)
    (arg1 : Memref sig .tc .vmem S4000x1 .f32) (harg1 : arg1.IsWhole) (arg2 : Memref sig .tc .vmem S4000x10 .f32) (harg2 : arg2.IsWhole)
    (arg3 : Memref sig .tc .vmem S4000x10 .f32) (harg3 : arg3.IsWhole) (arg4 : Memref sig .tc .vmem S4000x1 .f32) (harg4 : arg4.IsWhole)
    (arg5 : Memref sig .tc .vmem S4000x10 .f32) (harg5 : arg5.IsWhole) (arg6 : Memref sig .tc .vmem S4000x10 .f32) (harg6 : arg6.IsWhole)
    (x0 : Vec F S4000x1 .f32) (x1 : Vec F S4000x10 .f32) (x2 : Vec F S4000x10 .f32) (x3 : Vec F S4000x1 .f32) (x4 : Vec F S4000x10 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (mixOut3 x0 x1 x2 x3 x4)) -∗ K ⟨⟩))
      ⊢ wp frame (wpE (defs₀ (F := F)) Variants.none c none) E (cc3__combine_kernel i arg1 harg1 arg2 harg2 arg3 harg3 arg4 harg4 arg5 harg5 arg6 harg6) K := by
  simp only [cc3__combine_kernel_eq_skeleton]; unfold cc3__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (coverRow3 _)

/-! ## The proof data of the call -/

def dat3 (c : Dev nD) : Dat τ (Elt F) Unit ℕ (UR sig nD τ) ℕ cfg3 c where
  A w := V c (Pipeline.arrRef spec3 w)
  after w t := match w with
    | ⟨0, _⟩ => blk3 V c 0 t
    | ⟨1, _⟩ => blk3 V c 1 t
    | ⟨2, _⟩ => blk3 V c 2 t
    | ⟨3, _⟩ => blk3 V c 3 t
    | ⟨4, _⟩ => blk3 V c 4 t
    | ⟨5, _⟩ => mixOut3 (blk3 V c 0 t) (blk3 V c 1 t) (blk3 V c 2 t) (blk3 V c 3 t) (blk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = blk3 V c 0 t := by dsimp only [dat3]
theorem after3_1 (c : Dev nD) (t : Fin cfg3.N) : (dat3 V c).after 1 t = blk3 V c 1 t := by dsimp only [dat3]
theorem after3_2 (c : Dev nD) (t : Fin cfg3.N) : (dat3 V c).after 2 t = blk3 V c 2 t := by dsimp only [dat3]
theorem after3_3 (c : Dev nD) (t : Fin cfg3.N) : (dat3 V c).after 3 t = blk3 V c 3 t := by dsimp only [dat3]
theorem after3_4 (c : Dev nD) (t : Fin cfg3.N) : (dat3 V c).after 4 t = blk3 V c 4 t := by dsimp only [dat3]
theorem after3_5 (c : Dev nD) (t : Fin cfg3.N) : (dat3 V c).after 5 t = mixOut3 (blk3 V c 0 t) (blk3 V c 1 t) (blk3 V c 2 t) (blk3 V c 3 t) (blk3 V c 4 t) := by dsimp only [dat3]

theorem held3_0 (c : Dev nD) (t : Fin cfg3.N) (d) : (dat3 V c).before 0 t d = blk3 V c 0 t :=
  held3_0_of V (dat3 V c) (A_eq3 V c 0) (after3_0 V c) t d
theorem held3_1 (c : Dev nD) (t : Fin cfg3.N) (d) : (dat3 V c).before 1 t d = blk3 V c 1 t :=
  held3_1_of V (dat3 V c) (A_eq3 V c 1) (after3_1 V c) t d
theorem held3_2 (c : Dev nD) (t : Fin cfg3.N) (d) : (dat3 V c).before 2 t d = blk3 V c 2 t :=
  held3_2_of V (dat3 V c) (A_eq3 V c 2) (after3_2 V c) t d
theorem held3_3 (c : Dev nD) (t : Fin cfg3.N) (d) : (dat3 V c).before 3 t d = blk3 V c 3 t :=
  held3_3_of V (dat3 V c) (A_eq3 V c 3) (after3_3 V c) t d
theorem held3_4 (c : Dev nD) (t : Fin cfg3.N) (d) : (dat3 V c).before 4 t d = blk3 V c 4 t :=
  held3_4_of V (dat3 V c) (A_eq3 V c 4) (after3_4 V c) t d

/-! ## The body obligation, at a generic point -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [held3_0, held3_1, held3_2, held3_3, held3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ (grid3.coords t) _ _ _ _ _ _ _ _ _ _ _ _ (blk3 V c 0 t) (blk3 V c 1 t) (blk3 V c 2 t) (blk3 V c 3 t) (blk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation3 (c : Dev nD) : BodyObligation (dat3 (F := F) V c) (defs₀ (F := F)) Variants.none () Set.univ := fun t => by
  rw [bigSep_W3, bigSep_W3]
  exact sound_body3 V c t

end Cert.Kernel.Frm

end
-- ==== Proof.WordWholeRun.lean ====
import proofs.«167143_j12463995093672_1_alg».proof.Proof.Gen.Kernel.Launch
import proofs.«167143_j12463995093672_1_alg».proof.Proof.Gen.Kernel.Skeleton
import proofs.«167143_j12463995093672_1_alg».proof.Proof.Gen.Kernel.Points
import proofs.«167143_j12463995093672_1_alg».proof.Proof.Gen.Kernel.Regions
import proofs.«167143_j12463995093672_1_alg».proof.Proof.WordProjFirst
import proofs.«167143_j12463995093672_1_alg».proof.Proof.WordMixFirst
import proofs.«167143_j12463995093672_1_alg».proof.Proof.WordProjSecond
import proofs.«167143_j12463995093672_1_alg».proof.Proof.WordMixSecond
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The whole program as a chain of host stretches and four calls

The contents of the TensorCore's buffers at every boundary between two items, folded from the launch memory: a
host stretch applies its operations; a call leaves its arrays at what its write-backs put there and every other
buffer as it found it. -/

/-- Core `c`'s buffers at launch. -/
abbrev W0 : Dev nD → Valuation τ sig (Elt F) := fun c b => (s₀ m ρ).mem ((c : Dev nD), b)
/-- After the host stretch `hostOps0`. -/
abbrev W1 : Dev nD → Valuation τ sig (Elt F) := fun c => StableHlo.after hostOps0 (W0 m ρ c)
/-- The same read at the TensorCore's references: what call 0 is entered with. -/
abbrev B1 : (c : Dev nD) → (b : Ref sig .tc) → Buf (Elt F) ((c : Thread nD τ).loc b) := fun c b => W1 m ρ c b
/-- After call 0: its arrays at what the write-backs leave, every other buffer as entered. -/
def W2 (c : Dev nD) : Valuation τ sig (Elt F) :=
  Pipeline.withArrays spec0 c (W1 m ρ c) fun w => (dat0 (B1 m ρ) c).arrAt w cfg0.N
theorem W2_arr (c : Dev nD) (w : Fin cfg0.W) :
    W2 m ρ c (Proc.devRef .tc (Pipeline.arrRef spec0 w)) = (dat0 (B1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev B2 : (c : Dev nD) → (b : Ref sig .tc) → Buf (Elt F) ((c : Thread nD τ).loc b) := fun c b => W2 m ρ c b
theorem hF0 (c : Dev nD) (w : Fin cfg0.W) : (dat0 (B1 m ρ) c).arrAt w cfg0.N = B2 m ρ c (Pipeline.arrRef spec0 w) :=
  (W2_arr m ρ c w).symm
theorem hrest0 (c : Dev nD) : ∀ b, b ∉ Finset.univ.image (Pipeline.arrRef spec0) → B2 m ρ c b = B1 m ρ c b :=
  fun b hb => W2_of_ne m ρ c b fun w e => hb (Finset.mem_image.mpr ⟨w, Finset.mem_univ _, e⟩)
/-- After the host stretch `hostOps1`. -/
abbrev W3 : Dev nD → Valuation τ sig (Elt F) := fun c => StableHlo.after hostOps1 (W2 m ρ c)
/-- After the host stretch `hostOps1_1`. -/
abbrev W4 : Dev nD → Valuation τ sig (Elt F) := fun c => StableHlo.after hostOps1_1 (W3 m ρ c)
/-- After the host stretch `hostOps1_2`. -/
abbrev W5 : Dev nD → Valuation τ sig (Elt F) := fun c => StableHlo.after hostOps1_2 (W4 m ρ c)
/-- After the host stretch `hostOps1_3`. -/
abbrev W6 : Dev nD → Valuation τ sig (Elt F) := fun c => StableHlo.after hostOps1_3 (W5 m ρ c)
/-- After the host stretch `hostOps1_4`. -/
abbrev W7 : Dev nD → Valuation τ sig (Elt F) := fun c => StableHlo.after hostOps1_4 (W6 m ρ c)
/-- After the host stretch `hostOps1_5`. -/
abbrev W8 : Dev nD → Valuation τ sig (Elt F) := fun c => StableHlo.after hostOps1_5 (W7 m ρ c)
/-- After the host stretch `hostOps1_6`. -/
abbrev W9 : Dev nD → Valuation τ sig (Elt F) := fun c => StableHlo.after hostOps1_6 (W8 m ρ c)
/-- After the host stretch `hostOps1_7`. -/
abbrev W10 : Dev nD → Valuation τ sig (Elt F) := fun c => StableHlo.after hostOps1_7 (W9 m ρ c)
/-- After the host stretch `hostOps1_8`. -/
abbrev W11 : Dev nD → Valuation τ sig (Elt F) := fun c => StableHlo.after hostOps1_8 (W10 m ρ c)
/-- The same read at the TensorCore's references: what call 1 is entered with. -/
abbrev B11 : (c : Dev nD) → (b : Ref sig .tc) → Buf (Elt F) ((c : Thread nD τ).loc b) := fun c b => W11 m ρ c b
/-- After call 1: its arrays at what the write-backs leave, every other buffer as entered. -/
def W12 (c : Dev nD) : Valuation τ sig (Elt F) :=
  Pipeline.withArrays spec1 c (W11 m ρ c) fun w => (dat1 (B11 m ρ) c).arrAt w cfg1.N
theorem W12_arr (c : Dev nD) (w : Fin cfg1.W) :
    W12 m ρ c (Proc.devRef .tc (Pipeline.arrRef spec1 w)) = (dat1 (B11 m ρ) c).arrAt w cfg1.N := by
  unfold W12; exact Pipeline.withArrays_arr spec1 launch1.win.arr_inj c _ _ w
theorem W12_of_ne (c : Dev nD) (b : Ref sig .tc) (hb : ∀ w, Pipeline.arrRef spec1 w ≠ b) :
    W12 m ρ c (Proc.devRef .tc b) = W11 m ρ c (Proc.devRef .tc b) := by
  unfold W12; exact Pipeline.withArrays_of_ne spec1 c _ _ b hb
abbrev B12 : (c : Dev nD) → (b : Ref sig .tc) → Buf (Elt F) ((c : Thread nD τ).loc b) := fun c b => W12 m ρ c b
theorem hF1 (c : Dev nD) (w : Fin cfg1.W) : (dat1 (B11 m ρ) c).arrAt w cfg1.N = B12 m ρ c (Pipeline.arrRef spec1 w) :=
  (W12_arr m ρ c w).symm
theorem hrest1 (c : Dev nD) : ∀ b, b ∉ Finset.univ.image (Pipeline.arrRef spec1) → B12 m ρ c b = B11 m ρ c b :=
  fun b hb => W12_of_ne m ρ c b fun w e => hb (Finset.mem_image.mpr ⟨w, Finset.mem_univ _, e⟩)
/-- After the host stretch `hostOps2`. -/
abbrev W13 : Dev nD → Valuation τ sig (Elt F) := fun c => StableHlo.after hostOps2 (W12 m ρ c)
/-- The same read at the TensorCore's references: what call 2 is entered with. -/
abbrev B13 : (c : Dev nD) → (b : Ref sig .tc) → Buf (Elt F) ((c : Thread nD τ).loc b) := fun c b => W13 m ρ c b
/-- After call 2: its arrays at what the write-backs leave, every other buffer as entered. -/
def W14 (c : Dev nD) : Valuation τ sig (Elt F) :=
  Pipeline.withArrays spec2 c (W13 m ρ c) fun w => (dat2 (B13 m ρ) c).arrAt w cfg2.N
theorem W14_arr (c : Dev nD) (w : Fin cfg2.W) :
    W14 m ρ c (Proc.devRef .tc (Pipeline.arrRef spec2 w)) = (dat2 (B13 m ρ) c).arrAt w cfg2.N := by
  unfold W14; exact Pipeline.withArrays_arr spec2 launch2.win.arr_inj c _ _ w
theorem W14_of_ne (c : Dev nD) (b : Ref sig .tc) (hb : ∀ w, Pipeline.arrRef spec2 w ≠ b) :
    W14 m ρ c (Proc.devRef .tc b) = W13 m ρ c (Proc.devRef .tc b) := by
  unfold W14; exact Pipeline.withArrays_of_ne spec2 c _ _ b hb
abbrev B14 : (c : Dev nD) → (b : Ref sig .tc) → Buf (Elt F) ((c : Thread nD τ).loc b) := fun c b => W14 m ρ c b
theorem hF2 (c : Dev nD) (w : Fin cfg2.W) : (dat2 (B13 m ρ) c).arrAt w cfg2.N = B14 m ρ c (Pipeline.arrRef spec2 w) :=
  (W14_arr m ρ c w).symm
theorem hrest2 (c : Dev nD) : ∀ b, b ∉ Finset.univ.image (Pipeline.arrRef spec2) → B14 m ρ c b = B13 m ρ c b :=
  fun b hb => W14_of_ne m ρ c b fun w e => hb (Finset.mem_image.mpr ⟨w, Finset.mem_univ _, e⟩)
/-- After the host stretch `hostOps3`. -/
abbrev W15 : Dev nD → Valuation τ sig (Elt F) := fun c => StableHlo.after hostOps3 (W14 m ρ c)
/-- After the host stretch `hostOps3_1`. -/
abbrev W16 : Dev nD → Valuation τ sig (Elt F) := fun c => StableHlo.after hostOps3_1 (W15 m ρ c)
/-- After the host stretch `hostOps3_2`. -/
abbrev W17 : Dev nD → Valuation τ sig (Elt F) := fun c => StableHlo.after hostOps3_2 (W16 m ρ c)
/-- After the host stretch `hostOps3_3`. -/
abbrev W18 : Dev nD → Valuation τ sig (Elt F) := fun c => StableHlo.after hostOps3_3 (W17 m ρ c)
/-- After the host stretch `hostOps3_4`. -/
abbrev W19 : Dev nD → Valuation τ sig (Elt F) := fun c => StableHlo.after hostOps3_4 (W18 m ρ c)
/-- After the host stretch `hostOps3_5`. -/
abbrev W20 : Dev nD → Valuation τ sig (Elt F) := fun c => StableHlo.after hostOps3_5 (W19 m ρ c)
/-- After the host stretch `hostOps3_6`. -/
abbrev W21 : Dev nD → Valuation τ sig (Elt F) := fun c => StableHlo.after hostOps3_6 (W20 m ρ c)
/-- After the host stretch `hostOps3_7`. -/
abbrev W22 : Dev nD → Valuation τ sig (Elt F) := fun c => StableHlo.after hostOps3_7 (W21 m ρ c)
/-- After the host stretch `hostOps3_8`. -/
abbrev W23 : Dev nD → Valuation τ sig (Elt F) := fun c => StableHlo.after hostOps3_8 (W22 m ρ c)
/-- The same read at the TensorCore's references: what call 3 is entered with. -/
abbrev B23 : (c : Dev nD) → (b : Ref sig .tc) → Buf (Elt F) ((c : Thread nD τ).loc b) := fun c b => W23 m ρ c b
/-- After call 3: its arrays at what the write-backs leave, every other buffer as entered. -/
def W24 (c : Dev nD) : Valuation τ sig (Elt F) :=
  Pipeline.withArrays spec3 c (W23 m ρ c) fun w => (dat3 (B23 m ρ) c).arrAt w cfg3.N
theorem W24_arr (c : Dev nD) (w : Fin cfg3.W) :
    W24 m ρ c (Proc.devRef .tc (Pipeline.arrRef spec3 w)) = (dat3 (B23 m ρ) c).arrAt w cfg3.N := by
  unfold W24; exact Pipeline.withArrays_arr spec3 launch3.win.arr_inj c _ _ w
theorem W24_of_ne (c : Dev nD) (b : Ref sig .tc) (hb : ∀ w, Pipeline.arrRef spec3 w ≠ b) :
    W24 m ρ c (Proc.devRef .tc b) = W23 m ρ c (Proc.devRef .tc b) := by
  unfold W24; exact Pipeline.withArrays_of_ne spec3 c _ _ b hb
abbrev B24 : (c : Dev nD) → (b : Ref sig .tc) → Buf (Elt F) ((c : Thread nD τ).loc b) := fun c b => W24 m ρ c b
theorem hF3 (c : Dev nD) (w : Fin cfg3.W) : (dat3 (B23 m ρ) c).arrAt w cfg3.N = B24 m ρ c (Pipeline.arrRef spec3 w) :=
  (W24_arr m ρ c w).symm
theorem hrest3 (c : Dev nD) : ∀ b, b ∉ Finset.univ.image (Pipeline.arrRef spec3) → B24 m ρ c b = B23 m ρ c b :=
  fun b hb => W24_of_ne m ρ c b fun w e => hb (Finset.mem_image.mpr ⟨w, Finset.mem_univ _, e⟩)

/-! ## The proof data family and the thread state -/

abbrev admF : (p : Fin 4) → (pcfgs (F := F) p).Adm := fun p => (cfgs p).toPCfg_adm
/-- Every call's proof data, each at the contents its call is entered with. -/
def pdats : (p : Fin 4) → (c : Dev nD) → Dat τ (Elt F) Unit ℕ (UR sig nD τ) ℕ (Pipeline.pin (pcfgs (F := F)) admF p) c
  | ⟨0, _⟩ => fun c => dat0 (B1 m ρ) c
  | ⟨1, _⟩ => fun c => dat1 (B11 m ρ) c
  | ⟨2, _⟩ => fun c => dat2 (B13 m ρ) c
  | ⟨3, _⟩ => fun c => dat3 (B23 m ρ) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last boundary's contents. -/
abbrev Tₙ (c : Dev nD) : sProp 𝕄 := iprop(StableHlo.held (c : Thread nD τ) (Pipeline.ucRefs τ sig) (W24 m ρ c) ∗ ∃ r, prngReg c r)

/-! ## The calls as segments -/

set_option backward.isDefEq.respectTransparency.types false in
/-- The call number 0 as a segment: entered with every unscoped buffer at `W1`, left with them at `W2`; its
    arrays are split out of the unscoped buffers and put back at what the write-backs leave. -/
def reg0 : Pipeline.RegionSeg (pcfgs (F := F)) admF (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (B1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (B1 m ρ c)
  hentry c := by
    rw [Pipeline.ownSems0_none]
    have hsplit := Pipeline.arrays_of_unscopedBufs (p := 0) (pcfgs (F := F)) admF (pdats m ρ) launch0.win launch0.arr_whole c
      ((pdats m ρ 0 c).share_full fun _ => rfl) (B1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admF (Ix := Unit) (Name := ℕ) (U := UR sig nD τ) (Lvl := ℕ)
      launch0.win launch0.arr_whole c (pdats m ρ) ((pdats m ρ 0 c).share_full fun _ => rfl)
      (B1 m ρ c) (B2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The call number 1 as a segment: entered with every unscoped buffer at `W11`, left with them at `W12`; its
    arrays are split out of the unscoped buffers and put back at what the write-backs leave. -/
def reg1 : Pipeline.RegionSeg (pcfgs (F := F)) admF (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (B11 m ρ) c).loose
  hwaits := Pipeline.hwaits_of_owed_zero _ _ _ _ L lv 1 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec1 c (B11 m ρ c)
  hentry c := by
    rw [Pipeline.ownSems0_none]
    have hsplit := Pipeline.arrays_of_unscopedBufs (p := 1) (pcfgs (F := F)) admF (pdats m ρ) launch1.win launch1.arr_whole c
      ((pdats m ρ 1 c).share_full fun _ => rfl) (B11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admF (Ix := Unit) (Name := ℕ) (U := UR sig nD τ) (Lvl := ℕ)
      launch1.win launch1.arr_whole c (pdats m ρ) ((pdats m ρ 1 c).share_full fun _ => rfl)
      (B11 m ρ c) (B12 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The call number 2 as a segment: entered with every unscoped buffer at `W13`, left with them at `W14`; its
    arrays are split out of the unscoped buffers and put back at what the write-backs leave. -/
def reg2 : Pipeline.RegionSeg (pcfgs (F := F)) admF (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (B13 m ρ) c).loose
  hwaits := Pipeline.hwaits_of_owed_zero _ _ _ _ L lv 2 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec2 c (B13 m ρ c)
  hentry c := by
    rw [Pipeline.ownSems0_none]
    have hsplit := Pipeline.arrays_of_unscopedBufs (p := 2) (pcfgs (F := F)) admF (pdats m ρ) launch2.win launch2.arr_whole c
      ((pdats m ρ 2 c).share_full fun _ => rfl) (B13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admF (Ix := Unit) (Name := ℕ) (U := UR sig nD τ) (Lvl := ℕ)
      launch2.win launch2.arr_whole c (pdats m ρ) ((pdats m ρ 2 c).share_full fun _ => rfl)
      (B13 m ρ c) (B14 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The call number 3 as a segment: entered with every unscoped buffer at `W23`, left with them at `W24`; its
    arrays are split out of the unscoped buffers and put back at what the write-backs leave. -/
def reg3 : Pipeline.RegionSeg (pcfgs (F := F)) admF (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (B23 m ρ) c).loose
  hwaits := Pipeline.hwaits_of_owed_zero _ _ _ _ L lv 3 fun _ _ => rfl
  pre c := iprop(StableHlo.held (c : Thread nD τ) (Pipeline.ucRefs τ sig) (W23 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (B23 m ρ c)
  hentry c := by
    rw [Pipeline.ownSems0_none]
    have hsplit := Pipeline.arrays_of_unscopedBufs (p := 3) (pcfgs (F := F)) admF (pdats m ρ) launch3.win launch3.arr_whole c
      ((pdats m ρ 3 c).share_full fun _ => rfl) (B23 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) admF (Ix := Unit) (Name := ℕ) (U := UR sig nD τ) (Lvl := ℕ)
      launch3.win launch3.arr_whole c (pdats m ρ) ((pdats m ρ 3 c).share_full fun _ => rfl)
      (B23 m ρ c) (B24 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev items : List (Pipeline.Seg (pcfgs (F := F)) admF (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .host (hseg hostOps1_3 hostOps1_3_sub hostOps1_3_fresh (W5 m ρ)),
    .host (hseg hostOps1_4 hostOps1_4_sub hostOps1_4_fresh (W6 m ρ)),
    .host (hseg hostOps1_5 hostOps1_5_sub hostOps1_5_fresh (W7 m ρ)),
    .host (hseg hostOps1_6 hostOps1_6_sub hostOps1_6_fresh (W8 m ρ)),
    .host (hseg hostOps1_7 hostOps1_7_sub hostOps1_7_fresh (W9 m ρ)),
    .host (hseg hostOps1_8 hostOps1_8_sub hostOps1_8_fresh (W10 m ρ)),
    .region (reg1 m ρ),
    .host (hseg hostOps2 hostOps2_sub hostOps2_fresh (W12 m ρ)),
    .region (reg2 m ρ),
    .host (hseg hostOps3 hostOps3_sub hostOps3_fresh (W14 m ρ)),
    .host (hseg hostOps3_1 hostOps3_1_sub hostOps3_1_fresh (W15 m ρ)),
    .host (hseg hostOps3_2 hostOps3_2_sub hostOps3_2_fresh (W16 m ρ)),
    .host (hseg hostOps3_3 hostOps3_3_sub hostOps3_3_fresh (W17 m ρ)),
    .host (hseg hostOps3_4 hostOps3_4_sub hostOps3_4_fresh (W18 m ρ)),
    .host (hseg hostOps3_5 hostOps3_5_sub hostOps3_5_fresh (W19 m ρ)),
    .host (hseg hostOps3_6 hostOps3_6_sub hostOps3_6_fresh (W20 m ρ)),
    .host (hseg hostOps3_7 hostOps3_7_sub hostOps3_7_fresh (W21 m ρ)),
    .host (hseg hostOps3_8 hostOps3_8_sub hostOps3_8_fresh (W22 m ρ)),
    .region (reg3 m ρ) ]

set_option backward.isDefEq.respectTransparency.types false in
/-- THE RUN: from any memory with zero counters every weakly fair execution of @main terminates, nothing
    faulting, and every final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W24 m ρ c b) :=
  Pipeline.θ_run_regions_kit (pcfgs (F := F)) admF (pdats m ρ) () cellOf_inj emb₁ defs₀ 𝒱₀ L lv m ρ main (items m ρ)
    (fun c Q => by
      rewrite [main_chain c, Pipeline.Seg.run_eq_chain,
        show (items m ρ).map Pipeline.Seg.prog = [
          StableHlo.seq hostOps0,
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          StableHlo.seq hostOps1_6,
          StableHlo.seq hostOps1_7,
          StableHlo.seq hostOps1_8,
          Prog.lift (.customCall (Pipeline.entry 1) ()),
          StableHlo.seq hostOps2,
          Prog.lift (.customCall (Pipeline.entry 2) ()),
          StableHlo.seq hostOps3,
          StableHlo.seq hostOps3_1,
          StableHlo.seq hostOps3_2,
          StableHlo.seq hostOps3_3,
          StableHlo.seq hostOps3_4,
          StableHlo.seq hostOps3_5,
          StableHlo.seq hostOps3_6,
          StableHlo.seq hostOps3_7,
          StableHlo.seq hostOps3_8,
          Prog.lift (.customCall (Pipeline.entry 3) ()) ] from rfl]
      exact .rfl)
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W24 m ρ c b)
    (hfin := fun c s' => by
      iintro ⟨⟨Hh, -⟩, HSI⟩
      unfold StableHlo.held
      imodintro
      iapply (pointsTo_read_all (Pipeline.ucRefs τ sig) (fun b => (((c : Thread nD τ)).1, b)) (W24 m ρ c) s')
      isplitl [Hh] <;> iassumption)
    (hQ := fun s h => h)

end Cert.Kernel.Frm

end
-- ==== Proof.WordArgsKept.lean ====
import proofs.«167143_j12463995093672_1_alg».proof.Proof.Gen.Kernel.Launch
import proofs.«167143_j12463995093672_1_alg».proof.Proof.Gen.Kernel.Skeleton
import proofs.«167143_j12463995093672_1_alg».proof.Proof.Gen.Kernel.Points
import proofs.«167143_j12463995093672_1_alg».proof.Proof.WordWholeRun
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # What no item writes reaches the end as launched

A host stretch leaves every buffer outside the list of references its operations write; a call leaves every
buffer that is not one of its arrays, and leaves an array it only reads as it found it. -/

theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W4_of (c : Dev nD) (r : Ref sig .tc) (h : r ∉ hostOps1_1_W) : W4 m ρ c (Proc.devRef .tc r) = W3 m ρ c (Proc.devRef .tc r) :=
  StableHlo.after_of_writes_sub hostOps1_1 _ hostOps1_1_writes h
theorem W5_of (c : Dev nD) (r : Ref sig .tc) (h : r ∉ hostOps1_2_W) : W5 m ρ c (Proc.devRef .tc r) = W4 m ρ c (Proc.devRef .tc r) :=
  StableHlo.after_of_writes_sub hostOps1_2 _ hostOps1_2_writes h
theorem W6_of (c : Dev nD) (r : Ref sig .tc) (h : r ∉ hostOps1_3_W) : W6 m ρ c (Proc.devRef .tc r) = W5 m ρ c (Proc.devRef .tc r) :=
  StableHlo.after_of_writes_sub hostOps1_3 _ hostOps1_3_writes h
theorem W7_of (c : Dev nD) (r : Ref sig .tc) (h : r ∉ hostOps1_4_W) : W7 m ρ c (Proc.devRef .tc r) = W6 m ρ c (Proc.devRef .tc r) :=
  StableHlo.after_of_writes_sub hostOps1_4 _ hostOps1_4_writes h
theorem W8_of (c : Dev nD) (r : Ref sig .tc) (h : r ∉ hostOps1_5_W) : W8 m ρ c (Proc.devRef .tc r) = W7 m ρ c (Proc.devRef .tc r) :=
  StableHlo.after_of_writes_sub hostOps1_5 _ hostOps1_5_writes h
theorem W9_of (c : Dev nD) (r : Ref sig .tc) (h : r ∉ hostOps1_6_W) : W9 m ρ c (Proc.devRef .tc r) = W8 m ρ c (Proc.devRef .tc r) :=
  StableHlo.after_of_writes_sub hostOps1_6 _ hostOps1_6_writes h
theorem W10_of (c : Dev nD) (r : Ref sig .tc) (h : r ∉ hostOps1_7_W) : W10 m ρ c (Proc.devRef .tc r) = W9 m ρ c (Proc.devRef .tc r) :=
  StableHlo.after_of_writes_sub hostOps1_7 _ hostOps1_7_writes h
theorem W11_of (c : Dev nD) (r : Ref sig .tc) (h : r ∉ hostOps1_8_W) : W11 m ρ c (Proc.devRef .tc r) = W10 m ρ c (Proc.devRef .tc r) :=
  StableHlo.after_of_writes_sub hostOps1_8 _ hostOps1_8_writes h
theorem W13_of (c : Dev nD) (r : Ref sig .tc) (h : r ∉ hostOps2_W) : W13 m ρ c (Proc.devRef .tc r) = W12 m ρ c (Proc.devRef .tc r) :=
  StableHlo.after_of_writes_sub hostOps2 _ hostOps2_writes h
theorem W15_of (c : Dev nD) (r : Ref sig .tc) (h : r ∉ hostOps3_W) : W15 m ρ c (Proc.devRef .tc r) = W14 m ρ c (Proc.devRef .tc r) :=
  StableHlo.after_of_writes_sub hostOps3 _ hostOps3_writes h
theorem W16_of (c : Dev nD) (r : Ref sig .tc) (h : r ∉ hostOps3_1_W) : W16 m ρ c (Proc.devRef .tc r) = W15 m ρ c (Proc.devRef .tc r) :=
  StableHlo.after_of_writes_sub hostOps3_1 _ hostOps3_1_writes h
theorem W17_of (c : Dev nD) (r : Ref sig .tc) (h : r ∉ hostOps3_2_W) : W17 m ρ c (Proc.devRef .tc r) = W16 m ρ c (Proc.devRef .tc r) :=
  StableHlo.after_of_writes_sub hostOps3_2 _ hostOps3_2_writes h
theorem W18_of (c : Dev nD) (r : Ref sig .tc) (h : r ∉ hostOps3_3_W) : W18 m ρ c (Proc.devRef .tc r) = W17 m ρ c (Proc.devRef .tc r) :=
  StableHlo.after_of_writes_sub hostOps3_3 _ hostOps3_3_writes h
theorem W19_of (c : Dev nD) (r : Ref sig .tc) (h : r ∉ hostOps3_4_W) : W19 m ρ c (Proc.devRef .tc r) = W18 m ρ c (Proc.devRef .tc r) :=
  StableHlo.after_of_writes_sub hostOps3_4 _ hostOps3_4_writes h
theorem W20_of (c : Dev nD) (r : Ref sig .tc) (h : r ∉ hostOps3_5_W) : W20 m ρ c (Proc.devRef .tc r) = W19 m ρ c (Proc.devRef .tc r) :=
  StableHlo.after_of_writes_sub hostOps3_5 _ hostOps3_5_writes h
theorem W21_of (c : Dev nD) (r : Ref sig .tc) (h : r ∉ hostOps3_6_W) : W21 m ρ c (Proc.devRef .tc r) = W20 m ρ c (Proc.devRef .tc r) :=
  StableHlo.after_of_writes_sub hostOps3_6 _ hostOps3_6_writes h
theorem W22_of (c : Dev nD) (r : Ref sig .tc) (h : r ∉ hostOps3_7_W) : W22 m ρ c (Proc.devRef .tc r) = W21 m ρ c (Proc.devRef .tc r) :=
  StableHlo.after_of_writes_sub hostOps3_7 _ hostOps3_7_writes h
theorem W23_of (c : Dev nD) (r : Ref sig .tc) (h : r ∉ hostOps3_8_W) : W23 m ρ c (Proc.devRef .tc r) = W22 m ρ c (Proc.devRef .tc r) :=
  StableHlo.after_of_writes_sub hostOps3_8 _ hostOps3_8_writes h

/-- No host stretch writes `r` and `r` is no array of any call. -/
def Untouched (r : Ref sig .tc) : Prop :=
  r ∉ hostOps0_W ∧ (∀ w, Pipeline.arrRef spec0 w ≠ r) ∧ r ∉ hostOps1_W ∧ r ∉ hostOps1_1_W ∧ r ∉ hostOps1_2_W ∧ r ∉ hostOps1_3_W ∧ r ∉ hostOps1_4_W ∧ r ∉ hostOps1_5_W ∧ r ∉ hostOps1_6_W ∧ r ∉ hostOps1_7_W ∧ r ∉ hostOps1_8_W ∧ (∀ w, Pipeline.arrRef spec1 w ≠ r) ∧ r ∉ hostOps2_W ∧ (∀ w, Pipeline.arrRef spec2 w ≠ r) ∧ r ∉ hostOps3_W ∧ r ∉ hostOps3_1_W ∧ r ∉ hostOps3_2_W ∧ r ∉ hostOps3_3_W ∧ r ∉ hostOps3_4_W ∧ r ∉ hostOps3_5_W ∧ r ∉ hostOps3_6_W ∧ r ∉ hostOps3_7_W ∧ r ∉ hostOps3_8_W ∧ (∀ w, Pipeline.arrRef spec3 w ≠ r)

set_option synthInstance.maxSize 8192 in
set_option synthInstance.maxHeartbeats 400000 in
instance (r : Ref sig .tc) : Decidable (Untouched r) := by unfold Untouched; infer_instance

/-- A reference no item touches holds its launch contents at the last boundary. -/
theorem W24_untouched (c : Dev nD) (r : Ref sig .tc) (h : Untouched r) :
    W24 m ρ c (Proc.devRef .tc r) = m ((c : Thread nD τ).loc r) := by
  obtain ⟨h0, h1, h2, h3, h4, h5, h6, h7, h8, h9, h10, h11, h12, h13, h14, h15, h16, h17, h18, h19, h20, h21, h22, h23⟩ := h
  exact (W24_of_ne m ρ c r h23).trans <|
    (W23_of m ρ c r h22).trans <|
    (W22_of m ρ c r h21).trans <|
    (W21_of m ρ c r h20).trans <|
    (W20_of m ρ c r h19).trans <|
    (W19_of m ρ c r h18).trans <|
    (W18_of m ρ c r h17).trans <|
    (W17_of m ρ c r h16).trans <|
    (W16_of m ρ c r h15).trans <|
    (W15_of m ρ c r h14).trans <|
    (W14_of_ne m ρ c r h13).trans <|
    (W13_of m ρ c r h12).trans <|
    (W12_of_ne m ρ c r h11).trans <|
    (W11_of m ρ c r h10).trans <|
    (W10_of m ρ c r h9).trans <|
    (W9_of m ρ c r h8).trans <|
    (W8_of m ρ c r h7).trans <|
    (W7_of m ρ c r h6).trans <|
    (W6_of m ρ c r h5).trans <|
    (W5_of m ρ c r h4).trans <|
    (W4_of m ρ c r h3).trans <|
    (W3_of m ρ c r h2).trans <|
    (W2_of_ne m ρ c r h1).trans <|
    (W1_of m ρ c r h0).trans <| rfl

/-- No host stretch writes `r` and `r` is no array of the three later calls. -/
def UntouchedAfterFirst (r : Ref sig .tc) : Prop :=
  r ∉ hostOps0_W ∧ r ∉ hostOps1_W ∧ r ∉ hostOps1_1_W ∧ r ∉ hostOps1_2_W ∧ r ∉ hostOps1_3_W ∧ r ∉ hostOps1_4_W ∧ r ∉ hostOps1_5_W ∧ r ∉ hostOps1_6_W ∧ r ∉ hostOps1_7_W ∧ r ∉ hostOps1_8_W ∧ (∀ w, Pipeline.arrRef spec1 w ≠ r) ∧ r ∉ hostOps2_W ∧ (∀ w, Pipeline.arrRef spec2 w ≠ r) ∧ r ∉ hostOps3_W ∧ r ∉ hostOps3_1_W ∧ r ∉ hostOps3_2_W ∧ r ∉ hostOps3_3_W ∧ r ∉ hostOps3_4_W ∧ r ∉ hostOps3_5_W ∧ r ∉ hostOps3_6_W ∧ r ∉ hostOps3_7_W ∧ r ∉ hostOps3_8_W ∧ (∀ w, Pipeline.arrRef spec3 w ≠ r)

set_option synthInstance.maxSize 8192 in
set_option synthInstance.maxHeartbeats 400000 in
instance (r : Ref sig .tc) : Decidable (UntouchedAfterFirst r) := by unfold UntouchedAfterFirst; infer_instance

/-- The first argument is the first call's first input window: the call reads it and leaves it as found;
    nothing else touches it. -/
theorem W24_main_arg0 (c : Dev nD) : W24 m ρ c (Proc.devRef .tc main_arg0) = m ((c : Thread nD τ).loc main_arg0) := by
  have h : UntouchedAfterFirst (main_arg0 : Ref sig .tc) := by decide
  obtain ⟨h0, h2, h3, h4, h5, h6, h7, h8, h9, h10, h11, h12, h13, h14, h15, h16, h17, h18, h19, h20, h21, h22, h23⟩ := h
  have hcall : W2 m ρ c (Proc.devRef .tc main_arg0) = W1 m ρ c (Proc.devRef .tc main_arg0) :=
    (W2_arr m ρ c 0).trans (((dat0 (B1 m ρ) c).arrAt_in 0 rfl _).trans (A_eq0 (B1 m ρ) c 0))
  exact (W24_of_ne m ρ c main_arg0 h23).trans <|
    (W23_of m ρ c main_arg0 h22).trans <|
    (W22_of m ρ c main_arg0 h21).trans <|
    (W21_of m ρ c main_arg0 h20).trans <|
    (W20_of m ρ c main_arg0 h19).trans <|
    (W19_of m ρ c main_arg0 h18).trans <|
    (W18_of m ρ c main_arg0 h17).trans <|
    (W17_of m ρ c main_arg0 h16).trans <|
    (W16_of m ρ c main_arg0 h15).trans <|
    (W15_of m ρ c main_arg0 h14).trans <|
    (W14_of_ne m ρ c main_arg0 h13).trans <|
    (W13_of m ρ c main_arg0 h12).trans <|
    (W12_of_ne m ρ c main_arg0 h11).trans <|
    (W11_of m ρ c main_arg0 h10).trans <|
    (W10_of m ρ c main_arg0 h9).trans <|
    (W9_of m ρ c main_arg0 h8).trans <|
    (W8_of m ρ c main_arg0 h7).trans <|
    (W7_of m ρ c main_arg0 h6).trans <|
    (W6_of m ρ c main_arg0 h5).trans <|
    (W5_of m ρ c main_arg0 h4).trans <|
    (W4_of m ρ c main_arg0 h3).trans <|
    (W3_of m ρ c main_arg0 h2).trans <|
    hcall.trans <|
    (W1_of m ρ c main_arg0 h0).trans <| rfl

end Cert.Kernel.Frm

end
-- ==== Proof.KernelFrames.lean ====
import proofs.«167143_j12463995093672_1_alg».proof.Defs
import proofs.«167143_j12463995093672_1_alg».proof.Proof.ArgsKept
import proofs.«167143_j12463995093672_1_alg».proof.Proof.WordArgsKept
import proofs.«167143_j12463995093672_1_alg».proof.Proof.Gen.Pre_finite_inputs

noncomputable section

/-! # The two kernel programs run to the end and leave their arguments unchanged

Each program is a chain of host stretches and four calls; run as that chain, every weakly fair execution
terminates with every unscoped buffer at the last boundary's contents, and at an argument those are the launch
contents: no host stretch writes an argument, and the one argument that is an array of a call (the node
features, the first call's first input) is only read there. The precondition is not used. -/

namespace Cert.Proof.Frames

open Idealize.ShloMosaic Idealize.SL.Sem

/-- The program read at machine words. -/
theorem frame_word : Cert.frame_Kernel := fun m ρ _ =>
  (θ_run Cert.Kernel.defs _ _).mono (fun r h c => by
    have hr := h c
    exact ⟨(hr _ (Cert.Kernel.Frm.mem_uc Cert.Kernel.main_arg0 (by decide))).trans (Cert.Kernel.Frm.W24_main_arg0 m ρ c),
      (hr _ (Cert.Kernel.Frm.mem_uc Cert.Kernel.main_arg1 (by decide))).trans (Cert.Kernel.Frm.W24_untouched m ρ c Cert.Kernel.main_arg1 (by decide)),
      (hr _ (Cert.Kernel.Frm.mem_uc Cert.Kernel.main_arg2 (by decide))).trans (Cert.Kernel.Frm.W24_untouched m ρ c Cert.Kernel.main_arg2 (by decide)),
      (hr _ (Cert.Kernel.Frm.mem_uc Cert.Kernel.main_arg3 (by decide))).trans (Cert.Kernel.Frm.W24_untouched m ρ c Cert.Kernel.main_arg3 (by decide)),
      (hr _ (Cert.Kernel.Frm.mem_uc Cert.Kernel.main_arg4 (by decide))).trans (Cert.Kernel.Frm.W24_untouched m ρ c Cert.Kernel.main_arg4 (by decide)),
      (hr _ (Cert.Kernel.Frm.mem_uc Cert.Kernel.main_arg5 (by decide))).trans (Cert.Kernel.Frm.W24_untouched m ρ c Cert.Kernel.main_arg5 (by decide)),
      (hr _ (Cert.Kernel.Frm.mem_uc Cert.Kernel.main_arg6 (by decide))).trans (Cert.Kernel.Frm.W24_untouched m ρ c Cert.Kernel.main_arg6 (by decide)),
      (hr _ (Cert.Kernel.Frm.mem_uc Cert.Kernel.main_arg7 (by decide))).trans (Cert.Kernel.Frm.W24_untouched m ρ c Cert.Kernel.main_arg7 (by decide)),
      (hr _ (Cert.Kernel.Frm.mem_uc Cert.Kernel.main_arg8 (by decide))).trans (Cert.Kernel.Frm.W24_untouched m ρ c Cert.Kernel.main_arg8 (by decide)),
      (hr _ (Cert.Kernel.Frm.mem_uc Cert.Kernel.main_arg9 (by decide))).trans (Cert.Kernel.Frm.W24_untouched m ρ c Cert.Kernel.main_arg9 (by decide)),
      (hr _ (Cert.Kernel.Frm.mem_uc Cert.Kernel.main_arg10 (by decide))).trans (Cert.Kernel.Frm.W24_untouched m ρ c Cert.Kernel.main_arg10 (by decide)),
      (hr _ (Cert.Kernel.Frm.mem_uc Cert.Kernel.main_arg11 (by decide))).trans (Cert.Kernel.Frm.W24_untouched m ρ c Cert.Kernel.main_arg11 (by decide)),
      (hr _ (Cert.Kernel.Frm.mem_uc Cert.Kernel.main_arg12 (by decide))).trans (Cert.Kernel.Frm.W24_untouched m ρ c Cert.Kernel.main_arg12 (by decide)),
      (hr _ (Cert.Kernel.Frm.mem_uc Cert.Kernel.main_arg13 (by decide))).trans (Cert.Kernel.Frm.W24_untouched m ρ c Cert.Kernel.main_arg13 (by decide)),
      (hr _ (Cert.Kernel.Frm.mem_uc Cert.Kernel.main_arg14 (by decide))).trans (Cert.Kernel.Frm.W24_untouched m ρ c Cert.Kernel.main_arg14 (by decide))⟩)
    (Cert.Kernel.Frm.run_all m ρ)

/-- The program read at the extended reals. -/
theorem frame_ideal : Cert.frame_KernelIdeal := fun m ρ _ =>
  (θ_run Cert.KernelIdeal.defs _ _).mono (fun r h c => by
    have hr := h c
    exact ⟨(hr _ (Cert.KernelIdeal.Frm.mem_uc Cert.KernelIdeal.main_arg0 (by decide))).trans (Cert.KernelIdeal.Frm.W24_main_arg0 m ρ c),
      (hr _ (Cert.KernelIdeal.Frm.mem_uc Cert.KernelIdeal.main_arg1 (by decide))).trans (Cert.KernelIdeal.Frm.W24_untouched m ρ c Cert.KernelIdeal.main_arg1 (by decide)),
      (hr _ (Cert.KernelIdeal.Frm.mem_uc Cert.KernelIdeal.main_arg2 (by decide))).trans (Cert.KernelIdeal.Frm.W24_untouched m ρ c Cert.KernelIdeal.main_arg2 (by decide)),
      (hr _ (Cert.KernelIdeal.Frm.mem_uc Cert.KernelIdeal.main_arg3 (by decide))).trans (Cert.KernelIdeal.Frm.W24_untouched m ρ c Cert.KernelIdeal.main_arg3 (by decide)),
      (hr _ (Cert.KernelIdeal.Frm.mem_uc Cert.KernelIdeal.main_arg4 (by decide))).trans (Cert.KernelIdeal.Frm.W24_untouched m ρ c Cert.KernelIdeal.main_arg4 (by decide)),
      (hr _ (Cert.KernelIdeal.Frm.mem_uc Cert.KernelIdeal.main_arg5 (by decide))).trans (Cert.KernelIdeal.Frm.W24_untouched m ρ c Cert.KernelIdeal.main_arg5 (by decide)),
      (hr _ (Cert.KernelIdeal.Frm.mem_uc Cert.KernelIdeal.main_arg6 (by decide))).trans (Cert.KernelIdeal.Frm.W24_untouched m ρ c Cert.KernelIdeal.main_arg6 (by decide)),
      (hr _ (Cert.KernelIdeal.Frm.mem_uc Cert.KernelIdeal.main_arg7 (by decide))).trans (Cert.KernelIdeal.Frm.W24_untouched m ρ c Cert.KernelIdeal.main_arg7 (by decide)),
      (hr _ (Cert.KernelIdeal.Frm.mem_uc Cert.KernelIdeal.main_arg8 (by decide))).trans (Cert.KernelIdeal.Frm.W24_untouched m ρ c Cert.KernelIdeal.main_arg8 (by decide)),
      (hr _ (Cert.KernelIdeal.Frm.mem_uc Cert.KernelIdeal.main_arg9 (by decide))).trans (Cert.KernelIdeal.Frm.W24_untouched m ρ c Cert.KernelIdeal.main_arg9 (by decide)),
      (hr _ (Cert.KernelIdeal.Frm.mem_uc Cert.KernelIdeal.main_arg10 (by decide))).trans (Cert.KernelIdeal.Frm.W24_untouched m ρ c Cert.KernelIdeal.main_arg10 (by decide)),
      (hr _ (Cert.KernelIdeal.Frm.mem_uc Cert.KernelIdeal.main_arg11 (by decide))).trans (Cert.KernelIdeal.Frm.W24_untouched m ρ c Cert.KernelIdeal.main_arg11 (by decide)),
      (hr _ (Cert.KernelIdeal.Frm.mem_uc Cert.KernelIdeal.main_arg12 (by decide))).trans (Cert.KernelIdeal.Frm.W24_untouched m ρ c Cert.KernelIdeal.main_arg12 (by decide)),
      (hr _ (Cert.KernelIdeal.Frm.mem_uc Cert.KernelIdeal.main_arg13 (by decide))).trans (Cert.KernelIdeal.Frm.W24_untouched m ρ c Cert.KernelIdeal.main_arg13 (by decide)),
      (hr _ (Cert.KernelIdeal.Frm.mem_uc Cert.KernelIdeal.main_arg14 (by decide))).trans (Cert.KernelIdeal.Frm.W24_untouched m ρ c Cert.KernelIdeal.main_arg14 (by decide))⟩)
    (Cert.KernelIdeal.Frm.run_all m ρ)

end Cert.Proof.Frames

end
-- ==== Proof.ArgsAlong.lean ====
import proofs.«167143_j12463995093672_1_alg».proof.Proof.Gen.KernelIdeal.Launch
import proofs.«167143_j12463995093672_1_alg».proof.Proof.Gen.KernelIdeal.Skeleton
import proofs.«167143_j12463995093672_1_alg».proof.Proof.Gen.KernelIdeal.Points
import proofs.«167143_j12463995093672_1_alg».proof.Proof.ArgsKept
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # A reference no item touches holds its launch contents at every boundary

The same walk as to the last boundary, stopped after each item: the calls and the host stretches between them read
the arguments (the weights, the biases, the edge lists) at whatever boundary they run from. -/

/-- At each of the 24 boundaries. -/
theorem untouched_along (c : Dev nD) (r : Ref sig .tc) (h : Untouched r) :
    W1 m ρ c (Proc.devRef .tc r) = m ((c : Thread nD τ).loc r)
      ∧ W2 m ρ c (Proc.devRef .tc r) = m ((c : Thread nD τ).loc r)
      ∧ W3 m ρ c (Proc.devRef .tc r) = m ((c : Thread nD τ).loc r)
      ∧ W4 m ρ c (Proc.devRef .tc r) = m ((c : Thread nD τ).loc r)
      ∧ W5 m ρ c (Proc.devRef .tc r) = m ((c : Thread nD τ).loc r)
      ∧ W6 m ρ c (Proc.devRef .tc r) = m ((c : Thread nD τ).loc r)
      ∧ W7 m ρ c (Proc.devRef .tc r) = m ((c : Thread nD τ).loc r)
      ∧ W8 m ρ c (Proc.devRef .tc r) = m ((c : Thread nD τ).loc r)
      ∧ W9 m ρ c (Proc.devRef .tc r) = m ((c : Thread nD τ).loc r)
      ∧ W10 m ρ c (Proc.devRef .tc r) = m ((c : Thread nD τ).loc r)
      ∧ W11 m ρ c (Proc.devRef .tc r) = m ((c : Thread nD τ).loc r)
      ∧ W12 m ρ c (Proc.devRef .tc r) = m ((c : Thread nD τ).loc r)
      ∧ W13 m ρ c (Proc.devRef .tc r) = m ((c : Thread nD τ).loc r)
      ∧ W14 m ρ c (Proc.devRef .tc r) = m ((c : Thread nD τ).loc r)
      ∧ W15 m ρ c (Proc.devRef .tc r) = m ((c : Thread nD τ).loc r)
      ∧ W16 m ρ c (Proc.devRef .tc r) = m ((c : Thread nD τ).loc r)
      ∧ W17 m ρ c (Proc.devRef .tc r) = m ((c : Thread nD τ).loc r)
      ∧ W18 m ρ c (Proc.devRef .tc r) = m ((c : Thread nD τ).loc r)
      ∧ W19 m ρ c (Proc.devRef .tc r) = m ((c : Thread nD τ).loc r)
      ∧ W20 m ρ c (Proc.devRef .tc r) = m ((c : Thread nD τ).loc r)
      ∧ W21 m ρ c (Proc.devRef .tc r) = m ((c : Thread nD τ).loc r)
      ∧ W22 m ρ c (Proc.devRef .tc r) = m ((c : Thread nD τ).loc r)
      ∧ W23 m ρ c (Proc.devRef .tc r) = m ((c : Thread nD τ).loc r)
      ∧ W24 m ρ c (Proc.devRef .tc r) = m ((c : Thread nD τ).loc r) := by
  obtain ⟨h0, h1, h2, h3, h4, h5, h6, h7, h8, h9, h10, h11, h12, h13, h14, h15, h16, h17, h18, h19, h20, h21, h22, h23⟩ := h
  have e1 : W1 m ρ c (Proc.devRef .tc r) = m ((c : Thread nD τ).loc r) := (W1_of m ρ c r h0).trans rfl
  have e2 : W2 m ρ c (Proc.devRef .tc r) = m ((c : Thread nD τ).loc r) := (W2_of_ne m ρ c r h1).trans e1
  have e3 : W3 m ρ c (Proc.devRef .tc r) = m ((c : Thread nD τ).loc r) := (W3_of m ρ c r h2).trans e2
  have e4 : W4 m ρ c (Proc.devRef .tc r) = m ((c : Thread nD τ).loc r) := (W4_of m ρ c r h3).trans e3
  have e5 : W5 m ρ c (Proc.devRef .tc r) = m ((c : Thread nD τ).loc r) := (W5_of m ρ c r h4).trans e4
  have e6 : W6 m ρ c (Proc.devRef .tc r) = m ((c : Thread nD τ).loc r) := (W6_of m ρ c r h5).trans e5
  have e7 : W7 m ρ c (Proc.devRef .tc r) = m ((c : Thread nD τ).loc r) := (W7_of m ρ c r h6).trans e6
  have e8 : W8 m ρ c (Proc.devRef .tc r) = m ((c : Thread nD τ).loc r) := (W8_of m ρ c r h7).trans e7
  have e9 : W9 m ρ c (Proc.devRef .tc r) = m ((c : Thread nD τ).loc r) := (W9_of m ρ c r h8).trans e8
  have e10 : W10 m ρ c (Proc.devRef .tc r) = m ((c : Thread nD τ).loc r) := (W10_of m ρ c r h9).trans e9
  have e11 : W11 m ρ c (Proc.devRef .tc r) = m ((c : Thread nD τ).loc r) := (W11_of m ρ c r h10).trans e10
  have e12 : W12 m ρ c (Proc.devRef .tc r) = m ((c : Thread nD τ).loc r) := (W12_of_ne m ρ c r h11).trans e11
  have e13 : W13 m ρ c (Proc.devRef .tc r) = m ((c : Thread nD τ).loc r) := (W13_of m ρ c r h12).trans e12
  have e14 : W14 m ρ c (Proc.devRef .tc r) = m ((c : Thread nD τ).loc r) := (W14_of_ne m ρ c r h13).trans e13
  have e15 : W15 m ρ c (Proc.devRef .tc r) = m ((c : Thread nD τ).loc r) := (W15_of m ρ c r h14).trans e14
  have e16 : W16 m ρ c (Proc.devRef .tc r) = m ((c : Thread nD τ).loc r) := (W16_of m ρ c r h15).trans e15
  have e17 : W17 m ρ c (Proc.devRef .tc r) = m ((c : Thread nD τ).loc r) := (W17_of m ρ c r h16).trans e16
  have e18 : W18 m ρ c (Proc.devRef .tc r) = m ((c : Thread nD τ).loc r) := (W18_of m ρ c r h17).trans e17
  have e19 : W19 m ρ c (Proc.devRef .tc r) = m ((c : Thread nD τ).loc r) := (W19_of m ρ c r h18).trans e18
  have e20 : W20 m ρ c (Proc.devRef .tc r) = m ((c : Thread nD τ).loc r) := (W20_of m ρ c r h19).trans e19
  have e21 : W21 m ρ c (Proc.devRef .tc r) = m ((c : Thread nD τ).loc r) := (W21_of m ρ c r h20).trans e20
  have e22 : W22 m ρ c (Proc.devRef .tc r) = m ((c : Thread nD τ).loc r) := (W22_of m ρ c r h21).trans e21
  have e23 : W23 m ρ c (Proc.devRef .tc r) = m ((c : Thread nD τ).loc r) := (W23_of m ρ c r h22).trans e22
  have e24 : W24 m ρ c (Proc.devRef .tc r) = m ((c : Thread nD τ).loc r) := (W24_of_ne m ρ c r h23).trans e23
  exact ⟨e1, e2, e3, e4, e5, e6, e7, e8, e9, e10, e11, e12, e13, e14, e15, e16, e17, e18, e19, e20, e21, e22, e23, e24⟩

/-- At boundary 2. -/
theorem W2_untouched (c : Dev nD) (r : Ref sig .tc) (h : Untouched r) : W2 m ρ c (Proc.devRef .tc r) = m ((c : Thread nD τ).loc r) :=
  (untouched_along m ρ c r h).2.1
/-- At boundary 11. -/
theorem W11_untouched (c : Dev nD) (r : Ref sig .tc) (h : Untouched r) : W11 m ρ c (Proc.devRef .tc r) = m ((c : Thread nD τ).loc r) :=
  (untouched_along m ρ c r h).2.2.2.2.2.2.2.2.2.2.1
/-- At boundary 12. -/
theorem W12_untouched (c : Dev nD) (r : Ref sig .tc) (h : Untouched r) : W12 m ρ c (Proc.devRef .tc r) = m ((c : Thread nD τ).loc r) :=
  (untouched_along m ρ c r h).2.2.2.2.2.2.2.2.2.2.2.1
/-- At boundary 13. -/
theorem W13_untouched (c : Dev nD) (r : Ref sig .tc) (h : Untouched r) : W13 m ρ c (Proc.devRef .tc r) = m ((c : Thread nD τ).loc r) :=
  (untouched_along m ρ c r h).2.2.2.2.2.2.2.2.2.2.2.2.1
/-- At boundary 14. -/
theorem W14_untouched (c : Dev nD) (r : Ref sig .tc) (h : Untouched r) : W14 m ρ c (Proc.devRef .tc r) = m ((c : Thread nD τ).loc r) :=
  (untouched_along m ρ c r h).2.2.2.2.2.2.2.2.2.2.2.2.2.1
/-- At boundary 23. -/
theorem W23_untouched (c : Dev nD) (r : Ref sig .tc) (h : Untouched r) : W23 m ρ c (Proc.devRef .tc r) = m ((c : Thread nD τ).loc r) :=
  (untouched_along m ρ c r h).2.2.2.2.2.2.2.2.2.2.2.2.2.2.2.2.2.2.2.2.2.2.1

end Cert.KernelIdeal.Frm

end
-- ==== Proof.ProjFirstEntry.lean ====
import proofs.«167143_j12463995093672_1_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

/-! # The first projection's block results, entry by entry

At one grid point the body holds a block of 4000 rows of the input (512 features each) and the whole joined
weight matrix (512 rows, 66 columns). Over the extended reals the change of format before the multiplication
is the identity and the accumulator starts at zero, so entry `(p, c)` of the block product is the plain sum
over the 512 features of row `p` of the block times column `c` of the matrix. The three stored results read
that product: columns 0 … 63 as they are; column 64 plus the gate's bias, through the logistic; column 65
plus the damping bias. -/

namespace Cert.KernelIdeal.Val

open Cert.KernelIdeal Cert.KernelIdeal.Gen
open Idealize.ShloMosaic Idealize.ShloMosaic.ValueIdx

/-- The left operand's index at output `i` and contraction index `q`: the row is the output's row. -/
theorem dotFirst_lhs_row (i : S4000x66.Idx) (q : dot_S4000x512_S512x66_S4000x66_1_0_0_1_n_n.contr.Idx) :
    (dot_S4000x512_S512x66_S4000x66_1_0_0_1_n_n.lhsIdx i q 0).val = (i 0).val := by
  unfold DotDims.lhsIdx
  rw [dif_neg (show ¬(0 : Fin S4000x512.rank) ∈ dot_S4000x512_S512x66_S4000x66_1_0_0_1_n_n.lhsBatch by decide),
    dif_pos (show (0 : Fin S4000x512.rank) ∈ dot_S4000x512_S512x66_S4000x66_1_0_0_1_n_n.lhsNonContracting by decide)]
  rfl
/-- … and its column is the contraction coordinate. -/
theorem dotFirst_lhs_col (i : S4000x66.Idx) (q : dot_S4000x512_S512x66_S4000x66_1_0_0_1_n_n.contr.Idx) :
    (dot_S4000x512_S512x66_S4000x66_1_0_0_1_n_n.lhsIdx i q 1).val = (q ⟨0, by decide⟩).val :=
  dot_S4000x512_S512x66_S4000x66_1_0_0_1_n_n.lhsIdx_val_of_single rfl i q
/-- The right operand's row is the contraction coordinate … -/
theorem dotFirst_rhs_row (i : S4000x66.Idx) (q : dot_S4000x512_S512x66_S4000x66_1_0_0_1_n_n.contr.Idx) :
    (dot_S4000x512_S512x66_S4000x66_1_0_0_1_n_n.rhsIdx i q 0).val = (q ⟨0, by decide⟩).val :=
  dot_S4000x512_S512x66_S4000x66_1_0_0_1_n_n.rhsIdx_val_of_single rfl i q
/-- … and its column is the output's column. -/
theorem dotFirst_rhs_col (i : S4000x66.Idx) (q : dot_S4000x512_S512x66_S4000x66_1_0_0_1_n_n.contr.Idx) :
    (dot_S4000x512_S512x66_S4000x66_1_0_0_1_n_n.rhsIdx i q 1).val = (i 1).val := by
  unfold DotDims.rhsIdx
  rw [dif_neg (show ¬(1 : Fin S512x66.rank) ∈ dot_S4000x512_S512x66_S4000x66_1_0_0_1_n_n.rhsBatch by decide),
    dif_pos (show (1 : Fin S512x66.rank) ∈ dot_S4000x512_S512x66_S4000x66_1_0_0_1_n_n.rhsNonContracting by decide)]
  rfl

/-- The block product at entry `(p, c)`: the sum over the 512 features. -/
theorem blockProductFirst_apply (x0 : Vec Ideal S4000x512 .f32) (x1 : Vec Ideal S512x66 .f32) (p : Fin 4000) (c : Fin 66) :
    k0_pay1 (F := Ideal) x0 x1 (ix2 p c) = ∑ k : Fin 512, x0 (ix2 p k) * x1 (ix2 k c) := by
  unfold k0_pay1
  rw [shapeCast_self]
  refine (Ideal.matmul_constant_zero_apply dot_S4000x512_S512x66_S4000x66_1_0_0_1_n_n none _ _ (ix2 p c)).trans ?_
  rw [← Equiv.sum_comp (contrEquiv1 dot_S4000x512_S512x66_S4000x66_1_0_0_1_n_n 512 rfl rfl).symm]
  refine Finset.sum_congr rfl fun k _ => ?_
  have hk := contrEquiv1_symm_val dot_S4000x512_S512x66_S4000x66_1_0_0_1_n_n 512 rfl rfl k
  have el : dot_S4000x512_S512x66_S4000x66_1_0_0_1_n_n.lhsIdx (ix2 p c) ((contrEquiv1 dot_S4000x512_S512x66_S4000x66_1_0_0_1_n_n 512 rfl rfl).symm k) = ix2 p k :=
    funext fun a => Fin.ext (by
      match a with
      | ⟨0, _⟩ => exact dotFirst_lhs_row _ _
      | ⟨1, _⟩ => exact (dotFirst_lhs_col _ _).trans hk)
  have er : dot_S4000x512_S512x66_S4000x66_1_0_0_1_n_n.rhsIdx (ix2 p c) ((contrEquiv1 dot_S4000x512_S512x66_S4000x66_1_0_0_1_n_n 512 rfl rfl).symm k) = ix2 k c :=
    funext fun a => Fin.ext (by
      match a with
      | ⟨0, _⟩ => exact (dotFirst_rhs_row _ _).trans hk
      | ⟨1, _⟩ => exact dotFirst_rhs_col _ _)
  rw [el, er]
  rfl

/-! ## The three slices of the block product, over any product `y`

Each stored result reads one column range of the product: a fact about any array of 4000 rows and 66 columns. -/

/-- Column `q` of the leading 64 columns is column `q` of the product. -/
theorem leadingColsFirst_apply (y : FVec Ideal S4000x66 .f32) (p : Fin 4000) (q : Fin 64) :
    extractStridedSlice S4000x64 ![0, 0] y slices_S4000x66_o0_0_S4000x64 (ix2 p q)
      = y (ix2 p (⟨q.val, Nat.lt_of_lt_of_le q.isLt (by decide)⟩ : Fin 66)) := by
  refine extractStridedSlice_apply ![0, 0] y slices_S4000x66_o0_0_S4000x64 (ix2 p q) (ix2 p (⟨q.val, Nat.lt_of_lt_of_le q.isLt (by decide)⟩ : Fin 66)) (fun a => ?_)
  match a with
  | ⟨0, _⟩ => show p.val = 0 + p.val; omega
  | ⟨1, _⟩ => show q.val = 0 + q.val; omega

/-- The one-column slice at offset 64 is column 64 of the product. -/
theorem scoreColFirst_apply (y : FVec Ideal S4000x66 .f32) (p : Fin 4000) (z : Fin 1) :
    extractStridedSlice S4000x1 ![0, 64] y slices_S4000x66_o0_64_S4000x1 (ix2 p z) = y (ix2 p (64 : Fin 66)) := by
  refine extractStridedSlice_apply ![0, 64] y slices_S4000x66_o0_64_S4000x1 (ix2 p z) (ix2 p (64 : Fin 66)) (fun a => ?_)
  match a with
  | ⟨0, _⟩ => show p.val = 0 + p.val; omega
  | ⟨1, _⟩ => show 64 = 64 + z.val; omega

/-- The one-column slice at offset 65 is column 65 of the product. -/
theorem dampColFirst_apply (y : FVec Ideal S4000x66 .f32) (p : Fin 4000) (z : Fin 1) :
    extractStridedSlice S4000x1 ![0, 65] y slices_S4000x66_o0_65_S4000x1 (ix2 p z) = y (ix2 p (65 : Fin 66)) := by
  refine extractStridedSlice_apply ![0, 65] y slices_S4000x66_o0_65_S4000x1 (ix2 p z) (ix2 p (65 : Fin 66)) (fun a => ?_)
  match a with
  | ⟨0, _⟩ => show p.val = 0 + p.val; omega
  | ⟨1, _⟩ => show 65 = 65 + z.val; omega

/-- The one element of a `1 × 1` vector, extracted at position (0, 0). -/
private theorem oneByOne_extract (b : Vec Ideal S1x1 .f32) : extractAt ![0, 0] b inpos_S1x1_p0_0 = b (ix2 0 0) :=
  congrArg b (funext fun a => by match a with | ⟨0, _⟩ => rfl | ⟨1, _⟩ => rfl)

/-- The logistic of a vector, read at an index, is the logistic of the entry. -/
private theorem logistic_at {s : Shape} {φ : FTy} (x : FVec Ideal s φ) (i : s.Idx) : logistic x i = Ideal.logistic (x i) := rfl

/-! ## The three stored results -/

/-- The stored features: entry `(p, q)` of the block product, `q` among the leading 64 columns. -/
theorem blockFeatFirst_apply (x0 : Vec Ideal S4000x512 .f32) (x1 : Vec Ideal S512x66 .f32) (p : Fin 4000) (q : Fin 64) :
    k0_pay2 (F := Ideal) x0 x1 (ix2 p q) = ∑ k : Fin 512, x0 (ix2 p k) * x1 (ix2 k (⟨q.val, Nat.lt_of_lt_of_le q.isLt (by decide)⟩ : Fin 66)) := by
  unfold k0_pay2
  have hy : ∀ c : Fin 66, k0_pay1 (F := Ideal) x0 x1 (ix2 p c) = ∑ k : Fin 512, x0 (ix2 p k) * x1 (ix2 k c) :=
    blockProductFirst_apply x0 x1 p
  generalize k0_pay1 (F := Ideal) x0 x1 = y at hy ⊢
  exact (leadingColsFirst_apply y p q).trans (hy _)

/-- The stored gate: the logistic of column 64 of the block product plus the one-element bias. -/
theorem blockGateFirst_apply (x0 : Vec Ideal S4000x512 .f32) (x1 : Vec Ideal S512x66 .f32) (x2 : Vec Ideal S1x1 .f32) (p : Fin 4000) (z : Fin 1) :
    k0_pay4 (F := Ideal) x0 x1 x2 (ix2 p z) = Ideal.logistic ((∑ k : Fin 512, x0 (ix2 p k) * x1 (ix2 k (64 : Fin 66))) + x2 (ix2 0 0)) := by
  unfold k0_pay4
  have hy : ∀ c : Fin 66, k0_pay1 (F := Ideal) x0 x1 (ix2 p c) = ∑ k : Fin 512, x0 (ix2 p k) * x1 (ix2 k c) :=
    blockProductFirst_apply x0 x1 p
  generalize k0_pay1 (F := Ideal) x0 x1 = y at hy ⊢
  refine (logistic_at _ (ix2 p z)).trans (congrArg Ideal.logistic ?_)
  refine (addf_apply _ _ (ix2 p z)).trans ?_
  rw [scoreColFirst_apply y p z, hy, broadcast_apply, oneByOne_extract]

/-- The stored damping: column 65 of the block product plus the one-element bias. -/
theorem blockDampFirst_apply (x0 : Vec Ideal S4000x512 .f32) (x1 : Vec Ideal S512x66 .f32) (x3 : Vec Ideal S1x1 .f32) (p : Fin 4000) (z : Fin 1) :
    k0_pay3 (F := Ideal) x0 x1 x3 (ix2 p z) = (∑ k : Fin 512, x0 (ix2 p k) * x1 (ix2 k (65 : Fin 66))) + x3 (ix2 0 0) := by
  unfold k0_pay3
  have hy : ∀ c : Fin 66, k0_pay1 (F := Ideal) x0 x1 (ix2 p c) = ∑ k : Fin 512, x0 (ix2 p k) * x1 (ix2 k c) :=
    blockProductFirst_apply x0 x1 p
  generalize k0_pay1 (F := Ideal) x0 x1 = y at hy ⊢
  refine (addf_apply _ _ (ix2 p z)).trans ?_
  rw [dampColFirst_apply y p z, hy, broadcast_apply, oneByOne_extract]

end Cert.KernelIdeal.Val

end
-- ==== Proof.RowsTimesCols.lean ====
import Idealize.ShloMosaic.PureOps.Ideal
import Idealize.ShloMosaic.Lib.ValueIdx

noncomputable section

open scoped BigOperators

/-! # A row block times the joined weight matrix, entry by entry

The projection multiplies an array of rows by a matrix whose columns are the layer's weights followed by
two more columns: the gate's score column and the damping column. Entry `(r, c)` of the product is the sum
over the shared axis of row `r` of the left array times column `c` of the matrix. The three results of the
projection are read off that one product: its leading columns as they are, the logistic of the score column
plus a bias, and the damping column plus a bias. All of it over the extended reals, exactly. -/

namespace Cert.KernelIdeal.Val

open Idealize.ShloMosaic Idealize.ShloMosaic.ValueIdx

/-- Entry `(r, c)` of the product of an `n × K` array and a `K × m` matrix: the sum over the shared axis. -/
def rowDotCol {n K m : Nat} (a : (⟨2, ![n, K]⟩ : Shape).Idx → EReal) (w : (⟨2, ![K, m]⟩ : Shape).Idx → EReal)
    (r : Fin n) (c : Fin m) : EReal :=
  ∑ k : Fin K, a (ix2 r k) * w (ix2 k c)

theorem rowDotCol_def {n K m : Nat} (a : (⟨2, ![n, K]⟩ : Shape).Idx → EReal) (w : (⟨2, ![K, m]⟩ : Shape).Idx → EReal)
    (r : Fin n) (c : Fin m) : rowDotCol a w r c = ∑ k : Fin K, a (ix2 r k) * w (ix2 k c) := rfl

/-! ## The first layer: 512 input features, 64 projected features, score column 64, damping column 65 -/

/-- The projected features of the first layer: the product's leading 64 columns. -/
def projFeat1 {n : Nat} (a : (⟨2, ![n, 512]⟩ : Shape).Idx → EReal) (w : (⟨2, ![512, 66]⟩ : Shape).Idx → EReal) :
    (⟨2, ![n, 64]⟩ : Shape).Idx → EReal :=
  fun i => rowDotCol a w (i 0) ⟨(i 1).val, Nat.lt_of_lt_of_le (idx2_lt1 i) (by decide)⟩

/-- The gate of the first layer: the logistic of the score column (column 64) plus the bias. -/
def projGate1 {n : Nat} (a : (⟨2, ![n, 512]⟩ : Shape).Idx → EReal) (w : (⟨2, ![512, 66]⟩ : Shape).Idx → EReal)
    (b : (⟨2, ![1, 1]⟩ : Shape).Idx → EReal) : (⟨2, ![n, 1]⟩ : Shape).Idx → EReal :=
  fun i => Ideal.logistic (rowDotCol a w (i 0) (64 : Fin 66) + b (ix2 0 0))

/-- The damping of the first layer: the damping column (column 65) plus its bias. -/
def projDamp1 {n : Nat} (a : (⟨2, ![n, 512]⟩ : Shape).Idx → EReal) (w : (⟨2, ![512, 66]⟩ : Shape).Idx → EReal)
    (b : (⟨2, ![1, 1]⟩ : Shape).Idx → EReal) : (⟨2, ![n, 1]⟩ : Shape).Idx → EReal :=
  fun i => rowDotCol a w (i 0) (65 : Fin 66) + b (ix2 0 0)

/-! ## The second layer: 64 input features, 10 projected features, score column 10, damping column 11 -/

/-- The projected features of the second layer: the product's leading 10 columns. -/
def projFeat2 {n : Nat} (a : (⟨2, ![n, 64]⟩ : Shape).Idx → EReal) (w : (⟨2, ![64, 12]⟩ : Shape).Idx → EReal) :
    (⟨2, ![n, 10]⟩ : Shape).Idx → EReal :=
  fun i => rowDotCol a w (i 0) ⟨(i 1).val, Nat.lt_of_lt_of_le (idx2_lt1 i) (by decide)⟩

/-- The gate of the second layer: the logistic of the score column (column 10) plus the bias. -/
def projGate2 {n : Nat} (a : (⟨2, ![n, 64]⟩ : Shape).Idx → EReal) (w : (⟨2, ![64, 12]⟩ : Shape).Idx → EReal)
    (b : (⟨2, ![1, 1]⟩ : Shape).Idx → EReal) : (⟨2, ![n, 1]⟩ : Shape).Idx → EReal :=
  fun i => Ideal.logistic (rowDotCol a w (i 0) (10 : Fin 12) + b (ix2 0 0))

/-- The damping of the second layer: the damping column (column 11) plus its bias. -/
def projDamp2 {n : Nat} (a : (⟨2, ![n, 64]⟩ : Shape).Idx → EReal) (w : (⟨2, ![64, 12]⟩ : Shape).Idx → EReal)
    (b : (⟨2, ![1, 1]⟩ : Shape).Idx → EReal) : (⟨2, ![n, 1]⟩ : Shape).Idx → EReal :=
  fun i => rowDotCol a w (i 0) (11 : Fin 12) + b (ix2 0 0)

end Cert.KernelIdeal.Val

end
-- ==== Proof.ProjFirstArrays.lean ====
import proofs.«167143_j12463995093672_1_alg».proof.Proof.ProjFirst
import proofs.«167143_j12463995093672_1_alg».proof.Proof.ProjFirstEntry
import proofs.«167143_j12463995093672_1_alg».proof.Proof.RowsTimesCols
import Idealize.ShloMosaic.Lib.Pipeline.Value

noncomputable section

open scoped BigOperators

/-! # The first projection's three result arrays, as whole-array functions of the four arrays it reads

The call walks the 100000 rows in 25 blocks of 4000. At point `t` the input window holds rows
`4000 t … 4000 t + 3999` of the input array, the weight window the whole joined matrix and the two bias windows
their one element, and each output window's block is written back to the same rows of its array. A row of a
result depends only on the same row of the input, so what point `t` writes back is block `t` of ONE function of
the arrays; the blocks tile the rows (row `r` lies in block `r / 4000`), so each result array ends holding that
function everywhere. -/

namespace Cert.KernelIdeal.Val

open Cert.KernelIdeal Cert.KernelIdeal.Gen Cert.KernelIdeal.Frm
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The input rows, as the call finds them. -/
abbrev inFirst (c : Dev nD) : S100000x512.Idx → EReal := V c main_arg0
/-- The joined weight matrix, as the call finds it. -/
abbrev wtFirst (c : Dev nD) : S512x66.Idx → EReal := V c main_v0
/-- The gate's one-element bias, as the call finds it. -/
abbrev gateBiasFirst (c : Dev nD) : S1x1.Idx → EReal := V c main_v1
/-- The damping's one-element bias, as the call finds it. -/
abbrev dampBiasFirst (c : Dev nD) : S1x1.Idx → EReal := V c main_v2

theorem offsetsZeroFirst : (![0, 0] : Fin 2 → Nat) = fun _ => 0 := funext fun a => by fin_cases a <;> rfl

/-! ## What the body leaves in each output buffer is the payload of the loaded blocks -/

theorem xOut0_eq (x0 : Vec Ideal S4000x512 .f32) (x1 : Vec Ideal S512x66 .f32) : xOut0 (F := Ideal) x0 x1 = k0_pay2 x0 x1 := by
  unfold xOut0
  rw [View.canon_unit_zero offsetsZeroFirst]
  simp only [View.ld_unit_zero (S := S4000x512) offsetsZeroFirst, View.ld_unit_zero (S := S512x66) offsetsZeroFirst]

theorem sOut0_eq (x0 : Vec Ideal S4000x512 .f32) (x1 : Vec Ideal S512x66 .f32) (x2 : Vec Ideal S1x1 .f32) :
    sOut0 (F := Ideal) x0 x1 x2 = k0_pay4 x0 x1 x2 := by
  unfold sOut0
  rw [View.canon_unit_zero offsetsZeroFirst]
  simp only [View.ld_unit_zero (S := S4000x512) offsetsZeroFirst, View.ld_unit_zero (S := S512x66) offsetsZeroFirst,
    View.ld_unit_zero (S := S1x1) offsetsZeroFirst]

theorem dOut0_eq (x0 : Vec Ideal S4000x512 .f32) (x1 : Vec Ideal S512x66 .f32) (x3 : Vec Ideal S1x1 .f32) :
    dOut0 (F := Ideal) x0 x1 x3 = k0_pay3 x0 x1 x3 := by
  unfold dOut0
  rw [View.canon_unit_zero offsetsZeroFirst]
  simp only [View.ld_unit_zero (S := S4000x512) offsetsZeroFirst, View.ld_unit_zero (S := S512x66) offsetsZeroFirst,
    View.ld_unit_zero (S := S1x1) offsetsZeroFirst]

/-! ## The block index of every window at every point, decided over the 25 points -/

theorem blockIndexFirst : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-! ## The input blocks at a point, read off the arrays -/

/-- Row `p` of point `t`'s input block is row `4000 t + p` of the input array. -/
theorem inBlockFirst_apply (c : Dev nD) (t : Fin cfg0.N) (p : Fin 4000) (k : Fin 512) (r : Fin 100000)
    (hr : r.val = t.val * 4000 + p.val) :
    (blk0 V c 0 t : Vec Ideal S4000x512 .f32) (ix2 p k) = inFirst V c (ix2 r k) := by
  obtain ⟨e0, e1, -⟩ := blockIndexFirst t
  show V c main_arg0 (((cfg0.win 0).blk t).view.emb (ix2 p k)) = V c main_arg0 (ix2 r k)
  refine congrArg (V c main_arg0) (funext fun a => Fin.ext ?_)
  match a with
  | ⟨0, _⟩ => show win0_0.index t (0 : Fin 2) * 4000 + 1 * p.val = r.val; omega
  | ⟨1, _⟩ => show win0_0.index t (1 : Fin 2) * 512 + 1 * k.val = k.val; omega

/-- The weight window's block is the whole matrix at every point. -/
theorem wtBlockFirst_apply (c : Dev nD) (t : Fin cfg0.N) (k : Fin 512) (q : Fin 66) :
    (blk0 V c 1 t : Vec Ideal S512x66 .f32) (ix2 k q) = wtFirst V c (ix2 k q) := by
  obtain ⟨-, -, e0, e1, -⟩ := blockIndexFirst t
  show V c main_v0 (((cfg0.win 1).blk t).view.emb (ix2 k q)) = V c main_v0 (ix2 k q)
  refine congrArg (V c main_v0) (funext fun a => Fin.ext ?_)
  match a with
  | ⟨0, _⟩ => show win0_1.index t (0 : Fin 2) * 512 + 1 * k.val = k.val; omega
  | ⟨1, _⟩ => show win0_1.index t (1 : Fin 2) * 66 + 1 * q.val = q.val; omega

/-- The gate bias window's block is its one element at every point. -/
theorem gateBiasBlockFirst_apply (c : Dev nD) (t : Fin cfg0.N) :
    (blk0 V c 2 t : Vec Ideal S1x1 .f32) (ix2 0 0) = gateBiasFirst V c (ix2 0 0) := by
  obtain ⟨-, -, -, -, e0, e1, -⟩ := blockIndexFirst t
  show V c main_v1 (((cfg0.win 2).blk t).view.emb (ix2 0 0)) = V c main_v1 (ix2 0 0)
  refine congrArg (V c main_v1) (funext fun a => Fin.ext ?_)
  match a with
  | ⟨0, _⟩ => show win0_2.index t (0 : Fin 2) * 1 + 1 * 0 = 0; omega
  | ⟨1, _⟩ => show win0_2.index t (1 : Fin 2) * 1 + 1 * 0 = 0; omega

/-- The damping bias window's block is its one element at every point. -/
theorem dampBiasBlockFirst_apply (c : Dev nD) (t : Fin cfg0.N) :
    (blk0 V c 3 t : Vec Ideal S1x1 .f32) (ix2 0 0) = dampBiasFirst V c (ix2 0 0) := by
  obtain ⟨-, -, -, -, -, -, e0, e1, -⟩ := blockIndexFirst t
  show V c main_v2 (((cfg0.win 3).blk t).view.emb (ix2 0 0)) = V c main_v2 (ix2 0 0)
  refine congrArg (V c main_v2) (funext fun a => Fin.ext ?_)
  match a with
  | ⟨0, _⟩ => show win0_3.index t (0 : Fin 2) * 1 + 1 * 0 = 0; omega
  | ⟨1, _⟩ => show win0_3.index t (1 : Fin 2) * 1 + 1 * 0 = 0; omega

/-! ## A block of results is the block of the whole-array function, for any blocks and arrays

Blocks `x0 x1 x2` that read arrays `A0 A1 A2` at row offset `4000 b` give, at block index `j`, the whole-array
function at the array index `i` with the same column and row `4000 b + j 0`. -/

theorem featBlockFirst (x0 : Vec Ideal S4000x512 .f32) (x1 : Vec Ideal S512x66 .f32)
    (A0 : S100000x512.Idx → EReal) (A1 : S512x66.Idx → EReal) (b : Nat)
    (h0 : ∀ (p : Fin 4000) (k : Fin 512) (r : Fin 100000), r.val = b * 4000 + p.val → x0 (ix2 p k) = A0 (ix2 r k))
    (h1 : ∀ (k : Fin 512) (q : Fin 66), x1 (ix2 k q) = A1 (ix2 k q))
    (j : S4000x64.Idx) (i : S100000x64.Idx) (hi0 : (i 0).val = b * 4000 + (j 0).val) (hi1 : (i 1).val = (j 1).val) :
    k0_pay2 (F := Ideal) x0 x1 j = projFeat1 A0 A1 i := by
  obtain ⟨p, q, rfl⟩ : ∃ (p : Fin 4000) (q : Fin 64), j = ix2 p q := ⟨j 0, j 1, eq_ix2 j⟩
  refine (blockFeatFirst_apply x0 x1 p q).trans ?_
  show _ = ∑ k : Fin 512, A0 (ix2 (i 0) k) * A1 (ix2 k ⟨(i 1).val, _⟩)
  refine Finset.sum_congr rfl fun k _ => ?_
  rw [h0 p k (i 0) hi0, h1]
  exact congrArg (fun z : Fin 66 => A0 (ix2 (i 0) k) * A1 (ix2 k z)) (Fin.ext hi1.symm)

theorem gateBlockFirst (x0 : Vec Ideal S4000x512 .f32) (x1 : Vec Ideal S512x66 .f32) (x2 : Vec Ideal S1x1 .f32)
    (A0 : S100000x512.Idx → EReal) (A1 : S512x66.Idx → EReal) (A2 : S1x1.Idx → EReal) (b : Nat)
    (h0 : ∀ (p : Fin 4000) (k : Fin 512) (r : Fin 100000), r.val = b * 4000 + p.val → x0 (ix2 p k) = A0 (ix2 r k))
    (h1 : ∀ (k : Fin 512) (q : Fin 66), x1 (ix2 k q) = A1 (ix2 k q))
    (h2 : x2 (ix2 0 0) = A2 (ix2 0 0))
    (j : S4000x1.Idx) (i : S100000x1.Idx) (hi0 : (i 0).val = b * 4000 + (j 0).val) :
    k0_pay4 (F := Ideal) x0 x1 x2 j = projGate1 A0 A1 A2 i := by
  obtain ⟨p, z, rfl⟩ : ∃ (p : Fin 4000) (z : Fin 1), j = ix2 p z := ⟨j 0, j 1, eq_ix2 j⟩
  refine (blockGateFirst_apply x0 x1 x2 p z).trans ?_
  show _ = Ideal.logistic ((∑ k : Fin 512, A0 (ix2 (i 0) k) * A1 (ix2 k (64 : Fin 66))) + A2 (ix2 0 0))
  rw [h2]
  refine congrArg (fun s => Ideal.logistic (s + A2 (ix2 0 0))) (Finset.sum_congr rfl fun k _ => ?_)
  rw [h0 p k (i 0) hi0, h1]

theorem dampBlockFirst (x0 : Vec Ideal S4000x512 .f32) (x1 : Vec Ideal S512x66 .f32) (x3 : Vec Ideal S1x1 .f32)
    (A0 : S100000x512.Idx → EReal) (A1 : S512x66.Idx → EReal) (A3 : S1x1.Idx → EReal) (b : Nat)
    (h0 : ∀ (p : Fin 4000) (k : Fin 512) (r : Fin 100000), r.val = b * 4000 + p.val → x0 (ix2 p k) = A0 (ix2 r k))
    (h1 : ∀ (k : Fin 512) (q : Fin 66), x1 (ix2 k q) = A1 (ix2 k q))
    (h3 : x3 (ix2 0 0) = A3 (ix2 0 0))
    (j : S4000x1.Idx) (i : S100000x1.Idx) (hi0 : (i 0).val = b * 4000 + (j 0).val) :
    k0_pay3 (F := Ideal) x0 x1 x3 j = projDamp1 A0 A1 A3 i := by
  obtain ⟨p, z, rfl⟩ : ∃ (p : Fin 4000) (z : Fin 1), j = ix2 p z := ⟨j 0, j 1, eq_ix2 j⟩
  refine (blockDampFirst_apply x0 x1 x3 p z).trans ?_
  show _ = (∑ k : Fin 512, A0 (ix2 (i 0) k) * A1 (ix2 k (65 : Fin 66))) + A3 (ix2 0 0)
  rw [h3]
  refine congrArg (fun s => s + A3 (ix2 0 0)) (Finset.sum_congr rfl fun k _ => ?_)
  rw [h0 p k (i 0) hi0, h1]

/-! ## What point `t` writes back is block `t` of the whole-array function -/

theorem flushedFeatFirst (c : Dev nD) (t : Fin cfg0.N) :
    (dat0 (F := Ideal) V c).flushed 4 t
      = ((cfg0.win 4).blk t).view.read (Elt Ideal) (projFeat1 (inFirst V c) (wtFirst V c)) := by
  show (cfg0.win 4).cut (grid0.coords t) ((dat0 (F := Ideal) V c).after 4 t) = _
  rw [after0_4, xOut0_eq]
  obtain ⟨-, -, -, -, -, -, -, -, e0, e1, -⟩ := blockIndexFirst t
  funext j
  show k0_pay2 (F := Ideal) (blk0 V c 0 t) (blk0 V c 1 t) j = projFeat1 (inFirst V c) (wtFirst V c) (((cfg0.win 4).blk t).view.emb j)
  refine featBlockFirst (blk0 V c 0 t) (blk0 V c 1 t) (inFirst V c) (wtFirst V c) t.val
    (fun p k r hr => inBlockFirst_apply V c t p k r hr) (fun k q => wtBlockFirst_apply V c t k q)
    j (((cfg0.win 4).blk t).view.emb j) ?_ ?_
  · show win0_4.index t (0 : Fin 2) * 4000 + 1 * (j 0).val = t.val * 4000 + (j 0).val; omega
  · show win0_4.index t (1 : Fin 2) * 64 + 1 * (j 1).val = (j 1).val; omega

theorem flushedGateFirst (c : Dev nD) (t : Fin cfg0.N) :
    (dat0 (F := Ideal) V c).flushed 5 t
      = ((cfg0.win 5).blk t).view.read (Elt Ideal) (projGate1 (inFirst V c) (wtFirst V c) (gateBiasFirst V c)) := by
  show (cfg0.win 5).cut (grid0.coords t) ((dat0 (F := Ideal) V c).after 5 t) = _
  rw [after0_5, sOut0_eq]
  obtain ⟨-, -, -, -, -, -, -, -, -, -, e0, e1, -⟩ := blockIndexFirst t
  funext j
  show k0_pay4 (F := Ideal) (blk0 V c 0 t) (blk0 V c 1 t) (blk0 V c 2 t) j
    = projGate1 (inFirst V c) (wtFirst V c) (gateBiasFirst V c) (((cfg0.win 5).blk t).view.emb j)
  refine gateBlockFirst (blk0 V c 0 t) (blk0 V c 1 t) (blk0 V c 2 t) (inFirst V c) (wtFirst V c) (gateBiasFirst V c) t.val
    (fun p k r hr => inBlockFirst_apply V c t p k r hr) (fun k q => wtBlockFirst_apply V c t k q) (gateBiasBlockFirst_apply V c t)
    j (((cfg0.win 5).blk t).view.emb j) ?_
  show win0_5.index t (0 : Fin 2) * 4000 + 1 * (j 0).val = t.val * 4000 + (j 0).val; omega

theorem flushedDampFirst (c : Dev nD) (t : Fin cfg0.N) :
    (dat0 (F := Ideal) V c).flushed 6 t
      = ((cfg0.win 6).blk t).view.read (Elt Ideal) (projDamp1 (inFirst V c) (wtFirst V c) (dampBiasFirst V c)) := by
  show (cfg0.win 6).cut (grid0.coords t) ((dat0 (F := Ideal) V c).after 6 t) = _
  rw [after0_6, dOut0_eq]
  obtain ⟨-, -, -, -, -, -, -, -, -, -, -, -, e0, e1⟩ := blockIndexFirst t
  funext j
  show k0_pay3 (F := Ideal) (blk0 V c 0 t) (blk0 V c 1 t) (blk0 V c 3 t) j
    = projDamp1 (inFirst V c) (wtFirst V c) (dampBiasFirst V c) (((cfg0.win 6).blk t).view.emb j)
  refine dampBlockFirst (blk0 V c 0 t) (blk0 V c 1 t) (blk0 V c 3 t) (inFirst V c) (wtFirst V c) (dampBiasFirst V c) t.val
    (fun p k r hr => inBlockFirst_apply V c t p k r hr) (fun k q => wtBlockFirst_apply V c t k q) (dampBiasBlockFirst_apply V c t)
    j (((cfg0.win 6).blk t).view.emb j) ?_
  show win0_6.index t (0 : Fin 2) * 4000 + 1 * (j 0).val = t.val * 4000 + (j 0).val; omega

/-! ## The blocks tile the rows -/

/-- An index of the feature array is in point `t`'s block iff each coordinate is in the block's range. -/
theorem mem_featBlockFirst (t : Fin cfg0.N) (i : S100000x64.Idx) :
    i ∈ ((cfg0.win 4).blk t).view.set ↔ ∀ a : Fin 2, win0_4.index t a * S4000x64.size a ≤ (i a).val
      ∧ (i a).val < win0_4.index t a * S4000x64.size a + S4000x64.size a := by
  show i ∈ ((View.whole main_v3_0).slice (win0_4.rect t)).set ↔ _
  rw [View.set_slice_whole, Rect.mem_set_unit]
  exact Iff.rfl

theorem mem_gateBlockFirst (t : Fin cfg0.N) (i : S100000x1.Idx) :
    i ∈ ((cfg0.win 5).blk t).view.set ↔ ∀ a : Fin 2, win0_5.index t a * S4000x1.size a ≤ (i a).val
      ∧ (i a).val < win0_5.index t a * S4000x1.size a + S4000x1.size a := by
  show i ∈ ((View.whole main_v3_1).slice (win0_5.rect t)).set ↔ _
  rw [View.set_slice_whole, Rect.mem_set_unit]
  exact Iff.rfl

theorem mem_dampBlockFirst (t : Fin cfg0.N) (i : S100000x1.Idx) :
    i ∈ ((cfg0.win 6).blk t).view.set ↔ ∀ a : Fin 2, win0_6.index t a * S4000x1.size a ≤ (i a).val
      ∧ (i a).val < win0_6.index t a * S4000x1.size a + S4000x1.size a := by
  show i ∈ ((View.whole main_v3_2).slice (win0_6.rect t)).set ↔ _
  rw [View.set_slice_whole, Rect.mem_set_unit]
  exact Iff.rfl

/-- Row `r` lies in the block of point `r / 4000`. -/
theorem pointOfRowFirst (r : Nat) (hr : r < 100000) : ∃ t : Fin cfg0.N, t.val = r / 4000 := by
  have hN : cfg0.N = 25 := N_0
  exact ⟨⟨r / 4000, by rw [hN]; omega⟩, rfl⟩

/-! ## The three arrays after the call -/

/-- The projected features after the call: every row of the input times the weight columns. -/
theorem featFirst_final (c : Dev nD) :
    (dat0 (F := Ideal) V c).arrAt 4 cfg0.N = projFeat1 (inFirst V c) (wtFirst V c) :=
  (dat0 (F := Ideal) V c).arrAt_eq_of_cover 4 (projFeat1 (inFirst V c) (wtFirst V c)) (fun t _ => flushedFeatFirst V c t) fun i => by
    have hi0 : (i 0).val < 100000 := (i 0).isLt
    have hi1 : (i 1).val < 64 := (i 1).isLt
    obtain ⟨t, ht⟩ := pointOfRowFirst (i 0).val hi0
    obtain ⟨-, -, -, -, -, -, -, -, e0, e1, -⟩ := blockIndexFirst t
    refine ⟨t, flush0_4 t, ?_⟩
    rw [mem_featBlockFirst]
    intro a
    match a with
    | ⟨0, _⟩ => show win0_4.index t (0 : Fin 2) * 4000 ≤ (i 0).val ∧ (i 0).val < win0_4.index t (0 : Fin 2) * 4000 + 4000; omega
    | ⟨1, _⟩ => show win0_4.index t (1 : Fin 2) * 64 ≤ (i 1).val ∧ (i 1).val < win0_4.index t (1 : Fin 2) * 64 + 64; omega

/-- The gate after the call: the logistic of every row's score plus the bias. -/
theorem gateFirst_final (c : Dev nD) :
    (dat0 (F := Ideal) V c).arrAt 5 cfg0.N = projGate1 (inFirst V c) (wtFirst V c) (gateBiasFirst V c) :=
  (dat0 (F := Ideal) V c).arrAt_eq_of_cover 5 (projGate1 (inFirst V c) (wtFirst V c) (gateBiasFirst V c)) (fun t _ => flushedGateFirst V c t) fun i => by
    have hi0 : (i 0).val < 100000 := (i 0).isLt
    have hi1 : (i 1).val < 1 := (i 1).isLt
    obtain ⟨t, ht⟩ := pointOfRowFirst (i 0).val hi0
    obtain ⟨-, -, -, -, -, -, -, -, -, -, e0, e1, -⟩ := blockIndexFirst t
    refine ⟨t, flush0_5 t, ?_⟩
    rw [mem_gateBlockFirst]
    intro a
    match a with
    | ⟨0, _⟩ => show win0_5.index t (0 : Fin 2) * 4000 ≤ (i 0).val ∧ (i 0).val < win0_5.index t (0 : Fin 2) * 4000 + 4000; omega
    | ⟨1, _⟩ => show win0_5.index t (1 : Fin 2) * 1 ≤ (i 1).val ∧ (i 1).val < win0_5.index t (1 : Fin 2) * 1 + 1; omega

/-- The damping after the call: every row's damping column plus the bias. -/
theorem dampFirst_final (c : Dev nD) :
    (dat0 (F := Ideal) V c).arrAt 6 cfg0.N = projDamp1 (inFirst V c) (wtFirst V c) (dampBiasFirst V c) :=
  (dat0 (F := Ideal) V c).arrAt_eq_of_cover 6 (projDamp1 (inFirst V c) (wtFirst V c) (dampBiasFirst V c)) (fun t _ => flushedDampFirst V c t) fun i => by
    have hi0 : (i 0).val < 100000 := (i 0).isLt
    have hi1 : (i 1).val < 1 := (i 1).isLt
    obtain ⟨t, ht⟩ := pointOfRowFirst (i 0).val hi0
    obtain ⟨-, -, -, -, -, -, -, -, -, -, -, -, e0, e1⟩ := blockIndexFirst t
    refine ⟨t, flush0_6 t, ?_⟩
    rw [mem_dampBlockFirst]
    intro a
    match a with
    | ⟨0, _⟩ => show win0_6.index t (0 : Fin 2) * 4000 ≤ (i 0).val ∧ (i 0).val < win0_6.index t (0 : Fin 2) * 4000 + 4000; omega
    | ⟨1, _⟩ => show win0_6.index t (1 : Fin 2) * 1 ≤ (i 1).val ∧ (i 1).val < win0_6.index t (1 : Fin 2) * 1 + 1; omega

end Cert.KernelIdeal.Val

end
-- ==== Proof.GatedMix.lean ====
import proofs.«167143_j12463995093672_1_alg».proof.Proof.Gen.KernelIdeal.Skeleton
import Idealize.ShloMosaic.Lib.ValueIdx
import Idealize.ShloMosaic.Lib.Pipeline.Value

noncomputable section

namespace Cert.KernelIdeal.Val

open Cert.KernelIdeal Cert.KernelIdeal.Gen
open Idealize.ShloMosaic Idealize.ShloMosaic.ValueIdx

/-! # The gated mix, entry by entry

Each combining call mixes, row by row, two aggregates `a` and `k` with a gate `s` in place of a convex weight, and adds the
projection `x` damped by a tenth of the damping column `d`:

  out (r, q) = (s r · a (r, q) + (1 − s r) · k (r, q)) + (0.1 · d r) · x (r, q).

The gate and the damping are one-column arrays: their entry for row `r` sits at `(r, 0)` and is spread along the row. The
grouping of the sum and of the products is the body's, and the two literals are kept as the words the body holds. -/

/-- The word of `1`. -/
abbrev one : Ideal .f32 := Ideal.ofBits .f32 0x3F800000#32
/-- The word nearest to a tenth. -/
abbrev tenth : Ideal .f32 := Ideal.ofBits .f32 0x3DCCCCCD#32

/-- The gated mix of `n` rows of `h` columns: gate `s`, aggregates `a` and `k`, damping `d`, projection `x`. -/
def gatedMix {n h : ℕ} (s : (⟨2, ![n, 1]⟩ : Shape).Idx → Ideal .f32) (a k : (⟨2, ![n, h]⟩ : Shape).Idx → Ideal .f32)
    (d : (⟨2, ![n, 1]⟩ : Shape).Idx → Ideal .f32) (x : (⟨2, ![n, h]⟩ : Shape).Idx → Ideal .f32) :
    (⟨2, ![n, h]⟩ : Shape).Idx → Ideal .f32 :=
  fun i => (s (ix2 (n0 := n) (i 0) (0 : Fin 1)) * a i + (one - s (ix2 (n0 := n) (i 0) (0 : Fin 1))) * k i)
    + (tenth * d (ix2 (n0 := n) (i 0) (0 : Fin 1))) * x i

/-- The mix at row `r`, column `q`. -/
theorem gatedMix_apply {n h : ℕ} (s : (⟨2, ![n, 1]⟩ : Shape).Idx → Ideal .f32) (a k : (⟨2, ![n, h]⟩ : Shape).Idx → Ideal .f32)
    (d : (⟨2, ![n, 1]⟩ : Shape).Idx → Ideal .f32) (x : (⟨2, ![n, h]⟩ : Shape).Idx → Ideal .f32) (r : Fin n) (q : Fin h) :
    gatedMix s a k d x (ix2 r q)
      = (s (ix2 r (0 : Fin 1)) * a (ix2 r q) + (one - s (ix2 r (0 : Fin 1))) * k (ix2 r q))
        + (tenth * d (ix2 r (0 : Fin 1))) * x (ix2 r q) := rfl

/-- A one-column array spread along its rows reads, at `(p, c)`, the column's entry of row `p`. -/
theorem broadcastTo_a1_ab_apply {α : Type} {a b : ℕ} (v : (⟨2, ![a, 1]⟩ : Shape).Idx → α)
    (hb : (⟨2, ![a, 1]⟩ : Shape).Broadcasts ⟨2, ![a, b]⟩) (p : Fin a) (c : Fin b) :
    broadcastTo ⟨2, ![a, b]⟩ v hb (ix2 p c) = v (ix2 p (0 : Fin 1)) := by
  refine broadcastTo_apply v hb (ix2 p c) (ix2 p (0 : Fin 1)) fun ax => ?_
  match ax with
  | ⟨0, _⟩ =>
    show p.val = if a = 1 then 0 else p.val
    split
    · have := p.isLt; omega
    · rfl
  | ⟨1, _⟩ => rfl

/-- The offsets of a rectangle that starts at the buffer's corner, however the zeros are spelt. -/
theorem zeroOffsets : (![0, 0] : Fin 2 → Nat) = fun _ => 0 := funext fun a => by fin_cases a <;> rfl

/-- The first combining body's stored value is the gated mix of its five loaded blocks (4000 rows of 64 columns). -/
theorem k1_pay1_eq (v0 v2 : Vec Ideal S4000x1 .f32) (v4 v10 v17 : Vec Ideal S4000x64 .f32) :
    k1_pay1 v0 v2 v4 v10 v17 = gatedMix (n := 4000) (h := 64) v0 v4 v10 v2 v17 := by
  funext j
  obtain ⟨p, q, rfl⟩ : ∃ (p : Fin 4000) (q : Fin 64), j = ix2 p q := ⟨j 0, j 1, eq_ix2 j⟩
  unfold k1_pay1
  simp only [shapeCast_self]
  rw [gatedMix_apply]
  simp only [addf_apply, mulf_apply]
  rw [broadcastTo_a1_ab_apply, broadcastTo_a1_ab_apply, broadcastTo_a1_ab_apply]
  rfl

/-- The second combining body's stored value is the gated mix of its five loaded blocks (4000 rows of 10 columns). -/
theorem k3_pay1_eq (v0 v2 : Vec Ideal S4000x1 .f32) (v4 v10 v17 : Vec Ideal S4000x10 .f32) :
    k3_pay1 v0 v2 v4 v10 v17 = gatedMix (n := 4000) (h := 10) v0 v4 v10 v2 v17 := by
  funext j
  obtain ⟨p, q, rfl⟩ : ∃ (p : Fin 4000) (q : Fin 10), j = ix2 p q := ⟨j 0, j 1, eq_ix2 j⟩
  unfold k3_pay1
  simp only [shapeCast_self]
  rw [gatedMix_apply]
  simp only [addf_apply, mulf_apply]
  rw [broadcastTo_a1_ab_apply, broadcastTo_a1_ab_apply, broadcastTo_a1_ab_apply]
  rfl

end Cert.KernelIdeal.Val

end
-- ==== Proof.MixFirstArray.lean ====
import proofs.«167143_j12463995093672_1_alg».proof.Proof.MixFirst
import proofs.«167143_j12463995093672_1_alg».proof.Proof.GatedMix
import Idealize.ShloMosaic.Lib.Pipeline.Value
import Idealize.ShloMosaic.Lib.ValueIdx

noncomputable section

namespace Cert.KernelIdeal.Val

open Cert.KernelIdeal Cert.KernelIdeal.Gen Cert.KernelIdeal.Frm
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! # The first combining call writes the gated mix of its five arrays

The call walks 25 points; at point `t` every window's block is rows `4000 t … 4000 t + 3999` of its array, all columns. The body
stores the gated mix of the five loaded blocks; a row of the mix reads only that row of each array, so block `t` of the output
is block `t` of the mix of the whole arrays, and the 25 blocks tile the 100000 rows. -/

/-- What the body leaves in the output's block is the gated mix of the five loaded blocks: its one store covers the buffer. -/
theorem mixOut1_eq (x0 : Vec Ideal S4000x1 .f32) (x1 x2 : Vec Ideal S4000x64 .f32) (x3 : Vec Ideal S4000x1 .f32) (x4 : Vec Ideal S4000x64 .f32) :
    mixOut1 x0 x1 x2 x3 x4 = gatedMix (n := 4000) (h := 64) x0 x1 x2 x3 x4 := by
  unfold mixOut1
  rw [View.canon_unit_zero zeroOffsets]
  simp only [View.ld_unit_zero (S := S4000x1) zeroOffsets, View.ld_unit_zero (S := S4000x64) zeroOffsets]
  exact k1_pay1_eq x0 x3 x1 x2 x4

/-- Every window's block index at point `t` is `(t, 0)`: decided over the 25 points. -/
theorem blockIndex1 : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = t.val ∧ win1_3.index t (1 : Fin 2) = 0)
    ∧ (win1_4.index t (0 : Fin 2) = t.val ∧ win1_4.index t (1 : Fin 2) = 0)
    ∧ (win1_5.index t (0 : Fin 2) = t.val ∧ win1_5.index t (1 : Fin 2) = 0) :=
  (by decide +kernel : ∀ t : Fin grid1.N, _)

/-! ## Each input block, entry by entry: row `p` of block `t` is row `4000 t + p` of the array -/

theorem blk1_0_apply (c : Dev nD) (t : Fin cfg1.N) (p : Fin 4000) (R : Fin 100000) (hR : R.val = 4000 * t.val + p.val) :
    (blk1 V c 0 t : Vec Ideal S4000x1 .f32) (ix2 p (0 : Fin 1)) = (V c (Pipeline.arrRef spec1 0) : S100000x1.Idx → Ideal .f32) (ix2 R (0 : Fin 1)) := by
  have e := (blockIndex1 t).1
  unfold blk1
  rw [View.read_apply]
  show (V c main_v3_1 : S100000x1.Idx → Ideal .f32) _ = (V c main_v3_1 : S100000x1.Idx → Ideal .f32) _
  refine congrArg (V c main_v3_1 : S100000x1.Idx → Ideal .f32) (funext fun a => Fin.ext ?_)
  match a with
  | ⟨0, _⟩ => show win1_0.index t (0 : Fin 2) * 4000 + 1 * p.val = R.val; rw [e.1, hR]; omega
  | ⟨1, _⟩ => show win1_0.index t (1 : Fin 2) * 1 + 1 * 0 = 0; rw [e.2]

theorem blk1_1_apply (c : Dev nD) (t : Fin cfg1.N) (p : Fin 4000) (q : Fin 64) (R : Fin 100000) (hR : R.val = 4000 * t.val + p.val) :
    (blk1 V c 1 t : Vec Ideal S4000x64 .f32) (ix2 p q) = (V c (Pipeline.arrRef spec1 1) : S100000x64.Idx → Ideal .f32) (ix2 R q) := by
  have e := (blockIndex1 t).2.1
  unfold blk1
  rw [View.read_apply]
  show (V c main_v46 : S100000x64.Idx → Ideal .f32) _ = (V c main_v46 : S100000x64.Idx → Ideal .f32) _
  refine congrArg (V c main_v46 : S100000x64.Idx → Ideal .f32) (funext fun a => Fin.ext ?_)
  match a with
  | ⟨0, _⟩ => show win1_1.index t (0 : Fin 2) * 4000 + 1 * p.val = R.val; rw [e.1, hR]; omega
  | ⟨1, _⟩ => show win1_1.index t (1 : Fin 2) * 64 + 1 * q.val = q.val; rw [e.2]; omega

theorem blk1_2_apply (c : Dev nD) (t : Fin cfg1.N) (p : Fin 4000) (q : Fin 64) (R : Fin 100000) (hR : R.val = 4000 * t.val + p.val) :
    (blk1 V c 2 t : Vec Ideal S4000x64 .f32) (ix2 p q) = (V c (Pipeline.arrRef spec1 2) : S100000x64.Idx → Ideal .f32) (ix2 R q) := by
  have e := (blockIndex1 t).2.2.1
  unfold blk1
  rw [View.read_apply]
  show (V c main_v86 : S100000x64.Idx → Ideal .f32) _ = (V c main_v86 : S100000x64.Idx → Ideal .f32) _
  refine congrArg (V c main_v86 : S100000x64.Idx → Ideal .f32) (funext fun a => Fin.ext ?_)
  match a with
  | ⟨0, _⟩ => show win1_2.index t (0 : Fin 2) * 4000 + 1 * p.val = R.val; rw [e.1, hR]; omega
  | ⟨1, _⟩ => show win1_2.index t (1 : Fin 2) * 64 + 1 * q.val = q.val; rw [e.2]; omega

theorem blk1_3_apply (c : Dev nD) (t : Fin cfg1.N) (p : Fin 4000) (R : Fin 100000) (hR : R.val = 4000 * t.val + p.val) :
    (blk1 V c 3 t : Vec Ideal S4000x1 .f32) (ix2 p (0 : Fin 1)) = (V c (Pipeline.arrRef spec1 3) : S100000x1.Idx → Ideal .f32) (ix2 R (0 : Fin 1)) := by
  have e := (blockIndex1 t).2.2.2.1
  unfold blk1
  rw [View.read_apply]
  show (V c main_v3_2 : S100000x1.Idx → Ideal .f32) _ = (V c main_v3_2 : S100000x1.Idx → Ideal .f32) _
  refine congrArg (V c main_v3_2 : S100000x1.Idx → Ideal .f32) (funext fun a => Fin.ext ?_)
  match a with
  | ⟨0, _⟩ => show win1_3.index t (0 : Fin 2) * 4000 + 1 * p.val = R.val; rw [e.1, hR]; omega
  | ⟨1, _⟩ => show win1_3.index t (1 : Fin 2) * 1 + 1 * 0 = 0; rw [e.2]

theorem blk1_4_apply (c : Dev nD) (t : Fin cfg1.N) (p : Fin 4000) (q : Fin 64) (R : Fin 100000) (hR : R.val = 4000 * t.val + p.val) :
    (blk1 V c 4 t : Vec Ideal S4000x64 .f32) (ix2 p q) = (V c (Pipeline.arrRef spec1 4) : S100000x64.Idx → Ideal .f32) (ix2 R q) := by
  have e := (blockIndex1 t).2.2.2.2.1
  unfold blk1
  rw [View.read_apply]
  show (V c main_v3_0 : S100000x64.Idx → Ideal .f32) _ = (V c main_v3_0 : S100000x64.Idx → Ideal .f32) _
  refine congrArg (V c main_v3_0 : S100000x64.Idx → Ideal .f32) (funext fun a => Fin.ext ?_)
  match a with
  | ⟨0, _⟩ => show win1_4.index t (0 : Fin 2) * 4000 + 1 * p.val = R.val; rw [e.1, hR]; omega
  | ⟨1, _⟩ => show win1_4.index t (1 : Fin 2) * 64 + 1 * q.val = q.val; rw [e.2]; omega

/-! ## The output array -/

/-- The gated mix of the five arrays as the call finds them. -/
abbrev mixFirstArray (c : Dev nD) : S100000x64.Idx → Ideal .f32 :=
  gatedMix (n := 100000) (h := 64) (V c (Pipeline.arrRef spec1 0)) (V c (Pipeline.arrRef spec1 1)) (V c (Pipeline.arrRef spec1 2))
    (V c (Pipeline.arrRef spec1 3)) (V c (Pipeline.arrRef spec1 4))

/-- What point `t` writes back is block `t` of the gated mix of the whole arrays. -/
theorem flushed1_eq (c : Dev nD) (t : Fin cfg1.N) :
    (dat1 V c).flushed 5 t = ((cfg1.win 5).blk t).view.read (Elt Ideal) (mixFirstArray V c) := by
  show (cfg1.win 5).cut (grid1.coords t) ((dat1 V c).after 5 t) = _
  rw [after1_5, mixOut1_eq]
  have e5 := (blockIndex1 t).2.2.2.2.2
  have hN : cfg1.N = 25 := N_1
  funext j
  obtain ⟨p, q, rfl⟩ : ∃ (p : Fin 4000) (q : Fin 64), j = ix2 p q := ⟨j 0, j 1, eq_ix2 j⟩
  have hR : 4000 * t.val + p.val < 100000 := by have := t.isLt; have := p.isLt; omega
  have hemb : ((cfg1.win 5).blk t).view.emb (ix2 p q) = (ix2 (⟨4000 * t.val + p.val, hR⟩ : Fin 100000) q : S100000x64.Idx) := by
    funext a; apply Fin.ext
    match a with
    | ⟨0, _⟩ => show win1_5.index t (0 : Fin 2) * 4000 + 1 * p.val = 4000 * t.val + p.val; rw [e5.1]; omega
    | ⟨1, _⟩ => show win1_5.index t (1 : Fin 2) * 64 + 1 * q.val = q.val; rw [e5.2]; omega
  rw [View.read_apply]
  show gatedMix (n := 4000) (h := 64) (blk1 V c 0 t) (blk1 V c 1 t) (blk1 V c 2 t) (blk1 V c 3 t) (blk1 V c 4 t) (ix2 p q)
    = gatedMix (n := 100000) (h := 64) (V c (Pipeline.arrRef spec1 0)) (V c (Pipeline.arrRef spec1 1)) (V c (Pipeline.arrRef spec1 2))
        (V c (Pipeline.arrRef spec1 3)) (V c (Pipeline.arrRef spec1 4)) (((cfg1.win 5).blk t).view.emb (ix2 p q))
  rw [hemb, gatedMix_apply, gatedMix_apply,
    blk1_0_apply V c t p ⟨4000 * t.val + p.val, hR⟩ rfl, blk1_1_apply V c t p q ⟨4000 * t.val + p.val, hR⟩ rfl,
    blk1_2_apply V c t p q ⟨4000 * t.val + p.val, hR⟩ rfl, blk1_3_apply V c t p ⟨4000 * t.val + p.val, hR⟩ rfl,
    blk1_4_apply V c t p q ⟨4000 * t.val + p.val, hR⟩ rfl]

/-- An index of the output array lies in point `t`'s block iff each coordinate lies in the block's range on its axis. -/
theorem mem_blk1 (t : Fin cfg1.N) (i : S100000x64.Idx) :
    i ∈ ((cfg1.win 5).blk t).view.set ↔ ∀ a : Fin 2, win1_5.index t a * S4000x64.size a ≤ (i a).val ∧ (i a).val < win1_5.index t a * S4000x64.size a + S4000x64.size a := by
  show i ∈ ((View.whole main_v87).slice (win1_5.rect t)).set ↔ _
  rw [View.set_slice_whole, Rect.mem_set_unit]
  exact Iff.rfl

/-- Row `r` of the output lies in the block of point `r / 4000`. -/
theorem cover1 (i : S100000x64.Idx) : ∃ t : Fin cfg1.N, (cfg1.win 5).flush t = true ∧ i ∈ ((cfg1.win 5).blk t).view.set := by
  have h0 : (i 0).val < 100000 := (i 0).isLt
  have h1 : (i 1).val < 64 := (i 1).isLt
  have hN : cfg1.N = 25 := N_1
  have ht : (i 0).val / 4000 < cfg1.N := by rw [hN]; omega
  refine ⟨⟨(i 0).val / 4000, ht⟩, flush1_5 _, ?_⟩
  have e5 := (blockIndex1 ⟨(i 0).val / 4000, ht⟩).2.2.2.2.2
  rw [mem_blk1]
  intro a
  match a with
  | ⟨0, _⟩ =>
    show win1_5.index ⟨(i 0).val / 4000, ht⟩ (0 : Fin 2) * 4000 ≤ (i 0).val ∧ (i 0).val < win1_5.index ⟨(i 0).val / 4000, ht⟩ (0 : Fin 2) * 4000 + 4000
    rw [e5.1]; show (i 0).val / 4000 * 4000 ≤ (i 0).val ∧ (i 0).val < (i 0).val / 4000 * 4000 + 4000; omega
  | ⟨1, _⟩ =>
    show win1_5.index ⟨(i 0).val / 4000, ht⟩ (1 : Fin 2) * 64 ≤ (i 1).val ∧ (i 1).val < win1_5.index ⟨(i 0).val / 4000, ht⟩ (1 : Fin 2) * 64 + 64
    rw [e5.2]; omega

/-- After the call the output array holds the gated mix of the five arrays as the call found them. -/
theorem mixFirst_array (c : Dev nD) : (dat1 V c).arrAt 5 cfg1.N = mixFirstArray V c :=
  (dat1 V c).arrAt_eq_of_cover 5 (mixFirstArray V c) (fun t _ => flushed1_eq V c t) (cover1)

end Cert.KernelIdeal.Val

end
-- ==== Proof.JoinedWeights.lean ====
import proofs.«167143_j12463995093672_1_alg».proof.Proof.Gen.KernelIdeal
import Idealize.ShloMosaic.Lib.Pipeline.Value
import Idealize.ShloMosaic.Lib.ValueIdx

noncomputable section

/-! # The joined weight matrix and the reshaped biases, column by column

Before each projection the host joins three matrices side by side along the column axis: the layer's weights,
the one-column gate scores and the one-column damping weights. Column `c` of the joined matrix is column `c` of
the weights while `c` is below the weights' width, then the score column, then the damping column. The two
biases are one-element vectors reshaped to `1 × 1`: the one entry is unchanged. -/

namespace Cert.KernelIdeal.Val

open Cert.KernelIdeal Cert.KernelIdeal.Gen
open Idealize.ShloMosaic Idealize.ShloMosaic.ValueIdx

/-! ## The first layer: 512 rows; 64 weight columns, score column 64, damping column 65 -/

theorem joinedFirst_weights (x1 : Vec Ideal S512x64 .f32) (x3 x7 : Vec Ideal S512x1 .f32) (k : Fin 512) (j : Fin 64) :
    concatenate S512x66 1 [⟨S512x64, x1⟩, ⟨S512x1, x3⟩, ⟨S512x1, x7⟩] concatenates_S512x64_S512x1_S512x1_S512x66_d1
      (ix2 k (⟨j.val, Nat.lt_of_lt_of_le j.isLt (by decide)⟩ : Fin 66)) = x1 (ix2 k j) :=
  concatenate_apply_piece 1 [⟨S512x64, x1⟩, ⟨S512x1, x3⟩, ⟨S512x1, x7⟩] concatenates_S512x64_S512x1_S512x1_S512x66_d1
    (ix2 k (⟨j.val, Nat.lt_of_lt_of_le j.isLt (by decide)⟩ : Fin 66)) 0 (show (0 : Nat) < 3 by omega) S512x64 x1 rfl rfl 0 rfl (ix2 k j)
    (fun b hb => by match b with | ⟨0, _⟩ => rfl | ⟨1, _⟩ => exact absurd rfl hb)
    (show 0 + j.val = j.val by omega)

theorem joinedFirst_score (x1 : Vec Ideal S512x64 .f32) (x3 x7 : Vec Ideal S512x1 .f32) (k : Fin 512) :
    concatenate S512x66 1 [⟨S512x64, x1⟩, ⟨S512x1, x3⟩, ⟨S512x1, x7⟩] concatenates_S512x64_S512x1_S512x1_S512x66_d1
      (ix2 k (64 : Fin 66)) = x3 (ix2 k 0) :=
  concatenate_apply_piece 1 [⟨S512x64, x1⟩, ⟨S512x1, x3⟩, ⟨S512x1, x7⟩] concatenates_S512x64_S512x1_S512x1_S512x66_d1
    (ix2 k (64 : Fin 66)) 1 (show (1 : Nat) < 3 by omega) S512x1 x3 rfl rfl 64 rfl (ix2 k 0)
    (fun b hb => by match b with | ⟨0, _⟩ => rfl | ⟨1, _⟩ => exact absurd rfl hb)
    (show 64 + 0 = 64 by omega)

theorem joinedFirst_damp (x1 : Vec Ideal S512x64 .f32) (x3 x7 : Vec Ideal S512x1 .f32) (k : Fin 512) :
    concatenate S512x66 1 [⟨S512x64, x1⟩, ⟨S512x1, x3⟩, ⟨S512x1, x7⟩] concatenates_S512x64_S512x1_S512x1_S512x66_d1
      (ix2 k (65 : Fin 66)) = x7 (ix2 k 0) :=
  concatenate_apply_piece 1 [⟨S512x64, x1⟩, ⟨S512x1, x3⟩, ⟨S512x1, x7⟩] concatenates_S512x64_S512x1_S512x1_S512x66_d1
    (ix2 k (65 : Fin 66)) 2 (show (2 : Nat) < 3 by omega) S512x1 x7 rfl rfl 65 rfl (ix2 k 0)
    (fun b hb => by match b with | ⟨0, _⟩ => rfl | ⟨1, _⟩ => exact absurd rfl hb)
    (show 65 + 0 = 65 by omega)

/-! ## The second layer: 64 rows; 10 weight columns, score column 10, damping column 11 -/

theorem joinedSecond_weights (x2 : Vec Ideal S64x10 .f32) (x4 x8 : Vec Ideal S64x1 .f32) (k : Fin 64) (j : Fin 10) :
    concatenate S64x12 1 [⟨S64x10, x2⟩, ⟨S64x1, x4⟩, ⟨S64x1, x8⟩] concatenates_S64x10_S64x1_S64x1_S64x12_d1
      (ix2 k (⟨j.val, Nat.lt_of_lt_of_le j.isLt (by decide)⟩ : Fin 12)) = x2 (ix2 k j) :=
  concatenate_apply_piece 1 [⟨S64x10, x2⟩, ⟨S64x1, x4⟩, ⟨S64x1, x8⟩] concatenates_S64x10_S64x1_S64x1_S64x12_d1
    (ix2 k (⟨j.val, Nat.lt_of_lt_of_le j.isLt (by decide)⟩ : Fin 12)) 0 (show (0 : Nat) < 3 by omega) S64x10 x2 rfl rfl 0 rfl (ix2 k j)
    (fun b hb => by match b with | ⟨0, _⟩ => rfl | ⟨1, _⟩ => exact absurd rfl hb)
    (show 0 + j.val = j.val by omega)

theorem joinedSecond_score (x2 : Vec Ideal S64x10 .f32) (x4 x8 : Vec Ideal S64x1 .f32) (k : Fin 64) :
    concatenate S64x12 1 [⟨S64x10, x2⟩, ⟨S64x1, x4⟩, ⟨S64x1, x8⟩] concatenates_S64x10_S64x1_S64x1_S64x12_d1
      (ix2 k (10 : Fin 12)) = x4 (ix2 k 0) :=
  concatenate_apply_piece 1 [⟨S64x10, x2⟩, ⟨S64x1, x4⟩, ⟨S64x1, x8⟩] concatenates_S64x10_S64x1_S64x1_S64x12_d1
    (ix2 k (10 : Fin 12)) 1 (show (1 : Nat) < 3 by omega) S64x1 x4 rfl rfl 10 rfl (ix2 k 0)
    (fun b hb => by match b with | ⟨0, _⟩ => rfl | ⟨1, _⟩ => exact absurd rfl hb)
    (show 10 + 0 = 10 by omega)

theorem joinedSecond_damp (x2 : Vec Ideal S64x10 .f32) (x4 x8 : Vec Ideal S64x1 .f32) (k : Fin 64) :
    concatenate S64x12 1 [⟨S64x10, x2⟩, ⟨S64x1, x4⟩, ⟨S64x1, x8⟩] concatenates_S64x10_S64x1_S64x1_S64x12_d1
      (ix2 k (11 : Fin 12)) = x8 (ix2 k 0) :=
  concatenate_apply_piece 1 [⟨S64x10, x2⟩, ⟨S64x1, x4⟩, ⟨S64x1, x8⟩] concatenates_S64x10_S64x1_S64x1_S64x12_d1
    (ix2 k (11 : Fin 12)) 2 (show (2 : Nat) < 3 by omega) S64x1 x8 rfl rfl 11 rfl (ix2 k 0)
    (fun b hb => by match b with | ⟨0, _⟩ => rfl | ⟨1, _⟩ => exact absurd rfl hb)
    (show 11 + 0 = 11 by omega)

/-! ## A one-element vector reshaped to `1 × 1` keeps its entry -/

theorem reshapedBias_apply (x : Vec Ideal S1 .f32) : shapeCast S1x1 x shapeCasts_S1_S1x1 (ix2 0 0) = x (ix1 0) :=
  shapeCast_apply x shapeCasts_S1_S1x1 (ix2 0 0) (ix1 0) (by
    rw [Shape.rowMajor_val_one, Shape.rowMajor_val_two]; rfl)

end Cert.KernelIdeal.Val

end
-- ==== Proof.UnitLiteral.lean ====
import Idealize.ShloMosaic.PureOps.Ideal

/-! # The word `0x3F800000` is the number one

The reference writes the constant one of its `1 / (1 + exp (−x))` as the 32-bit word `0x3F800000`; over the
extended reals that word is the number `1`, the one of the logistic function's definition. -/

namespace Cert.KernelIdeal.Val

open Idealize.ShloMosaic

theorem ofBits_one_f32 : Ideal.ofBits .f32 0x3F800000#32 = 1 := by
  simp [Ideal.ofBits, Ideal.ieee, -EReal.coe_mul]; norm_num

end Cert.KernelIdeal.Val
-- ==== Proof.ProjFirstMeets.lean ====
import proofs.«167143_j12463995093672_1_alg».proof.Proof.RefRead
import proofs.«167143_j12463995093672_1_alg».proof.Proof.RowsTimesCols
import proofs.«167143_j12463995093672_1_alg».proof.Proof.UnitLiteral
import Idealize.ShloMosaic.Lib.ValueIdx

noncomputable section

open scoped BigOperators

/-! # The first projection against the reference's three products

The reference multiplies the input rows by the weights, by the score column and by the damping column in three
separate products; the kernel multiplies once by the matrix that joins the three side by side. Column by
column the joined product is the three products: its leading 64 columns are the weights' product; its column
64 plus the bias, through `1 / (1 + exp (−·))`, is the reference's gate (the logistic is that expression by
definition, and the reference's constant one, the word `0x3F800000`, is the number one); its column 65 plus the
bias is the reference's damping. -/

namespace Cert.KernelIdeal.Val

open Idealize.ShloMosaic Idealize.ShloMosaic.ValueIdx

/-- The leading columns of the joined product are the product with the weights. -/
theorem feat1_meets (x0 : (⟨2, ![100000, 512]⟩ : Shape).Idx → EReal) (x1 : (⟨2, ![512, 64]⟩ : Shape).Idx → EReal)
    (wc : (⟨2, ![512, 66]⟩ : Shape).Idx → EReal)
    (hW : ∀ (k : Fin 512) (j : Fin 64), wc (ix2 k (⟨j.val, Nat.lt_of_lt_of_le j.isLt (by decide)⟩ : Fin 66)) = x1 (ix2 k j)) :
    projFeat1 x0 wc = Cert.ReferenceIdeal.ReadP.val_main_v14 (F := Ideal) x0 x1 := by
  funext i
  obtain ⟨r, j, rfl⟩ : ∃ (r : Fin 100000) (j : Fin 64), i = ix2 r j := ⟨i 0, i 1, eq_ix2 i⟩
  refine Eq.trans ?_ (Cert.ReferenceIdeal.ReadP.val_main_v14_apply x0 x1 (ix2 r j)).symm
  show ∑ k : Fin 512, x0 (ix2 r k) * wc (ix2 k (⟨j.val, _⟩ : Fin 66))
    = ∑ k : Fin 512, x0 (Cert.ReferenceIdeal.ReadP.lidx_main_v14 (ix2 r j) k) * x1 (Cert.ReferenceIdeal.ReadP.ridx_main_v14 (ix2 r j) k)
  refine Finset.sum_congr rfl fun k _ => ?_
  have el : Cert.ReferenceIdeal.ReadP.lidx_main_v14 (ix2 r j) k = ix2 r k :=
    funext fun a => by match a with | ⟨0, _⟩ => rfl | ⟨1, _⟩ => rfl
  have er : Cert.ReferenceIdeal.ReadP.ridx_main_v14 (ix2 r j) k = ix2 k j :=
    funext fun a => by match a with | ⟨0, _⟩ => rfl | ⟨1, _⟩ => rfl
  rw [el, er, hW k j]

/-- The score column's sum is the reference's product with the score column. -/
theorem score1_meets (x0 : (⟨2, ![100000, 512]⟩ : Shape).Idx → EReal) (x3 : (⟨2, ![512, 1]⟩ : Shape).Idx → EReal)
    (wc : (⟨2, ![512, 66]⟩ : Shape).Idx → EReal)
    (hS : ∀ k : Fin 512, wc (ix2 k (64 : Fin 66)) = x3 (ix2 k 0)) (r : Fin 100000) :
    rowDotCol x0 wc r (64 : Fin 66) = Cert.ReferenceIdeal.ReadP.val_main_v0 (F := Ideal) x0 x3 (ix2 r 0) := by
  refine Eq.trans ?_ (Cert.ReferenceIdeal.ReadP.val_main_v0_apply x0 x3 (ix2 r 0)).symm
  show ∑ k : Fin 512, x0 (ix2 r k) * wc (ix2 k (64 : Fin 66))
    = ∑ k : Fin 512, x0 (Cert.ReferenceIdeal.ReadP.lidx_main_v0 (ix2 r 0) k) * x3 (Cert.ReferenceIdeal.ReadP.ridx_main_v0 (ix2 r 0) k)
  refine Finset.sum_congr rfl fun k _ => ?_
  have el : Cert.ReferenceIdeal.ReadP.lidx_main_v0 (ix2 r (0 : Fin 1)) k = ix2 r k :=
    funext fun a => by match a with | ⟨0, _⟩ => rfl | ⟨1, _⟩ => rfl
  have er : Cert.ReferenceIdeal.ReadP.ridx_main_v0 (ix2 r (0 : Fin 1)) k = ix2 k 0 :=
    funext fun a => by match a with | ⟨0, _⟩ => rfl | ⟨1, _⟩ => rfl
  rw [el, er, hS k]

/-- The gate: the logistic of the score column plus the bias is the reference's `1 / (1 + exp (−(score + bias)))`. -/
theorem gate1_meets (x0 : (⟨2, ![100000, 512]⟩ : Shape).Idx → EReal) (x3 : (⟨2, ![512, 1]⟩ : Shape).Idx → EReal)
    (x5 : (⟨1, ![1]⟩ : Shape).Idx → EReal) (wc : (⟨2, ![512, 66]⟩ : Shape).Idx → EReal) (b : (⟨2, ![1, 1]⟩ : Shape).Idx → EReal)
    (hS : ∀ k : Fin 512, wc (ix2 k (64 : Fin 66)) = x3 (ix2 k 0)) (hb : b (ix2 0 0) = x5 (ix1 0)) :
    projGate1 x0 wc b = Cert.ReferenceIdeal.ReadP.val_main_v9 (F := Ideal) x0 x3 x5 := by
  funext i
  obtain ⟨r, z, rfl⟩ : ∃ (r : Fin 100000) (z : Fin 1), i = ix2 r z := ⟨i 0, i 1, eq_ix2 i⟩
  obtain rfl : z = 0 := Subsingleton.elim _ _
  rw [Cert.ReferenceIdeal.ReadP.val_main_v9_apply, Cert.ReferenceIdeal.ReadP.val_main_v8_apply,
    Cert.ReferenceIdeal.ReadP.val_main_cst_0_apply, Cert.ReferenceIdeal.ReadP.val_main_v7_apply,
    Cert.ReferenceIdeal.ReadP.val_main_v6_apply, Cert.ReferenceIdeal.ReadP.val_main_cst_apply,
    Cert.ReferenceIdeal.ReadP.val_main_v5_apply, Cert.ReferenceIdeal.ReadP.val_main_v4_apply,
    Cert.ReferenceIdeal.ReadP.val_main_v3_apply, Cert.ReferenceIdeal.ReadP.val_main_v2_apply,
    Cert.ReferenceIdeal.ReadP.val_main_v1_apply, ← score1_meets x0 x3 wc hS r]
  simp only [Ideal.hostDivf_def, Ideal.addf_def, Ideal.hostUnary_exp_def, Ideal.hostNegf_def, Ideal.negf_def,
    Ideal.ofBits_def, ofBits_one_f32]
  have hbias : x5 (Cert.ReferenceIdeal.ReadP.idx_main_v1 (Cert.ReferenceIdeal.ReadP.idx_main_v2 (ix2 r (0 : Fin 1)))) = b (ix2 0 0) := by
    rw [hb]; exact congrArg x5 (funext fun a => by match a with | ⟨0, _⟩ => rfl)
  rw [hbias]
  rfl

/-- The damping column's sum is the reference's product with the damping column. -/
theorem dampCol1_meets (x0 : (⟨2, ![100000, 512]⟩ : Shape).Idx → EReal) (x7 : (⟨2, ![512, 1]⟩ : Shape).Idx → EReal)
    (wc : (⟨2, ![512, 66]⟩ : Shape).Idx → EReal)
    (hD : ∀ k : Fin 512, wc (ix2 k (65 : Fin 66)) = x7 (ix2 k 0)) (r : Fin 100000) :
    rowDotCol x0 wc r (65 : Fin 66) = Cert.ReferenceIdeal.ReadP.val_main_v10 (F := Ideal) x0 x7 (ix2 r 0) := by
  refine Eq.trans ?_ (Cert.ReferenceIdeal.ReadP.val_main_v10_apply x0 x7 (ix2 r 0)).symm
  show ∑ k : Fin 512, x0 (ix2 r k) * wc (ix2 k (65 : Fin 66))
    = ∑ k : Fin 512, x0 (Cert.ReferenceIdeal.ReadP.lidx_main_v10 (ix2 r 0) k) * x7 (Cert.ReferenceIdeal.ReadP.ridx_main_v10 (ix2 r 0) k)
  refine Finset.sum_congr rfl fun k _ => ?_
  have el : Cert.ReferenceIdeal.ReadP.lidx_main_v10 (ix2 r (0 : Fin 1)) k = ix2 r k :=
    funext fun a => by match a with | ⟨0, _⟩ => rfl | ⟨1, _⟩ => rfl
  have er : Cert.ReferenceIdeal.ReadP.ridx_main_v10 (ix2 r (0 : Fin 1)) k = ix2 k 0 :=
    funext fun a => by match a with | ⟨0, _⟩ => rfl | ⟨1, _⟩ => rfl
  rw [el, er, hD k]

/-- The damping: the damping column plus the bias is the reference's. -/
theorem damp1_meets (x0 : (⟨2, ![100000, 512]⟩ : Shape).Idx → EReal) (x7 : (⟨2, ![512, 1]⟩ : Shape).Idx → EReal)
    (x9 : (⟨1, ![1]⟩ : Shape).Idx → EReal) (wc : (⟨2, ![512, 66]⟩ : Shape).Idx → EReal) (b : (⟨2, ![1, 1]⟩ : Shape).Idx → EReal)
    (hD : ∀ k : Fin 512, wc (ix2 k (65 : Fin 66)) = x7 (ix2 k 0)) (hb : b (ix2 0 0) = x9 (ix1 0)) :
    projDamp1 x0 wc b = Cert.ReferenceIdeal.ReadP.val_main_v13 (F := Ideal) x0 x7 x9 := by
  funext i
  obtain ⟨r, z, rfl⟩ : ∃ (r : Fin 100000) (z : Fin 1), i = ix2 r z := ⟨i 0, i 1, eq_ix2 i⟩
  obtain rfl : z = 0 := Subsingleton.elim _ _
  rw [Cert.ReferenceIdeal.ReadP.val_main_v13_apply, Cert.ReferenceIdeal.ReadP.val_main_v12_apply,
    Cert.ReferenceIdeal.ReadP.val_main_v11_apply, ← dampCol1_meets x0 x7 wc hD r]
  simp only [Ideal.addf_def]
  have hbias : x9 (Cert.ReferenceIdeal.ReadP.idx_main_v11 (Cert.ReferenceIdeal.ReadP.idx_main_v12 (ix2 r (0 : Fin 1)))) = b (ix2 0 0) := by
    rw [hb]; exact congrArg x9 (funext fun a => by match a with | ⟨0, _⟩ => rfl)
  rw [hbias]
  rfl

end Cert.KernelIdeal.Val

end
-- ==== Proof.HostReading.lean ====
import proofs.«167143_j12463995093672_1_alg».proof.Proof.WholeRun
import proofs.«167143_j12463995093672_1_alg».proof.Proof.ArgsKept
import Idealize.ShloMosaic.Lib.StableHlo.Run
import Idealize.ShloMosaic.PureOps.Ideal

noncomputable section

namespace Cert.KernelIdeal.Val

open Cert.KernelIdeal Cert.KernelIdeal.Gen Cert.KernelIdeal.Frm
open Idealize.ShloMosaic Idealize.ShloMosaic.TcCoe Idealize.SL.Sem Idealize.ShloMosaic.StableHlo

/-! # Reading a buffer after a stretch of host operations

What a buffer holds after a stretch of host operations is the stretch's operations composed, applied to what the buffers
they read held before the stretch. Two small steps for reading it, and the fact that the edge lists reach each layer's
host operations as launched. -/

/-- Finishes reading a buffer after a stretch: each operation's result is the operation applied to what its operands held, and
    a buffer an operation does not write keeps what it held. -/
macro "after_results_rest" : tactic =>
  `(tactic| repeat (first
      | rw [nullary_result] | rw [unary_result] | rw [binary_result] | rw [ternary_result] | rw [quaternary_result]
      | (rw [nullary_result_ne]; rotate_left; decide)
      | (rw [unary_result_ne]; rotate_left; decide)
      | (rw [binary_result_ne]; rotate_left; decide)
      | (rw [ternary_result_ne]; rotate_left; decide)
      | (rw [quaternary_result_ne]; rotate_left; decide)))

/-- A typed reference whose carried type is the buffer's own type moves contents to the buffer by the identity … -/
theorem toBuf_self {Val : EltTy → Type} (r : Ref sig .tc) (p : r.ty = r.ty) (q : r.space ≠ .host) (h3 : r.isScoped = false) (v : r.ty.Contents Val) :
    (⟨r, p, q, h3⟩ : TRef sig r.ty).toBuf v = v := rfl
/-- … and back. -/
theorem ofBuf_self {Val : EltTy → Type} (r : Ref sig .tc) (p : r.ty = r.ty) (q : r.space ≠ .host) (h3 : r.isScoped = false) (v : r.ty.Contents Val) :
    (⟨r, p, q, h3⟩ : TRef sig r.ty).ofBuf v = v := rfl

variable (m : (ℓ : Loc nD τ sig) → Buf (Elt Ideal) ℓ) (ρ : Dev nD → PrngReg) (c : Dev nD)

/-- A buffer that no host operation before the first call writes, and that is no window of the first call, is as launched
    after that call. -/
theorem W2_arg (r : Ref sig .tc) (h0 : r ∉ hostOps0_W) (h1 : ∀ w, Pipeline.arrRef spec0 w ≠ r) :
    W2 m ρ c (Proc.devRef .tc r) = m ((c : Thread nD τ).loc r) :=
  (W2_of_ne m ρ c r h1).trans ((W1_of m ρ c r h0).trans rfl)

/-- No host stretch up to the second projection writes `r`, and `r` is no window of the first three calls. -/
def KeptToSecondLayer (r : Ref sig .tc) : Prop :=
  r ∉ hostOps0_W ∧ (∀ w, Pipeline.arrRef spec0 w ≠ r) ∧ r ∉ hostOps1_W ∧ r ∉ hostOps1_1_W ∧ r ∉ hostOps1_2_W ∧ r ∉ hostOps1_3_W
    ∧ r ∉ hostOps1_4_W ∧ r ∉ hostOps1_5_W ∧ r ∉ hostOps1_6_W ∧ r ∉ hostOps1_7_W ∧ r ∉ hostOps1_8_W
    ∧ (∀ w, Pipeline.arrRef spec1 w ≠ r) ∧ r ∉ hostOps2_W ∧ (∀ w, Pipeline.arrRef spec2 w ≠ r)

instance (r : Ref sig .tc) : Decidable (KeptToSecondLayer r) := by unfold KeptToSecondLayer; infer_instance

/-- Such a buffer is as launched after the second projection. -/
theorem W14_arg (r : Ref sig .tc) (h : KeptToSecondLayer r) : W14 m ρ c (Proc.devRef .tc r) = m ((c : Thread nD τ).loc r) := by
  obtain ⟨h0, h1, h2, h3, h4, h5, h6, h7, h8, h9, h10, h11, h12, h13⟩ := h
  exact (W14_of_ne m ρ c r h13).trans <|
    (W13_of m ρ c r h12).trans <|
    (W12_of_ne m ρ c r h11).trans <|
    (W11_of m ρ c r h10).trans <|
    (W10_of m ρ c r h9).trans <|
    (W9_of m ρ c r h8).trans <|
    (W8_of m ρ c r h7).trans <|
    (W7_of m ρ c r h6).trans <|
    (W6_of m ρ c r h5).trans <|
    (W5_of m ρ c r h4).trans <|
    (W4_of m ρ c r h3).trans <|
    (W3_of m ρ c r h2).trans <|
    (W2_arg m ρ c r h0 h1)

end Cert.KernelIdeal.Val

end
-- ==== Proof.AggFirstMeets.lean ====
import proofs.«167143_j12463995093672_1_alg».proof.Proof.HostReading
import proofs.«167143_j12463995093672_1_alg».proof.Proof.RefRead

noncomputable section

namespace Cert.KernelIdeal.Val

open Cert.KernelIdeal Cert.KernelIdeal.Gen Cert.KernelIdeal.Frm
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! # The first layer's two aggregates are the reference's

Between the first projection and the first mix the program aggregates the projected features `X` twice on the host, once
along the edge list with one self-loop per node appended, once along the neighbour list. An aggregate gathers, for every
pair of a list, the row of `X` at the pair's first node, scales it by that node's count in the list of first nodes
raised to the power −1/2 (a count of zero is read as one), adds the scaled rows up at the pair's second node, and scales
the sum at a node by that node's count in the list of second nodes raised to the power −1/2. The reference applies the same
operations in the same order to the same lists and to its own projected features: once the two projections agree the
aggregates agree, operation by operation. -/

set_option maxHeartbeats 4000000 in
/-- The aggregate along the edge list. -/
theorem aggFirst_meets
    (hX : W2 m ρ c (Proc.devRef .tc main_v3_0) = Cert.ReferenceIdeal.ReadP.val_main_v14 (F := Ideal) (m ((c.tc : Thread nD τ).loc main_arg0)) (m ((c.tc : Thread nD τ).loc main_arg1))) :
    W11 m ρ c (Proc.devRef .tc main_v46) = Cert.ReferenceIdeal.ReadP.val_main_v57 (F := Ideal) (m ((c.tc : Thread nD τ).loc main_arg0)) (m ((c.tc : Thread nD τ).loc main_arg1)) (m ((c.tc : Thread nD τ).loc main_arg11)) (m ((c.tc : Thread nD τ).loc main_arg12)) := by
  rw [W11_of m ρ c main_v46 (by decide), W10_of m ρ c main_v46 (by decide), W9_of m ρ c main_v46 (by decide),
    W8_of m ρ c main_v46 (by decide)]
  have h11 := W2_arg m ρ c main_arg11 (by decide) (by decide)
  have h12 := W2_arg m ρ c main_arg12 (by decide) (by decide)
  show StableHlo.after hostOps1_4 (StableHlo.after hostOps1_3 (StableHlo.after hostOps1_2 (StableHlo.after hostOps1_1 (StableHlo.after hostOps1 (W2 m ρ c))))) (Proc.devRef .tc main_v46) = _
  generalize W2 m ρ c = V at hX h11 h12 ⊢
  after_results_simp
  after_results_rest
  repeat (first | rw [toBuf_self] | rw [ofBuf_self])
  rw [hX, h11, h12]
  rfl

set_option maxHeartbeats 8000000 in
/-- The aggregate along the neighbour list. -/
theorem aggKnnFirst_meets
    (hX : W2 m ρ c (Proc.devRef .tc main_v3_0) = Cert.ReferenceIdeal.ReadP.val_main_v14 (F := Ideal) (m ((c.tc : Thread nD τ).loc main_arg0)) (m ((c.tc : Thread nD τ).loc main_arg1))) :
    W11 m ρ c (Proc.devRef .tc main_v86) = Cert.ReferenceIdeal.ReadP.val_main_v97 (F := Ideal) (m ((c.tc : Thread nD τ).loc main_arg0)) (m ((c.tc : Thread nD τ).loc main_arg1)) (m ((c.tc : Thread nD τ).loc main_arg13)) (m ((c.tc : Thread nD τ).loc main_arg14)) := by
  have h13 := W2_arg m ρ c main_arg13 (by decide) (by decide)
  have h14 := W2_arg m ρ c main_arg14 (by decide) (by decide)
  show StableHlo.after hostOps1_8 (StableHlo.after hostOps1_7 (StableHlo.after hostOps1_6 (StableHlo.after hostOps1_5 (StableHlo.after hostOps1_4 (StableHlo.after hostOps1_3 (StableHlo.after hostOps1_2 (StableHlo.after hostOps1_1 (StableHlo.after hostOps1 (W2 m ρ c))))))))) (Proc.devRef .tc main_v86) = _
  generalize W2 m ρ c = V at hX h13 h14 ⊢
  after_results_simp
  after_results_rest
  repeat (first | rw [toBuf_self] | rw [ofBuf_self])
  rw [hX, h13, h14]
  rfl

end Cert.KernelIdeal.Val

end
-- ==== Proof.MixMeets.lean ====
import proofs.«167143_j12463995093672_1_alg».proof.Proof.RefRead
import proofs.«167143_j12463995093672_1_alg».proof.Proof.GatedMix
import Idealize.ShloMosaic.Lib.ValueIdx

noncomputable section

/-! # The reference's gated mix is the kernel's

The reference spreads the gate column, one minus the gate column and a tenth of the damping column along each
row, multiplies them with the two aggregates and the projection, and adds the three products — the two
aggregate terms first. Read at an entry this is the gated mix of the five arrays, with the same grouping and
the same two constants (the words of `1.0` and of `0.1`, never evaluated). -/

namespace Cert.KernelIdeal.Val

open Idealize.ShloMosaic Idealize.ShloMosaic.ValueIdx
open Cert.ReferenceIdeal.ReadP

/-- First layer: 64 columns. -/
theorem mixFirst_meets (x0 : (⟨Cert.ReferenceIdeal.S100000x512, .f32⟩ : BufTy).Contents (Elt Ideal)) (x1 : (⟨Cert.ReferenceIdeal.S512x64, .f32⟩ : BufTy).Contents (Elt Ideal)) (x3 : (⟨Cert.ReferenceIdeal.S512x1, .f32⟩ : BufTy).Contents (Elt Ideal)) (x5 : (⟨Cert.ReferenceIdeal.S1, .f32⟩ : BufTy).Contents (Elt Ideal))
    (x7 : (⟨Cert.ReferenceIdeal.S512x1, .f32⟩ : BufTy).Contents (Elt Ideal)) (x9 : (⟨Cert.ReferenceIdeal.S1, .f32⟩ : BufTy).Contents (Elt Ideal)) (x11 x12 : (⟨Cert.ReferenceIdeal.S1600000, .i32⟩ : BufTy).Contents (Elt Ideal)) (x13 x14 : (⟨Cert.ReferenceIdeal.S1000000, .i32⟩ : BufTy).Contents (Elt Ideal)) :
    gatedMix (n := 100000) (h := 64) (val_main_v9 (F := Ideal) x0 x3 x5) (val_main_v57 (F := Ideal) x0 x1 x11 x12)
      (val_main_v97 (F := Ideal) x0 x1 x13 x14) (val_main_v13 (F := Ideal) x0 x7 x9) (val_main_v14 (F := Ideal) x0 x1)
    = val_main_v109 (F := Ideal) x0 x1 x3 x5 x7 x9 x11 x12 x13 x14 := by
  funext i
  obtain ⟨r, q, rfl⟩ : ∃ (r : Fin 100000) (q : Fin 64), i = ix2 r q := ⟨i 0, i 1, eq_ix2 i⟩
  have e98 : idx_main_v98 (ix2 r q) = ix2 r (0 : Fin 1) :=
    funext fun a => Fin.ext (by match a with | ⟨0, _⟩ => rfl | ⟨1, _⟩ => rfl)
  have e102 : idx_main_v102 (ix2 r q) = ix2 r (0 : Fin 1) :=
    funext fun a => Fin.ext (by match a with | ⟨0, _⟩ => rfl | ⟨1, _⟩ => rfl)
  have e107 : idx_main_v107 (ix2 r q) = ix2 r (0 : Fin 1) :=
    funext fun a => Fin.ext (by match a with | ⟨0, _⟩ => rfl | ⟨1, _⟩ => rfl)
  rw [gatedMix_apply, val_main_v109_apply, val_main_v104_apply, val_main_v99_apply, val_main_v98_apply, val_main_v103_apply,
    val_main_v102_apply, val_main_v101_apply, val_main_v100_apply, val_main_cst_28_apply, val_main_v108_apply,
    val_main_v107_apply, val_main_v106_apply, val_main_v105_apply, val_main_cst_29_apply, e98, e102, e107]
  rfl

/-- Second layer: 10 columns. -/
theorem mixSecond_meets (x0 : (⟨Cert.ReferenceIdeal.S100000x512, .f32⟩ : BufTy).Contents (Elt Ideal)) (x1 : (⟨Cert.ReferenceIdeal.S512x64, .f32⟩ : BufTy).Contents (Elt Ideal)) (x2 : (⟨Cert.ReferenceIdeal.S64x10, .f32⟩ : BufTy).Contents (Elt Ideal)) (x3 : (⟨Cert.ReferenceIdeal.S512x1, .f32⟩ : BufTy).Contents (Elt Ideal))
    (x4 : (⟨Cert.ReferenceIdeal.S64x1, .f32⟩ : BufTy).Contents (Elt Ideal)) (x5 x6 : (⟨Cert.ReferenceIdeal.S1, .f32⟩ : BufTy).Contents (Elt Ideal)) (x7 : (⟨Cert.ReferenceIdeal.S512x1, .f32⟩ : BufTy).Contents (Elt Ideal)) (x8 : (⟨Cert.ReferenceIdeal.S64x1, .f32⟩ : BufTy).Contents (Elt Ideal)) (x9 x10 : (⟨Cert.ReferenceIdeal.S1, .f32⟩ : BufTy).Contents (Elt Ideal))
    (x11 x12 : (⟨Cert.ReferenceIdeal.S1600000, .i32⟩ : BufTy).Contents (Elt Ideal)) (x13 x14 : (⟨Cert.ReferenceIdeal.S1000000, .i32⟩ : BufTy).Contents (Elt Ideal)) :
    gatedMix (n := 100000) (h := 10) (val_main_v119 (F := Ideal) x0 x1 x3 x4 x5 x6 x7 x9 x11 x12 x13 x14)
      (val_main_v167 (F := Ideal) x0 x1 x2 x3 x5 x7 x9 x11 x12 x13 x14) (val_main_v207 (F := Ideal) x0 x1 x2 x3 x5 x7 x9 x11 x12 x13 x14)
      (val_main_v123 (F := Ideal) x0 x1 x3 x5 x7 x8 x9 x10 x11 x12 x13 x14) (val_main_v124 (F := Ideal) x0 x1 x2 x3 x5 x7 x9 x11 x12 x13 x14)
    = val_main_v219 (F := Ideal) x0 x1 x2 x3 x4 x5 x6 x7 x8 x9 x10 x11 x12 x13 x14 := by
  funext i
  obtain ⟨r, q, rfl⟩ : ∃ (r : Fin 100000) (q : Fin 10), i = ix2 r q := ⟨i 0, i 1, eq_ix2 i⟩
  have e208 : idx_main_v208 (ix2 r q) = ix2 r (0 : Fin 1) :=
    funext fun a => Fin.ext (by match a with | ⟨0, _⟩ => rfl | ⟨1, _⟩ => rfl)
  have e212 : idx_main_v212 (ix2 r q) = ix2 r (0 : Fin 1) :=
    funext fun a => Fin.ext (by match a with | ⟨0, _⟩ => rfl | ⟨1, _⟩ => rfl)
  have e217 : idx_main_v217 (ix2 r q) = ix2 r (0 : Fin 1) :=
    funext fun a => Fin.ext (by match a with | ⟨0, _⟩ => rfl | ⟨1, _⟩ => rfl)
  rw [gatedMix_apply, val_main_v219_apply, val_main_v214_apply, val_main_v209_apply, val_main_v208_apply, val_main_v213_apply,
    val_main_v212_apply, val_main_v211_apply, val_main_v210_apply, val_main_cst_60_apply, val_main_v218_apply,
    val_main_v217_apply, val_main_v216_apply, val_main_v215_apply, val_main_cst_61_apply, e208, e212, e217]
  rfl

end Cert.KernelIdeal.Val

end
-- ==== Proof.FirstLayer.lean ====
import proofs.«167143_j12463995093672_1_alg».proof.Proof.ArgsAlong
import proofs.«167143_j12463995093672_1_alg».proof.Proof.ProjFirstArrays
import proofs.«167143_j12463995093672_1_alg».proof.Proof.MixFirstArray
import proofs.«167143_j12463995093672_1_alg».proof.Proof.JoinedWeights
import proofs.«167143_j12463995093672_1_alg».proof.Proof.ProjFirstMeets
import proofs.«167143_j12463995093672_1_alg».proof.Proof.AggFirstMeets
import proofs.«167143_j12463995093672_1_alg».proof.Proof.MixMeets
import Idealize.ShloMosaic.PureOps.Ideal
import Idealize.ShloMosaic.Lib.StableHlo.Run

noncomputable section

/-! # The first layer of the kernel program computes the reference's first layer

The first call's three results are the projection of the node features by the joined weight matrix; the joined
matrix's columns are the weights, the score column and the damping column, so the three results are the
reference's three products (the gate through the logistic function, which the reference spells as
`1 / (1 + exp (−x))`). The two aggregations apply the reference's host operations to equal operands. The second
call mixes them as the reference does. Every equation is between whole arrays, as functions of @main's arguments. -/

namespace Cert.KernelIdeal.Val

open Cert.KernelIdeal Cert.KernelIdeal.Gen Cert.KernelIdeal.Frm
open Idealize.ShloMosaic Idealize.ShloMosaic.TcCoe Idealize.SL.Sem Idealize.ShloMosaic.StableHlo
open Cert.ReferenceIdeal.ReadP

variable (m : (ℓ : Loc nD τ sig) → Buf (Elt Ideal) ℓ) (ρ : Dev nD → PrngReg) (c : Dev nD)

/-! ## What the first call is entered with -/

theorem firstIn : inFirst (B1 m ρ) c = (m ((c.tc : Thread nD τ).loc main_arg0)) :=
  (W1_of m ρ c main_arg0 (by decide)).trans rfl

theorem firstWeights : wtFirst (B1 m ρ) c
    = concatenate S512x66 1 [⟨S512x64, (m ((c.tc : Thread nD τ).loc main_arg1))⟩, ⟨S512x1, (m ((c.tc : Thread nD τ).loc main_arg3))⟩, ⟨S512x1, (m ((c.tc : Thread nD τ).loc main_arg7))⟩] concatenates_S512x64_S512x1_S512x1_S512x66_d1 := by
  show StableHlo.after hostOps0 (W0 m ρ c) (Proc.devRef .tc main_v0) = _
  after_results
  rfl

theorem firstGateBias : gateBiasFirst (B1 m ρ) c = shapeCast S1x1 (m ((c.tc : Thread nD τ).loc main_arg5)) shapeCasts_S1_S1x1 := by
  show StableHlo.after hostOps0 (W0 m ρ c) (Proc.devRef .tc main_v1) = _
  after_results
  rfl

theorem firstDampBias : dampBiasFirst (B1 m ρ) c = shapeCast S1x1 (m ((c.tc : Thread nD τ).loc main_arg9)) shapeCasts_S1_S1x1 := by
  show StableHlo.after hostOps0 (W0 m ρ c) (Proc.devRef .tc main_v2) = _
  after_results
  rfl

/-! ## The first call's results -/

/-- The projected features are the reference's product of the features and the weights. -/
theorem featFirst_meets : W2 m ρ c (Proc.devRef .tc main_v3_0) = val_main_v14 (F := Ideal) (m ((c.tc : Thread nD τ).loc main_arg0)) (m ((c.tc : Thread nD τ).loc main_arg1)) := by
  refine (W2_arr m ρ c 4).trans ((featFirst_final (B1 m ρ) c).trans ?_)
  rw [firstIn, firstWeights]
  exact feat1_meets _ _ _ (fun k j => joinedFirst_weights _ _ _ k j)

/-- The gate is the reference's. -/
theorem gateFirst_meets : W2 m ρ c (Proc.devRef .tc main_v3_1) = val_main_v9 (F := Ideal) (m ((c.tc : Thread nD τ).loc main_arg0)) (m ((c.tc : Thread nD τ).loc main_arg3)) (m ((c.tc : Thread nD τ).loc main_arg5)) := by
  refine (W2_arr m ρ c 5).trans ((gateFirst_final (B1 m ρ) c).trans ?_)
  rw [firstIn, firstWeights, firstGateBias]
  exact gate1_meets _ _ _ _ _ (fun k => joinedFirst_score _ _ _ k) (reshapedBias_apply _)

/-- The damping column is the reference's. -/
theorem dampFirst_meets : W2 m ρ c (Proc.devRef .tc main_v3_2) = val_main_v13 (F := Ideal) (m ((c.tc : Thread nD τ).loc main_arg0)) (m ((c.tc : Thread nD τ).loc main_arg7)) (m ((c.tc : Thread nD τ).loc main_arg9)) := by
  refine (W2_arr m ρ c 6).trans ((dampFirst_final (B1 m ρ) c).trans ?_)
  rw [firstIn, firstWeights, firstDampBias]
  exact damp1_meets _ _ _ _ _ (fun k => joinedFirst_damp _ _ _ k) (reshapedBias_apply _)

/-! ## Between the calls: nine host stretches that write none of the first call's results -/

theorem keepFirst (r : Ref sig .tc) (h : r ∉ hostOps1_W ∧ r ∉ hostOps1_1_W ∧ r ∉ hostOps1_2_W ∧ r ∉ hostOps1_3_W ∧ r ∉ hostOps1_4_W
      ∧ r ∉ hostOps1_5_W ∧ r ∉ hostOps1_6_W ∧ r ∉ hostOps1_7_W ∧ r ∉ hostOps1_8_W) :
    W11 m ρ c (Proc.devRef .tc r) = W2 m ρ c (Proc.devRef .tc r) := by
  obtain ⟨h2, h3, h4, h5, h6, h7, h8, h9, h10⟩ := h
  exact (W11_of m ρ c r h10).trans <| (W10_of m ρ c r h9).trans <| (W9_of m ρ c r h8).trans <| (W8_of m ρ c r h7).trans <|
    (W7_of m ρ c r h6).trans <| (W6_of m ρ c r h5).trans <| (W5_of m ρ c r h4).trans <| (W4_of m ρ c r h3).trans (W3_of m ρ c r h2)

/-! ## The second call's result: the first layer's output -/

/-- The first layer's output is the reference's. -/
theorem layerFirst_meets : W12 m ρ c (Proc.devRef .tc main_v87)
    = val_main_v109 (F := Ideal) (m ((c.tc : Thread nD τ).loc main_arg0)) (m ((c.tc : Thread nD τ).loc main_arg1)) (m ((c.tc : Thread nD τ).loc main_arg3)) (m ((c.tc : Thread nD τ).loc main_arg5)) (m ((c.tc : Thread nD τ).loc main_arg7)) (m ((c.tc : Thread nD τ).loc main_arg9)) (m ((c.tc : Thread nD τ).loc main_arg11)) (m ((c.tc : Thread nD τ).loc main_arg12)) (m ((c.tc : Thread nD τ).loc main_arg13)) (m ((c.tc : Thread nD τ).loc main_arg14)) := by
  refine (W12_arr m ρ c 5).trans ((mixFirst_array (B11 m ρ) c).trans ?_)
  have hs : B11 m ρ c (Pipeline.arrRef spec1 0) = val_main_v9 (F := Ideal) (m ((c.tc : Thread nD τ).loc main_arg0)) (m ((c.tc : Thread nD τ).loc main_arg3)) (m ((c.tc : Thread nD τ).loc main_arg5)) :=
    (keepFirst m ρ c main_v3_1 (by decide)).trans (gateFirst_meets m ρ c)
  have ha : B11 m ρ c (Pipeline.arrRef spec1 1) = val_main_v57 (F := Ideal) (m ((c.tc : Thread nD τ).loc main_arg0)) (m ((c.tc : Thread nD τ).loc main_arg1)) (m ((c.tc : Thread nD τ).loc main_arg11)) (m ((c.tc : Thread nD τ).loc main_arg12)) :=
    aggFirst_meets m ρ c (featFirst_meets m ρ c)
  have hk : B11 m ρ c (Pipeline.arrRef spec1 2) = val_main_v97 (F := Ideal) (m ((c.tc : Thread nD τ).loc main_arg0)) (m ((c.tc : Thread nD τ).loc main_arg1)) (m ((c.tc : Thread nD τ).loc main_arg13)) (m ((c.tc : Thread nD τ).loc main_arg14)) :=
    aggKnnFirst_meets m ρ c (featFirst_meets m ρ c)
  have hd : B11 m ρ c (Pipeline.arrRef spec1 3) = val_main_v13 (F := Ideal) (m ((c.tc : Thread nD τ).loc main_arg0)) (m ((c.tc : Thread nD τ).loc main_arg7)) (m ((c.tc : Thread nD τ).loc main_arg9)) :=
    (keepFirst m ρ c main_v3_2 (by decide)).trans (dampFirst_meets m ρ c)
  have hx : B11 m ρ c (Pipeline.arrRef spec1 4) = val_main_v14 (F := Ideal) (m ((c.tc : Thread nD τ).loc main_arg0)) (m ((c.tc : Thread nD τ).loc main_arg1)) :=
    (keepFirst m ρ c main_v3_0 (by decide)).trans (featFirst_meets m ρ c)
  show gatedMix (n := 100000) (h := 64) (B11 m ρ c (Pipeline.arrRef spec1 0)) (B11 m ρ c (Pipeline.arrRef spec1 1))
    (B11 m ρ c (Pipeline.arrRef spec1 2)) (B11 m ρ c (Pipeline.arrRef spec1 3)) (B11 m ρ c (Pipeline.arrRef spec1 4)) = _
  rw [hs, ha, hk, hd, hx]
  exact mixFirst_meets _ _ _ _ _ _ _ _ _ _

end Cert.KernelIdeal.Val

end
-- ==== Proof.ProjSecondEntry.lean ====
import proofs.«167143_j12463995093672_1_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

/-! # The second projection's block results, entry by entry

At one grid point the body holds a block of 4000 rows of the first layer's output (64 features each) and the
whole joined weight matrix (64 rows, 12 columns). Over the extended reals the change of format before the
multiplication is the identity and the accumulator starts at zero, so entry `(p, c)` of the block product is
the plain sum over the 64 features of row `p` of the block times column `c` of the matrix. The three stored
results read that product: columns 0 … 9 as they are; column 10 plus the gate's bias, through the logistic;
column 11 plus the damping bias. -/

namespace Cert.KernelIdeal.Val

open Cert.KernelIdeal Cert.KernelIdeal.Gen
open Idealize.ShloMosaic Idealize.ShloMosaic.ValueIdx

/-- The left operand's index at output `i` and contraction index `q`: the row is the output's row. -/
theorem dotSecond_lhs_row (i : S4000x12.Idx) (q : dot_S4000x64_S64x12_S4000x12_1_0_0_1_n_n.contr.Idx) :
    (dot_S4000x64_S64x12_S4000x12_1_0_0_1_n_n.lhsIdx i q 0).val = (i 0).val := by
  unfold DotDims.lhsIdx
  rw [dif_neg (show ¬(0 : Fin S4000x64.rank) ∈ dot_S4000x64_S64x12_S4000x12_1_0_0_1_n_n.lhsBatch by decide),
    dif_pos (show (0 : Fin S4000x64.rank) ∈ dot_S4000x64_S64x12_S4000x12_1_0_0_1_n_n.lhsNonContracting by decide)]
  rfl
/-- … and its column is the contraction coordinate. -/
theorem dotSecond_lhs_col (i : S4000x12.Idx) (q : dot_S4000x64_S64x12_S4000x12_1_0_0_1_n_n.contr.Idx) :
    (dot_S4000x64_S64x12_S4000x12_1_0_0_1_n_n.lhsIdx i q 1).val = (q ⟨0, by decide⟩).val :=
  dot_S4000x64_S64x12_S4000x12_1_0_0_1_n_n.lhsIdx_val_of_single rfl i q
/-- The right operand's row is the contraction coordinate … -/
theorem dotSecond_rhs_row (i : S4000x12.Idx) (q : dot_S4000x64_S64x12_S4000x12_1_0_0_1_n_n.contr.Idx) :
    (dot_S4000x64_S64x12_S4000x12_1_0_0_1_n_n.rhsIdx i q 0).val = (q ⟨0, by decide⟩).val :=
  dot_S4000x64_S64x12_S4000x12_1_0_0_1_n_n.rhsIdx_val_of_single rfl i q
/-- … and its column is the output's column. -/
theorem dotSecond_rhs_col (i : S4000x12.Idx) (q : dot_S4000x64_S64x12_S4000x12_1_0_0_1_n_n.contr.Idx) :
    (dot_S4000x64_S64x12_S4000x12_1_0_0_1_n_n.rhsIdx i q 1).val = (i 1).val := by
  unfold DotDims.rhsIdx
  rw [dif_neg (show ¬(1 : Fin S64x12.rank) ∈ dot_S4000x64_S64x12_S4000x12_1_0_0_1_n_n.rhsBatch by decide),
    dif_pos (show (1 : Fin S64x12.rank) ∈ dot_S4000x64_S64x12_S4000x12_1_0_0_1_n_n.rhsNonContracting by decide)]
  rfl

/-- The block product at entry `(p, c)`: the sum over the 64 features. -/
theorem blockProductSecond_apply (x0 : Vec Ideal S4000x64 .f32) (x1 : Vec Ideal S64x12 .f32) (p : Fin 4000) (c : Fin 12) :
    k2_pay1 (F := Ideal) x0 x1 (ix2 p c) = ∑ k : Fin 64, x0 (ix2 p k) * x1 (ix2 k c) := by
  unfold k2_pay1
  rw [shapeCast_self, shapeCast_self]
  refine (Ideal.matmul_constant_zero_apply dot_S4000x64_S64x12_S4000x12_1_0_0_1_n_n none _ _ (ix2 p c)).trans ?_
  rw [← Equiv.sum_comp (contrEquiv1 dot_S4000x64_S64x12_S4000x12_1_0_0_1_n_n 64 rfl rfl).symm]
  refine Finset.sum_congr rfl fun k _ => ?_
  have hk := contrEquiv1_symm_val dot_S4000x64_S64x12_S4000x12_1_0_0_1_n_n 64 rfl rfl k
  have el : dot_S4000x64_S64x12_S4000x12_1_0_0_1_n_n.lhsIdx (ix2 p c) ((contrEquiv1 dot_S4000x64_S64x12_S4000x12_1_0_0_1_n_n 64 rfl rfl).symm k) = ix2 p k :=
    funext fun a => Fin.ext (by
      match a with
      | ⟨0, _⟩ => exact dotSecond_lhs_row _ _
      | ⟨1, _⟩ => exact (dotSecond_lhs_col _ _).trans hk)
  have er : dot_S4000x64_S64x12_S4000x12_1_0_0_1_n_n.rhsIdx (ix2 p c) ((contrEquiv1 dot_S4000x64_S64x12_S4000x12_1_0_0_1_n_n 64 rfl rfl).symm k) = ix2 k c :=
    funext fun a => Fin.ext (by
      match a with
      | ⟨0, _⟩ => exact (dotSecond_rhs_row _ _).trans hk
      | ⟨1, _⟩ => exact dotSecond_rhs_col _ _)
  rw [el, er]
  rfl

/-! ## The three slices of the block product, over any product `y`

Each stored result reads one column range of the product: a fact about any array of 4000 rows and 12 columns. -/

/-- Column `q` of the leading 10 columns is column `q` of the product. -/
theorem leadingColsSecond_apply (y : FVec Ideal S4000x12 .f32) (p : Fin 4000) (q : Fin 10) :
    extractStridedSlice S4000x10 ![0, 0] y slices_S4000x12_o0_0_S4000x10 (ix2 p q)
      = y (ix2 p (⟨q.val, Nat.lt_of_lt_of_le q.isLt (by decide)⟩ : Fin 12)) := by
  refine extractStridedSlice_apply ![0, 0] y slices_S4000x12_o0_0_S4000x10 (ix2 p q) (ix2 p (⟨q.val, Nat.lt_of_lt_of_le q.isLt (by decide)⟩ : Fin 12)) (fun a => ?_)
  match a with
  | ⟨0, _⟩ => show p.val = 0 + p.val; omega
  | ⟨1, _⟩ => show q.val = 0 + q.val; omega

/-- The one-column slice at offset 10 is column 10 of the product. -/
theorem scoreColSecond_apply (y : FVec Ideal S4000x12 .f32) (p : Fin 4000) (z : Fin 1) :
    extractStridedSlice S4000x1 ![0, 10] y slices_S4000x12_o0_10_S4000x1 (ix2 p z) = y (ix2 p (10 : Fin 12)) := by
  refine extractStridedSlice_apply ![0, 10] y slices_S4000x12_o0_10_S4000x1 (ix2 p z) (ix2 p (10 : Fin 12)) (fun a => ?_)
  match a with
  | ⟨0, _⟩ => show p.val = 0 + p.val; omega
  | ⟨1, _⟩ => show 10 = 10 + z.val; omega

/-- The one-column slice at offset 11 is column 11 of the product. -/
theorem dampColSecond_apply (y : FVec Ideal S4000x12 .f32) (p : Fin 4000) (z : Fin 1) :
    extractStridedSlice S4000x1 ![0, 11] y slices_S4000x12_o0_11_S4000x1 (ix2 p z) = y (ix2 p (11 : Fin 12)) := by
  refine extractStridedSlice_apply ![0, 11] y slices_S4000x12_o0_11_S4000x1 (ix2 p z) (ix2 p (11 : Fin 12)) (fun a => ?_)
  match a with
  | ⟨0, _⟩ => show p.val = 0 + p.val; omega
  | ⟨1, _⟩ => show 11 = 11 + z.val; omega

/-- The one element of a `1 × 1` vector, extracted at position (0, 0). -/
private theorem oneByOne_extract (b : Vec Ideal S1x1 .f32) : extractAt ![0, 0] b inpos_S1x1_p0_0 = b (ix2 0 0) :=
  congrArg b (funext fun a => by match a with | ⟨0, _⟩ => rfl | ⟨1, _⟩ => rfl)

/-- The logistic of a vector, read at an index, is the logistic of the entry. -/
private theorem logistic_at {s : Shape} {φ : FTy} (x : FVec Ideal s φ) (i : s.Idx) : logistic x i = Ideal.logistic (x i) := rfl

/-! ## The three stored results -/

/-- The stored features: entry `(p, q)` of the block product, `q` among the leading 10 columns. -/
theorem blockFeatSecond_apply (x0 : Vec Ideal S4000x64 .f32) (x1 : Vec Ideal S64x12 .f32) (p : Fin 4000) (q : Fin 10) :
    k2_pay2 (F := Ideal) x0 x1 (ix2 p q) = ∑ k : Fin 64, x0 (ix2 p k) * x1 (ix2 k (⟨q.val, Nat.lt_of_lt_of_le q.isLt (by decide)⟩ : Fin 12)) := by
  unfold k2_pay2
  have hy : ∀ c : Fin 12, k2_pay1 (F := Ideal) x0 x1 (ix2 p c) = ∑ k : Fin 64, x0 (ix2 p k) * x1 (ix2 k c) :=
    blockProductSecond_apply x0 x1 p
  generalize k2_pay1 (F := Ideal) x0 x1 = y at hy ⊢
  exact (leadingColsSecond_apply y p q).trans (hy _)

/-- The stored gate: the logistic of column 10 of the block product plus the one-element bias. -/
theorem blockGateSecond_apply (x0 : Vec Ideal S4000x64 .f32) (x1 : Vec Ideal S64x12 .f32) (x2 : Vec Ideal S1x1 .f32) (p : Fin 4000) (z : Fin 1) :
    k2_pay4 (F := Ideal) x0 x1 x2 (ix2 p z) = Ideal.logistic ((∑ k : Fin 64, x0 (ix2 p k) * x1 (ix2 k (10 : Fin 12))) + x2 (ix2 0 0)) := by
  unfold k2_pay4
  have hy : ∀ c : Fin 12, k2_pay1 (F := Ideal) x0 x1 (ix2 p c) = ∑ k : Fin 64, x0 (ix2 p k) * x1 (ix2 k c) :=
    blockProductSecond_apply x0 x1 p
  generalize k2_pay1 (F := Ideal) x0 x1 = y at hy ⊢
  refine (logistic_at _ (ix2 p z)).trans (congrArg Ideal.logistic ?_)
  refine (addf_apply _ _ (ix2 p z)).trans ?_
  rw [scoreColSecond_apply y p z, hy, broadcast_apply, oneByOne_extract]

/-- The stored damping: column 11 of the block product plus the one-element bias. -/
theorem blockDampSecond_apply (x0 : Vec Ideal S4000x64 .f32) (x1 : Vec Ideal S64x12 .f32) (x3 : Vec Ideal S1x1 .f32) (p : Fin 4000) (z : Fin 1) :
    k2_pay3 (F := Ideal) x0 x1 x3 (ix2 p z) = (∑ k : Fin 64, x0 (ix2 p k) * x1 (ix2 k (11 : Fin 12))) + x3 (ix2 0 0) := by
  unfold k2_pay3
  have hy : ∀ c : Fin 12, k2_pay1 (F := Ideal) x0 x1 (ix2 p c) = ∑ k : Fin 64, x0 (ix2 p k) * x1 (ix2 k c) :=
    blockProductSecond_apply x0 x1 p
  generalize k2_pay1 (F := Ideal) x0 x1 = y at hy ⊢
  refine (addf_apply _ _ (ix2 p z)).trans ?_
  rw [dampColSecond_apply y p z, hy, broadcast_apply, oneByOne_extract]

end Cert.KernelIdeal.Val

end
-- ==== Proof.ProjSecondArrays.lean ====
import proofs.«167143_j12463995093672_1_alg».proof.Proof.ProjSecond
import proofs.«167143_j12463995093672_1_alg».proof.Proof.ProjSecondEntry
import proofs.«167143_j12463995093672_1_alg».proof.Proof.RowsTimesCols
import Idealize.ShloMosaic.Lib.Pipeline.Value

noncomputable section

open scoped BigOperators

/-! # The second projection's three result arrays, as whole-array functions of the four arrays it reads

The call walks the 100000 rows in 25 blocks of 4000. At point `t` the input window holds rows
`4000 t … 4000 t + 3999` of the first layer's output array, the weight window the whole joined matrix and the two bias windows
their one element, and each output window's block is written back to the same rows of its array. A row of a
result depends only on the same row of the input, so what point `t` writes back is block `t` of ONE function of
the arrays; the blocks tile the rows (row `r` lies in block `r / 4000`), so each result array ends holding that
function everywhere. -/

namespace Cert.KernelIdeal.Val

open Cert.KernelIdeal Cert.KernelIdeal.Gen Cert.KernelIdeal.Frm
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The input rows, as the call finds them. -/
abbrev inSecond (c : Dev nD) : S100000x64.Idx → EReal := V c main_v87
/-- The joined weight matrix, as the call finds it. -/
abbrev wtSecond (c : Dev nD) : S64x12.Idx → EReal := V c main_v88
/-- The gate's one-element bias, as the call finds it. -/
abbrev gateBiasSecond (c : Dev nD) : S1x1.Idx → EReal := V c main_v89
/-- The damping's one-element bias, as the call finds it. -/
abbrev dampBiasSecond (c : Dev nD) : S1x1.Idx → EReal := V c main_v90

theorem offsetsZeroSecond : (![0, 0] : Fin 2 → Nat) = fun _ => 0 := funext fun a => by fin_cases a <;> rfl

/-! ## What the body leaves in each output buffer is the payload of the loaded blocks -/

theorem xOut2_eq (x0 : Vec Ideal S4000x64 .f32) (x1 : Vec Ideal S64x12 .f32) : xOut2 (F := Ideal) x0 x1 = k2_pay2 x0 x1 := by
  unfold xOut2
  rw [View.canon_unit_zero offsetsZeroSecond]
  simp only [View.ld_unit_zero (S := S4000x64) offsetsZeroSecond, View.ld_unit_zero (S := S64x12) offsetsZeroSecond]

theorem sOut2_eq (x0 : Vec Ideal S4000x64 .f32) (x1 : Vec Ideal S64x12 .f32) (x2 : Vec Ideal S1x1 .f32) :
    sOut2 (F := Ideal) x0 x1 x2 = k2_pay4 x0 x1 x2 := by
  unfold sOut2
  rw [View.canon_unit_zero offsetsZeroSecond]
  simp only [View.ld_unit_zero (S := S4000x64) offsetsZeroSecond, View.ld_unit_zero (S := S64x12) offsetsZeroSecond,
    View.ld_unit_zero (S := S1x1) offsetsZeroSecond]

theorem dOut2_eq (x0 : Vec Ideal S4000x64 .f32) (x1 : Vec Ideal S64x12 .f32) (x3 : Vec Ideal S1x1 .f32) :
    dOut2 (F := Ideal) x0 x1 x3 = k2_pay3 x0 x1 x3 := by
  unfold dOut2
  rw [View.canon_unit_zero offsetsZeroSecond]
  simp only [View.ld_unit_zero (S := S4000x64) offsetsZeroSecond, View.ld_unit_zero (S := S64x12) offsetsZeroSecond,
    View.ld_unit_zero (S := S1x1) offsetsZeroSecond]

/-! ## The block index of every window at every point, decided over the 25 points -/

theorem blockIndexSecond : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ win2_5.index t (0 : Fin 2) = t.val ∧ win2_5.index t (1 : Fin 2) = 0
    ∧ win2_6.index t (0 : Fin 2) = t.val ∧ win2_6.index t (1 : Fin 2) = 0 :=
  (by decide +kernel : ∀ t : Fin grid2.N, _)

/-! ## The input blocks at a point, read off the arrays -/

/-- Row `p` of point `t`'s input block is row `4000 t + p` of the input array. -/
theorem inBlockSecond_apply (c : Dev nD) (t : Fin cfg2.N) (p : Fin 4000) (k : Fin 64) (r : Fin 100000)
    (hr : r.val = t.val * 4000 + p.val) :
    (blk2 V c 0 t : Vec Ideal S4000x64 .f32) (ix2 p k) = inSecond V c (ix2 r k) := by
  obtain ⟨e0, e1, -⟩ := blockIndexSecond t
  show V c main_v87 (((cfg2.win 0).blk t).view.emb (ix2 p k)) = V c main_v87 (ix2 r k)
  refine congrArg (V c main_v87) (funext fun a => Fin.ext ?_)
  match a with
  | ⟨0, _⟩ => show win2_0.index t (0 : Fin 2) * 4000 + 1 * p.val = r.val; omega
  | ⟨1, _⟩ => show win2_0.index t (1 : Fin 2) * 64 + 1 * k.val = k.val; omega

/-- The weight window's block is the whole matrix at every point. -/
theorem wtBlockSecond_apply (c : Dev nD) (t : Fin cfg2.N) (k : Fin 64) (q : Fin 12) :
    (blk2 V c 1 t : Vec Ideal S64x12 .f32) (ix2 k q) = wtSecond V c (ix2 k q) := by
  obtain ⟨-, -, e0, e1, -⟩ := blockIndexSecond t
  show V c main_v88 (((cfg2.win 1).blk t).view.emb (ix2 k q)) = V c main_v88 (ix2 k q)
  refine congrArg (V c main_v88) (funext fun a => Fin.ext ?_)
  match a with
  | ⟨0, _⟩ => show win2_1.index t (0 : Fin 2) * 64 + 1 * k.val = k.val; omega
  | ⟨1, _⟩ => show win2_1.index t (1 : Fin 2) * 12 + 1 * q.val = q.val; omega

/-- The gate bias window's block is its one element at every point. -/
theorem gateBiasBlockSecond_apply (c : Dev nD) (t : Fin cfg2.N) :
    (blk2 V c 2 t : Vec Ideal S1x1 .f32) (ix2 0 0) = gateBiasSecond V c (ix2 0 0) := by
  obtain ⟨-, -, -, -, e0, e1, -⟩ := blockIndexSecond t
  show V c main_v89 (((cfg2.win 2).blk t).view.emb (ix2 0 0)) = V c main_v89 (ix2 0 0)
  refine congrArg (V c main_v89) (funext fun a => Fin.ext ?_)
  match a with
  | ⟨0, _⟩ => show win2_2.index t (0 : Fin 2) * 1 + 1 * 0 = 0; omega
  | ⟨1, _⟩ => show win2_2.index t (1 : Fin 2) * 1 + 1 * 0 = 0; omega

/-- The damping bias window's block is its one element at every point. -/
theorem dampBiasBlockSecond_apply (c : Dev nD) (t : Fin cfg2.N) :
    (blk2 V c 3 t : Vec Ideal S1x1 .f32) (ix2 0 0) = dampBiasSecond V c (ix2 0 0) := by
  obtain ⟨-, -, -, -, -, -, e0, e1, -⟩ := blockIndexSecond t
  show V c main_v90 (((cfg2.win 3).blk t).view.emb (ix2 0 0)) = V c main_v90 (ix2 0 0)
  refine congrArg (V c main_v90) (funext fun a => Fin.ext ?_)
  match a with
  | ⟨0, _⟩ => show win2_3.index t (0 : Fin 2) * 1 + 1 * 0 = 0; omega
  | ⟨1, _⟩ => show win2_3.index t (1 : Fin 2) * 1 + 1 * 0 = 0; omega

/-! ## A block of results is the block of the whole-array function, for any blocks and arrays

Blocks `x0 x1 x2` that read arrays `A0 A1 A2` at row offset `4000 b` give, at block index `j`, the whole-array
function at the array index `i` with the same column and row `4000 b + j 0`. -/

theorem featBlockSecond (x0 : Vec Ideal S4000x64 .f32) (x1 : Vec Ideal S64x12 .f32)
    (A0 : S100000x64.Idx → EReal) (A1 : S64x12.Idx → EReal) (b : Nat)
    (h0 : ∀ (p : Fin 4000) (k : Fin 64) (r : Fin 100000), r.val = b * 4000 + p.val → x0 (ix2 p k) = A0 (ix2 r k))
    (h1 : ∀ (k : Fin 64) (q : Fin 12), x1 (ix2 k q) = A1 (ix2 k q))
    (j : S4000x10.Idx) (i : S100000x10.Idx) (hi0 : (i 0).val = b * 4000 + (j 0).val) (hi1 : (i 1).val = (j 1).val) :
    k2_pay2 (F := Ideal) x0 x1 j = projFeat2 A0 A1 i := by
  obtain ⟨p, q, rfl⟩ : ∃ (p : Fin 4000) (q : Fin 10), j = ix2 p q := ⟨j 0, j 1, eq_ix2 j⟩
  refine (blockFeatSecond_apply x0 x1 p q).trans ?_
  show _ = ∑ k : Fin 64, A0 (ix2 (i 0) k) * A1 (ix2 k ⟨(i 1).val, _⟩)
  refine Finset.sum_congr rfl fun k _ => ?_
  rw [h0 p k (i 0) hi0, h1]
  exact congrArg (fun z : Fin 12 => A0 (ix2 (i 0) k) * A1 (ix2 k z)) (Fin.ext hi1.symm)

theorem gateBlockSecond (x0 : Vec Ideal S4000x64 .f32) (x1 : Vec Ideal S64x12 .f32) (x2 : Vec Ideal S1x1 .f32)
    (A0 : S100000x64.Idx → EReal) (A1 : S64x12.Idx → EReal) (A2 : S1x1.Idx → EReal) (b : Nat)
    (h0 : ∀ (p : Fin 4000) (k : Fin 64) (r : Fin 100000), r.val = b * 4000 + p.val → x0 (ix2 p k) = A0 (ix2 r k))
    (h1 : ∀ (k : Fin 64) (q : Fin 12), x1 (ix2 k q) = A1 (ix2 k q))
    (h2 : x2 (ix2 0 0) = A2 (ix2 0 0))
    (j : S4000x1.Idx) (i : S100000x1.Idx) (hi0 : (i 0).val = b * 4000 + (j 0).val) :
    k2_pay4 (F := Ideal) x0 x1 x2 j = projGate2 A0 A1 A2 i := by
  obtain ⟨p, z, rfl⟩ : ∃ (p : Fin 4000) (z : Fin 1), j = ix2 p z := ⟨j 0, j 1, eq_ix2 j⟩
  refine (blockGateSecond_apply x0 x1 x2 p z).trans ?_
  show _ = Ideal.logistic ((∑ k : Fin 64, A0 (ix2 (i 0) k) * A1 (ix2 k (10 : Fin 12))) + A2 (ix2 0 0))
  rw [h2]
  refine congrArg (fun s => Ideal.logistic (s + A2 (ix2 0 0))) (Finset.sum_congr rfl fun k _ => ?_)
  rw [h0 p k (i 0) hi0, h1]

theorem dampBlockSecond (x0 : Vec Ideal S4000x64 .f32) (x1 : Vec Ideal S64x12 .f32) (x3 : Vec Ideal S1x1 .f32)
    (A0 : S100000x64.Idx → EReal) (A1 : S64x12.Idx → EReal) (A3 : S1x1.Idx → EReal) (b : Nat)
    (h0 : ∀ (p : Fin 4000) (k : Fin 64) (r : Fin 100000), r.val = b * 4000 + p.val → x0 (ix2 p k) = A0 (ix2 r k))
    (h1 : ∀ (k : Fin 64) (q : Fin 12), x1 (ix2 k q) = A1 (ix2 k q))
    (h3 : x3 (ix2 0 0) = A3 (ix2 0 0))
    (j : S4000x1.Idx) (i : S100000x1.Idx) (hi0 : (i 0).val = b * 4000 + (j 0).val) :
    k2_pay3 (F := Ideal) x0 x1 x3 j = projDamp2 A0 A1 A3 i := by
  obtain ⟨p, z, rfl⟩ : ∃ (p : Fin 4000) (z : Fin 1), j = ix2 p z := ⟨j 0, j 1, eq_ix2 j⟩
  refine (blockDampSecond_apply x0 x1 x3 p z).trans ?_
  show _ = (∑ k : Fin 64, A0 (ix2 (i 0) k) * A1 (ix2 k (11 : Fin 12))) + A3 (ix2 0 0)
  rw [h3]
  refine congrArg (fun s => s + A3 (ix2 0 0)) (Finset.sum_congr rfl fun k _ => ?_)
  rw [h0 p k (i 0) hi0, h1]

/-! ## What point `t` writes back is block `t` of the whole-array function -/

theorem flushedFeatSecond (c : Dev nD) (t : Fin cfg2.N) :
    (dat2 (F := Ideal) V c).flushed 4 t
      = ((cfg2.win 4).blk t).view.read (Elt Ideal) (projFeat2 (inSecond V c) (wtSecond V c)) := by
  show (cfg2.win 4).cut (grid2.coords t) ((dat2 (F := Ideal) V c).after 4 t) = _
  rw [after2_4, xOut2_eq]
  obtain ⟨-, -, -, -, -, -, -, -, e0, e1, -⟩ := blockIndexSecond t
  funext j
  show k2_pay2 (F := Ideal) (blk2 V c 0 t) (blk2 V c 1 t) j = projFeat2 (inSecond V c) (wtSecond V c) (((cfg2.win 4).blk t).view.emb j)
  refine featBlockSecond (blk2 V c 0 t) (blk2 V c 1 t) (inSecond V c) (wtSecond V c) t.val
    (fun p k r hr => inBlockSecond_apply V c t p k r hr) (fun k q => wtBlockSecond_apply V c t k q)
    j (((cfg2.win 4).blk t).view.emb j) ?_ ?_
  · show win2_4.index t (0 : Fin 2) * 4000 + 1 * (j 0).val = t.val * 4000 + (j 0).val; omega
  · show win2_4.index t (1 : Fin 2) * 10 + 1 * (j 1).val = (j 1).val; omega

theorem flushedGateSecond (c : Dev nD) (t : Fin cfg2.N) :
    (dat2 (F := Ideal) V c).flushed 5 t
      = ((cfg2.win 5).blk t).view.read (Elt Ideal) (projGate2 (inSecond V c) (wtSecond V c) (gateBiasSecond V c)) := by
  show (cfg2.win 5).cut (grid2.coords t) ((dat2 (F := Ideal) V c).after 5 t) = _
  rw [after2_5, sOut2_eq]
  obtain ⟨-, -, -, -, -, -, -, -, -, -, e0, e1, -⟩ := blockIndexSecond t
  funext j
  show k2_pay4 (F := Ideal) (blk2 V c 0 t) (blk2 V c 1 t) (blk2 V c 2 t) j
    = projGate2 (inSecond V c) (wtSecond V c) (gateBiasSecond V c) (((cfg2.win 5).blk t).view.emb j)
  refine gateBlockSecond (blk2 V c 0 t) (blk2 V c 1 t) (blk2 V c 2 t) (inSecond V c) (wtSecond V c) (gateBiasSecond V c) t.val
    (fun p k r hr => inBlockSecond_apply V c t p k r hr) (fun k q => wtBlockSecond_apply V c t k q) (gateBiasBlockSecond_apply V c t)
    j (((cfg2.win 5).blk t).view.emb j) ?_
  show win2_5.index t (0 : Fin 2) * 4000 + 1 * (j 0).val = t.val * 4000 + (j 0).val; omega

theorem flushedDampSecond (c : Dev nD) (t : Fin cfg2.N) :
    (dat2 (F := Ideal) V c).flushed 6 t
      = ((cfg2.win 6).blk t).view.read (Elt Ideal) (projDamp2 (inSecond V c) (wtSecond V c) (dampBiasSecond V c)) := by
  show (cfg2.win 6).cut (grid2.coords t) ((dat2 (F := Ideal) V c).after 6 t) = _
  rw [after2_6, dOut2_eq]
  obtain ⟨-, -, -, -, -, -, -, -, -, -, -, -, e0, e1⟩ := blockIndexSecond t
  funext j
  show k2_pay3 (F := Ideal) (blk2 V c 0 t) (blk2 V c 1 t) (blk2 V c 3 t) j
    = projDamp2 (inSecond V c) (wtSecond V c) (dampBiasSecond V c) (((cfg2.win 6).blk t).view.emb j)
  refine dampBlockSecond (blk2 V c 0 t) (blk2 V c 1 t) (blk2 V c 3 t) (inSecond V c) (wtSecond V c) (dampBiasSecond V c) t.val
    (fun p k r hr => inBlockSecond_apply V c t p k r hr) (fun k q => wtBlockSecond_apply V c t k q) (dampBiasBlockSecond_apply V c t)
    j (((cfg2.win 6).blk t).view.emb j) ?_
  show win2_6.index t (0 : Fin 2) * 4000 + 1 * (j 0).val = t.val * 4000 + (j 0).val; omega

/-! ## The blocks tile the rows -/

/-- An index of the feature array is in point `t`'s block iff each coordinate is in the block's range. -/
theorem mem_featBlockSecond (t : Fin cfg2.N) (i : S100000x10.Idx) :
    i ∈ ((cfg2.win 4).blk t).view.set ↔ ∀ a : Fin 2, win2_4.index t a * S4000x10.size a ≤ (i a).val
      ∧ (i a).val < win2_4.index t a * S4000x10.size a + S4000x10.size a := by
  show i ∈ ((View.whole main_v91_0).slice (win2_4.rect t)).set ↔ _
  rw [View.set_slice_whole, Rect.mem_set_unit]
  exact Iff.rfl

theorem mem_gateBlockSecond (t : Fin cfg2.N) (i : S100000x1.Idx) :
    i ∈ ((cfg2.win 5).blk t).view.set ↔ ∀ a : Fin 2, win2_5.index t a * S4000x1.size a ≤ (i a).val
      ∧ (i a).val < win2_5.index t a * S4000x1.size a + S4000x1.size a := by
  show i ∈ ((View.whole main_v91_1).slice (win2_5.rect t)).set ↔ _
  rw [View.set_slice_whole, Rect.mem_set_unit]
  exact Iff.rfl

theorem mem_dampBlockSecond (t : Fin cfg2.N) (i : S100000x1.Idx) :
    i ∈ ((cfg2.win 6).blk t).view.set ↔ ∀ a : Fin 2, win2_6.index t a * S4000x1.size a ≤ (i a).val
      ∧ (i a).val < win2_6.index t a * S4000x1.size a + S4000x1.size a := by
  show i ∈ ((View.whole main_v91_2).slice (win2_6.rect t)).set ↔ _
  rw [View.set_slice_whole, Rect.mem_set_unit]
  exact Iff.rfl

/-- Row `r` lies in the block of point `r / 4000`. -/
theorem pointOfRowSecond (r : Nat) (hr : r < 100000) : ∃ t : Fin cfg2.N, t.val = r / 4000 := by
  have hN : cfg2.N = 25 := N_2
  exact ⟨⟨r / 4000, by rw [hN]; omega⟩, rfl⟩

/-! ## The three arrays after the call -/

/-- The projected features after the call: every row of the input times the weight columns. -/
theorem featSecond_final (c : Dev nD) :
    (dat2 (F := Ideal) V c).arrAt 4 cfg2.N = projFeat2 (inSecond V c) (wtSecond V c) :=
  (dat2 (F := Ideal) V c).arrAt_eq_of_cover 4 (projFeat2 (inSecond V c) (wtSecond V c)) (fun t _ => flushedFeatSecond V c t) fun i => by
    have hi0 : (i 0).val < 100000 := (i 0).isLt
    have hi1 : (i 1).val < 10 := (i 1).isLt
    obtain ⟨t, ht⟩ := pointOfRowSecond (i 0).val hi0
    obtain ⟨-, -, -, -, -, -, -, -, e0, e1, -⟩ := blockIndexSecond t
    refine ⟨t, flush2_4 t, ?_⟩
    rw [mem_featBlockSecond]
    intro a
    match a with
    | ⟨0, _⟩ => show win2_4.index t (0 : Fin 2) * 4000 ≤ (i 0).val ∧ (i 0).val < win2_4.index t (0 : Fin 2) * 4000 + 4000; omega
    | ⟨1, _⟩ => show win2_4.index t (1 : Fin 2) * 10 ≤ (i 1).val ∧ (i 1).val < win2_4.index t (1 : Fin 2) * 10 + 10; omega

/-- The gate after the call: the logistic of every row's score plus the bias. -/
theorem gateSecond_final (c : Dev nD) :
    (dat2 (F := Ideal) V c).arrAt 5 cfg2.N = projGate2 (inSecond V c) (wtSecond V c) (gateBiasSecond V c) :=
  (dat2 (F := Ideal) V c).arrAt_eq_of_cover 5 (projGate2 (inSecond V c) (wtSecond V c) (gateBiasSecond V c)) (fun t _ => flushedGateSecond V c t) fun i => by
    have hi0 : (i 0).val < 100000 := (i 0).isLt
    have hi1 : (i 1).val < 1 := (i 1).isLt
    obtain ⟨t, ht⟩ := pointOfRowSecond (i 0).val hi0
    obtain ⟨-, -, -, -, -, -, -, -, -, -, e0, e1, -⟩ := blockIndexSecond t
    refine ⟨t, flush2_5 t, ?_⟩
    rw [mem_gateBlockSecond]
    intro a
    match a with
    | ⟨0, _⟩ => show win2_5.index t (0 : Fin 2) * 4000 ≤ (i 0).val ∧ (i 0).val < win2_5.index t (0 : Fin 2) * 4000 + 4000; omega
    | ⟨1, _⟩ => show win2_5.index t (1 : Fin 2) * 1 ≤ (i 1).val ∧ (i 1).val < win2_5.index t (1 : Fin 2) * 1 + 1; omega

/-- The damping after the call: every row's damping column plus the bias. -/
theorem dampSecond_final (c : Dev nD) :
    (dat2 (F := Ideal) V c).arrAt 6 cfg2.N = projDamp2 (inSecond V c) (wtSecond V c) (dampBiasSecond V c) :=
  (dat2 (F := Ideal) V c).arrAt_eq_of_cover 6 (projDamp2 (inSecond V c) (wtSecond V c) (dampBiasSecond V c)) (fun t _ => flushedDampSecond V c t) fun i => by
    have hi0 : (i 0).val < 100000 := (i 0).isLt
    have hi1 : (i 1).val < 1 := (i 1).isLt
    obtain ⟨t, ht⟩ := pointOfRowSecond (i 0).val hi0
    obtain ⟨-, -, -, -, -, -, -, -, -, -, -, -, e0, e1⟩ := blockIndexSecond t
    refine ⟨t, flush2_6 t, ?_⟩
    rw [mem_dampBlockSecond]
    intro a
    match a with
    | ⟨0, _⟩ => show win2_6.index t (0 : Fin 2) * 4000 ≤ (i 0).val ∧ (i 0).val < win2_6.index t (0 : Fin 2) * 4000 + 4000; omega
    | ⟨1, _⟩ => show win2_6.index t (1 : Fin 2) * 1 ≤ (i 1).val ∧ (i 1).val < win2_6.index t (1 : Fin 2) * 1 + 1; omega

end Cert.KernelIdeal.Val

end
-- ==== Proof.MixSecondArray.lean ====
import proofs.«167143_j12463995093672_1_alg».proof.Proof.MixSecond
import proofs.«167143_j12463995093672_1_alg».proof.Proof.GatedMix
import Idealize.ShloMosaic.Lib.Pipeline.Value
import Idealize.ShloMosaic.Lib.ValueIdx

noncomputable section

namespace Cert.KernelIdeal.Val

open Cert.KernelIdeal Cert.KernelIdeal.Gen Cert.KernelIdeal.Frm
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! # The second combining call writes the gated mix of its five arrays

The call walks 25 points; at point `t` every window's block is rows `4000 t … 4000 t + 3999` of its array, all columns. The body
stores the gated mix of the five loaded blocks; a row of the mix reads only that row of each array, so block `t` of the output
is block `t` of the mix of the whole arrays, and the 25 blocks tile the 100000 rows. -/

/-- What the body leaves in the output's block is the gated mix of the five loaded blocks: its one store covers the buffer. -/
theorem mixOut3_eq (x0 : Vec Ideal S4000x1 .f32) (x1 x2 : Vec Ideal S4000x10 .f32) (x3 : Vec Ideal S4000x1 .f32) (x4 : Vec Ideal S4000x10 .f32) :
    mixOut3 x0 x1 x2 x3 x4 = gatedMix (n := 4000) (h := 10) x0 x1 x2 x3 x4 := by
  unfold mixOut3
  rw [View.canon_unit_zero zeroOffsets]
  simp only [View.ld_unit_zero (S := S4000x1) zeroOffsets, View.ld_unit_zero (S := S4000x10) zeroOffsets]
  exact k3_pay1_eq x0 x3 x1 x2 x4

/-- Every window's block index at point `t` is `(t, 0)`: decided over the 25 points. -/
theorem blockIndex3 : ∀ t : Fin cfg3.N,
    (win3_0.index t (0 : Fin 2) = t.val ∧ win3_0.index t (1 : Fin 2) = 0)
    ∧ (win3_1.index t (0 : Fin 2) = t.val ∧ win3_1.index t (1 : Fin 2) = 0)
    ∧ (win3_2.index t (0 : Fin 2) = t.val ∧ win3_2.index t (1 : Fin 2) = 0)
    ∧ (win3_3.index t (0 : Fin 2) = t.val ∧ win3_3.index t (1 : Fin 2) = 0)
    ∧ (win3_4.index t (0 : Fin 2) = t.val ∧ win3_4.index t (1 : Fin 2) = 0)
    ∧ (win3_5.index t (0 : Fin 2) = t.val ∧ win3_5.index t (1 : Fin 2) = 0) :=
  (by decide +kernel : ∀ t : Fin grid3.N, _)

/-! ## Each input block, entry by entry: row `p` of block `t` is row `4000 t + p` of the array -/

theorem blk3_0_apply (c : Dev nD) (t : Fin cfg3.N) (p : Fin 4000) (R : Fin 100000) (hR : R.val = 4000 * t.val + p.val) :
    (blk3 V c 0 t : Vec Ideal S4000x1 .f32) (ix2 p (0 : Fin 1)) = (V c (Pipeline.arrRef spec3 0) : S100000x1.Idx → Ideal .f32) (ix2 R (0 : Fin 1)) := by
  have e := (blockIndex3 t).1
  unfold blk3
  rw [View.read_apply]
  show (V c main_v91_1 : S100000x1.Idx → Ideal .f32) _ = (V c main_v91_1 : S100000x1.Idx → Ideal .f32) _
  refine congrArg (V c main_v91_1 : S100000x1.Idx → Ideal .f32) (funext fun a => Fin.ext ?_)
  match a with
  | ⟨0, _⟩ => show win3_0.index t (0 : Fin 2) * 4000 + 1 * p.val = R.val; rw [e.1, hR]; omega
  | ⟨1, _⟩ => show win3_0.index t (1 : Fin 2) * 1 + 1 * 0 = 0; rw [e.2]

theorem blk3_1_apply (c : Dev nD) (t : Fin cfg3.N) (p : Fin 4000) (q : Fin 10) (R : Fin 100000) (hR : R.val = 4000 * t.val + p.val) :
    (blk3 V c 1 t : Vec Ideal S4000x10 .f32) (ix2 p q) = (V c (Pipeline.arrRef spec3 1) : S100000x10.Idx → Ideal .f32) (ix2 R q) := by
  have e := (blockIndex3 t).2.1
  unfold blk3
  rw [View.read_apply]
  show (V c main_v134 : S100000x10.Idx → Ideal .f32) _ = (V c main_v134 : S100000x10.Idx → Ideal .f32) _
  refine congrArg (V c main_v134 : S100000x10.Idx → Ideal .f32) (funext fun a => Fin.ext ?_)
  match a with
  | ⟨0, _⟩ => show win3_1.index t (0 : Fin 2) * 4000 + 1 * p.val = R.val; rw [e.1, hR]; omega
  | ⟨1, _⟩ => show win3_1.index t (1 : Fin 2) * 10 + 1 * q.val = q.val; rw [e.2]; omega

theorem blk3_2_apply (c : Dev nD) (t : Fin cfg3.N) (p : Fin 4000) (q : Fin 10) (R : Fin 100000) (hR : R.val = 4000 * t.val + p.val) :
    (blk3 V c 2 t : Vec Ideal S4000x10 .f32) (ix2 p q) = (V c (Pipeline.arrRef spec3 2) : S100000x10.Idx → Ideal .f32) (ix2 R q) := by
  have e := (blockIndex3 t).2.2.1
  unfold blk3
  rw [View.read_apply]
  show (V c main_v174 : S100000x10.Idx → Ideal .f32) _ = (V c main_v174 : S100000x10.Idx → Ideal .f32) _
  refine congrArg (V c main_v174 : S100000x10.Idx → Ideal .f32) (funext fun a => Fin.ext ?_)
  match a with
  | ⟨0, _⟩ => show win3_2.index t (0 : Fin 2) * 4000 + 1 * p.val = R.val; rw [e.1, hR]; omega
  | ⟨1, _⟩ => show win3_2.index t (1 : Fin 2) * 10 + 1 * q.val = q.val; rw [e.2]; omega

theorem blk3_3_apply (c : Dev nD) (t : Fin cfg3.N) (p : Fin 4000) (R : Fin 100000) (hR : R.val = 4000 * t.val + p.val) :
    (blk3 V c 3 t : Vec Ideal S4000x1 .f32) (ix2 p (0 : Fin 1)) = (V c (Pipeline.arrRef spec3 3) : S100000x1.Idx → Ideal .f32) (ix2 R (0 : Fin 1)) := by
  have e := (blockIndex3 t).2.2.2.1
  unfold blk3
  rw [View.read_apply]
  show (V c main_v91_2 : S100000x1.Idx → Ideal .f32) _ = (V c main_v91_2 : S100000x1.Idx → Ideal .f32) _
  refine congrArg (V c main_v91_2 : S100000x1.Idx → Ideal .f32) (funext fun a => Fin.ext ?_)
  match a with
  | ⟨0, _⟩ => show win3_3.index t (0 : Fin 2) * 4000 + 1 * p.val = R.val; rw [e.1, hR]; omega
  | ⟨1, _⟩ => show win3_3.index t (1 : Fin 2) * 1 + 1 * 0 = 0; rw [e.2]

theorem blk3_4_apply (c : Dev nD) (t : Fin cfg3.N) (p : Fin 4000) (q : Fin 10) (R : Fin 100000) (hR : R.val = 4000 * t.val + p.val) :
    (blk3 V c 4 t : Vec Ideal S4000x10 .f32) (ix2 p q) = (V c (Pipeline.arrRef spec3 4) : S100000x10.Idx → Ideal .f32) (ix2 R q) := by
  have e := (blockIndex3 t).2.2.2.2.1
  unfold blk3
  rw [View.read_apply]
  show (V c main_v91_0 : S100000x10.Idx → Ideal .f32) _ = (V c main_v91_0 : S100000x10.Idx → Ideal .f32) _
  refine congrArg (V c main_v91_0 : S100000x10.Idx → Ideal .f32) (funext fun a => Fin.ext ?_)
  match a with
  | ⟨0, _⟩ => show win3_4.index t (0 : Fin 2) * 4000 + 1 * p.val = R.val; rw [e.1, hR]; omega
  | ⟨1, _⟩ => show win3_4.index t (1 : Fin 2) * 10 + 1 * q.val = q.val; rw [e.2]; omega

/-! ## The output array -/

/-- The gated mix of the five arrays as the call finds them. -/
abbrev mixSecondArray (c : Dev nD) : S100000x10.Idx → Ideal .f32 :=
  gatedMix (n := 100000) (h := 10) (V c (Pipeline.arrRef spec3 0)) (V c (Pipeline.arrRef spec3 1)) (V c (Pipeline.arrRef spec3 2))
    (V c (Pipeline.arrRef spec3 3)) (V c (Pipeline.arrRef spec3 4))

/-- What point `t` writes back is block `t` of the gated mix of the whole arrays. -/
theorem flushed3_eq (c : Dev nD) (t : Fin cfg3.N) :
    (dat3 V c).flushed 5 t = ((cfg3.win 5).blk t).view.read (Elt Ideal) (mixSecondArray V c) := by
  show (cfg3.win 5).cut (grid3.coords t) ((dat3 V c).after 5 t) = _
  rw [after3_5, mixOut3_eq]
  have e5 := (blockIndex3 t).2.2.2.2.2
  have hN : cfg3.N = 25 := N_3
  funext j
  obtain ⟨p, q, rfl⟩ : ∃ (p : Fin 4000) (q : Fin 10), j = ix2 p q := ⟨j 0, j 1, eq_ix2 j⟩
  have hR : 4000 * t.val + p.val < 100000 := by have := t.isLt; have := p.isLt; omega
  have hemb : ((cfg3.win 5).blk t).view.emb (ix2 p q) = (ix2 (⟨4000 * t.val + p.val, hR⟩ : Fin 100000) q : S100000x10.Idx) := by
    funext a; apply Fin.ext
    match a with
    | ⟨0, _⟩ => show win3_5.index t (0 : Fin 2) * 4000 + 1 * p.val = 4000 * t.val + p.val; rw [e5.1]; omega
    | ⟨1, _⟩ => show win3_5.index t (1 : Fin 2) * 10 + 1 * q.val = q.val; rw [e5.2]; omega
  rw [View.read_apply]
  show gatedMix (n := 4000) (h := 10) (blk3 V c 0 t) (blk3 V c 1 t) (blk3 V c 2 t) (blk3 V c 3 t) (blk3 V c 4 t) (ix2 p q)
    = gatedMix (n := 100000) (h := 10) (V c (Pipeline.arrRef spec3 0)) (V c (Pipeline.arrRef spec3 1)) (V c (Pipeline.arrRef spec3 2))
        (V c (Pipeline.arrRef spec3 3)) (V c (Pipeline.arrRef spec3 4)) (((cfg3.win 5).blk t).view.emb (ix2 p q))
  rw [hemb, gatedMix_apply, gatedMix_apply,
    blk3_0_apply V c t p ⟨4000 * t.val + p.val, hR⟩ rfl, blk3_1_apply V c t p q ⟨4000 * t.val + p.val, hR⟩ rfl,
    blk3_2_apply V c t p q ⟨4000 * t.val + p.val, hR⟩ rfl, blk3_3_apply V c t p ⟨4000 * t.val + p.val, hR⟩ rfl,
    blk3_4_apply V c t p q ⟨4000 * t.val + p.val, hR⟩ rfl]

/-- An index of the output array lies in point `t`'s block iff each coordinate lies in the block's range on its axis. -/
theorem mem_blk3 (t : Fin cfg3.N) (i : S100000x10.Idx) :
    i ∈ ((cfg3.win 5).blk t).view.set ↔ ∀ a : Fin 2, win3_5.index t a * S4000x10.size a ≤ (i a).val ∧ (i a).val < win3_5.index t a * S4000x10.size a + S4000x10.size a := by
  show i ∈ ((View.whole main_v175).slice (win3_5.rect t)).set ↔ _
  rw [View.set_slice_whole, Rect.mem_set_unit]
  exact Iff.rfl

/-- Row `r` of the output lies in the block of point `r / 4000`. -/
theorem cover3 (i : S100000x10.Idx) : ∃ t : Fin cfg3.N, (cfg3.win 5).flush t = true ∧ i ∈ ((cfg3.win 5).blk t).view.set := by
  have h0 : (i 0).val < 100000 := (i 0).isLt
  have h1 : (i 1).val < 10 := (i 1).isLt
  have hN : cfg3.N = 25 := N_3
  have ht : (i 0).val / 4000 < cfg3.N := by rw [hN]; omega
  refine ⟨⟨(i 0).val / 4000, ht⟩, flush3_5 _, ?_⟩
  have e5 := (blockIndex3 ⟨(i 0).val / 4000, ht⟩).2.2.2.2.2
  rw [mem_blk3]
  intro a
  match a with
  | ⟨0, _⟩ =>
    show win3_5.index ⟨(i 0).val / 4000, ht⟩ (0 : Fin 2) * 4000 ≤ (i 0).val ∧ (i 0).val < win3_5.index ⟨(i 0).val / 4000, ht⟩ (0 : Fin 2) * 4000 + 4000
    rw [e5.1]; show (i 0).val / 4000 * 4000 ≤ (i 0).val ∧ (i 0).val < (i 0).val / 4000 * 4000 + 4000; omega
  | ⟨1, _⟩ =>
    show win3_5.index ⟨(i 0).val / 4000, ht⟩ (1 : Fin 2) * 10 ≤ (i 1).val ∧ (i 1).val < win3_5.index ⟨(i 0).val / 4000, ht⟩ (1 : Fin 2) * 10 + 10
    rw [e5.2]; omega

/-- After the call the output array holds the gated mix of the five arrays as the call found them. -/
theorem mixSecond_array (c : Dev nD) : (dat3 V c).arrAt 5 cfg3.N = mixSecondArray V c :=
  (dat3 V c).arrAt_eq_of_cover 5 (mixSecondArray V c) (fun t _ => flushed3_eq V c t) (cover3)

end Cert.KernelIdeal.Val

end
-- ==== Proof.ProjSecondMeets.lean ====
import proofs.«167143_j12463995093672_1_alg».proof.Proof.RefRead
import proofs.«167143_j12463995093672_1_alg».proof.Proof.RowsTimesCols
import proofs.«167143_j12463995093672_1_alg».proof.Proof.UnitLiteral
import Idealize.ShloMosaic.Lib.ValueIdx

noncomputable section

open scoped BigOperators

/-! # The second projection against the reference's three products

The second layer does to the first layer's output what the first did to the input: the reference multiplies it
by the weights, by the score column and by the damping column separately, the kernel once by the joined matrix.
Stated for any array `h` that is the reference's first-layer output: the leading 10 columns of the joined product
are the weights' product; column 10 plus the bias, through `1 / (1 + exp (−·))`, is the reference's gate; column
11 plus the bias is the reference's damping. -/

namespace Cert.KernelIdeal.Val

open Idealize.ShloMosaic Idealize.ShloMosaic.ValueIdx

section
variable (x0 : (⟨2, ![100000, 512]⟩ : Shape).Idx → EReal) (x1 : (⟨2, ![512, 64]⟩ : Shape).Idx → EReal)
  (x2 : (⟨2, ![64, 10]⟩ : Shape).Idx → EReal) (x3 : (⟨2, ![512, 1]⟩ : Shape).Idx → EReal)
  (x4 : (⟨2, ![64, 1]⟩ : Shape).Idx → EReal) (x5 x6 : (⟨1, ![1]⟩ : Shape).Idx → EReal)
  (x7 : (⟨2, ![512, 1]⟩ : Shape).Idx → EReal) (x8 : (⟨2, ![64, 1]⟩ : Shape).Idx → EReal)
  (x9 x10 : (⟨1, ![1]⟩ : Shape).Idx → EReal)
  (x11 x12 : (⟨1, ![1600000]⟩ : Shape).Idx → BitVec 32) (x13 x14 : (⟨1, ![1000000]⟩ : Shape).Idx → BitVec 32)
  (h : (⟨2, ![100000, 64]⟩ : Shape).Idx → EReal) (wc : (⟨2, ![64, 12]⟩ : Shape).Idx → EReal)
  (b : (⟨2, ![1, 1]⟩ : Shape).Idx → EReal)

/-- The leading columns of the joined product are the product with the weights. -/
theorem feat2_meets (hH : h = Cert.ReferenceIdeal.ReadP.val_main_v109 (F := Ideal) x0 x1 x3 x5 x7 x9 x11 x12 x13 x14)
    (hW : ∀ (k : Fin 64) (j : Fin 10), wc (ix2 k (⟨j.val, Nat.lt_of_lt_of_le j.isLt (by decide)⟩ : Fin 12)) = x2 (ix2 k j)) :
    projFeat2 h wc = Cert.ReferenceIdeal.ReadP.val_main_v124 (F := Ideal) x0 x1 x2 x3 x5 x7 x9 x11 x12 x13 x14 := by
  funext i
  obtain ⟨r, j, rfl⟩ : ∃ (r : Fin 100000) (j : Fin 10), i = ix2 r j := ⟨i 0, i 1, eq_ix2 i⟩
  refine Eq.trans ?_ (Cert.ReferenceIdeal.ReadP.val_main_v124_apply x0 x1 x2 x3 x5 x7 x9 x11 x12 x13 x14 (ix2 r j)).symm
  rw [← hH]
  show ∑ k : Fin 64, h (ix2 r k) * wc (ix2 k (⟨j.val, _⟩ : Fin 12))
    = ∑ k : Fin 64, h (Cert.ReferenceIdeal.ReadP.lidx_main_v124 (ix2 r j) k) * x2 (Cert.ReferenceIdeal.ReadP.ridx_main_v124 (ix2 r j) k)
  refine Finset.sum_congr rfl fun k _ => ?_
  have el : Cert.ReferenceIdeal.ReadP.lidx_main_v124 (ix2 r j) k = ix2 r k :=
    funext fun a => by match a with | ⟨0, _⟩ => rfl | ⟨1, _⟩ => rfl
  have er : Cert.ReferenceIdeal.ReadP.ridx_main_v124 (ix2 r j) k = ix2 k j :=
    funext fun a => by match a with | ⟨0, _⟩ => rfl | ⟨1, _⟩ => rfl
  rw [el, er, hW k j]

/-- The score column's sum is the reference's product with the score column. -/
theorem score2_meets (hH : h = Cert.ReferenceIdeal.ReadP.val_main_v109 (F := Ideal) x0 x1 x3 x5 x7 x9 x11 x12 x13 x14)
    (hS : ∀ k : Fin 64, wc (ix2 k (10 : Fin 12)) = x4 (ix2 k 0)) (r : Fin 100000) :
    rowDotCol h wc r (10 : Fin 12) = Cert.ReferenceIdeal.ReadP.val_main_v110 (F := Ideal) x0 x1 x3 x4 x5 x7 x9 x11 x12 x13 x14 (ix2 r 0) := by
  refine Eq.trans ?_ (Cert.ReferenceIdeal.ReadP.val_main_v110_apply x0 x1 x3 x4 x5 x7 x9 x11 x12 x13 x14 (ix2 r 0)).symm
  rw [← hH]
  show ∑ k : Fin 64, h (ix2 r k) * wc (ix2 k (10 : Fin 12))
    = ∑ k : Fin 64, h (Cert.ReferenceIdeal.ReadP.lidx_main_v110 (ix2 r 0) k) * x4 (Cert.ReferenceIdeal.ReadP.ridx_main_v110 (ix2 r 0) k)
  refine Finset.sum_congr rfl fun k _ => ?_
  have el : Cert.ReferenceIdeal.ReadP.lidx_main_v110 (ix2 r (0 : Fin 1)) k = ix2 r k :=
    funext fun a => by match a with | ⟨0, _⟩ => rfl | ⟨1, _⟩ => rfl
  have er : Cert.ReferenceIdeal.ReadP.ridx_main_v110 (ix2 r (0 : Fin 1)) k = ix2 k 0 :=
    funext fun a => by match a with | ⟨0, _⟩ => rfl | ⟨1, _⟩ => rfl
  rw [el, er, hS k]

/-- The gate: the logistic of the score column plus the bias is the reference's `1 / (1 + exp (−(score + bias)))`. -/
theorem gate2_meets (hH : h = Cert.ReferenceIdeal.ReadP.val_main_v109 (F := Ideal) x0 x1 x3 x5 x7 x9 x11 x12 x13 x14)
    (hS : ∀ k : Fin 64, wc (ix2 k (10 : Fin 12)) = x4 (ix2 k 0)) (hb : b (ix2 0 0) = x6 (ix1 0)) :
    projGate2 h wc b = Cert.ReferenceIdeal.ReadP.val_main_v119 (F := Ideal) x0 x1 x3 x4 x5 x6 x7 x9 x11 x12 x13 x14 := by
  funext i
  obtain ⟨r, z, rfl⟩ : ∃ (r : Fin 100000) (z : Fin 1), i = ix2 r z := ⟨i 0, i 1, eq_ix2 i⟩
  obtain rfl : z = 0 := Subsingleton.elim _ _
  rw [Cert.ReferenceIdeal.ReadP.val_main_v119_apply, Cert.ReferenceIdeal.ReadP.val_main_v118_apply,
    Cert.ReferenceIdeal.ReadP.val_main_cst_31_apply, Cert.ReferenceIdeal.ReadP.val_main_v117_apply,
    Cert.ReferenceIdeal.ReadP.val_main_v116_apply, Cert.ReferenceIdeal.ReadP.val_main_cst_30_apply,
    Cert.ReferenceIdeal.ReadP.val_main_v115_apply, Cert.ReferenceIdeal.ReadP.val_main_v114_apply,
    Cert.ReferenceIdeal.ReadP.val_main_v113_apply, Cert.ReferenceIdeal.ReadP.val_main_v112_apply,
    Cert.ReferenceIdeal.ReadP.val_main_v111_apply, ← score2_meets x0 x1 x3 x4 x5 x7 x9 x11 x12 x13 x14 h wc hH hS r]
  simp only [Ideal.hostDivf_def, Ideal.addf_def, Ideal.hostUnary_exp_def, Ideal.hostNegf_def, Ideal.negf_def,
    Ideal.ofBits_def, ofBits_one_f32]
  have hbias : x6 (Cert.ReferenceIdeal.ReadP.idx_main_v111 (Cert.ReferenceIdeal.ReadP.idx_main_v112 (ix2 r (0 : Fin 1)))) = b (ix2 0 0) := by
    rw [hb]; exact congrArg x6 (funext fun a => by match a with | ⟨0, _⟩ => rfl)
  rw [hbias]
  rfl

/-- The damping column's sum is the reference's product with the damping column. -/
theorem dampCol2_meets (hH : h = Cert.ReferenceIdeal.ReadP.val_main_v109 (F := Ideal) x0 x1 x3 x5 x7 x9 x11 x12 x13 x14)
    (hD : ∀ k : Fin 64, wc (ix2 k (11 : Fin 12)) = x8 (ix2 k 0)) (r : Fin 100000) :
    rowDotCol h wc r (11 : Fin 12) = Cert.ReferenceIdeal.ReadP.val_main_v120 (F := Ideal) x0 x1 x3 x5 x7 x8 x9 x11 x12 x13 x14 (ix2 r 0) := by
  refine Eq.trans ?_ (Cert.ReferenceIdeal.ReadP.val_main_v120_apply x0 x1 x3 x5 x7 x8 x9 x11 x12 x13 x14 (ix2 r 0)).symm
  rw [← hH]
  show ∑ k : Fin 64, h (ix2 r k) * wc (ix2 k (11 : Fin 12))
    = ∑ k : Fin 64, h (Cert.ReferenceIdeal.ReadP.lidx_main_v120 (ix2 r 0) k) * x8 (Cert.ReferenceIdeal.ReadP.ridx_main_v120 (ix2 r 0) k)
  refine Finset.sum_congr rfl fun k _ => ?_
  have el : Cert.ReferenceIdeal.ReadP.lidx_main_v120 (ix2 r (0 : Fin 1)) k = ix2 r k :=
    funext fun a => by match a with | ⟨0, _⟩ => rfl | ⟨1, _⟩ => rfl
  have er : Cert.ReferenceIdeal.ReadP.ridx_main_v120 (ix2 r (0 : Fin 1)) k = ix2 k 0 :=
    funext fun a => by match a with | ⟨0, _⟩ => rfl | ⟨1, _⟩ => rfl
  rw [el, er, hD k]

/-- The damping: the damping column plus the bias is the reference's. -/
theorem damp2_meets (hH : h = Cert.ReferenceIdeal.ReadP.val_main_v109 (F := Ideal) x0 x1 x3 x5 x7 x9 x11 x12 x13 x14)
    (hD : ∀ k : Fin 64, wc (ix2 k (11 : Fin 12)) = x8 (ix2 k 0)) (hb : b (ix2 0 0) = x10 (ix1 0)) :
    projDamp2 h wc b = Cert.ReferenceIdeal.ReadP.val_main_v123 (F := Ideal) x0 x1 x3 x5 x7 x8 x9 x10 x11 x12 x13 x14 := by
  funext i
  obtain ⟨r, z, rfl⟩ : ∃ (r : Fin 100000) (z : Fin 1), i = ix2 r z := ⟨i 0, i 1, eq_ix2 i⟩
  obtain rfl : z = 0 := Subsingleton.elim _ _
  rw [Cert.ReferenceIdeal.ReadP.val_main_v123_apply, Cert.ReferenceIdeal.ReadP.val_main_v122_apply,
    Cert.ReferenceIdeal.ReadP.val_main_v121_apply, ← dampCol2_meets x0 x1 x3 x5 x7 x8 x9 x11 x12 x13 x14 h wc hH hD r]
  simp only [Ideal.addf_def]
  have hbias : x10 (Cert.ReferenceIdeal.ReadP.idx_main_v121 (Cert.ReferenceIdeal.ReadP.idx_main_v122 (ix2 r (0 : Fin 1)))) = b (ix2 0 0) := by
    rw [hb]; exact congrArg x10 (funext fun a => by match a with | ⟨0, _⟩ => rfl)
  rw [hbias]
  rfl

end

end Cert.KernelIdeal.Val

end
-- ==== Proof.AggSecondMeets.lean ====
import proofs.«167143_j12463995093672_1_alg».proof.Proof.HostReading
import proofs.«167143_j12463995093672_1_alg».proof.Proof.RefRead

noncomputable section

namespace Cert.KernelIdeal.Val

open Cert.KernelIdeal Cert.KernelIdeal.Gen Cert.KernelIdeal.Frm
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! # The second layer's two aggregates are the reference's

Between the second projection and the second mix the program aggregates the second layer's projected features (ten
columns) along the same two lists by the same operations as in the first layer; the reference does the same to its own
projected features. Once the two projections agree the aggregates agree, operation by operation. -/

set_option maxHeartbeats 4000000 in
/-- The aggregate along the edge list. -/
theorem aggSecond_meets
    (hX2 : W14 m ρ c (Proc.devRef .tc main_v91_0) = Cert.ReferenceIdeal.ReadP.val_main_v124 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg7)) (m ((c.tc : Thread nD τ).loc main_arg9)) (m ((c.tc : Thread nD τ).loc main_arg11)) (m ((c.tc : Thread nD τ).loc main_arg12)) (m ((c.tc : Thread nD τ).loc main_arg13)) (m ((c.tc : Thread nD τ).loc main_arg14))) :
    W23 m ρ c (Proc.devRef .tc main_v134) = Cert.ReferenceIdeal.ReadP.val_main_v167 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg7)) (m ((c.tc : Thread nD τ).loc main_arg9)) (m ((c.tc : Thread nD τ).loc main_arg11)) (m ((c.tc : Thread nD τ).loc main_arg12)) (m ((c.tc : Thread nD τ).loc main_arg13)) (m ((c.tc : Thread nD τ).loc main_arg14)) := by
  rw [W23_of m ρ c main_v134 (by decide), W22_of m ρ c main_v134 (by decide), W21_of m ρ c main_v134 (by decide),
    W20_of m ρ c main_v134 (by decide)]
  have h11 := W14_arg m ρ c main_arg11 (by decide)
  have h12 := W14_arg m ρ c main_arg12 (by decide)
  show StableHlo.after hostOps3_4 (StableHlo.after hostOps3_3 (StableHlo.after hostOps3_2 (StableHlo.after hostOps3_1 (StableHlo.after hostOps3 (W14 m ρ c))))) (Proc.devRef .tc main_v134) = _
  generalize W14 m ρ c = V at hX2 h11 h12 ⊢
  after_results_simp
  after_results_rest
  repeat (first | rw [toBuf_self] | rw [ofBuf_self])
  rw [hX2, h11, h12]
  rfl

set_option maxHeartbeats 8000000 in
/-- The aggregate along the neighbour list. -/
theorem aggKnnSecond_meets
    (hX2 : W14 m ρ c (Proc.devRef .tc main_v91_0) = Cert.ReferenceIdeal.ReadP.val_main_v124 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg7)) (m ((c.tc : Thread nD τ).loc main_arg9)) (m ((c.tc : Thread nD τ).loc main_arg11)) (m ((c.tc : Thread nD τ).loc main_arg12)) (m ((c.tc : Thread nD τ).loc main_arg13)) (m ((c.tc : Thread nD τ).loc main_arg14))) :
    W23 m ρ c (Proc.devRef .tc main_v174) = Cert.ReferenceIdeal.ReadP.val_main_v207 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg7)) (m ((c.tc : Thread nD τ).loc main_arg9)) (m ((c.tc : Thread nD τ).loc main_arg11)) (m ((c.tc : Thread nD τ).loc main_arg12)) (m ((c.tc : Thread nD τ).loc main_arg13)) (m ((c.tc : Thread nD τ).loc main_arg14)) := by
  have h13 := W14_arg m ρ c main_arg13 (by decide)
  have h14 := W14_arg m ρ c main_arg14 (by decide)
  show StableHlo.after hostOps3_8 (StableHlo.after hostOps3_7 (StableHlo.after hostOps3_6 (StableHlo.after hostOps3_5 (StableHlo.after hostOps3_4 (StableHlo.after hostOps3_3 (StableHlo.after hostOps3_2 (StableHlo.after hostOps3_1 (StableHlo.after hostOps3 (W14 m ρ c))))))))) (Proc.devRef .tc main_v174) = _
  generalize W14 m ρ c = V at hX2 h13 h14 ⊢
  after_results_simp
  after_results_rest
  repeat (first | rw [toBuf_self] | rw [ofBuf_self])
  rw [hX2, h13, h14]
  rfl

end Cert.KernelIdeal.Val

end
-- ==== Proof.SecondLayer.lean ====
import proofs.«167143_j12463995093672_1_alg».proof.Proof.FirstLayer
import proofs.«167143_j12463995093672_1_alg».proof.Proof.ProjSecondArrays
import proofs.«167143_j12463995093672_1_alg».proof.Proof.MixSecondArray
import proofs.«167143_j12463995093672_1_alg».proof.Proof.ProjSecondMeets
import proofs.«167143_j12463995093672_1_alg».proof.Proof.AggSecondMeets

noncomputable section

/-! # The second layer of the kernel program computes the reference's second layer

The same three steps as the first layer, on the first layer's output in place of the node features: the third
call projects it by the second joined weight matrix, the host aggregates, the fourth call mixes. The result
buffer of the program is the fourth call's output array. -/

namespace Cert.KernelIdeal.Val

open Cert.KernelIdeal Cert.KernelIdeal.Gen Cert.KernelIdeal.Frm
open Idealize.ShloMosaic Idealize.ShloMosaic.TcCoe Idealize.SL.Sem Idealize.ShloMosaic.StableHlo
open Cert.ReferenceIdeal.ReadP

variable (m : (ℓ : Loc nD τ sig) → Buf (Elt Ideal) ℓ) (ρ : Dev nD → PrngReg) (c : Dev nD)

/-! ## What the third call is entered with -/

theorem secondIn : inSecond (B13 m ρ) c = val_main_v109 (F := Ideal) (m ((c.tc : Thread nD τ).loc main_arg0)) (m ((c.tc : Thread nD τ).loc main_arg1)) (m ((c.tc : Thread nD τ).loc main_arg3)) (m ((c.tc : Thread nD τ).loc main_arg5)) (m ((c.tc : Thread nD τ).loc main_arg7)) (m ((c.tc : Thread nD τ).loc main_arg9)) (m ((c.tc : Thread nD τ).loc main_arg11)) (m ((c.tc : Thread nD τ).loc main_arg12)) (m ((c.tc : Thread nD τ).loc main_arg13)) (m ((c.tc : Thread nD τ).loc main_arg14)) :=
  (W13_of m ρ c main_v87 (by decide)).trans (layerFirst_meets m ρ c)

theorem secondWeights : wtSecond (B13 m ρ) c
    = concatenate S64x12 1 [⟨S64x10, (m ((c.tc : Thread nD τ).loc main_arg2))⟩, ⟨S64x1, (m ((c.tc : Thread nD τ).loc main_arg4))⟩, ⟨S64x1, (m ((c.tc : Thread nD τ).loc main_arg8))⟩] concatenates_S64x10_S64x1_S64x1_S64x12_d1 := by
  have e2 := W12_untouched m ρ c main_arg2 (by decide)
  have e4 := W12_untouched m ρ c main_arg4 (by decide)
  have e8 := W12_untouched m ρ c main_arg8 (by decide)
  show StableHlo.after hostOps2 (W12 m ρ c) (Proc.devRef .tc main_v88) = _
  after_results
  show concatenate S64x12 1 [⟨S64x10, W12 m ρ c (Proc.devRef .tc main_arg2)⟩, ⟨S64x1, W12 m ρ c (Proc.devRef .tc main_arg4)⟩,
    ⟨S64x1, W12 m ρ c (Proc.devRef .tc main_arg8)⟩] concatenates_S64x10_S64x1_S64x1_S64x12_d1 = _
  rw [e2, e4, e8]

theorem secondGateBias : gateBiasSecond (B13 m ρ) c = shapeCast S1x1 (m ((c.tc : Thread nD τ).loc main_arg6)) shapeCasts_S1_S1x1 := by
  have e6 := W12_untouched m ρ c main_arg6 (by decide)
  show StableHlo.after hostOps2 (W12 m ρ c) (Proc.devRef .tc main_v89) = _
  after_results
  show shapeCast S1x1 (W12 m ρ c (Proc.devRef .tc main_arg6)) shapeCasts_S1_S1x1 = _
  rw [e6]

theorem secondDampBias : dampBiasSecond (B13 m ρ) c = shapeCast S1x1 (m ((c.tc : Thread nD τ).loc main_arg10)) shapeCasts_S1_S1x1 := by
  have e10 := W12_untouched m ρ c main_arg10 (by decide)
  show StableHlo.after hostOps2 (W12 m ρ c) (Proc.devRef .tc main_v90) = _
  after_results
  show shapeCast S1x1 (W12 m ρ c (Proc.devRef .tc main_arg10)) shapeCasts_S1_S1x1 = _
  rw [e10]

/-! ## The third call's results -/

theorem featSecond_meets : W14 m ρ c (Proc.devRef .tc main_v91_0) = val_main_v124 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg7)) (m ((c.tc : Thread nD τ).loc main_arg9)) (m ((c.tc : Thread nD τ).loc main_arg11)) (m ((c.tc : Thread nD τ).loc main_arg12)) (m ((c.tc : Thread nD τ).loc main_arg13)) (m ((c.tc : Thread nD τ).loc main_arg14)) := by
  refine (W14_arr m ρ c 4).trans ((featSecond_final (B13 m ρ) c).trans ?_)
  rw [secondIn, secondWeights]
  exact feat2_meets _ _ _ _ _ _ _ _ _ _ _ _ _ rfl (fun k j => joinedSecond_weights _ _ _ k j)

theorem gateSecond_meets : W14 m ρ c (Proc.devRef .tc main_v91_1) = val_main_v119 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg9)) (m ((c.tc : Thread nD τ).loc main_arg11)) (m ((c.tc : Thread nD τ).loc main_arg12)) (m ((c.tc : Thread nD τ).loc main_arg13)) (m ((c.tc : Thread nD τ).loc main_arg14)) := by
  refine (W14_arr m ρ c 5).trans ((gateSecond_final (B13 m ρ) c).trans ?_)
  rw [secondIn, secondWeights, secondGateBias]
  exact gate2_meets _ _ _ _ _ _ _ _ _ _ _ _ _ _ _ rfl (fun k => joinedSecond_score _ _ _ k) (reshapedBias_apply _)

theorem dampSecond_meets : W14 m ρ c (Proc.devRef .tc main_v91_2) = val_main_v123 (F := Ideal) (m ((c.tc : Thread nD τ).loc main_arg0)) (m ((c.tc : Thread nD τ).loc main_arg1)) (m ((c.tc : Thread nD τ).loc main_arg3)) (m ((c.tc : Thread nD τ).loc main_arg5)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  refine (W14_arr m ρ c 6).trans ((dampSecond_final (B13 m ρ) c).trans ?_)
  rw [secondIn, secondWeights, secondDampBias]
  exact damp2_meets _ _ _ _ _ _ _ _ _ _ _ _ _ _ _ rfl (fun k => joinedSecond_damp _ _ _ k) (reshapedBias_apply _)

/-! ## Between the calls: nine host stretches that write none of the third call's results -/

theorem keepSecond (r : Ref sig .tc) (h : r ∉ hostOps3_W ∧ r ∉ hostOps3_1_W ∧ r ∉ hostOps3_2_W ∧ r ∉ hostOps3_3_W ∧ r ∉ hostOps3_4_W
      ∧ r ∉ hostOps3_5_W ∧ r ∉ hostOps3_6_W ∧ r ∉ hostOps3_7_W ∧ r ∉ hostOps3_8_W) :
    W23 m ρ c (Proc.devRef .tc r) = W14 m ρ c (Proc.devRef .tc r) := by
  obtain ⟨h14, h15, h16, h17, h18, h19, h20, h21, h22⟩ := h
  exact (W23_of m ρ c r h22).trans <| (W22_of m ρ c r h21).trans <| (W21_of m ρ c r h20).trans <| (W20_of m ρ c r h19).trans <|
    (W19_of m ρ c r h18).trans <| (W18_of m ρ c r h17).trans <| (W17_of m ρ c r h16).trans <| (W16_of m ρ c r h15).trans (W15_of m ρ c r h14)

/-! ## The program's result -/

/-- The program's result buffer ends at the reference's result, as a function of @main's arguments. -/
theorem result_meets : W24 m ρ c (Proc.devRef .tc main_v175) = val_main_v219 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  refine (W24_arr m ρ c 5).trans ((mixSecond_array (B23 m ρ) c).trans ?_)
  have hs : B23 m ρ c (Pipeline.arrRef spec3 0) = val_main_v119 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg9)) (m ((c.tc : Thread nD τ).loc main_arg11)) (m ((c.tc : Thread nD τ).loc main_arg12)) (m ((c.tc : Thread nD τ).loc main_arg13)) (m ((c.tc : Thread nD τ).loc main_arg14)) :=
    (keepSecond m ρ c main_v91_1 (by decide)).trans (gateSecond_meets m ρ c)
  have ha : B23 m ρ c (Pipeline.arrRef spec3 1) = val_main_v167 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg7)) (m ((c.tc : Thread nD τ).loc main_arg9)) (m ((c.tc : Thread nD τ).loc main_arg11)) (m ((c.tc : Thread nD τ).loc main_arg12)) (m ((c.tc : Thread nD τ).loc main_arg13)) (m ((c.tc : Thread nD τ).loc main_arg14)) :=
    aggSecond_meets m ρ c (featSecond_meets m ρ c)
  have hk : B23 m ρ c (Pipeline.arrRef spec3 2) = val_main_v207 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg7)) (m ((c.tc : Thread nD τ).loc main_arg9)) (m ((c.tc : Thread nD τ).loc main_arg11)) (m ((c.tc : Thread nD τ).loc main_arg12)) (m ((c.tc : Thread nD τ).loc main_arg13)) (m ((c.tc : Thread nD τ).loc main_arg14)) :=
    aggKnnSecond_meets m ρ c (featSecond_meets m ρ c)
  have hd : B23 m ρ c (Pipeline.arrRef spec3 3) = val_main_v123 (F := Ideal) (m ((c.tc : Thread nD τ).loc main_arg0)) (m ((c.tc : Thread nD τ).loc main_arg1)) (m ((c.tc : Thread nD τ).loc main_arg3)) (m ((c.tc : Thread nD τ).loc main_arg5)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) :=
    (keepSecond m ρ c main_v91_2 (by decide)).trans (dampSecond_meets m ρ c)
  have hx : B23 m ρ c (Pipeline.arrRef spec3 4) = val_main_v124 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg7)) (m ((c.tc : Thread nD τ).loc main_arg9)) (m ((c.tc : Thread nD τ).loc main_arg11)) (m ((c.tc : Thread nD τ).loc main_arg12)) (m ((c.tc : Thread nD τ).loc main_arg13)) (m ((c.tc : Thread nD τ).loc main_arg14)) :=
    (keepSecond m ρ c main_v91_0 (by decide)).trans (featSecond_meets m ρ c)
  show gatedMix (n := 100000) (h := 10) (B23 m ρ c (Pipeline.arrRef spec3 0)) (B23 m ρ c (Pipeline.arrRef spec3 1))
    (B23 m ρ c (Pipeline.arrRef spec3 2)) (B23 m ρ c (Pipeline.arrRef spec3 3)) (B23 m ρ c (Pipeline.arrRef spec3 4)) = _
  rw [hs, ha, hk, hd, hx]
  exact mixSecond_meets _ _ _ _ _ _ _ _ _ _ _ _ _ _ _

end Cert.KernelIdeal.Val

end
-- ==== Proof.lean ====
/- The proof of `Cert.Claim`: a two-layer gated graph convolution, as two projection calls and two mixing calls
   among host gather / scatter-add aggregations, against its plain reference.

   Frames. Each kernel program is a chain of host stretches and four calls. A call's body loads whole blocks,
   computes, and stores whole blocks, so what each output buffer holds after it is one function of the input
   blocks; run as a chain (Proof/WholeRun.lean) the program terminates with every unscoped buffer at the last
   boundary's contents, and no item changes an argument (Proof/ArgsKept.lean). The reference is a line of host
   operations; its run (Proof/RefRun.lean) leaves its arguments as launched.

   The idealized kernel is the kernel's own operations read over the extended reals, nothing rewritten, so
   `preserves` is `True`.

   Values, over the extended reals. A projection call multiplies a block of rows by the joined matrix
   (weights | score column | damping column): entry by entry its leading columns are the reference's product with
   the weights, its score column plus the bias under the logistic function is the reference's gate
   (`1 / (1 + exp (−x))` there), its damping column plus the bias the reference's damping term
   (Proof/ProjFirstArrays.lean, ProjFirstMeets.lean and the second layer's). The aggregations are the same host
   operations on equal operands (Proof/AggFirstMeets.lean, AggSecondMeets.lean). A mixing call computes
   `s · a + (1 − s) · k + (0.1 · d) · x` with the reference's grouping and the reference's two constants
   (Proof/MixFirstArray.lean, MixMeets.lean). Only the order of summation inside the products and the tiling
   into row blocks differ between the two programs, and sums of extended reals do not depend on either: the
   precondition (finite inputs) is never used. -/
import proofs.«167143_j12463995093672_1_alg».proof.Defs
import proofs.«167143_j12463995093672_1_alg».proof.Proof.Gen.Kernel
import proofs.«167143_j12463995093672_1_alg».proof.Proof.Gen.KernelIdeal
import proofs.«167143_j12463995093672_1_alg».proof.Proof.Gen.ReferenceIdeal
import proofs.«167143_j12463995093672_1_alg».proof.Proof.Gen.Pre_finite_inputs
import proofs.«167143_j12463995093672_1_alg».proof.Proof.RefRun
import proofs.«167143_j12463995093672_1_alg».proof.Proof.RefRead
import proofs.«167143_j12463995093672_1_alg».proof.Proof.KernelFrames
import proofs.«167143_j12463995093672_1_alg».proof.Proof.SecondLayer
import Idealize.ShloMosaic.Adequacy
import Idealize.ShloMosaic.Init

noncomputable section

namespace Cert.Proof

open Idealize.ShloMosaic Idealize.SL.Sem

/-- The reference runs to the end and leaves its arguments unchanged: its run, the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- Over the extended reals, from memories agreeing on the arguments, both programs end with the same result
    array: the kernel program's result buffer holds the reference's result as a function of the arguments
    (`Val.result_meets`), and the reference's run ends at that function of its own, equal, arguments. -/
theorem algebraic : Cert.algebraic_KernelIdeal_ReferenceIdeal := by
  intro m ρ m' ρ' _ hagree
  refine ⟨fun c => Cert.KernelIdeal.Frm.W24 m ρ c (Proc.devRef .tc Cert.KernelIdeal.main_v175), ?_, ?_⟩
  · exact (θ_run Cert.KernelIdeal.defs _ _).mono (fun r h c => by
      have hr := h c
      exact ⟨hr _ (Cert.KernelIdeal.Frm.mem_uc Cert.KernelIdeal.main_v175 (by decide)),
        (hr _ (Cert.KernelIdeal.Frm.mem_uc Cert.KernelIdeal.main_arg0 (by decide))).trans (Cert.KernelIdeal.Frm.W24_main_arg0 m ρ c),
        (hr _ (Cert.KernelIdeal.Frm.mem_uc Cert.KernelIdeal.main_arg1 (by decide))).trans (Cert.KernelIdeal.Frm.W24_untouched m ρ c Cert.KernelIdeal.main_arg1 (by decide)),
        (hr _ (Cert.KernelIdeal.Frm.mem_uc Cert.KernelIdeal.main_arg2 (by decide))).trans (Cert.KernelIdeal.Frm.W24_untouched m ρ c Cert.KernelIdeal.main_arg2 (by decide)),
        (hr _ (Cert.KernelIdeal.Frm.mem_uc Cert.KernelIdeal.main_arg3 (by decide))).trans (Cert.KernelIdeal.Frm.W24_untouched m ρ c Cert.KernelIdeal.main_arg3 (by decide)),
        (hr _ (Cert.KernelIdeal.Frm.mem_uc Cert.KernelIdeal.main_arg4 (by decide))).trans (Cert.KernelIdeal.Frm.W24_untouched m ρ c Cert.KernelIdeal.main_arg4 (by decide)),
        (hr _ (Cert.KernelIdeal.Frm.mem_uc Cert.KernelIdeal.main_arg5 (by decide))).trans (Cert.KernelIdeal.Frm.W24_untouched m ρ c Cert.KernelIdeal.main_arg5 (by decide)),
        (hr _ (Cert.KernelIdeal.Frm.mem_uc Cert.KernelIdeal.main_arg6 (by decide))).trans (Cert.KernelIdeal.Frm.W24_untouched m ρ c Cert.KernelIdeal.main_arg6 (by decide)),
        (hr _ (Cert.KernelIdeal.Frm.mem_uc Cert.KernelIdeal.main_arg7 (by decide))).trans (Cert.KernelIdeal.Frm.W24_untouched m ρ c Cert.KernelIdeal.main_arg7 (by decide)),
        (hr _ (Cert.KernelIdeal.Frm.mem_uc Cert.KernelIdeal.main_arg8 (by decide))).trans (Cert.KernelIdeal.Frm.W24_untouched m ρ c Cert.KernelIdeal.main_arg8 (by decide)),
        (hr _ (Cert.KernelIdeal.Frm.mem_uc Cert.KernelIdeal.main_arg9 (by decide))).trans (Cert.KernelIdeal.Frm.W24_untouched m ρ c Cert.KernelIdeal.main_arg9 (by decide)),
        (hr _ (Cert.KernelIdeal.Frm.mem_uc Cert.KernelIdeal.main_arg10 (by decide))).trans (Cert.KernelIdeal.Frm.W24_untouched m ρ c Cert.KernelIdeal.main_arg10 (by decide)),
        (hr _ (Cert.KernelIdeal.Frm.mem_uc Cert.KernelIdeal.main_arg11 (by decide))).trans (Cert.KernelIdeal.Frm.W24_untouched m ρ c Cert.KernelIdeal.main_arg11 (by decide)),
        (hr _ (Cert.KernelIdeal.Frm.mem_uc Cert.KernelIdeal.main_arg12 (by decide))).trans (Cert.KernelIdeal.Frm.W24_untouched m ρ c Cert.KernelIdeal.main_arg12 (by decide)),
        (hr _ (Cert.KernelIdeal.Frm.mem_uc Cert.KernelIdeal.main_arg13 (by decide))).trans (Cert.KernelIdeal.Frm.W24_untouched m ρ c Cert.KernelIdeal.main_arg13 (by decide)),
        (hr _ (Cert.KernelIdeal.Frm.mem_uc Cert.KernelIdeal.main_arg14 (by decide))).trans (Cert.KernelIdeal.Frm.W24_untouched m ρ c Cert.KernelIdeal.main_arg14 (by decide))⟩)
      (Cert.KernelIdeal.Frm.run_all m ρ)
  · refine (θ_run Cert.ReferenceIdeal.defs _ _).mono (fun _ h c => ⟨(h c).1.trans ?_, (h c).2⟩)
      (Cert.ReferenceIdeal.ValueP.run (F := Ideal) m' ρ')
    obtain ⟨h0, h1, h2, h3, h4, h5, h6, h7, h8, h9, h10, h11, h12, h13, h14⟩ := hagree c
    rw [Cert.ReferenceIdeal.ReadP.val_main_v219_eq, h0, h1, h2, h3, h4, h5, h6, h7, h8, h9, h10, h11, h12, h13, h14]
    exact (Cert.KernelIdeal.Val.result_meets m ρ c).symm

theorem claim : Cert.Claim :=
  ⟨Cert.Kernel.Gen.facts, Cert.KernelIdeal.Gen.facts, Cert.ReferenceIdeal.Gen.facts, Cert.Pre_finite_inputs.Gen.facts,
    Frames.frame_word, Frames.frame_ideal, frame_reference, trivial, algebraic⟩

end Cert.Proof

end
